-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x1 : Shape := ⟨2, ![8192, 1]⟩
abbrev S_ : Shape := ⟨0, ![]⟩
abbrev S8192 : Shape := ⟨1, ![8192]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x1 : S_.BroadcastsInDim S8192x1 (![] : Fin 0 → Fin S8192x1.rank)
  reducesTo_S8192x1_S_d0_1 : S8192x1.ReducesTo [0, 1] S_
  reducesTo_S8192x128_S8192_d1 : S8192x128.ReducesTo [1] S8192
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x128 .f32) (main_arg1 : FVec F S8192x1 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x1 .f32 := Host.absf main_arg1
  let main_cst_0 : FVec F S_ .f32 := constant S_ .f32 0x7F800000#32
  let main_v5 : FVec F S8192x1 .f32 := broadcastInDim S8192x1 ![] bcast_S_S8192x1 main_cst_0
  let main_v6 : IVec S8192x1 1 := cmpf .olt main_v4 main_v5
  let main_c_1 : IVec S_ 1 := constantI S_ 1 1#1
  let main_v7 : IVec S_ 1 := (fun x v => Host.reduce IntOp.andi x v reducesTo_S8192x1_S_d0_1 h_S_) main_v6 main_c_1
  let main_v8 : IVec S_ 1 := andi main_v3 main_v7
  let main_v9 : FVec F S8192x128 .f32 := mulf main_arg0 main_arg0
  let main_cst_2 : FVec F S_ .f32 := constant S_ .f32 0x00000000#32
  let main_v10 : FVec F S8192 .f32 := (fun x v => Host.reduceAdd x v reducesTo_S8192x128_S8192_d1 h_S_) main_v9 main_cst_2
  let main_cst_3 : FVec F S_ .f32 := constant S_ .f32 0x00000000#32
  let main_v11 : FVec F S8192 .f32 := broadcastInDim S8192 ![] bcast_S_S8192 main_cst_3
  let main_v12 : IVec S8192 1 := cmpf .ogt main_v10 main_v11
  let main_c_4 : IVec S_ 1 := constantI S_ 1 1#1
  let main_v13 : IVec S_ 1 := (fun x v => Host.reduce IntOp.andi x v reducesTo_S8192_S_d0 h_S_) main_v12 main_c_4
  let main_v14 : IVec S_ 1 := andi main_v8 main_v13
  main_v14
-- ==== Kernel.lean ====
abbrev S8192x128 : Shape := ⟨2, ![8192, 128]⟩
abbrev S8192x1 : Shape := ⟨2, ![8192, 1]⟩
abbrev S1x8192 : Shape := ⟨2, ![1, 8192]⟩
abbrev S512x128 : Shape := ⟨2, ![512, 128]⟩
abbrev S512x1 : Shape := ⟨2, ![512, 1]⟩
abbrev S1x512 : Shape := ⟨2, ![1, 512]⟩
abbrev S512 : Shape := ⟨1, ![512]⟩
abbrev S128x512 : Shape := ⟨2, ![128, 512]⟩
abbrev S512x512 : Shape := ⟨2, ![512, 512]⟩
abbrev S_ : Shape := ⟨0, ![]⟩

abbrev nBuf : Space → Nat
  | .hbm => 17
  | .vmem => 16
  | .smem => 0
  | _ => 0

abbrev bufTy : (tb : Table) → Fin (tcTables nBuf tb) → BufTy
  | .hbm, ⟨0, _⟩ => ⟨S8192x128, .f32⟩
  | .hbm, ⟨1, _⟩ => ⟨S8192x1, .f32⟩
  | .hbm, ⟨2, _⟩ => ⟨S1x8192, .f32⟩
  | .hbm, ⟨3, _⟩ => ⟨S8192x1, .f32⟩
  | .hbm, ⟨4, _⟩ => ⟨S8192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .i1⟩
  | .hbm, ⟨9, _⟩ => ⟨S8192x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x1, .f32⟩
  | .local _ .vmem, ⟨5, _⟩ => ⟨S512x1, .f32⟩
  | .local _ .vmem, ⟨6, _⟩ => ⟨S1x512, .f32⟩
  | .local _ .vmem, ⟨7, _⟩ => ⟨S1x512, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v86 : BitVec 1 := Scalar.cmpi .eq arg1 c15_i32
  let v87 : BitVec 32 := Scalar.extui v86
  let c0_i32_36 : BitVec 32 := 0#32
  let v88 : BitVec 1 := Scalar.cmpi .ne v87 c0_i32_36
  v88

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S8192x1_S1x8192 : S8192x1.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x128_S512x128_0_0 : ∀ a, (![0, 0] : Fin 2 → Nat) a + S512x128.size a ≤ S512x128.size a
  h_S512x128 : 0 < S512x128.numel
  reduces_S512x128_S512 : S512x128.Reduces [1] S512
  shapeCasts_S512_S512x1 : S512.ShapeCasts S512x1
  broadcasts_S512x1_S512x128 : S512x1.Broadcasts S512x128
  bitsLt_bf16_f32 : FTy.bits .bf16 < FTy.bits .f32
  transposes_S512x128_p1_0_S128x512 : S512x128.Transposes [1, 0] S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  natLt_1_32 : 1 < 32
  iota_S512x512_d0_w32 : S512x512.Iotas .tc 32 [0]
  iota_S512x512_d1_w32 : S512x512.Iotas .tc 32 [1]
  reduces_S512x512_S512 : S512x512.Reduces [1] S512
  reducesTo_S8192x1_S_d0_1 : S8192x1.ReducesTo [0, 1] S_
  h_S_ : 0 < S_.numel
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S8192x1.size a
  hwx0_5 : ∀ i : grid0.Coords, EltTy.bits .f32 = 32 ∨ (Rect.block (s := S8192x1) S512x1.size (cc0_transform_5 i) (hinb0_5 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x1 : Shape := ⟨2, ![8192, 1]⟩
abbrev S_ : Shape := ⟨0, ![]⟩
abbrev S8192 : Shape := ⟨1, ![8192]⟩
abbrev S128x8192 : Shape := ⟨2, ![128, 8192]⟩
abbrev S8192x8192 : Shape := ⟨2, ![8192, 8192]⟩
abbrev S8192x1x1 : Shape := ⟨3, ![8192, 1, 1]⟩
abbrev S1x8192x1 : Shape := ⟨3, ![1, 8192, 1]⟩
abbrev S8192x8192x1 : Shape := ⟨3, ![8192, 8192, 1]⟩

abbrev nBuf : Space → Nat
  | .hbm => 90
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x1, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x128, .f32⟩
  | .hbm, ⟨8, _⟩ => ⟨S8192x128, .f32⟩
  | .hbm, ⟨9, _⟩ => ⟨S128x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x1x1, .f32⟩
  | .hbm, ⟨15, _⟩ => ⟨S1x8192x1, .f32⟩
  | .hbm, ⟨16, _⟩ => ⟨S8192x8192x1, .f32⟩
  | .hbm, ⟨17, _⟩ => ⟨S8192x8192x1, .f32⟩
  | .hbm, ⟨18, _⟩ => ⟨S8192x8192x1, .f32⟩
  | .hbm, ⟨19, _⟩ => ⟨S8192x8192x1, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .i1⟩
  | .hbm, ⟨30, _⟩ => ⟨S8192x8192, .f32⟩
  | .hbm, ⟨31, _⟩ => ⟨S8192x8192, .i32⟩
  | .hbm, ⟨32, _⟩ => ⟨S8192x8192, .i32⟩
  | .hbm, ⟨33, _⟩ => ⟨S_, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S_, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1, .f32⟩
  | .hbm, ⟨58, _⟩ => ⟨S8192x8192, .f32⟩
  | .hbm, ⟨59, _⟩ => ⟨S8192x8192, .f32⟩
  | .hbm, ⟨60, _⟩ => ⟨S_, .f32⟩
  | .hbm, ⟨61, _⟩ => ⟨S8192, .f32⟩
  | .hbm, ⟨62, _⟩ => ⟨S_, .f32⟩
  | .hbm, ⟨63, _⟩ => ⟨S8192, .f32⟩
  | .hbm, ⟨64, _⟩ => ⟨S8192, .i1⟩
  | .hbm, ⟨65, _⟩ => ⟨S8192x8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S8192, .f32⟩
  | .hbm, ⟨73, _⟩ => ⟨S8192, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i1⟩
  | .hbm, ⟨78, _⟩ => ⟨S_, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S_, .f32⟩
  | .hbm, ⟨83, _⟩ => ⟨S_, .f32⟩
  | .hbm, ⟨84, _⟩ => ⟨S_, .i32⟩
  | .hbm, ⟨85, _⟩ => ⟨S_, .i32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_v26 : Ref sig .tc := ⟨.hbm, 40, rfl⟩
abbrev main_cst_4 : Ref sig .tc := ⟨.hbm, 41, rfl⟩
abbrev main_call2_v0 : Ref sig .tc := ⟨.hbm, 42, rfl⟩
abbrev main_call2_v1 : Ref sig .tc := ⟨.hbm, 43, rfl⟩
abbrev main_v27 : Ref sig .tc := ⟨.hbm, 44, rfl⟩
abbrev main_call3_cst : Ref sig .tc := ⟨.hbm, 45, rfl⟩
abbrev main_call3_v0 : Ref sig .tc := ⟨.hbm, 46, rfl⟩
abbrev main_call3_cst_0 : Ref sig .tc := ⟨.hbm, 47, rfl⟩
abbrev main_call3_v1 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_call3_v5 : Ref sig .tc := ⟨.hbm, 52, rfl⟩
abbrev main_call3_v6 : Ref sig .tc := ⟨.hbm, 53, rfl⟩
abbrev main_call3_cst_1 : Ref sig .tc := ⟨.hbm, 54, rfl⟩
abbrev main_call3_v7 : Ref sig .tc := ⟨.hbm, 55, rfl⟩
abbrev main_call3_v8 : Ref sig .tc := ⟨.hbm, 56, rfl⟩
abbrev main_call3_v9 : Ref sig .tc := ⟨.hbm, 57, rfl⟩
abbrev main_call3_v10 : Ref sig .tc := ⟨.hbm, 58, rfl⟩
abbrev main_v28 : Ref sig .tc := ⟨.hbm, 59, rfl⟩
abbrev main_cst_5 : Ref sig .tc := ⟨.hbm, 60, rfl⟩
abbrev main_v29 : Ref sig .tc := ⟨.hbm, 61, rfl⟩
abbrev main_cst_6 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_7 : Ref sig .tc := ⟨.hbm, 66, rfl⟩
abbrev main_v33 : Ref sig .tc := ⟨.hbm, 67, rfl⟩
abbrev main_v34 : Ref sig .tc := ⟨.hbm, 68, rfl⟩
abbrev main_cst_8 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_c_9 : Ref sig .tc := ⟨.hbm, 74, rfl⟩
abbrev main_v39 : Ref sig .tc := ⟨.hbm, 75, rfl⟩
abbrev main_c_10 : Ref sig .tc := ⟨.hbm, 76, rfl⟩
abbrev main_v40 : Ref sig .tc := ⟨.hbm, 77, rfl⟩
abbrev main_cst_11 : Ref sig .tc := ⟨.hbm, 78, rfl⟩
abbrev main_call4_v0 : Ref sig .tc := ⟨.hbm, 79, rfl⟩
abbrev main_call4_v1 : Ref sig .tc := ⟨.hbm, 80, rfl⟩
abbrev main_v41 : Ref sig .tc := ⟨.hbm, 81, rfl⟩
abbrev main_cst_12 : Ref sig .tc := ⟨.hbm, 82, rfl⟩
abbrev main_v42 : Ref sig .tc := ⟨.hbm, 83, rfl⟩
abbrev main_c_13 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_cst_14 : Ref sig .tc := ⟨.hbm, 88, rfl⟩
abbrev main_v46 : Ref sig .tc := ⟨.hbm, 89, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  bcast_S8192x1_S8192x1x1_0_2 : S8192x1.BroadcastsInDim S8192x1x1 (![0, 2] : Fin 2 → Fin S8192x1x1.rank)
  bcast_S8192x1_S1x8192x1_1_2 : S8192x1.BroadcastsInDim S1x8192x1 (![1, 2] : Fin 2 → Fin S1x8192x1.rank)
  bcast_S8192x1x1_S8192x8192x1_0_1_2 : S8192x1x1.BroadcastsInDim S8192x8192x1 (![0, 1, 2] : Fin 3 → Fin S8192x8192x1.rank)
  bcast_S1x8192x1_S8192x8192x1_0_1_2 : S1x8192x1.BroadcastsInDim S8192x8192x1 (![0, 1, 2] : Fin 3 → Fin S8192x8192x1.rank)
  reducesTo_S8192x8192x1_S8192x8192_d2 : S8192x8192x1.ReducesTo [2] S8192x8192
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  natLt_1_32 : 1 < 32
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KernelHostSide.lean ====
/-
  The host side of `Kernel`'s frame, over the launch theorem for a list of segments: @main is the host stretch
  `hostOps0` (the reshape of the second argument into a row), the one kernel region, the host stretch `hostOps1` (the
  sums and the quotient that make the mean) and `hostOps1_1` (the final select). Between two items a core holds every
  unscoped buffer whole at a valuation: the launch contents, then `StableHlo.after` each stretch, the region changing only
  its two result arrays (to contents `outs` left unknown here). No item writes an argument, so both arguments are read
  back as launched. What is left as a hypothesis is the region's own record (`RegionSeg`): its layout, its body
  obligation and its four entailments around the thread states this module fixes.
-/
import proofs.«153547_j25572235281097_1_alg».proof.Proof.Gen.Kernel.Launch
import Idealize.ShloMosaic.Lib.Pipeline.Frame
import Idealize.ShloMosaic.Lib.Pipeline.Regions
import Idealize.ShloMosaic.Lib.StableHlo.Run

noncomputable section

namespace Cert.Kernel.HostSide

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The buffers' contents between items -/

/-- What the region leaves in the two arrays it may change (its output windows' arrays), per core. -/
abbrev Outs : Type := (r : Ref sig .tc) → (c : Dev nD) → Buf (Elt F) ((c : Thread nD τ).loc r)

variable (m : (ℓ : Loc nD τ sig) → Buf (Elt F) ℓ) (outs : Outs (F := F))

/-- Core `c`'s unscoped buffers at launch. -/
abbrev V0 (c : Dev nD) : Valuation τ sig (Elt F) := fun b => m (c, b)
/-- After the first host stretch. -/
abbrev V1 (c : Dev nD) : Valuation τ sig (Elt F) := StableHlo.after hostOps0 (V0 m c)
/-- After the region, which may change its two result arrays. -/
abbrev V2 (c : Dev nD) : Valuation τ sig (Elt F) :=
  Function.update (Function.update (V1 m c) main_v1_0 (outs main_v1_0 c)) main_v1_1 (outs main_v1_1 c)
/-- After the second host stretch. -/
abbrev V3 (c : Dev nD) : Valuation τ sig (Elt F) := StableHlo.after hostOps1 (V2 m outs c)
/-- After the last one. -/
abbrev V4 (c : Dev nD) : Valuation τ sig (Elt F) := StableHlo.after hostOps1_1 (V3 m outs c)

/-! ## What the host stretches write -/

theorem hostOps0_fresh : (hostOps0 : List (HloOp τ sig (Elt F))).Forall fun op => op.fresh = ∅ := by
  simp only [List.Forall]; repeat' constructor
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall]; exact (by simp only [StableHlo.nullary_writes, StableHlo.unary_writes, StableHlo.binary_writes, StableHlo.ternary_writes, StableHlo.reshape_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor
abbrev hostOps1_W : List (Ref sig .tc) := [main_cst, main_v2, main_cst_0, main_v3, main_v4, main_cst_1, main_v5, main_cst_2, main_v6, main_v7, main_cst_3]
theorem hostOps1_writes : (hostOps1 : List (HloOp τ sig (Elt F))).Forall fun op => op.writes ⊆ (hostOps1_W.map (Proc.devRef (τ := τ) .tc)).toFinset := by
  simp only [List.Forall]; refine ⟨?_, ?_, ?_, ?_, ?_, ?_, ?_, ?_, ?_, ?_, ?_⟩ <;> (simp only [StableHlo.nullary_writes, StableHlo.unary_writes, StableHlo.binary_writes, StableHlo.ternary_writes, StableHlo.reshape_writes, Finset.singleton_subset_iff, List.mem_toFinset]; exact List.mem_map_of_mem (by decide))
theorem hostOps1_1_fresh : (hostOps1_1 : List (HloOp τ sig (Elt F))).Forall fun op => op.fresh = ∅ := by
  simp only [List.Forall]; repeat' constructor
abbrev hostOps1_1_W : List (Ref sig .tc) := [main_v8]
theorem hostOps1_1_writes : (hostOps1_1 : List (HloOp τ sig (Elt F))).Forall fun op => op.writes ⊆ (hostOps1_1_W.map (Proc.devRef (τ := τ) .tc)).toFinset := by
  simp only [List.Forall]; exact (by simp only [StableHlo.TRef.ternary, StableHlo.TRef.of, StableHlo.nullary_writes, StableHlo.unary_writes, StableHlo.binary_writes, StableHlo.ternary_writes, StableHlo.reshape_writes, Finset.singleton_subset_iff, List.mem_toFinset]; exact List.mem_map_of_mem (by decide))

/-! ## What each item leaves unchanged -/

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v1_0, main_v1_1] : List (Ref sig .tc))) : V2 m outs c r = V1 m c r := by
  have h0 : r ≠ main_v1_0 := by rintro rfl; exact h (by simp)
  have h1 : r ≠ main_v1_1 := by rintro rfl; exact h (by simp)
  simp only [V2, Function.update_of_ne (StableHlo.devRef_ne_of_ne h1 : (Proc.devRef .tc r : DevRef τ sig) ≠ Proc.devRef .tc main_v1_1),
    Function.update_of_ne (StableHlo.devRef_ne_of_ne h0 : (Proc.devRef .tc r : DevRef τ sig) ≠ Proc.devRef .tc main_v1_0)]
theorem V3_of (c : Dev nD) (r : Ref sig .tc) (h : r ∉ hostOps1_W) : V3 m outs c r = V2 m outs c r :=
  StableHlo.after_of_writes_sub hostOps1 _ hostOps1_writes h
theorem V4_of (c : Dev nD) (r : Ref sig .tc) (h : r ∉ hostOps1_1_W) : V4 m outs c r = V3 m outs c r :=
  StableHlo.after_of_writes_sub hostOps1_1 _ hostOps1_1_writes h

/-! ## No item writes an argument -/

theorem V4_main_arg0 (c : Dev nD) : V4 m outs c main_arg0 = m ((c : Thread nD τ).loc main_arg0) :=
  (V4_of m outs c main_arg0 (by decide)).trans <| (V3_of m outs c main_arg0 (by decide)).trans <| (V2_of m outs c main_arg0 (by decide)).trans <| (V1_of m c main_arg0 (by decide)).trans rfl
theorem V4_main_arg1 (c : Dev nD) : V4 m outs c main_arg1 = m ((c : Thread nD τ).loc main_arg1) :=
  (V4_of m outs c main_arg1 (by decide)).trans <| (V3_of m outs c main_arg1 (by decide)).trans <| (V2_of m outs c main_arg1 (by decide)).trans <| (V1_of m c main_arg1 (by decide)).trans rfl

/-! ## The host stretches after the region, in closed form -/

/-- The mean the host makes of the region's two result arrays: the sum of `perRow · valid` over the rows divided by
    `max (Σ valid) 1`, where `Σ valid > 0`, else zero. -/
def tail (perRow valid : FVec F S8192x1 .f32) : FVec F S_ .f32 :=
  select (cmpf .ogt (Host.reduceAdd valid (constant (F := F) S_ .f32 0x00000000#32) reducesTo_S8192x1_S_d0_1 h_S_) (constant (F := F) S_ .f32 0x00000000#32))
    (Host.divf (Host.reduceAdd (mulf perRow valid) (constant (F := F) S_ .f32 0x00000000#32) reducesTo_S8192x1_S_d0_1 h_S_)
      (maximumf (Host.reduceAdd valid (constant (F := F) S_ .f32 0x00000000#32) reducesTo_S8192x1_S_d0_1 h_S_) (constant (F := F) S_ .f32 0x3F800000#32)))
    (constant (F := F) S_ .f32 0x00000000#32)

/-- The result buffer after the last host stretch is that mean of the two result arrays as the region left them. -/
theorem V4_main_v8 (c : Dev nD) : V4 m outs c main_v8 = tail (V2 m outs c main_v1_0) (V2 m outs c main_v1_1) := by
  show StableHlo.after hostOps1_1 (StableHlo.after hostOps1 (V2 m outs c)) (Proc.devRef .tc main_v8) = _
  after_results
  rfl

/-! ## The items as segments -/

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 2 → Dev nD → sProp (MT nD τ sig Ix (Elt F) ℕ U Lvl))

/-- The first host stretch over the unscoped buffers from `V0`, the rest `E 0` riding along. -/
def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E 0)
/-- The second host stretch from `V2`, the rest `E 1` riding along. -/
def seg2 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m outs) (E 1)
/-- The last host stretch from `V3`, the rest `E 1` riding along. -/
def seg3 : HostSeg (Ix := Ix) (Name := ℕ) (U := U) (Lvl := Lvl) (pcfgs (F := F)) defs₀ 𝒱₀ L lv :=
  HostSeg.ofOps _ _ _ _ _ (Pipeline.ucRefs τ sig) hostOps1_1
    (fun op h => Pipeline.sub_ucRefs op ((List.forall_iff_forall_mem.mp hostOps1_1_sub) op h))
    (fun op h => (List.forall_iff_forall_mem.mp hostOps1_1_fresh) op h) (V3 m outs) (E 1)

end Segs

section

variable {Ix : Type} [DecidableEq Ix] {U : Type} [URA U] {Lvl : Type} [Preorder Lvl]

/-- The prefetched tables' admissible contents: the pallas_call has no table. -/
abbrev adm : (p : Fin 1) → (pcfgs (F := F) p).Adm := fun p => (cfgs p).toPCfg_adm

/-- @main's items as segments on core `c`: the three host stretches' and the region's given record. -/
abbrev segs (𝒱₀ : Variants) (L : GSem nD τ sig → Finset Ix) (lv : GSem nD τ sig → Ix → Lvl) (E : Fin 2 → Dev nD → sProp (MT nD τ sig Ix (Elt F) ℕ U Lvl)) (ι : Ix)
    (pdats : (p : Fin 1) → (c : Dev nD) → Dat τ (Elt F) Ix ℕ U Lvl (cfgs p) c) (R0 : RegionSeg (pcfgs (F := F)) adm pdats ι defs₀ 𝒱₀ L lv 0) (c : Dev nD) :
    List (Seg (pcfgs (F := F)) adm pdats ι defs₀ 𝒱₀ L lv) :=
  [.host (seg0 m 𝒱₀ L lv E), .region R0, .host (seg2 m outs 𝒱₀ L lv E), .host (seg3 m outs 𝒱₀ L lv E)]

end

/-! ## The frame, given the region's record -/

set_option backward.isDefEq.respectTransparency.types false in
/-- THE CONDITIONAL FRAME. Given the region's segment record, entered from the buffers at `V1` beside `E 0` and left at
    `V2` beside `E 1`, every weakly fair execution of @main from memory `m` with zero counters terminates and every final
    memory holds both arguments as launched — and the result buffer what the host stretches make of the region's two result arrays. -/
theorem frame_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 1) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 2 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE1 : ∀ c : Dev nD, E 1 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c)) :
    θ_run defs (onTc (τ := τ) (main (F := F))) ⟨m, fun _ => 0, ρ⟩ (fun r => ∀ c : Dev nD,
      r.2.mem ((c.tc : Thread nD τ).loc main_v8) = V4 m outs c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0)
    (fun c Q => by
      rewrite [main_chain c, Seg.run_eq_chain,
        show (segs m outs 𝒱₀ L lv E ι pdats R0 c).map Seg.prog = [
          StableHlo.seq hostOps0,
          Prog.lift (.customCall (Pipeline.entry 0) ()),
          StableHlo.seq hostOps1,
          StableHlo.seq hostOps1_1 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, hpost0 c, .rfl, sep_mono .rfl (hE1 c)⟩)
    (hinit := ?_) (QY := fun c s => s.mem ((c.tc : Thread nD τ).loc main_v8) = V4 m outs c main_v8
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h => h)
  · -- the launch: the unscoped buffers are held at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨h (Proc.devRef .tc main_v8) (Finset.mem_filter.mpr ⟨StableHlo.devRef_mem_tcRefs main_v8, by decide⟩),
        (h (Proc.devRef .tc main_arg0) (Finset.mem_filter.mpr ⟨StableHlo.devRef_mem_tcRefs main_arg0, by decide⟩)).trans (V4_main_arg0 m outs c),
        (h (Proc.devRef .tc main_arg1) (Finset.mem_filter.mpr ⟨StableHlo.devRef_mem_tcRefs main_arg1, by decide⟩)).trans (V4_main_arg1 m outs c)⟩
    · iexact HSI

end Cert.Kernel.HostSide

end
-- ==== Proof.KernelData.lean ====
/-
  The proof data of `Kernel`'s one pipeline, up to what the body leaves and the invariant: the arrays as the
  region finds them (after the first host stretch); the embeddings' array, which TWO input windows stage, held by
  window 0 at the left half and by window 1 at the right half of the full share, every other array whole; nothing
  owed. What the body leaves in each window's staging buffer (`after`) and the invariant between points (`Φ`) are
  parameters: the body obligation is stated and proved over a choice of them.
-/
import proofs.«153547_j25572235281097_1_alg».proof.Proof.KernelHostSide

noncomputable section

namespace Cert.Kernel.Data

open Cert.Kernel Cert.Kernel.Gen Cert.Kernel.HostSide
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)

/-- The region-entry contents read at the TensorCore's references. -/
abbrev V1r : (c : Dev nD) → (b : Ref sig .tc) → Buf (Elt F) ((c : Thread nD τ).loc b) := fun c b => V1 m c b

/-- The share each input window holds its array at: the two windows on the embeddings the two halves. -/
abbrev qOf : Fin cfg0.W → PosShare TreeShare
  | ⟨0, _⟩ => fullShare.left
  | ⟨1, _⟩ => fullShare.right
  | _ => fullShare

/-- The pipeline's proof data from what the body leaves (`after`) and the invariant (`Φ`): the arrays as the
    region finds them, the shares above, nothing owed. -/
def datOf (after : (c : Dev nD) → (w : Fin cfg0.W) → Fin cfg0.N → (cfg0.win w).block.Idx → Elt F (cfg0.win w).elt)
    (Φ : (c : Dev nD) → Fin (cfg0.N + 1) → sProp 𝕄) (_ : Fin 1) (c : Dev nD) : Dat τ (Elt F) Unit ℕ (UR sig nD τ) ℕ cfg0 c where
  A w := V1r m c (Pipeline.arrRef spec0 w)
  after := after c
  Φ := Φ c
  q := qOf
  owed _ := 0

end Cert.Kernel.Data

end
-- ==== Proof.KernelSharedArrays.lean ====
/-
  One array behind two input windows: splitting its share on entry, joining it on exit.

  The pipeline of this program reads ONE array (the first argument) through TWO input windows,
  0 and 1. Outside the pipeline the core holds each distinct array behind a window whole, at
  the full share. Inside, the pipeline's resource is stated window by window: every INPUT
  window holds its array at that window's own share, every OUTPUT window at the full share.
  Two windows on one array therefore need the array's full share divided between them: window 0
  takes the left half, window 1 the right half, and both see the same contents. The remaining
  input windows (2, 3) and the output windows (4, 5) sit on arrays of their own and hold them
  at the full share.

  arrays_of_arrBufs is the entry (full share of the shared array split in two), and
  arrBufs_of_arrays the exit (the two halves joined back). Both are entailments between the
  same two resources, for any float interpretation F.
-/
import proofs.«153547_j25572235281097_1_alg».proof.Proof.Gen.Kernel.Launch

noncomputable section

namespace Cert.Kernel.SharedArrays

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

section

variable {U : Type} [URA U] (c : Dev nD)

/-- The distinct arrays behind the six windows are five: the shared first argument, and one
    array each for windows 2, 3, 4, 5; held whole at the full share they are this chain. -/
theorem arrBufs0_eq (V : (b : Ref sig .tc) → Buf (Elt F) ((c : Thread nD τ).loc b)) :
    (Pipeline.arrBufs (Ix := Unit) (Name := ℕ) (U := U) (Lvl := ℕ) spec0 c V
        : sProp (MT nD τ sig Unit (Elt F) ℕ U ℕ))
      = iprop((((c : Thread nD τ).loc main_arg0) ↦{fullShare} V main_arg0)
          ∗ (((c : Thread nD τ).loc main_arg1) ↦{fullShare} V main_arg1)
          ∗ (((c : Thread nD τ).loc main_v0) ↦{fullShare} V main_v0)
          ∗ (((c : Thread nD τ).loc main_v1_0) ↦{fullShare} V main_v1_0)
          ∗ (((c : Thread nD τ).loc main_v1_1) ↦{fullShare} V main_v1_1)) := by
  unfold Pipeline.arrBufs
  exact bigSep_eq_bigSepL_of_eq [main_arg0, main_arg1, main_v0, main_v1_0, main_v1_1]
    (by decide) (by decide) _

variable (dat : Pipeline.Dat τ (Elt F) Unit ℕ U ℕ cfg0 c)

/-- One window's part of the pipeline's arrays: its array being whole, held at share q and at
    the contents the core's buffer has, it is the plain points-to of that buffer at q. -/
theorem win_eq (V : (b : Ref sig .tc) → Buf (Elt F) ((c : Thread nD τ).loc b))
    (Fa : (w : Fin cfg0.W) → Buf (Elt F) ((cfg0.win w).arr.view.loc (c : Thread nD τ)))
    (hF : ∀ w, Fa w = V (Pipeline.arrRef spec0 w)) (w : Fin 6) (q : PosShare TreeShare)
    (hq : dat.share w = q) :
    ((cfg0.win w).arr.view.loc (c : Thread nD τ) ↦[(cfg0.win w).arr.view.set]{dat.share w} Fa w
        : sProp (MT nD τ sig Unit (Elt F) ℕ U ℕ))
      = (((c : Thread nD τ).loc (Pipeline.arrRef spec0 w)) ↦{q} V (Pipeline.arrRef spec0 w)) := by
  rw [(arr_whole0 w).set_eq_univ, hq, hF w]

/-- The pipeline's arrays, with the shared array's full share divided between windows 0 and 1,
    written out window by window. -/
theorem arrays0_eq (hq0 : dat.q 0 = fullShare.left) (hq1 : dat.q 1 = fullShare.right)
    (hq2 : dat.q 2 = fullShare) (hq3 : dat.q 3 = fullShare)
    (V : (b : Ref sig .tc) → Buf (Elt F) ((c : Thread nD τ).loc b))
    (Fa : (w : Fin cfg0.W) → Buf (Elt F) ((cfg0.win w).arr.view.loc (c : Thread nD τ)))
    (hF : ∀ w, Fa w = V (Pipeline.arrRef spec0 w)) :
    (dat.arrays Fa : sProp (MT nD τ sig Unit (Elt F) ℕ U ℕ))
      = iprop((((c : Thread nD τ).loc main_arg0) ↦{fullShare.left} V main_arg0)
          ∗ (((c : Thread nD τ).loc main_arg0) ↦{fullShare.right} V main_arg0)
          ∗ (((c : Thread nD τ).loc main_arg1) ↦{fullShare} V main_arg1)
          ∗ (((c : Thread nD τ).loc main_v0) ↦{fullShare} V main_v0)
          ∗ (((c : Thread nD τ).loc main_v1_0) ↦{fullShare} V main_v1_0)
          ∗ (((c : Thread nD τ).loc main_v1_1) ↦{fullShare} V main_v1_1)) := by
  have s0 : dat.share 0 = fullShare.left := by
    rw [Pipeline.Dat.share, if_neg (by decide), hq0]
  have s1 : dat.share 1 = fullShare.right := by
    rw [Pipeline.Dat.share, if_neg (by decide), hq1]
  have s2 : dat.share 2 = fullShare := by
    rw [Pipeline.Dat.share, if_neg (by decide), hq2]
  have s3 : dat.share 3 = fullShare := by
    rw [Pipeline.Dat.share, if_neg (by decide), hq3]
  have s4 : dat.share 4 = fullShare := by
    rw [Pipeline.Dat.share, if_pos (by decide)]
  have s5 : dat.share 5 = fullShare := by
    rw [Pipeline.Dat.share, if_pos (by decide)]
  unfold Pipeline.Dat.arrays
  rw [bigSep_W0, win_eq c dat V Fa hF 0 _ s0, win_eq c dat V Fa hF 1 _ s1,
    win_eq c dat V Fa hF 2 _ s2, win_eq c dat V Fa hF 3 _ s3, win_eq c dat V Fa hF 4 _ s4,
    win_eq c dat V Fa hF 5 _ s5]

/-- ENTRY. The five distinct arrays held whole at the full share give the pipeline's arrays:
    the shared array's full share is split, left half to window 0 and right half to window 1. -/
theorem arrays_of_arrBufs (hq0 : dat.q 0 = fullShare.left) (hq1 : dat.q 1 = fullShare.right)
    (hq2 : dat.q 2 = fullShare) (hq3 : dat.q 3 = fullShare)
    (V : (b : Ref sig .tc) → Buf (Elt F) ((c : Thread nD τ).loc b))
    (Fa : (w : Fin cfg0.W) → Buf (Elt F) ((cfg0.win w).arr.view.loc (c : Thread nD τ)))
    (hF : ∀ w, Fa w = V (Pipeline.arrRef spec0 w)) :
    (Pipeline.arrBufs (Ix := Unit) (Name := ℕ) (U := U) (Lvl := ℕ) spec0 c V
        : sProp (MT nD τ sig Unit (Elt F) ℕ U ℕ))
      ⊢ dat.arrays Fa := by
  rw [arrBufs0_eq, arrays0_eq c dat hq0 hq1 hq2 hq3 V Fa hF]
  iintro ⟨H0, H1, H2, H3, H4⟩
  ihave H0 := (pointsTo_share (PosShare.mem_left_op_right fullShare)).1 $$ H0
  icases H0 with ⟨Ha, Hb⟩
  isplitl [Ha]; · iexact Ha
  isplitl [Hb]; · iexact Hb
  isplitl [H1]; · iexact H1
  isplitl [H2]; · iexact H2
  isplitl [H3]; · iexact H3
  iexact H4

/-- EXIT. The pipeline's arrays give back the five distinct arrays whole at the full share:
    windows 0 and 1 hold the two halves of the shared array at the same contents, and the
    halves join. -/
theorem arrBufs_of_arrays (hq0 : dat.q 0 = fullShare.left) (hq1 : dat.q 1 = fullShare.right)
    (hq2 : dat.q 2 = fullShare) (hq3 : dat.q 3 = fullShare)
    (V : (b : Ref sig .tc) → Buf (Elt F) ((c : Thread nD τ).loc b))
    (Fa : (w : Fin cfg0.W) → Buf (Elt F) ((cfg0.win w).arr.view.loc (c : Thread nD τ)))
    (hF : ∀ w, Fa w = V (Pipeline.arrRef spec0 w)) :
    dat.arrays Fa
      ⊢ (Pipeline.arrBufs (Ix := Unit) (Name := ℕ) (U := U) (Lvl := ℕ) spec0 c V
        : sProp (MT nD τ sig Unit (Elt F) ℕ U ℕ)) := by
  rw [arrBufs0_eq, arrays0_eq c dat hq0 hq1 hq2 hq3 V Fa hF]
  iintro ⟨Ha, Hb, H1, H2, H3, H4⟩
  ihave H0 := (pointsTo_share (PosShare.mem_left_op_right fullShare)).2 $$ [Ha Hb]
  · isplitl [Ha] <;> iassumption
  isplitl [H0]; · iexact H0
  isplitl [H1]; · iexact H1
  isplitl [H2]; · iexact H2
  isplitl [H3]; · iexact H3
  iexact H4

end

end Cert.Kernel.SharedArrays
-- ==== Proof.KernelRegion.lean ====
/-
  The kernel region of `Kernel` as a segment of @main, and the program's frame from the body obligation. The
  region is entered from every unscoped buffer at the contents after the first host stretch and left with the two result
  arrays at what the pipeline's write-backs leave (`arrAt … N`), every other buffer as entered. The embeddings' array,
  staged by two input windows, is split between them at entry (the left and the right half of the full share) and
  joined back at exit; an input window's array is never written, so it comes back as it went in. The generator register
  rides into the invariant and out; nothing is owed. Given the body obligation — and that the invariant starts as, and
  ends in, the scratch buffers at some contents beside the generator register — every weakly fair execution of @main
  terminates with both arguments as launched.
-/
import proofs.«153547_j25572235281097_1_alg».proof.Proof.KernelData
import proofs.«153547_j25572235281097_1_alg».proof.Proof.KernelSharedArrays

noncomputable section

namespace Cert.Kernel.Region

open Cert.Kernel Cert.Kernel.Gen Cert.Kernel.HostSide Cert.Kernel.Data Cert.Kernel.SharedArrays
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- The exit contents: the entry contents with the two result arrays at what the pipeline's write-backs leave. -/
def Vx (dat : (c : Dev nD) → Dat τ (Elt F) Unit ℕ (UR sig nD τ) ℕ cfg0 c) (c : Dev nD) : Valuation τ sig (Elt F) :=
  Function.update (Function.update (V1 m c) main_v1_0 ((dat c).arrAt 4 cfg0.N)) main_v1_1 ((dat c).arrAt 5 cfg0.N)

/-- What the region leaves in the buffers it may change, read off the exit contents. -/
abbrev outs (dat : (c : Dev nD) → Dat τ (Elt F) Unit ℕ (UR sig nD τ) ℕ cfg0 c) : Outs (F := F) := fun r c => Vx m dat c r

/-- The exit contents read at the TensorCore's references. -/
abbrev V2r (dat : (c : Dev nD) → Dat τ (Elt F) Unit ℕ (UR sig nD τ) ℕ cfg0 c) : (c : Dev nD) → (b : Ref sig .tc) → Buf (Elt F) ((c : Thread nD τ).loc b) := fun c b => V2 m (outs m dat) c b

theorem Vx_v1_0 (dat : (c : Dev nD) → Dat τ (Elt F) Unit ℕ (UR sig nD τ) ℕ cfg0 c) (c : Dev nD) : Vx m dat c main_v1_0 = (dat c).arrAt 4 cfg0.N := by
  simp only [Vx, Function.update_of_ne (StableHlo.devRef_ne_of_ne (by decide : main_v1_0 ≠ main_v1_1) : (Proc.devRef .tc main_v1_0 : DevRef τ sig) ≠ Proc.devRef .tc main_v1_1), Function.update_self]
theorem Vx_v1_1 (dat : (c : Dev nD) → Dat τ (Elt F) Unit ℕ (UR sig nD τ) ℕ cfg0 c) (c : Dev nD) : Vx m dat c main_v1_1 = (dat c).arrAt 5 cfg0.N := by
  simp only [Vx, Function.update_self]
/-- The valuation the host side threads through the region is the exit contents. -/
theorem V2_eq (dat : (c : Dev nD) → Dat τ (Elt F) Unit ℕ (UR sig nD τ) ℕ cfg0 c) (c : Dev nD) : V2 m (outs m dat) c = Vx m dat c := by
  show Function.update (Function.update (V1 m c) main_v1_0 (Vx m dat c main_v1_0)) main_v1_1 (Vx m dat c main_v1_1) = Vx m dat c
  rw [Vx_v1_0, Vx_v1_1]; rfl

/-- At the exit every window's array holds what the pipeline leaves in it: an input's its entry contents. -/
theorem hF (dat : (c : Dev nD) → Dat τ (Elt F) Unit ℕ (UR sig nD τ) ℕ cfg0 c) (hA : ∀ c w, (dat c).A w = V1r m c (Pipeline.arrRef spec0 w)) (c : Dev nD) (w : Fin cfg0.W) : (dat c).arrAt w cfg0.N = V2r m dat c (Pipeline.arrRef spec0 w) := by
  match w with
  | ⟨0, _⟩ => exact (((dat c).arrAt_in 0 rfl _).trans (hA c 0)).trans (V2_of m (outs m dat) c main_arg0 (by decide)).symm
  | ⟨1, _⟩ => exact (((dat c).arrAt_in 1 rfl _).trans (hA c 1)).trans (V2_of m (outs m dat) c main_arg0 (by decide)).symm
  | ⟨2, _⟩ => exact (((dat c).arrAt_in 2 rfl _).trans (hA c 2)).trans (V2_of m (outs m dat) c main_arg1 (by decide)).symm
  | ⟨3, _⟩ => exact (((dat c).arrAt_in 3 rfl _).trans (hA c 3)).trans (V2_of m (outs m dat) c main_v0 (by decide)).symm
  | ⟨4, _⟩ => exact ((Vx_v1_0 m dat c).symm.trans (congrFun (V2_eq m dat c).symm _))
  | ⟨5, _⟩ => exact ((Vx_v1_1 m dat c).symm.trans (congrFun (V2_eq m dat c).symm _))

/-- Off the windows' arrays the exit contents are the entry contents. -/
theorem hrest (dat : (c : Dev nD) → Dat τ (Elt F) Unit ℕ (UR sig nD τ) ℕ cfg0 c) (c : Dev nD) : ∀ b, b ∉ Finset.univ.image (Pipeline.arrRef spec0) → V2r m dat c b = V1r m c b := fun b hb =>
  V2_of m (outs m dat) c b (by
    intro h
    rcases List.mem_cons.mp h with rfl | h
    · exact hb (Finset.mem_image.mpr ⟨4, Finset.mem_univ _, rfl⟩)
    · rcases List.mem_cons.mp h with rfl | h
      · exact hb (Finset.mem_image.mpr ⟨5, Finset.mem_univ _, rfl⟩)
      · exact absurd h (List.not_mem_nil))

/-- ENTRY, the arrays' part: the core's unscoped buffers at the entry contents are the data's per-window arrays — the
    embeddings' buffer split between its two windows — and the unscoped rest. -/
theorem arrays_of_unscopedBufs (dat : (c : Dev nD) → Dat τ (Elt F) Unit ℕ (UR sig nD τ) ℕ cfg0 c) (hA : ∀ c w, (dat c).A w = V1r m c (Pipeline.arrRef spec0 w)) (hq0 : ∀ c, (dat c).q 0 = fullShare.left) (hq1 : ∀ c, (dat c).q 1 = fullShare.right) (hq2 : ∀ c, (dat c).q 2 = fullShare) (hq3 : ∀ c, (dat c).q 3 = fullShare) (c : Dev nD) :
    (unscopedBufs c (V1r m c) : sProp 𝕄)
      ⊢ iprop((dat c).arrays ((dat c).arrAt · 0) ∗ Pipeline.unscopedRest spec0 c (V1r m c)) := by
  rw [Pipeline.unscopedBufs_split₀ cfgs 0 winFacts₀0.arr_unscoped c (V1r m c)]
  exact sep_mono (arrays_of_arrBufs c (dat c) (hq0 c) (hq1 c) (hq2 c) (hq3 c) (V1r m c) _ (fun w => hA c w)) .rfl

/-- EXIT, the arrays' part: the data's arrays at what the pipeline leaves — the two halves of the embeddings' buffer
    joined — and the unscoped rest as entered are the core's unscoped buffers at the exit contents. -/
theorem unscopedBufs_of_arrays (dat : (c : Dev nD) → Dat τ (Elt F) Unit ℕ (UR sig nD τ) ℕ cfg0 c) (hA : ∀ c w, (dat c).A w = V1r m c (Pipeline.arrRef spec0 w)) (hq0 : ∀ c, (dat c).q 0 = fullShare.left) (hq1 : ∀ c, (dat c).q 1 = fullShare.right) (hq2 : ∀ c, (dat c).q 2 = fullShare) (hq3 : ∀ c, (dat c).q 3 = fullShare) (c : Dev nD) :
    iprop((dat c).arrays ((dat c).arrAt · cfg0.N) ∗ Pipeline.unscopedRest spec0 c (V1r m c))
      ⊢ (unscopedBufs c (V2r m dat c) : sProp 𝕄) := by
  rw [Pipeline.unscopedBufs_split₀ cfgs 0 winFacts₀0.arr_unscoped c (V2r m dat c)]
  refine sep_mono (arrBufs_of_arrays c (dat c) (hq0 c) (hq1 c) (hq2 c) (hq3 c) (V2r m dat c) _ (hF m dat hA c)) (Entails.of_eq ?_)
  unfold Pipeline.unscopedRest
  exact bigSep_congr fun b hb => by rw [hrest m dat c b (Finset.mem_sdiff.mp hb).2]

/-! ## The region as a segment -/

set_option backward.isDefEq.respectTransparency.types false in
/-- THE REGION over the thread state: entered from every unscoped buffer at the contents after the first host
    stretch, left at the exit contents. Its arrays split out of the unscoped buffers and put back at what the pipeline
    leaves; the generator register into the invariant and out; nothing owed; no semaphore of the kernel's own. -/
def reg0 (dat : (c : Dev nD) → Dat τ (Elt F) Unit ℕ (UR sig nD τ) ℕ cfg0 c) (hA : ∀ c w, (dat c).A w = V1r m c (Pipeline.arrRef spec0 w))
    (hq0 : ∀ c, (dat c).q 0 = fullShare.left) (hq1 : ∀ c, (dat c).q 1 = fullShare.right) (hq2 : ∀ c, (dat c).q 2 = fullShare) (hq3 : ∀ c, (dat c).q 3 = fullShare)
    (howed : ∀ c t, (dat c).owed t = 0) (hrec : ∀ c t, (dat c).recorded t = Set.univ)
    (hΦ0 : ∀ c, (dat c).Φ 0 = Pipeline.ΦA spec0 c) (hΦN : ∀ c, (dat c).Φ (Fin.last cfg0.N) ⊢ Pipeline.ΦA spec0 c)
    (hbody : ∀ c, Pipeline.BodyObligation (dat c) defs₀ 𝒱₀ () Set.univ) :
    RegionSeg (pcfgs (F := F)) adm (fun _ c => dat c) () defs₀ 𝒱₀ L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 howed
  pre c := iprop(StableHlo.held (c : Thread nD τ) (Pipeline.ucRefs τ sig) (V1 m c) ∗ R c)
  post c := iprop(StableHlo.held (c : Thread nD τ) (Pipeline.ucRefs τ sig) (V2 m (outs m dat) c) ∗ R c)
  X c := iprop(∃ r, prngReg c r)
  Y c := iprop(∃ r, prngReg c r)
  Z c := Pipeline.unscopedRest (Ix := Unit) (Name := ℕ) (U := UR sig nD τ) (Lvl := ℕ) spec0 c (V1r m c)
  hentry c := by
    rw [Pipeline.ownSems0_none]
    have hsplit := arrays_of_unscopedBufs m dat hA hq0 hq1 hq2 hq3 c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c 0]; trivial)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := unscopedBufs_of_arrays m dat hA hq0 hq1 hq2 hq3 c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last cfg0.N)]
    icases HO with ⟨%W, -, HO⟩; iexists W; iexact HO

/-! ## The frame -/

set_option backward.isDefEq.respectTransparency.types false in
/-- THE FRAME from the body obligation: for proof data whose arrays are the region-entry contents, that hold the
    embeddings' array at the two half shares, owe nothing, start from and end in the scratch buffers at some contents
    beside the generator register, and meet the body obligation at every point — every weakly fair execution of @main
    from memory `m` with zero counters terminates, nothing faulting, with both arguments as launched and the result buffer at what the host stretches
    after the region make of the two result arrays as the pipeline leaves them. -/
theorem frame_of_body (ρ : Dev nD → PrngReg) (dat : (c : Dev nD) → Dat τ (Elt F) Unit ℕ (UR sig nD τ) ℕ cfg0 c) (hA : ∀ c w, (dat c).A w = V1r m c (Pipeline.arrRef spec0 w))
    (hq0 : ∀ c, (dat c).q 0 = fullShare.left) (hq1 : ∀ c, (dat c).q 1 = fullShare.right) (hq2 : ∀ c, (dat c).q 2 = fullShare) (hq3 : ∀ c, (dat c).q 3 = fullShare)
    (howed : ∀ c t, (dat c).owed t = 0) (hrec : ∀ c t, (dat c).recorded t = Set.univ)
    (hΦ0 : ∀ c, (dat c).Φ 0 = Pipeline.ΦA spec0 c) (hΦN : ∀ c, (dat c).Φ (Fin.last cfg0.N) ⊢ Pipeline.ΦA spec0 c)
    (hbody : ∀ c, Pipeline.BodyObligation (dat c) defs₀ 𝒱₀ () Set.univ) :
    θ_run defs (onTc (τ := τ) (main (F := F))) ⟨m, fun _ => 0, ρ⟩ (fun r => ∀ c : Dev nD,
      r.2.mem ((c.tc : Thread nD τ).loc main_v8) = V4 m (outs m dat) c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  frame_cond m emb₁ () 𝒱₀ L lv (fun _ _ => rfl) ρ (outs m dat) (fun _ c => dat c) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => R)
    (by
      have hc : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄) ⊢ R c := fun c => by
        iintro ⟨-, HO, -, Hp, -⟩
        isplitl [Hp]; · iexists _; iexact Hp
        iexists ∅; iexact HO
      have h1 : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)))
          ⊢ (bigSep Finset.univ (fun c : Dev nD => R c) : sProp 𝕄) :=
        bigSep_mono fun c _ => hc c
      iintro ⟨H, -⟩
      imodintro
      iapply h1
      iexact H)
    (fun c => by iintro ⟨-, HO⟩; iexact HO)
    (reg0 m dat hA hq0 hq1 hq2 hq3 howed hrec hΦ0 hΦN hbody)
    (fun _ => .rfl) (fun _ => .rfl)

/-- The result buffer the frame run names is the host's mean of the two result arrays as the pipeline leaves them. -/
theorem result_eq (dat : (c : Dev nD) → Dat τ (Elt F) Unit ℕ (UR sig nD τ) ℕ cfg0 c) (c : Dev nD) :
    V4 m (outs m dat) c main_v8 = tail ((dat c).arrAt 4 cfg0.N) ((dat c).arrAt 5 cfg0.N) := by
  rw [V4_main_v8, show V2 m (outs m dat) c main_v1_0 = (dat c).arrAt 4 cfg0.N from (congrFun (V2_eq m dat c) _).trans (Vx_v1_0 m dat c),
    show V2 m (outs m dat) c main_v1_1 = (dat c).arrAt 5 cfg0.N from (congrFun (V2_eq m dat c) _).trans (Vx_v1_1 m dat c)]

end Cert.Kernel.Region

end
-- ==== Proof.KernelIdealHostSide.lean ====
/-
  The host side of `KernelIdeal`'s frame, over the launch theorem for a list of segments: @main is the host stretch
  `hostOps0` (the reshape of the second argument into a row), the one kernel region, the host stretch `hostOps1` (the
  sums and the quotient that make the mean) and `hostOps1_1` (the final select). Between two items a core holds every
  unscoped buffer whole at a valuation: the launch contents, then `StableHlo.after` each stretch, the region changing only
  its two result arrays (to contents `outs` left unknown here). No item writes an argument, so both arguments are read
  back as launched. What is left as a hypothesis is the region's own record (`RegionSeg`): its layout, its body
  obligation and its four entailments around the thread states this module fixes.
-/
import proofs.«153547_j25572235281097_1_alg».proof.Proof.Gen.KernelIdeal.Launch
import Idealize.ShloMosaic.Lib.Pipeline.Frame
import Idealize.ShloMosaic.Lib.Pipeline.Regions
import Idealize.ShloMosaic.Lib.StableHlo.Run

noncomputable section

namespace Cert.KernelIdeal.HostSide

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The buffers' contents between items -/

/-- What the region leaves in the two arrays it may change (its output windows' arrays), per core. -/
abbrev Outs : Type := (r : Ref sig .tc) → (c : Dev nD) → Buf (Elt F) ((c : Thread nD τ).loc r)

variable (m : (ℓ : Loc nD τ sig) → Buf (Elt F) ℓ) (outs : Outs (F := F))

/-- Core `c`'s unscoped buffers at launch. -/
abbrev V0 (c : Dev nD) : Valuation τ sig (Elt F) := fun b => m (c, b)
/-- After the first host stretch. -/
abbrev V1 (c : Dev nD) : Valuation τ sig (Elt F) := StableHlo.after hostOps0 (V0 m c)
/-- After the region, which may change its two result arrays. -/
abbrev V2 (c : Dev nD) : Valuation τ sig (Elt F) :=
  Function.update (Function.update (V1 m c) main_v1_0 (outs main_v1_0 c)) main_v1_1 (outs main_v1_1 c)
/-- After the second host stretch. -/
abbrev V3 (c : Dev nD) : Valuation τ sig (Elt F) := StableHlo.after hostOps1 (V2 m outs c)
/-- After the last one. -/
abbrev V4 (c : Dev nD) : Valuation τ sig (Elt F) := StableHlo.after hostOps1_1 (V3 m outs c)

/-! ## What the host stretches write -/

theorem hostOps0_fresh : (hostOps0 : List (HloOp τ sig (Elt F))).Forall fun op => op.fresh = ∅ := by
  simp only [List.Forall]; repeat' constructor
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall]; exact (by simp only [StableHlo.nullary_writes, StableHlo.unary_writes, StableHlo.binary_writes, StableHlo.ternary_writes, StableHlo.reshape_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor
abbrev hostOps1_W : List (Ref sig .tc) := [main_cst, main_v2, main_cst_0, main_v3, main_v4, main_cst_1, main_v5, main_cst_2, main_v6, main_v7, main_cst_3]
theorem hostOps1_writes : (hostOps1 : List (HloOp τ sig (Elt F))).Forall fun op => op.writes ⊆ (hostOps1_W.map (Proc.devRef (τ := τ) .tc)).toFinset := by
  simp only [List.Forall]; refine ⟨?_, ?_, ?_, ?_, ?_, ?_, ?_, ?_, ?_, ?_, ?_⟩ <;> (simp only [StableHlo.nullary_writes, StableHlo.unary_writes, StableHlo.binary_writes, StableHlo.ternary_writes, StableHlo.reshape_writes, Finset.singleton_subset_iff, List.mem_toFinset]; exact List.mem_map_of_mem (by decide))
theorem hostOps1_1_fresh : (hostOps1_1 : List (HloOp τ sig (Elt F))).Forall fun op => op.fresh = ∅ := by
  simp only [List.Forall]; repeat' constructor
abbrev hostOps1_1_W : List (Ref sig .tc) := [main_v8]
theorem hostOps1_1_writes : (hostOps1_1 : List (HloOp τ sig (Elt F))).Forall fun op => op.writes ⊆ (hostOps1_1_W.map (Proc.devRef (τ := τ) .tc)).toFinset := by
  simp only [List.Forall]; exact (by simp only [StableHlo.TRef.ternary, StableHlo.TRef.of, StableHlo.nullary_writes, StableHlo.unary_writes, StableHlo.binary_writes, StableHlo.ternary_writes, StableHlo.reshape_writes, Finset.singleton_subset_iff, List.mem_toFinset]; exact List.mem_map_of_mem (by decide))

/-! ## What each item leaves unchanged -/

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v1_0, main_v1_1] : List (Ref sig .tc))) : V2 m outs c r = V1 m c r := by
  have h0 : r ≠ main_v1_0 := by rintro rfl; exact h (by simp)
  have h1 : r ≠ main_v1_1 := by rintro rfl; exact h (by simp)
  simp only [V2, Function.update_of_ne (StableHlo.devRef_ne_of_ne h1 : (Proc.devRef .tc r : DevRef τ sig) ≠ Proc.devRef .tc main_v1_1),
    Function.update_of_ne (StableHlo.devRef_ne_of_ne h0 : (Proc.devRef .tc r : DevRef τ sig) ≠ Proc.devRef .tc main_v1_0)]
theorem V3_of (c : Dev nD) (r : Ref sig .tc) (h : r ∉ hostOps1_W) : V3 m outs c r = V2 m outs c r :=
  StableHlo.after_of_writes_sub hostOps1 _ hostOps1_writes h
theorem V4_of (c : Dev nD) (r : Ref sig .tc) (h : r ∉ hostOps1_1_W) : V4 m outs c r = V3 m outs c r :=
  StableHlo.after_of_writes_sub hostOps1_1 _ hostOps1_1_writes h

/-! ## No item writes an argument -/

theorem V4_main_arg0 (c : Dev nD) : V4 m outs c main_arg0 = m ((c : Thread nD τ).loc main_arg0) :=
  (V4_of m outs c main_arg0 (by decide)).trans <| (V3_of m outs c main_arg0 (by decide)).trans <| (V2_of m outs c main_arg0 (by decide)).trans <| (V1_of m c main_arg0 (by decide)).trans rfl
theorem V4_main_arg1 (c : Dev nD) : V4 m outs c main_arg1 = m ((c : Thread nD τ).loc main_arg1) :=
  (V4_of m outs c main_arg1 (by decide)).trans <| (V3_of m outs c main_arg1 (by decide)).trans <| (V2_of m outs c main_arg1 (by decide)).trans <| (V1_of m c main_arg1 (by decide)).trans rfl

/-! ## The host stretches after the region, in closed form -/

/-- The mean the host makes of the region's two result arrays: the sum of `perRow · valid` over the rows divided by
    `max (Σ valid) 1`, where `Σ valid > 0`, else zero. -/
def tail (perRow valid : FVec F S8192x1 .f32) : FVec F S_ .f32 :=
  select (cmpf .ogt (Host.reduceAdd valid (constant (F := F) S_ .f32 0x00000000#32) reducesTo_S8192x1_S_d0_1 h_S_) (constant (F := F) S_ .f32 0x00000000#32))
    (Host.divf (Host.reduceAdd (mulf perRow valid) (constant (F := F) S_ .f32 0x00000000#32) reducesTo_S8192x1_S_d0_1 h_S_)
      (maximumf (Host.reduceAdd valid (constant (F := F) S_ .f32 0x00000000#32) reducesTo_S8192x1_S_d0_1 h_S_) (constant (F := F) S_ .f32 0x3F800000#32)))
    (constant (F := F) S_ .f32 0x00000000#32)

/-- The result buffer after the last host stretch is that mean of the two result arrays as the region left them. -/
theorem V4_main_v8 (c : Dev nD) : V4 m outs c main_v8 = tail (V2 m outs c main_v1_0) (V2 m outs c main_v1_1) := by
  show StableHlo.after hostOps1_1 (StableHlo.after hostOps1 (V2 m outs c)) (Proc.devRef .tc main_v8) = _
  after_results
  rfl

/-! ## The items as segments -/

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 2 → Dev nD → sProp (MT nD τ sig Ix (Elt F) ℕ U Lvl))

/-- The first host stretch over the unscoped buffers from `V0`, the rest `E 0` riding along. -/
def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E 0)
/-- The second host stretch from `V2`, the rest `E 1` riding along. -/
def seg2 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m outs) (E 1)
/-- The last host stretch from `V3`, the rest `E 1` riding along. -/
def seg3 : HostSeg (Ix := Ix) (Name := ℕ) (U := U) (Lvl := Lvl) (pcfgs (F := F)) defs₀ 𝒱₀ L lv :=
  HostSeg.ofOps _ _ _ _ _ (Pipeline.ucRefs τ sig) hostOps1_1
    (fun op h => Pipeline.sub_ucRefs op ((List.forall_iff_forall_mem.mp hostOps1_1_sub) op h))
    (fun op h => (List.forall_iff_forall_mem.mp hostOps1_1_fresh) op h) (V3 m outs) (E 1)

end Segs

section

variable {Ix : Type} [DecidableEq Ix] {U : Type} [URA U] {Lvl : Type} [Preorder Lvl]

/-- The prefetched tables' admissible contents: the pallas_call has no table. -/
abbrev adm : (p : Fin 1) → (pcfgs (F := F) p).Adm := fun p => (cfgs p).toPCfg_adm

/-- @main's items as segments on core `c`: the three host stretches' and the region's given record. -/
abbrev segs (𝒱₀ : Variants) (L : GSem nD τ sig → Finset Ix) (lv : GSem nD τ sig → Ix → Lvl) (E : Fin 2 → Dev nD → sProp (MT nD τ sig Ix (Elt F) ℕ U Lvl)) (ι : Ix)
    (pdats : (p : Fin 1) → (c : Dev nD) → Dat τ (Elt F) Ix ℕ U Lvl (cfgs p) c) (R0 : RegionSeg (pcfgs (F := F)) adm pdats ι defs₀ 𝒱₀ L lv 0) (c : Dev nD) :
    List (Seg (pcfgs (F := F)) adm pdats ι defs₀ 𝒱₀ L lv) :=
  [.host (seg0 m 𝒱₀ L lv E), .region R0, .host (seg2 m outs 𝒱₀ L lv E), .host (seg3 m outs 𝒱₀ L lv E)]

end

/-! ## The frame, given the region's record -/

set_option backward.isDefEq.respectTransparency.types false in
/-- THE CONDITIONAL FRAME. Given the region's segment record, entered from the buffers at `V1` beside `E 0` and left at
    `V2` beside `E 1`, every weakly fair execution of @main from memory `m` with zero counters terminates and every final
    memory holds both arguments as launched — and the result buffer what the host stretches make of the region's two result arrays. -/
theorem frame_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 1) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 2 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE1 : ∀ c : Dev nD, E 1 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c)) :
    θ_run defs (onTc (τ := τ) (main (F := F))) ⟨m, fun _ => 0, ρ⟩ (fun r => ∀ c : Dev nD,
      r.2.mem ((c.tc : Thread nD τ).loc main_v8) = V4 m outs c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0)
    (fun c Q => by
      rewrite [main_chain c, Seg.run_eq_chain,
        show (segs m outs 𝒱₀ L lv E ι pdats R0 c).map Seg.prog = [
          StableHlo.seq hostOps0,
          Prog.lift (.customCall (Pipeline.entry 0) ()),
          StableHlo.seq hostOps1,
          StableHlo.seq hostOps1_1 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, hpost0 c, .rfl, sep_mono .rfl (hE1 c)⟩)
    (hinit := ?_) (QY := fun c s => s.mem ((c.tc : Thread nD τ).loc main_v8) = V4 m outs c main_v8
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h => h)
  · -- the launch: the unscoped buffers are held at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨h (Proc.devRef .tc main_v8) (Finset.mem_filter.mpr ⟨StableHlo.devRef_mem_tcRefs main_v8, by decide⟩),
        (h (Proc.devRef .tc main_arg0) (Finset.mem_filter.mpr ⟨StableHlo.devRef_mem_tcRefs main_arg0, by decide⟩)).trans (V4_main_arg0 m outs c),
        (h (Proc.devRef .tc main_arg1) (Finset.mem_filter.mpr ⟨StableHlo.devRef_mem_tcRefs main_arg1, by decide⟩)).trans (V4_main_arg1 m outs c)⟩
    · iexact HSI

end Cert.KernelIdeal.HostSide

end
-- ==== Proof.KernelIdealData.lean ====
/-
  The proof data of `KernelIdeal`'s one pipeline, up to what the body leaves and the invariant: the arrays as the
  region finds them (after the first host stretch); the embeddings' array, which TWO input windows stage, held by
  window 0 at the left half and by window 1 at the right half of the full share, every other array whole; nothing
  owed. What the body leaves in each window's staging buffer (`after`) and the invariant between points (`Φ`) are
  parameters: the body obligation is stated and proved over a choice of them.
-/
import proofs.«153547_j25572235281097_1_alg».proof.Proof.KernelIdealHostSide

noncomputable section

namespace Cert.KernelIdeal.Data

open Cert.KernelIdeal Cert.KernelIdeal.Gen Cert.KernelIdeal.HostSide
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)

/-- The region-entry contents read at the TensorCore's references. -/
abbrev V1r : (c : Dev nD) → (b : Ref sig .tc) → Buf (Elt F) ((c : Thread nD τ).loc b) := fun c b => V1 m c b

/-- The share each input window holds its array at: the two windows on the embeddings the two halves. -/
abbrev qOf : Fin cfg0.W → PosShare TreeShare
  | ⟨0, _⟩ => fullShare.left
  | ⟨1, _⟩ => fullShare.right
  | _ => fullShare

/-- The pipeline's proof data from what the body leaves (`after`) and the invariant (`Φ`): the arrays as the
    region finds them, the shares above, nothing owed. -/
def datOf (after : (c : Dev nD) → (w : Fin cfg0.W) → Fin cfg0.N → (cfg0.win w).block.Idx → Elt F (cfg0.win w).elt)
    (Φ : (c : Dev nD) → Fin (cfg0.N + 1) → sProp 𝕄) (_ : Fin 1) (c : Dev nD) : Dat τ (Elt F) Unit ℕ (UR sig nD τ) ℕ cfg0 c where
  A w := V1r m c (Pipeline.arrRef spec0 w)
  after := after c
  Φ := Φ c
  q := qOf
  owed _ := 0

end Cert.KernelIdeal.Data

end
-- ==== Proof.SharedArrays.lean ====
/-
  One array behind two input windows: splitting its share on entry, joining it on exit.

  The pipeline of this program reads ONE array (the first argument) through TWO input windows,
  0 and 1. Outside the pipeline the core holds each distinct array behind a window whole, at
  the full share. Inside, the pipeline's resource is stated window by window: every INPUT
  window holds its array at that window's own share, every OUTPUT window at the full share.
  Two windows on one array therefore need the array's full share divided between them: window 0
  takes the left half, window 1 the right half, and both see the same contents. The remaining
  input windows (2, 3) and the output windows (4, 5) sit on arrays of their own and hold them
  at the full share.

  arrays_of_arrBufs is the entry (full share of the shared array split in two), and
  arrBufs_of_arrays the exit (the two halves joined back). Both are entailments between the
  same two resources, for any float interpretation F.
-/
import proofs.«153547_j25572235281097_1_alg».proof.Proof.Gen.KernelIdeal.Launch

noncomputable section

namespace Cert.KernelIdeal.SharedArrays

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

section

variable {U : Type} [URA U] (c : Dev nD)

/-- The distinct arrays behind the six windows are five: the shared first argument, and one
    array each for windows 2, 3, 4, 5; held whole at the full share they are this chain. -/
theorem arrBufs0_eq (V : (b : Ref sig .tc) → Buf (Elt F) ((c : Thread nD τ).loc b)) :
    (Pipeline.arrBufs (Ix := Unit) (Name := ℕ) (U := U) (Lvl := ℕ) spec0 c V
        : sProp (MT nD τ sig Unit (Elt F) ℕ U ℕ))
      = iprop((((c : Thread nD τ).loc main_arg0) ↦{fullShare} V main_arg0)
          ∗ (((c : Thread nD τ).loc main_arg1) ↦{fullShare} V main_arg1)
          ∗ (((c : Thread nD τ).loc main_v0) ↦{fullShare} V main_v0)
          ∗ (((c : Thread nD τ).loc main_v1_0) ↦{fullShare} V main_v1_0)
          ∗ (((c : Thread nD τ).loc main_v1_1) ↦{fullShare} V main_v1_1)) := by
  unfold Pipeline.arrBufs
  exact bigSep_eq_bigSepL_of_eq [main_arg0, main_arg1, main_v0, main_v1_0, main_v1_1]
    (by decide) (by decide) _

variable (dat : Pipeline.Dat τ (Elt F) Unit ℕ U ℕ cfg0 c)

/-- One window's part of the pipeline's arrays: its array being whole, held at share q and at
    the contents the core's buffer has, it is the plain points-to of that buffer at q. -/
theorem win_eq (V : (b : Ref sig .tc) → Buf (Elt F) ((c : Thread nD τ).loc b))
    (Fa : (w : Fin cfg0.W) → Buf (Elt F) ((cfg0.win w).arr.view.loc (c : Thread nD τ)))
    (hF : ∀ w, Fa w = V (Pipeline.arrRef spec0 w)) (w : Fin 6) (q : PosShare TreeShare)
    (hq : dat.share w = q) :
    ((cfg0.win w).arr.view.loc (c : Thread nD τ) ↦[(cfg0.win w).arr.view.set]{dat.share w} Fa w
        : sProp (MT nD τ sig Unit (Elt F) ℕ U ℕ))
      = (((c : Thread nD τ).loc (Pipeline.arrRef spec0 w)) ↦{q} V (Pipeline.arrRef spec0 w)) := by
  rw [(arr_whole0 w).set_eq_univ, hq, hF w]

/-- The pipeline's arrays, with the shared array's full share divided between windows 0 and 1,
    written out window by window. -/
theorem arrays0_eq (hq0 : dat.q 0 = fullShare.left) (hq1 : dat.q 1 = fullShare.right)
    (hq2 : dat.q 2 = fullShare) (hq3 : dat.q 3 = fullShare)
    (V : (b : Ref sig .tc) → Buf (Elt F) ((c : Thread nD τ).loc b))
    (Fa : (w : Fin cfg0.W) → Buf (Elt F) ((cfg0.win w).arr.view.loc (c : Thread nD τ)))
    (hF : ∀ w, Fa w = V (Pipeline.arrRef spec0 w)) :
    (dat.arrays Fa : sProp (MT nD τ sig Unit (Elt F) ℕ U ℕ))
      = iprop((((c : Thread nD τ).loc main_arg0) ↦{fullShare.left} V main_arg0)
          ∗ (((c : Thread nD τ).loc main_arg0) ↦{fullShare.right} V main_arg0)
          ∗ (((c : Thread nD τ).loc main_arg1) ↦{fullShare} V main_arg1)
          ∗ (((c : Thread nD τ).loc main_v0) ↦{fullShare} V main_v0)
          ∗ (((c : Thread nD τ).loc main_v1_0) ↦{fullShare} V main_v1_0)
          ∗ (((c : Thread nD τ).loc main_v1_1) ↦{fullShare} V main_v1_1)) := by
  have s0 : dat.share 0 = fullShare.left := by
    rw [Pipeline.Dat.share, if_neg (by decide), hq0]
  have s1 : dat.share 1 = fullShare.right := by
    rw [Pipeline.Dat.share, if_neg (by decide), hq1]
  have s2 : dat.share 2 = fullShare := by
    rw [Pipeline.Dat.share, if_neg (by decide), hq2]
  have s3 : dat.share 3 = fullShare := by
    rw [Pipeline.Dat.share, if_neg (by decide), hq3]
  have s4 : dat.share 4 = fullShare := by
    rw [Pipeline.Dat.share, if_pos (by decide)]
  have s5 : dat.share 5 = fullShare := by
    rw [Pipeline.Dat.share, if_pos (by decide)]
  unfold Pipeline.Dat.arrays
  rw [bigSep_W0, win_eq c dat V Fa hF 0 _ s0, win_eq c dat V Fa hF 1 _ s1,
    win_eq c dat V Fa hF 2 _ s2, win_eq c dat V Fa hF 3 _ s3, win_eq c dat V Fa hF 4 _ s4,
    win_eq c dat V Fa hF 5 _ s5]

/-- ENTRY. The five distinct arrays held whole at the full share give the pipeline's arrays:
    the shared array's full share is split, left half to window 0 and right half to window 1. -/
theorem arrays_of_arrBufs (hq0 : dat.q 0 = fullShare.left) (hq1 : dat.q 1 = fullShare.right)
    (hq2 : dat.q 2 = fullShare) (hq3 : dat.q 3 = fullShare)
    (V : (b : Ref sig .tc) → Buf (Elt F) ((c : Thread nD τ).loc b))
    (Fa : (w : Fin cfg0.W) → Buf (Elt F) ((cfg0.win w).arr.view.loc (c : Thread nD τ)))
    (hF : ∀ w, Fa w = V (Pipeline.arrRef spec0 w)) :
    (Pipeline.arrBufs (Ix := Unit) (Name := ℕ) (U := U) (Lvl := ℕ) spec0 c V
        : sProp (MT nD τ sig Unit (Elt F) ℕ U ℕ))
      ⊢ dat.arrays Fa := by
  rw [arrBufs0_eq, arrays0_eq c dat hq0 hq1 hq2 hq3 V Fa hF]
  iintro ⟨H0, H1, H2, H3, H4⟩
  ihave H0 := (pointsTo_share (PosShare.mem_left_op_right fullShare)).1 $$ H0
  icases H0 with ⟨Ha, Hb⟩
  isplitl [Ha]; · iexact Ha
  isplitl [Hb]; · iexact Hb
  isplitl [H1]; · iexact H1
  isplitl [H2]; · iexact H2
  isplitl [H3]; · iexact H3
  iexact H4

/-- EXIT. The pipeline's arrays give back the five distinct arrays whole at the full share:
    windows 0 and 1 hold the two halves of the shared array at the same contents, and the
    halves join. -/
theorem arrBufs_of_arrays (hq0 : dat.q 0 = fullShare.left) (hq1 : dat.q 1 = fullShare.right)
    (hq2 : dat.q 2 = fullShare) (hq3 : dat.q 3 = fullShare)
    (V : (b : Ref sig .tc) → Buf (Elt F) ((c : Thread nD τ).loc b))
    (Fa : (w : Fin cfg0.W) → Buf (Elt F) ((cfg0.win w).arr.view.loc (c : Thread nD τ)))
    (hF : ∀ w, Fa w = V (Pipeline.arrRef spec0 w)) :
    dat.arrays Fa
      ⊢ (Pipeline.arrBufs (Ix := Unit) (Name := ℕ) (U := U) (Lvl := ℕ) spec0 c V
        : sProp (MT nD τ sig Unit (Elt F) ℕ U ℕ)) := by
  rw [arrBufs0_eq, arrays0_eq c dat hq0 hq1 hq2 hq3 V Fa hF]
  iintro ⟨Ha, Hb, H1, H2, H3, H4⟩
  ihave H0 := (pointsTo_share (PosShare.mem_left_op_right fullShare)).2 $$ [Ha Hb]
  · isplitl [Ha] <;> iassumption
  isplitl [H0]; · iexact H0
  isplitl [H1]; · iexact H1
  isplitl [H2]; · iexact H2
  isplitl [H3]; · iexact H3
  iexact H4

end

end Cert.KernelIdeal.SharedArrays
-- ==== Proof.KernelIdealRegion.lean ====
/-
  The kernel region of `KernelIdeal` as a segment of @main, and the program's frame from the body obligation. The
  region is entered from every unscoped buffer at the contents after the first host stretch and left with the two result
  arrays at what the pipeline's write-backs leave (`arrAt … N`), every other buffer as entered. The embeddings' array,
  staged by two input windows, is split between them at entry (the left and the right half of the full share) and
  joined back at exit; an input window's array is never written, so it comes back as it went in. The generator register
  rides into the invariant and out; nothing is owed. Given the body obligation — and that the invariant starts as, and
  ends in, the scratch buffers at some contents beside the generator register — every weakly fair execution of @main
  terminates with both arguments as launched.
-/
import proofs.«153547_j25572235281097_1_alg».proof.Proof.KernelIdealData
import proofs.«153547_j25572235281097_1_alg».proof.Proof.SharedArrays

noncomputable section

namespace Cert.KernelIdeal.Region

open Cert.KernelIdeal Cert.KernelIdeal.Gen Cert.KernelIdeal.HostSide Cert.KernelIdeal.Data Cert.KernelIdeal.SharedArrays
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- The exit contents: the entry contents with the two result arrays at what the pipeline's write-backs leave. -/
def Vx (dat : (c : Dev nD) → Dat τ (Elt F) Unit ℕ (UR sig nD τ) ℕ cfg0 c) (c : Dev nD) : Valuation τ sig (Elt F) :=
  Function.update (Function.update (V1 m c) main_v1_0 ((dat c).arrAt 4 cfg0.N)) main_v1_1 ((dat c).arrAt 5 cfg0.N)

/-- What the region leaves in the buffers it may change, read off the exit contents. -/
abbrev outs (dat : (c : Dev nD) → Dat τ (Elt F) Unit ℕ (UR sig nD τ) ℕ cfg0 c) : Outs (F := F) := fun r c => Vx m dat c r

/-- The exit contents read at the TensorCore's references. -/
abbrev V2r (dat : (c : Dev nD) → Dat τ (Elt F) Unit ℕ (UR sig nD τ) ℕ cfg0 c) : (c : Dev nD) → (b : Ref sig .tc) → Buf (Elt F) ((c : Thread nD τ).loc b) := fun c b => V2 m (outs m dat) c b

theorem Vx_v1_0 (dat : (c : Dev nD) → Dat τ (Elt F) Unit ℕ (UR sig nD τ) ℕ cfg0 c) (c : Dev nD) : Vx m dat c main_v1_0 = (dat c).arrAt 4 cfg0.N := by
  simp only [Vx, Function.update_of_ne (StableHlo.devRef_ne_of_ne (by decide : main_v1_0 ≠ main_v1_1) : (Proc.devRef .tc main_v1_0 : DevRef τ sig) ≠ Proc.devRef .tc main_v1_1), Function.update_self]
theorem Vx_v1_1 (dat : (c : Dev nD) → Dat τ (Elt F) Unit ℕ (UR sig nD τ) ℕ cfg0 c) (c : Dev nD) : Vx m dat c main_v1_1 = (dat c).arrAt 5 cfg0.N := by
  simp only [Vx, Function.update_self]
/-- The valuation the host side threads through the region is the exit contents. -/
theorem V2_eq (dat : (c : Dev nD) → Dat τ (Elt F) Unit ℕ (UR sig nD τ) ℕ cfg0 c) (c : Dev nD) : V2 m (outs m dat) c = Vx m dat c := by
  show Function.update (Function.update (V1 m c) main_v1_0 (Vx m dat c main_v1_0)) main_v1_1 (Vx m dat c main_v1_1) = Vx m dat c
  rw [Vx_v1_0, Vx_v1_1]; rfl

/-- At the exit every window's array holds what the pipeline leaves in it: an input's its entry contents. -/
theorem hF (dat : (c : Dev nD) → Dat τ (Elt F) Unit ℕ (UR sig nD τ) ℕ cfg0 c) (hA : ∀ c w, (dat c).A w = V1r m c (Pipeline.arrRef spec0 w)) (c : Dev nD) (w : Fin cfg0.W) : (dat c).arrAt w cfg0.N = V2r m dat c (Pipeline.arrRef spec0 w) := by
  match w with
  | ⟨0, _⟩ => exact (((dat c).arrAt_in 0 rfl _).trans (hA c 0)).trans (V2_of m (outs m dat) c main_arg0 (by decide)).symm
  | ⟨1, _⟩ => exact (((dat c).arrAt_in 1 rfl _).trans (hA c 1)).trans (V2_of m (outs m dat) c main_arg0 (by decide)).symm
  | ⟨2, _⟩ => exact (((dat c).arrAt_in 2 rfl _).trans (hA c 2)).trans (V2_of m (outs m dat) c main_arg1 (by decide)).symm
  | ⟨3, _⟩ => exact (((dat c).arrAt_in 3 rfl _).trans (hA c 3)).trans (V2_of m (outs m dat) c main_v0 (by decide)).symm
  | ⟨4, _⟩ => exact ((Vx_v1_0 m dat c).symm.trans (congrFun (V2_eq m dat c).symm _))
  | ⟨5, _⟩ => exact ((Vx_v1_1 m dat c).symm.trans (congrFun (V2_eq m dat c).symm _))

/-- Off the windows' arrays the exit contents are the entry contents. -/
theorem hrest (dat : (c : Dev nD) → Dat τ (Elt F) Unit ℕ (UR sig nD τ) ℕ cfg0 c) (c : Dev nD) : ∀ b, b ∉ Finset.univ.image (Pipeline.arrRef spec0) → V2r m dat c b = V1r m c b := fun b hb =>
  V2_of m (outs m dat) c b (by
    intro h
    rcases List.mem_cons.mp h with rfl | h
    · exact hb (Finset.mem_image.mpr ⟨4, Finset.mem_univ _, rfl⟩)
    · rcases List.mem_cons.mp h with rfl | h
      · exact hb (Finset.mem_image.mpr ⟨5, Finset.mem_univ _, rfl⟩)
      · exact absurd h (List.not_mem_nil))

/-- ENTRY, the arrays' part: the core's unscoped buffers at the entry contents are the data's per-window arrays — the
    embeddings' buffer split between its two windows — and the unscoped rest. -/
theorem arrays_of_unscopedBufs (dat : (c : Dev nD) → Dat τ (Elt F) Unit ℕ (UR sig nD τ) ℕ cfg0 c) (hA : ∀ c w, (dat c).A w = V1r m c (Pipeline.arrRef spec0 w)) (hq0 : ∀ c, (dat c).q 0 = fullShare.left) (hq1 : ∀ c, (dat c).q 1 = fullShare.right) (hq2 : ∀ c, (dat c).q 2 = fullShare) (hq3 : ∀ c, (dat c).q 3 = fullShare) (c : Dev nD) :
    (unscopedBufs c (V1r m c) : sProp 𝕄)
      ⊢ iprop((dat c).arrays ((dat c).arrAt · 0) ∗ Pipeline.unscopedRest spec0 c (V1r m c)) := by
  rw [Pipeline.unscopedBufs_split₀ cfgs 0 winFacts₀0.arr_unscoped c (V1r m c)]
  exact sep_mono (arrays_of_arrBufs c (dat c) (hq0 c) (hq1 c) (hq2 c) (hq3 c) (V1r m c) _ (fun w => hA c w)) .rfl

/-- EXIT, the arrays' part: the data's arrays at what the pipeline leaves — the two halves of the embeddings' buffer
    joined — and the unscoped rest as entered are the core's unscoped buffers at the exit contents. -/
theorem unscopedBufs_of_arrays (dat : (c : Dev nD) → Dat τ (Elt F) Unit ℕ (UR sig nD τ) ℕ cfg0 c) (hA : ∀ c w, (dat c).A w = V1r m c (Pipeline.arrRef spec0 w)) (hq0 : ∀ c, (dat c).q 0 = fullShare.left) (hq1 : ∀ c, (dat c).q 1 = fullShare.right) (hq2 : ∀ c, (dat c).q 2 = fullShare) (hq3 : ∀ c, (dat c).q 3 = fullShare) (c : Dev nD) :
    iprop((dat c).arrays ((dat c).arrAt · cfg0.N) ∗ Pipeline.unscopedRest spec0 c (V1r m c))
      ⊢ (unscopedBufs c (V2r m dat c) : sProp 𝕄) := by
  rw [Pipeline.unscopedBufs_split₀ cfgs 0 winFacts₀0.arr_unscoped c (V2r m dat c)]
  refine sep_mono (arrBufs_of_arrays c (dat c) (hq0 c) (hq1 c) (hq2 c) (hq3 c) (V2r m dat c) _ (hF m dat hA c)) (Entails.of_eq ?_)
  unfold Pipeline.unscopedRest
  exact bigSep_congr fun b hb => by rw [hrest m dat c b (Finset.mem_sdiff.mp hb).2]

/-! ## The region as a segment -/

set_option backward.isDefEq.respectTransparency.types false in
/-- THE REGION over the thread state: entered from every unscoped buffer at the contents after the first host
    stretch, left at the exit contents. Its arrays split out of the unscoped buffers and put back at what the pipeline
    leaves; the generator register into the invariant and out; nothing owed; no semaphore of the kernel's own. -/
def reg0 (dat : (c : Dev nD) → Dat τ (Elt F) Unit ℕ (UR sig nD τ) ℕ cfg0 c) (hA : ∀ c w, (dat c).A w = V1r m c (Pipeline.arrRef spec0 w))
    (hq0 : ∀ c, (dat c).q 0 = fullShare.left) (hq1 : ∀ c, (dat c).q 1 = fullShare.right) (hq2 : ∀ c, (dat c).q 2 = fullShare) (hq3 : ∀ c, (dat c).q 3 = fullShare)
    (howed : ∀ c t, (dat c).owed t = 0) (hrec : ∀ c t, (dat c).recorded t = Set.univ)
    (hΦ0 : ∀ c, (dat c).Φ 0 = Pipeline.ΦA spec0 c) (hΦN : ∀ c, (dat c).Φ (Fin.last cfg0.N) ⊢ Pipeline.ΦA spec0 c)
    (hbody : ∀ c, Pipeline.BodyObligation (dat c) defs₀ 𝒱₀ () Set.univ) :
    RegionSeg (pcfgs (F := F)) adm (fun _ c => dat c) () defs₀ 𝒱₀ L lv 0 where
  win := winFacts₀0
  block_pos := block_pos0
  stage_whole := stage_whole0
  K := PEmpty
  osem k := k.elim
  ho := Pipeline.OwnSemFacts.none _
  hbody c := (hbody c).loose
  hwaits := Pipeline.hwaits_of_owed_zero _ _ _ _ L lv 0 howed
  pre c := iprop(StableHlo.held (c : Thread nD τ) (Pipeline.ucRefs τ sig) (V1 m c) ∗ R c)
  post c := iprop(StableHlo.held (c : Thread nD τ) (Pipeline.ucRefs τ sig) (V2 m (outs m dat) c) ∗ R c)
  X c := iprop(∃ r, prngReg c r)
  Y c := iprop(∃ r, prngReg c r)
  Z c := Pipeline.unscopedRest (Ix := Unit) (Name := ℕ) (U := UR sig nD τ) (Lvl := ℕ) spec0 c (V1r m c)
  hentry c := by
    rw [Pipeline.ownSems0_none]
    have hsplit := arrays_of_unscopedBufs m dat hA hq0 hq1 hq2 hq3 c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c 0]; trivial)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := unscopedBufs_of_arrays m dat hA hq0 hq1 hq2 hq3 c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last cfg0.N)]
    icases HO with ⟨%W, -, HO⟩; iexists W; iexact HO

/-! ## The frame -/

set_option backward.isDefEq.respectTransparency.types false in
/-- THE FRAME from the body obligation: for proof data whose arrays are the region-entry contents, that hold the
    embeddings' array at the two half shares, owe nothing, start from and end in the scratch buffers at some contents
    beside the generator register, and meet the body obligation at every point — every weakly fair execution of @main
    from memory `m` with zero counters terminates, nothing faulting, with both arguments as launched and the result buffer at what the host stretches
    after the region make of the two result arrays as the pipeline leaves them. -/
theorem frame_of_body (ρ : Dev nD → PrngReg) (dat : (c : Dev nD) → Dat τ (Elt F) Unit ℕ (UR sig nD τ) ℕ cfg0 c) (hA : ∀ c w, (dat c).A w = V1r m c (Pipeline.arrRef spec0 w))
    (hq0 : ∀ c, (dat c).q 0 = fullShare.left) (hq1 : ∀ c, (dat c).q 1 = fullShare.right) (hq2 : ∀ c, (dat c).q 2 = fullShare) (hq3 : ∀ c, (dat c).q 3 = fullShare)
    (howed : ∀ c t, (dat c).owed t = 0) (hrec : ∀ c t, (dat c).recorded t = Set.univ)
    (hΦ0 : ∀ c, (dat c).Φ 0 = Pipeline.ΦA spec0 c) (hΦN : ∀ c, (dat c).Φ (Fin.last cfg0.N) ⊢ Pipeline.ΦA spec0 c)
    (hbody : ∀ c, Pipeline.BodyObligation (dat c) defs₀ 𝒱₀ () Set.univ) :
    θ_run defs (onTc (τ := τ) (main (F := F))) ⟨m, fun _ => 0, ρ⟩ (fun r => ∀ c : Dev nD,
      r.2.mem ((c.tc : Thread nD τ).loc main_v8) = V4 m (outs m dat) c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  frame_cond m emb₁ () 𝒱₀ L lv (fun _ _ => rfl) ρ (outs m dat) (fun _ c => dat c) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => R)
    (by
      have hc : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)) : sProp 𝕄) ⊢ R c := fun c => by
        iintro ⟨-, HO, -, Hp, -⟩
        isplitl [Hp]; · iexists _; iexact Hp
        iexists ∅; iexact HO
      have h1 : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp)))
          ⊢ (bigSep Finset.univ (fun c : Dev nD => R c) : sProp 𝕄) :=
        bigSep_mono fun c _ => hc c
      iintro ⟨H, -⟩
      imodintro
      iapply h1
      iexact H)
    (fun c => by iintro ⟨-, HO⟩; iexact HO)
    (reg0 m dat hA hq0 hq1 hq2 hq3 howed hrec hΦ0 hΦN hbody)
    (fun _ => .rfl) (fun _ => .rfl)

/-- The result buffer the frame run names is the host's mean of the two result arrays as the pipeline leaves them. -/
theorem result_eq (dat : (c : Dev nD) → Dat τ (Elt F) Unit ℕ (UR sig nD τ) ℕ cfg0 c) (c : Dev nD) :
    V4 m (outs m dat) c main_v8 = tail ((dat c).arrAt 4 cfg0.N) ((dat c).arrAt 5 cfg0.N) := by
  rw [V4_main_v8, show V2 m (outs m dat) c main_v1_0 = (dat c).arrAt 4 cfg0.N from (congrFun (V2_eq m dat c) _).trans (Vx_v1_0 m dat c),
    show V2 m (outs m dat) c main_v1_1 = (dat c).arrAt 5 cfg0.N from (congrFun (V2_eq m dat c) _).trans (Vx_v1_1 m dat c)]

end Cert.KernelIdeal.Region

end
-- ==== Proof.LibOnlineSoftmax.lean ====
/-
  The online-softmax law over the extended reals.

  A softmax normaliser over a long row can be accumulated tile by tile: carry a running
  maximum m and a running sum l of exponentials taken relative to m, and on meeting a new
  tile with maximum Mb pass to M' = max m Mb and l' = exp (m - M') * l + ∑ exp (x - M').
  Started from (-∞, 0), after any number of tiles the pair is
      (the maximum M of everything seen, ∑ exp (x - M) over everything seen),
  because exp (m - M') * exp (y - m) = exp (y - M').  This file proves that law for the
  extended-real operations (where exp (-∞) = 0 makes the start (-∞, 0) work out), together
  with the small coercion facts it needs and the algebra of a masked mean of log-probabilities.

  Contents.
  * Coercion basics: exp, log, -∞ - r, max -∞ r, finite sums and finite maxima of reals
    commute with the embedding of ℝ in the extended reals.
  * first_step, later_step: one update of the pair, from the start and from a real pair.
  * rescale: exp (m - M') * ∑ exp (y - m) = ∑ exp (y - M').
  * step, st, runMax, st_succ: the fold itself, for a sequence of rows indexed by ℕ, and
    st_final for finitely many rows, with the maximum and the sum over the product index.
  * masked_mean, masked_sum_congr: the sum algebra of a 0/1-weighted mean.
-/
import Idealize.ShloMosaic.PureOps.Ideal
import Mathlib.Data.EReal.Operations
import Mathlib.Analysis.SpecialFunctions.Log.Basic
import Mathlib.Algebra.BigOperators.Fin
import Mathlib.Algebra.Order.BigOperators.Group.Finset
import Mathlib.Data.Finset.Lattice.Fold

noncomputable section

namespace OnlineSoftmax

open Idealize.ShloMosaic
open scoped BigOperators

/-! ### Coercion basics -/

/-- The extended exponential of a real is the real exponential. -/
theorem exp_coe (r : ℝ) : Ideal.exp (r : EReal) = ((Real.exp r : ℝ) : EReal) := rfl

/-- The extended exponential of -∞ is 0. -/
theorem exp_bot : Ideal.exp (⊥ : EReal) = 0 := rfl

/-- The extended logarithm of a positive real is the real logarithm. -/
theorem log_coe_of_pos {r : ℝ} (h : 0 < r) :
    Ideal.log (r : EReal) = ((Real.log r : ℝ) : EReal) := by
  rw [Ideal.log_coe, if_neg (not_le.mpr h)]

/-- -∞ minus a real is -∞. -/
theorem bot_sub_coe (r : ℝ) : (⊥ : EReal) - (r : EReal) = ⊥ := EReal.bot_sub _

/-- The maximum of -∞ and a real is that real. -/
theorem max_bot_coe (r : ℝ) : max (⊥ : EReal) (r : EReal) = (r : EReal) := max_bot_left _

/-- The maximum of two reals, embedded, is the maximum of the embedded reals. -/
theorem max_coe_coe (a b : ℝ) : max (a : EReal) (b : EReal) = ((max a b : ℝ) : EReal) :=
  (EReal.coe_strictMono.monotone.map_max (a := a) (b := b)).symm

/-- A finite sum of reals, embedded, is the sum of the embedded reals. -/
theorem coe_sum {κ : Type*} (s : Finset κ) (f : κ → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The maximum of a nonempty finite family of reals, embedded, is the maximum of the
    embedded family. -/
theorem coe_finset_sup' {κ : Type*} (s : Finset κ) (hs : s.Nonempty) (f : κ → ℝ) :
    ((s.sup' hs f : ℝ) : EReal) = s.sup' hs (fun c => (f c : EReal)) :=
  Finset.comp_sup'_eq_sup'_comp hs (fun r : ℝ => (r : EReal)) (fun a b => (max_coe_coe a b).symm)

/-- Over a nonempty finite index type, the supremum (with bottom -∞) of the embedded reals is
    the embedded maximum of the reals. -/
theorem coe_sup' {ι : Type*} [Fintype ι] [Nonempty ι] (x : ι → ℝ) :
    (Finset.univ.sup fun c => ((x c : ℝ) : EReal))
      = ((Finset.univ.sup' Finset.univ_nonempty x : ℝ) : EReal) := by
  rw [coe_finset_sup', Finset.sup'_eq_sup]

/-! ### One update of the running pair -/

/-- The first update, from the start (-∞, 0): the rescaling factor is exp (-∞) = 0 and the
    update leaves the sum of the exponentials of the tile, relative to any real shift M
    (in use: the tile's maximum). -/
theorem first_step {ι : Type*} [Fintype ι] (x : ι → ℝ) (M : ℝ) :
    Ideal.exp ((⊥ : EReal) - (M : EReal)) * 0 + ∑ c, Ideal.exp ((x c : EReal) - (M : EReal))
      = ((∑ c, Real.exp (x c - M) : ℝ) : EReal) := by
  rw [mul_zero, zero_add, coe_sum]
  rfl

/-- A later update, from a real pair (m, l) and relative to any real shift M' (in use:
    M' = max m Mb with Mb the tile's maximum): every operation stays among the reals. -/
theorem later_step {ι : Type*} [Fintype ι] (m l : ℝ) (x : ι → ℝ) (M' : ℝ) :
    Ideal.exp ((m : EReal) - (M' : EReal)) * (l : EReal)
        + ∑ c, Ideal.exp ((x c : EReal) - (M' : EReal))
      = ((Real.exp (m - M') * l + ∑ c, Real.exp (x c - M') : ℝ) : EReal) := by
  rw [EReal.coe_add, EReal.coe_mul, coe_sum]
  rfl

/-- Moving the reference point of a sum of exponentials from m to M' multiplies it by
    exp (m - M'). -/
theorem rescale {κ : Type*} (S : Finset κ) (y : κ → ℝ) (m M' : ℝ) :
    Real.exp (m - M') * ∑ s ∈ S, Real.exp (y s - m) = ∑ s ∈ S, Real.exp (y s - M') := by
  rw [Finset.mul_sum]
  refine Finset.sum_congr rfl fun s _ => ?_
  rw [← Real.exp_add]
  congr 1
  ring

/-! ### The masked mean -/

/-- Minus a weighted sum of log-probabilities (x j - M) - L splits into minus the weighted
    sum of the x j plus the total weight times M + L. -/
theorem masked_mean {J : Type*} [Fintype J] (mask x : J → ℝ) (M L : ℝ) :
    -(∑ j, mask j * ((x j - M) - L))
      = (0 - ∑ j, mask j * x j) + (∑ j, mask j) * (M + L) := by
  have h : ∀ j, mask j * ((x j - M) - L) = mask j * x j - mask j * (M + L) := fun j => by ring
  simp only [h, Finset.sum_sub_distrib, ← Finset.sum_mul]
  ring

/-- The same splitting, with every real embedded in the extended reals and the operations
    taken there. -/
theorem masked_mean_coe {J : Type*} [Fintype J] (mask x : J → ℝ) (M L : ℝ) :
    -(∑ j, (mask j : EReal) * (((x j : EReal) - (M : EReal)) - (L : EReal)))
      = ((0 : EReal) - ∑ j, (mask j : EReal) * (x j : EReal))
          + (∑ j, (mask j : EReal)) * ((M : EReal) + (L : EReal)) := by
  have hl : (∑ j, (mask j : EReal) * (((x j : EReal) - (M : EReal)) - (L : EReal)))
      = ((∑ j, mask j * ((x j - M) - L) : ℝ) : EReal) := by
    rw [coe_sum]; rfl
  have hr1 : (∑ j, (mask j : EReal) * (x j : EReal)) = ((∑ j, mask j * x j : ℝ) : EReal) := by
    rw [coe_sum]; rfl
  have hr2 : (∑ j, (mask j : EReal)) = ((∑ j, mask j : ℝ) : EReal) := by
    rw [coe_sum]
  rw [hl, hr1, hr2, ← EReal.coe_neg, ← EReal.coe_zero, ← EReal.coe_sub, ← EReal.coe_add,
    ← EReal.coe_mul, ← EReal.coe_add, masked_mean]

/-- A weighted sum does not see the values at indices of weight 0. -/
theorem masked_sum_congr {J : Type*} [Fintype J] (mask x x' : J → ℝ)
    (h : ∀ j, mask j = 0 ∨ x' j = x j) :
    ∑ j, mask j * x' j = ∑ j, mask j * x j := by
  refine Finset.sum_congr rfl fun j _ => ?_
  rcases h j with h0 | hx
  · rw [h0, zero_mul, zero_mul]
  · rw [hx]

/-- A weighted sum whose weight at one index d is 0 is unchanged by changing the value at d. -/
theorem masked_sum_congr_off {J : Type*} [Fintype J] (mask x x' : J → ℝ) (d : J)
    (hd : mask d = 0) (hx : ∀ j, j ≠ d → x' j = x j) :
    ∑ j, mask j * x' j = ∑ j, mask j * x j :=
  masked_sum_congr mask x x' fun j => by
    by_cases hj : j = d
    · exact Or.inl (hj ▸ hd)
    · exact Or.inr (hx j hj)

/-! ### The fold -/

section Fold

variable {ι : Type*} [Fintype ι] [Nonempty ι]

/-- The maximum of one row (one tile) of reals. -/
abbrev rowMax (row : ι → ℝ) : ℝ := Finset.univ.sup' Finset.univ_nonempty row

/-- One update of the running pair (m, l) by a row: the new maximum M' = max m (row's maximum),
    and the new sum exp (m - M') * l + ∑ exp (row c - M'), with the extended-real operations in
    exactly this order. -/
def step (s : EReal × EReal) (row : ι → ℝ) : EReal × EReal :=
  (max s.1 ((rowMax row : ℝ) : EReal),
    Ideal.exp (s.1 - max s.1 ((rowMax row : ℝ) : EReal)) * s.2
      + ∑ c, Ideal.exp ((row c : EReal) - max s.1 ((rowMax row : ℝ) : EReal)))

/-- The running pair after the first k rows of the sequence x, started from (-∞, 0). -/
def st (x : ℕ → ι → ℝ) : ℕ → EReal × EReal
  | 0 => (⊥, 0)
  | k + 1 => step (st x k) (x k)

/-- The running maximum of the rows 0, …, k, as an iterated maximum. -/
def runMax (x : ℕ → ι → ℝ) : ℕ → ℝ
  | 0 => rowMax (x 0)
  | k + 1 => max (runMax x k) (rowMax (x (k + 1)))

/-- Before any row the running pair is the start (-∞, 0). -/
@[simp] theorem st_zero (x : ℕ → ι → ℝ) : st x 0 = (⊥, 0) := rfl

/-- The running pair advances by one update per row. -/
theorem st_step (x : ℕ → ι → ℝ) (k : ℕ) : st x (k + 1) = step (st x k) (x k) := rfl

/-- The running maximum after row 0 is that row's maximum. -/
@[simp] theorem runMax_zero (x : ℕ → ι → ℝ) : runMax x 0 = rowMax (x 0) := rfl

/-- The running maximum after one more row is the larger of the previous running maximum and
    the new row's maximum. -/
theorem runMax_succ (x : ℕ → ι → ℝ) (k : ℕ) :
    runMax x (k + 1) = max (runMax x k) (rowMax (x (k + 1))) := rfl

/-- The update from the start (-∞, 0): the row's maximum, and the sum of the row's
    exponentials relative to it. -/
theorem step_bot (row : ι → ℝ) :
    step ((⊥ : EReal), (0 : EReal)) row
      = (((rowMax row : ℝ) : EReal), ((∑ c, Real.exp (row c - rowMax row) : ℝ) : EReal)) := by
  unfold step
  rw [max_bot_coe, first_step]

/-- The update from a real pair (m, l) is the real pair
    (max m Mb, exp (m - max m Mb) * l + ∑ exp (row c - max m Mb)), Mb the row's maximum. -/
theorem step_coe (m l : ℝ) (row : ι → ℝ) :
    step ((m : EReal), (l : EReal)) row
      = (((max m (rowMax row) : ℝ) : EReal),
          ((Real.exp (m - max m (rowMax row)) * l
            + ∑ c, Real.exp (row c - max m (rowMax row)) : ℝ) : EReal)) := by
  unfold step
  rw [max_coe_coe, later_step]

/-- THE ONLINE-SOFTMAX LAW. After the rows 0, …, k the running pair is the maximum M of all
    entries seen and the sum of exp (entry - M) over all entries seen. -/
theorem st_succ (x : ℕ → ι → ℝ) (k : ℕ) :
    st x (k + 1)
      = (((runMax x k : ℝ) : EReal),
          ((∑ j ∈ Finset.range (k + 1), ∑ c, Real.exp (x j c - runMax x k) : ℝ) : EReal)) := by
  induction k with
  | zero =>
    rw [st_step, st_zero, step_bot, runMax_zero, Finset.range_one, Finset.sum_singleton]
  | succ k ih =>
    rw [st_step, ih, step_coe, ← runMax_succ, Finset.sum_range_succ _ (k + 1), Finset.mul_sum]
    congr 3
    refine Finset.sum_congr rfl fun j _ => ?_
    exact rescale Finset.univ (x j) (runMax x k) (runMax x (k + 1))

/-- Every entry of the rows 0, …, k is at most the running maximum. -/
theorem le_runMax (x : ℕ → ι → ℝ) {j k : ℕ} (hj : j ≤ k) (c : ι) : x j c ≤ runMax x k := by
  induction k with
  | zero =>
    obtain rfl : j = 0 := Nat.le_zero.mp hj
    exact Finset.le_sup' (x 0) (Finset.mem_univ c)
  | succ k ih =>
    rw [runMax_succ]
    rcases Nat.lt_or_ge j (k + 1) with h | h
    · exact le_trans (ih (Nat.lt_succ_iff.mp h)) (le_max_left _ _)
    · obtain rfl : j = k + 1 := le_antisymm hj h
      exact le_trans (Finset.le_sup' (x (k + 1)) (Finset.mem_univ c)) (le_max_right _ _)

/-- The running maximum is attained by an entry of the rows 0, …, k. -/
theorem exists_eq_runMax (x : ℕ → ι → ℝ) (k : ℕ) : ∃ j, j ≤ k ∧ ∃ c, runMax x k = x j c := by
  induction k with
  | zero =>
    obtain ⟨c, -, hc⟩ := Finset.exists_mem_eq_sup' Finset.univ_nonempty (x 0)
    exact ⟨0, le_rfl, c, hc⟩
  | succ k ih =>
    rw [runMax_succ]
    rcases max_cases (runMax x k) (rowMax (x (k + 1))) with ⟨h, -⟩ | ⟨h, -⟩
    · obtain ⟨j, hj, c, hc⟩ := ih
      exact ⟨j, Nat.le_succ_of_le hj, c, h.trans hc⟩
    · obtain ⟨c, -, hc⟩ := Finset.exists_mem_eq_sup' Finset.univ_nonempty (x (k + 1))
      exact ⟨k + 1, le_rfl, c, h.trans hc⟩

/-- The running maximum as a maximum over the rows 0, …, k of the row maxima. -/
theorem runMax_eq_sup' (x : ℕ → ι → ℝ) (k : ℕ) :
    runMax x k
      = (Finset.range (k + 1)).sup' ⟨0, Finset.mem_range.mpr (Nat.succ_pos k)⟩
          (fun j => rowMax (x j)) := by
  apply le_antisymm
  · obtain ⟨j, hj, c, hc⟩ := exists_eq_runMax x k
    rw [hc]
    exact Finset.le_sup'_of_le (fun j => rowMax (x j))
      (Finset.mem_range.mpr (Nat.lt_succ_of_le hj)) (Finset.le_sup' (x j) (Finset.mem_univ c))
  · refine Finset.sup'_le _ _ fun j hj => ?_
    refine Finset.sup'_le _ _ fun c _ => ?_
    exact le_runMax x (Nat.lt_succ_iff.mp (Finset.mem_range.mp hj)) c

/-- The accumulated sum is positive: it is a nonempty sum of exponentials. -/
theorem sum_pos (x : ℕ → ι → ℝ) (k : ℕ) (M : ℝ) :
    0 < ∑ j ∈ Finset.range (k + 1), ∑ c, Real.exp (x j c - M) :=
  Finset.sum_pos
    (fun _ _ => Finset.sum_pos (fun _ _ => Real.exp_pos _) Finset.univ_nonempty)
    ⟨0, Finset.mem_range.mpr (Nat.succ_pos k)⟩

/-- The extended logarithm of the running sum after the rows 0, …, k is the real logarithm of
    the sum of exp (entry - M), M the running maximum. -/
theorem log_st_succ (x : ℕ → ι → ℝ) (k : ℕ) :
    Ideal.log (st x (k + 1)).2
      = ((Real.log (∑ j ∈ Finset.range (k + 1), ∑ c, Real.exp (x j c - runMax x k)) : ℝ)
          : EReal) := by
  rw [st_succ]
  exact log_coe_of_pos (sum_pos x k (runMax x k))

/-- The log-sum-exp read off the running pair after the rows 0, …, k: maximum plus the
    logarithm of the running sum, a real. -/
theorem lse_st_succ (x : ℕ → ι → ℝ) (k : ℕ) :
    (st x (k + 1)).1 + Ideal.log (st x (k + 1)).2
      = ((runMax x k
          + Real.log (∑ j ∈ Finset.range (k + 1), ∑ c, Real.exp (x j c - runMax x k)) : ℝ)
          : EReal) := by
  rw [log_st_succ, st_succ, EReal.coe_add]

/-! #### Finitely many rows -/

variable {n : ℕ}

/-- A family of n + 1 rows as a sequence: the rows in order, the last one repeated for ever. -/
def seqOf (x : Fin (n + 1) → ι → ℝ) : ℕ → ι → ℝ :=
  fun j => x ⟨min j n, Nat.lt_succ_of_le (min_le_right j n)⟩

/-- The sequence of a finite family reads the family at each of its indices. -/
theorem seqOf_val (x : Fin (n + 1) → ι → ℝ) (j : Fin (n + 1)) : seqOf x j.val = x j := by
  unfold seqOf
  congr 1
  exact Fin.ext (min_eq_left (Nat.lt_succ_iff.mp j.isLt))

/-- For a sequence built from n + 1 rows, the running maximum after all of them is the maximum
    over the product index (row, column). -/
theorem runMax_seqOf (x : Fin (n + 1) → ι → ℝ) :
    runMax (seqOf x) n
      = Finset.univ.sup' Finset.univ_nonempty (fun p : Fin (n + 1) × ι => x p.1 p.2) := by
  apply le_antisymm
  · obtain ⟨j, -, c, hc⟩ := exists_eq_runMax (seqOf x) n
    rw [hc]
    exact Finset.le_sup' (fun p : Fin (n + 1) × ι => x p.1 p.2)
      (Finset.mem_univ (⟨min j n, Nat.lt_succ_of_le (min_le_right j n)⟩, c))
  · refine Finset.sup'_le _ _ fun p _ => ?_
    have h := le_runMax (seqOf x) (Nat.lt_succ_iff.mp p.1.isLt) p.2
    rwa [seqOf_val] at h

/-- THE ONLINE-SOFTMAX LAW for n + 1 rows: after all of them the running pair is the maximum M
    over all (row, column) and the sum over all (row, column) of exp (entry - M). -/
theorem st_final (x : Fin (n + 1) → ι → ℝ) :
    st (seqOf x) (n + 1)
      = (((Finset.univ.sup' Finset.univ_nonempty (fun p : Fin (n + 1) × ι => x p.1 p.2) : ℝ)
            : EReal),
          ((∑ p : Fin (n + 1) × ι, Real.exp (x p.1 p.2
              - Finset.univ.sup' Finset.univ_nonempty (fun p : Fin (n + 1) × ι => x p.1 p.2)) : ℝ)
            : EReal)) := by
  rw [st_succ, runMax_seqOf, Fintype.sum_prod_type,
    ← Fin.sum_univ_eq_sum_range (fun j => ∑ c, Real.exp (seqOf x j c
        - Finset.univ.sup' Finset.univ_nonempty (fun p : Fin (n + 1) × ι => x p.1 p.2))) (n + 1)]
  simp only [seqOf_val]

end Fold

end OnlineSoftmax
-- ==== Proof.PreDecode.lean ====
/-
  The precondition, decoded.

  The precondition is a printed predicate: three "all elements satisfy" tests joined by "and".
  Read at the extended reals they say
    * every entry of the [8192, 128] input has |x| < +∞, so is a real (neither infinity),
    * the same for the [8192, 1] input,
    * every row of the [8192, 128] input has 0 < 0 + ∑ₖ x(row, k) · x(row, k).
  This file turns the statement "the predicate is all ones" into those plain facts, gives the
  third also over ℝ for real witnesses of the first, and records what a positive real sum of
  squares buys: its extended square root is the real square root, which is positive, and an
  extended quotient by a nonzero real is the real quotient.
-/
import proofs.«153547_j25572235281097_1_alg».proof.Pre_finite_inputs
import proofs.«153547_j25572235281097_1_alg».proof.Proof.Gen.Pre_finite_inputs
import Idealize.ShloMosaic.Lib.ValueIdx
import Idealize.ShloMosaic.Lib.ReduceAll
import Idealize.ShloMosaic.Lib.IdealHost
import Idealize.ShloMosaic.PureOps.Ideal.Laws

noncomputable section

namespace Cert.PreDecode

open Idealize.ShloMosaic Idealize.ShloMosaic.ValueIdx Cert.Pre_finite_inputs
open scoped BigOperators

/-! ### Facts about single extended reals -/

/-- The f32 pattern of +∞ denotes the top extended real. -/
theorem ofBits_inf_f32 : Ideal.ofBits .f32 0x7F800000#32 = ⊤ := by
  simp [Ideal.ofBits, Ideal.ieee]

/-- A "less than" comparison that answers 1 is a strict inequality. -/
theorem lt_of_cmp_olt {x y : EReal} (h : Ideal.cmp .olt x y = 1#1) : x < y := by
  by_contra hxy
  have h0 : Ideal.cmp .olt x y = 0#1 := by simp [Ideal.cmp, hxy]
  rw [h0] at h
  exact absurd h (by decide)

/-- A "greater than" comparison that answers 1 is a strict inequality. -/
theorem lt_of_cmp_ogt {x y : EReal} (h : Ideal.cmp .ogt x y = 1#1) : y < x := by
  by_contra hxy
  have h0 : Ideal.cmp .ogt x y = 0#1 := by simp [Ideal.cmp, hxy]
  rw [h0] at h
  exact absurd h (by decide)

/-- An extended real whose absolute value max x (-x) is below +∞ is a real. -/
theorem real_of_abs_lt_top (x : EReal) (h : max x (-x) < ⊤) : ∃ r : ℝ, x = (r : EReal) := by
  induction x using EReal.rec with
  | bot => simp at h
  | top => simp at h
  | coe r => exact ⟨r, rfl⟩

/-- A finite sum of reals, embedded, is the sum of the embedded reals. -/
theorem coe_sum {κ : Type*} (s : Finset κ) (f : κ → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The extended square root of a positive real is the real square root. -/
theorem sqrt_coe_of_pos {s : ℝ} (hs : 0 < s) :
    Ideal.sqrt ((s : ℝ) : EReal) = ((Real.sqrt s : ℝ) : EReal) := by
  show (if s < 0 then (⊥ : EReal) else ((Real.sqrt s : ℝ) : EReal)) = _
  rw [if_neg (not_lt.mpr hs.le)]

/-- The real square root of a positive real is positive. -/
theorem sqrt_pos_of_pos {s : ℝ} (hs : 0 < s) : 0 < Real.sqrt s := Real.sqrt_pos.mpr hs

/-- The extended quotient of a real by a nonzero real is the real quotient. -/
theorem div_coe_coe (a : ℝ) {t : ℝ} (ht : t ≠ 0) :
    Ideal.div ((a : ℝ) : EReal) ((t : ℝ) : EReal) = ((a / t : ℝ) : EReal) := by
  rw [Ideal.div_coe ht, ← EReal.coe_mul, mul_one_div]

/-! ### The predicate, split into its three tests -/

/-- The rank-0 shape has one index. -/
instance instSubsingletonS_ : Subsingleton S_.Idx := ⟨fun a b => funext fun d => d.elim0⟩

/-- The predicate being all ones says each of its three element tests answers 1 everywhere. -/
theorem decode [Facts] (e : FVec Ideal S8192x128 .f32) (p : FVec Ideal S8192x1 .f32)
    (h : fn (F := Ideal) e p = fun _ => 1#1) :
    (∀ i, cmpf .olt (Host.absf e) (broadcastInDim S8192x128 ![] Facts.bcast_S_S8192x128
        (constant (F := Ideal) S_ .f32 0x7F800000#32)) i = 1#1)
    ∧ (∀ i, cmpf .olt (Host.absf p) (broadcastInDim S8192x1 ![] Facts.bcast_S_S8192x1
        (constant (F := Ideal) S_ .f32 0x7F800000#32)) i = 1#1)
    ∧ (∀ r, cmpf .ogt
        (Host.reduceAdd (mulf e e) (constant (F := Ideal) S_ .f32 0x00000000#32)
          Facts.reducesTo_S8192x128_S8192_d1 Facts.h_S_)
        (broadcastInDim S8192 ![] Facts.bcast_S_S8192
          (constant (F := Ideal) S_ .f32 0x00000000#32)) r = 1#1) := by
  have h0 := congrFun h ValueIdx.ix0
  dsimp only [fn] at h0
  change IntOp.andi (IntOp.andi _ _) _ = 1#1 at h0
  obtain ⟨h12, h3⟩ := IntOp.andi_eq_one.1 h0
  obtain ⟨h1, h2⟩ := IntOp.andi_eq_one.1 h12
  exact ⟨fun i => Host.reduce_andi_all _ _ _ _ ix0 h1 i,
    fun i => Host.reduce_andi_all _ _ _ _ ix0 h2 i,
    fun r => Host.reduce_andi_all _ _ _ _ ix0 h3 r⟩

/-! ### (a) every entry is a real -/

/-- Every entry of the [8192, 128] input is a real. -/
theorem e_real [Facts] (e : FVec Ideal S8192x128 .f32) (p : FVec Ideal S8192x1 .f32)
    (h : fn (F := Ideal) e p = fun _ => 1#1) : ∀ i, ∃ r : ℝ, e i = (r : EReal) := by
  intro i
  have h1 := (decode e p h).1 i
  rw [cmpf_apply, broadcastInDim_scalar_apply, constant_apply, ofBits_inf_f32] at h1
  exact real_of_abs_lt_top (e i) (lt_of_cmp_olt h1)

/-- Every entry of the [8192, 1] input is a real. -/
theorem p_real [Facts] (e : FVec Ideal S8192x128 .f32) (p : FVec Ideal S8192x1 .f32)
    (h : fn (F := Ideal) e p = fun _ => 1#1) : ∀ i, ∃ r : ℝ, p i = (r : EReal) := by
  intro i
  have h2 := (decode e p h).2.1 i
  rw [cmpf_apply, broadcastInDim_scalar_apply, constant_apply, ofBits_inf_f32] at h2
  exact real_of_abs_lt_top (p i) (lt_of_cmp_olt h2)

/-! ### (b) every row has a positive sum of squares -/

/-- The row-sum shape fact in the form that names the inserted column index. -/
theorem reduces_rows : S8192x128.Reduces [1] S8192 := by decide

/-- Inserting column k into the row index r gives the index (r, k). -/
theorem lift_ix1 (r : Fin 8192) (k : Fin 128) :
    reduces_rows.lift (ix1 r) k = ix2 r k := by
  funext c
  fin_cases c <;> rfl

/-- Every row of the [8192, 128] input has a positive sum of squares, as the host's float sum
    reads it: the initial value 0 plus the sum over the 128 columns of the entry times itself. -/
theorem rowSumSq_pos [Facts] (e : FVec Ideal S8192x128 .f32) (p : FVec Ideal S8192x1 .f32)
    (h : fn (F := Ideal) e p = fun _ => 1#1) (r : Fin 8192) :
    (0 : EReal) < 0 + ∑ k : Fin 128, e (ix2 r k) * e (ix2 r k) := by
  have h3 := (decode e p h).2.2 (ix1 r)
  rw [cmpf_apply, broadcastInDim_scalar_apply, constant_apply, Ideal.ofBits_zero_f32,
    hostReduceAdd_apply, constant_apply, Ideal.ofBits_zero_f32,
    Ideal.hostReduceAdd_single Facts.reducesTo_S8192x128_S8192_d1 reduces_rows] at h3
  have h4 := lt_of_cmp_ogt h3
  refine lt_of_lt_of_eq h4 (congrArg (fun t : EReal => 0 + t) ?_)
  exact Finset.sum_congr rfl fun k _ =>
    congrArg (fun j => e j * e j) (lift_ix1 r k)

/-- The same over ℝ: for any real witnesses x of the entries, every row has 0 < ∑ₖ x r k · x r k. -/
theorem rowSumSq_pos_real [Facts] (e : FVec Ideal S8192x128 .f32) (p : FVec Ideal S8192x1 .f32)
    (h : fn (F := Ideal) e p = fun _ => 1#1) (x : Fin 8192 → Fin 128 → ℝ)
    (hx : ∀ r k, e (ix2 r k) = ((x r k : ℝ) : EReal)) (r : Fin 8192) :
    0 < ∑ k : Fin 128, x r k * x r k := by
  have hpos := rowSumSq_pos e p h r
  have hsum : (∑ k : Fin 128, e (ix2 r k) * e (ix2 r k))
      = ((∑ k : Fin 128, x r k * x r k : ℝ) : EReal) := by
    rw [coe_sum]
    exact Finset.sum_congr rfl fun k _ => by rw [hx r k, EReal.coe_mul]
  rw [hsum, zero_add] at hpos
  exact EReal.coe_pos.mp hpos

/-- Real witnesses exist: a real matrix x that the [8192, 128] input is the embedding of, every
    row of which has a positive sum of squares. -/
theorem exists_real_rows [Facts] (e : FVec Ideal S8192x128 .f32) (p : FVec Ideal S8192x1 .f32)
    (h : fn (F := Ideal) e p = fun _ => 1#1) :
    ∃ x : Fin 8192 → Fin 128 → ℝ, (∀ r k, e (ix2 r k) = ((x r k : ℝ) : EReal))
      ∧ ∀ r, 0 < ∑ k : Fin 128, x r k * x r k := by
  choose f hf using e_real e p h
  exact ⟨fun r k => f (ix2 r k), fun r k => hf (ix2 r k),
    fun r => rowSumSq_pos_real e p h _ (fun r k => hf (ix2 r k)) r⟩

/-- Real witnesses of the [8192, 1] input: a real column y that it is the embedding of. -/
theorem exists_real_col [Facts] (e : FVec Ideal S8192x128 .f32) (p : FVec Ideal S8192x1 .f32)
    (h : fn (F := Ideal) e p = fun _ => 1#1) :
    ∃ y : Fin 8192 → ℝ, ∀ r, p (ix2 r 0) = ((y r : ℝ) : EReal) := by
  choose g hg using p_real e p h
  exact ⟨fun r => g (ix2 r 0), fun r => hg (ix2 r 0)⟩

end Cert.PreDecode
-- ==== Proof.KernelRuns.lean ====
/-
  The kernel body's runs.

  The pipeline calls one body at each of the 16 × 16 grid points (row tile, column tile). The body branches
  twice on the column-tile coordinate: at coordinate 0 it first resets its four scratch buffers, and at
  coordinate 15, the last, it finally stores the two outputs from them. On a 16-wide axis the two branches
  never meet, so there are three control cases. In every case the body only loads its four inputs, and stores
  once into each scratch (running maximum, running sum, masked sum, count).

  For each case this file states and proves the body's triple on arbitrary whole memrefs: what it needs
  (inputs at their contents; outputs and scratches at given contents or at anything, as the case reads them)
  and what it leaves (each stored buffer with the pieces its stores wrote). The pieces are not transcribed:
  they are the witness the symbolic run finds. The branch conditions are given in closed form over the grid.
-/
import proofs.«153547_j25572235281097_1_alg».proof.Proof.KernelData
import proofs.«153547_j25572235281097_1_alg».proof.Proof.Gen.Kernel.Skeleton
import proofs.«153547_j25572235281097_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first branch (taken at the first column tile), from the grid coordinates. -/
abbrev cond0_0 (i : grid0.Coords) : Prop := (Scalar.cmpi .ne (Scalar.extui (Scalar.cmpi .eq (BitVec.ofNat 32 (i 1).val) 0#32)) 0#32) = 1#1

/-- The condition of the body's second branch (taken at the last column tile), from the grid coordinates. -/
abbrev cond0_1 (i : grid0.Coords) : Prop := k0_cond2 i = 1#1

/-- The first branch is taken exactly at the points whose column-tile coordinate is 0. -/
theorem hcond0_0 : ∀ t : Fin cfg0.N, cond0_0 (grid0.coords t) ↔ t.val % 16 = 0 :=
  (by decide +kernel : ∀ t : Fin grid0.N, cond0_0 (grid0.coords t) ↔ t.val % 16 = 0)

/-- The second branch is taken exactly at the points whose column-tile coordinate is 15, the last. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## The memrefs the body is called with -/

/-- Each window's current staging memref at point t, as the pipeline passes it, and its wholeness. -/
abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)

/-- The four scratch operands: whole scoped buffers of the kernel's own (running maximum, running sum,
    masked sum, count), carried between points. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3
/-- The scratches as views: what each holds is stated through its view. -/
abbrev VS0_0 : View sig .tc .vmem S512x1 .f32 := scM0_0.view
abbrev VS0_1 : View sig .tc .vmem S512x1 .f32 := scM0_1.view
abbrev VS0_2 : View sig .tc .vmem S512x1 .f32 := scM0_2.view
abbrev VS0_3 : View sig .tc .vmem S512x1 .f32 := scM0_3.view
/-- One staging buffer of each output window, through which its contents are stated. -/
abbrev VO0_4 : View sig .tc .vmem S512x1 .f32 := (Memref.whole cc0_stg4_0 : Memref sig .tc .vmem S512x1 .f32).view
abbrev VO0_5 : View sig .tc .vmem S512x1 .f32 := (Memref.whole cc0_stg5_0 : Memref sig .tc .vmem S512x1 .f32).view

/-! ## The three runs -/

set_option maxHeartbeats 1000000 in
/-- The body at a point of the FIRST case (first branch taken, second not: the column-tile coordinate is 0):
    on whole memrefs, the four inputs at their contents, the two outputs at contents it hands back untouched,
    the four scratches at anything (the first branch resets each before it is read), the body runs to the
    continuation holding the inputs and outputs as they were and each scratch with the pieces its two stores
    wrote. The pieces are the witness the run finds. -/
noncomputable def kernelRun0_A (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S512x128 .f32) (x2 : Vec F S512x1 .f32) (x3 : Vec F S1x512 .f32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi4 : Vec F S512x1 .f32) (xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨[], [], ?_, ?_, ?_, ?_, fun xi4 xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    isplitl [HS1]
    · iexists _; iexact HS1
    isplitl [HS2]
    · iexists _; iexact HS2
    iexists _; iexact HS3

set_option maxHeartbeats 1000000 in
/-- The body at a point of the MIDDLE case (neither branch taken): on whole memrefs, the four inputs at
    their contents, the two outputs at contents it hands back untouched, the four scratches at what the point
    before left, the body runs to the continuation holding the inputs and outputs as they were and each
    scratch with the pieces its one store wrote. The pieces are the witness the run finds. -/
noncomputable def kernelRun0_B (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S512x128 .f32) (x2 : Vec F S512x1 .f32) (x3 : Vec F S1x512 .f32)
    (xs0 : Vec F S512x1 .f32) (xs1 : Vec F S512x1 .f32) (xs2 : Vec F S512x1 .f32) (xs3 : Vec F S512x1 .f32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi4 : Vec F S512x1 .f32) (xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨[], [], ?_, ?_, ?_, ?_, fun xi4 xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    isplitl [HS1]
    · iexists _; iexact HS1
    isplitl [HS2]
    · iexists _; iexact HS2
    iexists _; iexact HS3

set_option maxHeartbeats 1000000 in
/-- The body at a point of the LAST case (first branch not taken, second taken: the column-tile coordinate
    is 15): on whole memrefs, the four inputs at their contents, the two outputs at anything (the second
    branch stores each whole), the four scratches at what the point before left, the body runs to the
    continuation holding the inputs as they were, each output with the pieces its store wrote, and each scratch
    with the pieces its one store wrote. The pieces are the witness the run finds. -/
noncomputable def kernelRun0_C (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32)
    (xs0 : Vec F S512x1 .f32) (xs1 : Vec F S512x1 .f32) (xs2 : Vec F S512x1 .f32) (xs3 : Vec F S512x1 .f32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    isplitl [HS0]
    · iexists _; iexact HS0
    isplitl [HS1]
    · iexists _; iexact HS1
    isplitl [HS2]
    · iexists _; iexact HS2
    iexists _; iexact HS3

end Cert.Kernel.Body

end
-- ==== Proof.KernelBody.lean ====
/-
  The body obligation of the pipeline, for exact proof data.

  From the three runs of the body (one per control case) this file builds what the pipeline's launch asks of
  the body. What each of the two outputs' staging buffers and each of the four scratch buffers holds after
  every point is defined by recursion on the point: the case the point is in, run on the point's memrefs and
  input blocks, over what the point before left in the scratches. The invariant between points holds the four
  scratches at those contents (at anything before the first point), and the generator register at some state.
  With the inputs' buffers found at their blocks at every point, the body run at any point takes the
  precondition the pipeline gives it to the postcondition the pipeline expects: the body obligation.
-/
import proofs.«153547_j25572235281097_1_alg».proof.Proof.KernelRuns

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- At the points of the first case output 4 is idle: the case stores nothing into it. -/
theorem idleAt0_4_A : ∀ t : Fin cfg0.N, cond0_0 (grid0.coords t) → ¬cond0_1 (grid0.coords t) → cfg0.idle 4 (grid0.coords t) = true := by decide +kernel
/-- At the points of the first case output 4's block is not written back. -/
theorem noFlush0_4_A : ∀ t : Fin cfg0.N, cond0_0 (grid0.coords t) → ¬cond0_1 (grid0.coords t) → (cfg0.win 4).flush t = false := by decide +kernel
/-- At the points of the middle case output 4 is idle: the case stores nothing into it. -/
theorem idleAt0_4_B : ∀ t : Fin cfg0.N, ¬cond0_0 (grid0.coords t) → ¬cond0_1 (grid0.coords t) → cfg0.idle 4 (grid0.coords t) = true := by decide +kernel
/-- At the points of the middle case output 4's block is not written back. -/
theorem noFlush0_4_B : ∀ t : Fin cfg0.N, ¬cond0_0 (grid0.coords t) → ¬cond0_1 (grid0.coords t) → (cfg0.win 4).flush t = false := by decide +kernel
/-- At the points of the last case output 4 is live: the case stores into it. -/
theorem liveAt0_4_C : ∀ t : Fin cfg0.N, ¬cond0_0 (grid0.coords t) → cond0_1 (grid0.coords t) → cfg0.idle 4 (grid0.coords t) = false := by decide +kernel
/-- At the points of the first case output 5 is idle: the case stores nothing into it. -/
theorem idleAt0_5_A : ∀ t : Fin cfg0.N, cond0_0 (grid0.coords t) → ¬cond0_1 (grid0.coords t) → cfg0.idle 5 (grid0.coords t) = true := by decide +kernel
/-- At the points of the first case output 5's block is not written back. -/
theorem noFlush0_5_A : ∀ t : Fin cfg0.N, cond0_0 (grid0.coords t) → ¬cond0_1 (grid0.coords t) → (cfg0.win 5).flush t = false := by decide +kernel
/-- At the points of the middle case output 5 is idle: the case stores nothing into it. -/
theorem idleAt0_5_B : ∀ t : Fin cfg0.N, ¬cond0_0 (grid0.coords t) → ¬cond0_1 (grid0.coords t) → cfg0.idle 5 (grid0.coords t) = true := by decide +kernel
/-- At the points of the middle case output 5's block is not written back. -/
theorem noFlush0_5_B : ∀ t : Fin cfg0.N, ¬cond0_0 (grid0.coords t) → ¬cond0_1 (grid0.coords t) → (cfg0.win 5).flush t = false := by decide +kernel
/-- At the points of the last case output 5 is live: the case stores into it. -/
theorem liveAt0_5_C : ∀ t : Fin cfg0.N, ¬cond0_0 (grid0.coords t) → cond0_1 (grid0.coords t) → cfg0.idle 5 (grid0.coords t) = false := by decide +kernel

/-! ## The invariant with the four scratches as owned memrefs -/

/-- The invariant between points of a body that describes nothing: the four scratch operands as memrefs owned
    at some contents, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (Data.V1r m c (Pipeline.arrRef spec0 w))

/-- Input window 0's current staging buffer holds its block at every point, fetched there or not, for any
    proof data whose array is the region-entry contents and whose body leaves the block in place. -/
theorem before0_0_of {c : Dev nD} (dat : Dat τ (Elt F) Unit ℕ (UR sig nD τ) ℕ cfg0 c) (hA : dat.A 0 = Data.V1r m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any
    proof data whose array is the region-entry contents and whose body leaves the block in place. -/
theorem before0_1_of {c : Dev nD} (dat : Dat τ (Elt F) Unit ℕ (UR sig nD τ) ℕ cfg0 c) (hA : dat.A 1 = Data.V1r m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any
    proof data whose array is the region-entry contents and whose body leaves the block in place. -/
theorem before0_2_of {c : Dev nD} (dat : Dat τ (Elt F) Unit ℕ (UR sig nD τ) ℕ cfg0 c) (hA : dat.A 2 = Data.V1r m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any
    proof data whose array is the region-entry contents and whose body leaves the block in place. -/
theorem before0_3_of {c : Dev nD} (dat : Dat τ (Elt F) Unit ℕ (UR sig nD τ) ℕ cfg0 c) (hA : dat.A 3 = Data.V1r m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- What the first case (reset branch taken) leaves in output 4's staging buffer: its pieces read back over junk (no pieces: a placeholder nothing consults, the window being idle and not written back at these points). -/
def out0_A_4 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S512x128 .f32) (x2 : Vec F S512x1 .f32) (x3 : Vec F S1x512 .f32) : Vec F S512x1 .f32 :=
  VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 hc0 hc1 x0 x1 x2 x3).1)

/-- What the first case (reset branch taken) leaves in output 5's staging buffer: its pieces read back over junk (no pieces: a placeholder nothing consults, the window being idle and not written back at these points). -/
def out0_A_5 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S512x128 .f32) (x2 : Vec F S512x1 .f32) (x3 : Vec F S1x512 .f32) : Vec F S512x1 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 hc1 x0 x1 x2 x3).2.1)

/-- In the first case (reset branch taken) the pieces stored into scratch 0 tile it, so they cover it. -/
theorem scover0_A_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S512x128 .f32) (x2 : Vec F S512x1 .f32) (x3 : Vec F S1x512 .f32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.1 S512x1.size (by sl_kernel_rfl) y

/-- What the first case (reset branch taken) leaves in scratch 0: its pieces read back over junk. -/
def sout0_A_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S512x128 .f32) (x2 : Vec F S512x1 .f32) (x3 : Vec F S1x512 .f32) : Vec F S512x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3).2.2.1)

/-- In the first case (reset branch taken) the pieces stored into scratch 1 tile it, so they cover it. -/
theorem scover0_A_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S512x128 .f32) (x2 : Vec F S512x1 .f32) (x3 : Vec F S1x512 .f32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.1 S512x1.size (by sl_kernel_rfl) y

/-- What the first case (reset branch taken) leaves in scratch 1: its pieces read back over junk. -/
def sout0_A_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S512x128 .f32) (x2 : Vec F S512x1 .f32) (x3 : Vec F S1x512 .f32) : Vec F S512x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3).2.2.2.1)

/-- In the first case (reset branch taken) the pieces stored into scratch 2 tile it, so they cover it. -/
theorem scover0_A_2 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S512x128 .f32) (x2 : Vec F S512x1 .f32) (x3 : Vec F S1x512 .f32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.2.1 S512x1.size (by sl_kernel_rfl) y

/-- What the first case (reset branch taken) leaves in scratch 2: its pieces read back over junk. -/
def sout0_A_2 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S512x128 .f32) (x2 : Vec F S512x1 .f32) (x3 : Vec F S1x512 .f32) : Vec F S512x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 hc0 hc1 x0 x1 x2 x3).2.2.2.2.1)

/-- In the first case (reset branch taken) the pieces stored into scratch 3 tile it, so they cover it. -/
theorem scover0_A_3 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S512x128 .f32) (x2 : Vec F S512x1 .f32) (x3 : Vec F S1x512 .f32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.2.2.1 S512x1.size (by sl_kernel_rfl) y

/-- What the first case (reset branch taken) leaves in scratch 3: its pieces read back over junk. -/
def sout0_A_3 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S512x128 .f32) (x2 : Vec F S512x1 .f32) (x3 : Vec F S1x512 .f32) : Vec F S512x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 hc0 hc1 x0 x1 x2 x3).2.2.2.2.2.1)

/-- What the middle case (neither branch taken) leaves in output 4's staging buffer: its pieces read back over junk (no pieces: a placeholder nothing consults, the window being idle and not written back at these points). -/
def out0_B_4 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) : Vec F S512x1 .f32 :=
  VO0_4.read (Elt F) (VO0_4.writes (Elt F) VO0_4.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).1)

/-- What the middle case (neither branch taken) leaves in output 5's staging buffer: its pieces read back over junk (no pieces: a placeholder nothing consults, the window being idle and not written back at these points). -/
def out0_B_5 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) : Vec F S512x1 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.1)

/-- In the middle case (neither branch taken) the pieces stored into scratch 0 tile it, so they cover it. -/
theorem scover0_B_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.1 S512x1.size (by sl_kernel_rfl) y

/-- What the middle case (neither branch taken) leaves in scratch 0: its pieces read back over junk. -/
def sout0_B_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.1)

/-- In the middle case (neither branch taken) the pieces stored into scratch 1 tile it, so they cover it. -/
theorem scover0_B_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1 S512x1.size (by sl_kernel_rfl) y

/-- What the middle case (neither branch taken) leaves in scratch 1: its pieces read back over junk. -/
def sout0_B_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1)

/-- In the middle case (neither branch taken) the pieces stored into scratch 2 tile it, so they cover it. -/
theorem scover0_B_2 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1 S512x1.size (by sl_kernel_rfl) y

/-- What the middle case (neither branch taken) leaves in scratch 2: its pieces read back over junk. -/
def sout0_B_2 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) : Vec F S512x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1)

/-- In the middle case (neither branch taken) the pieces stored into scratch 3 tile it, so they cover it. -/
theorem scover0_B_3 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1 S512x1.size (by sl_kernel_rfl) y

/-- What the middle case (neither branch taken) leaves in scratch 3: its pieces read back over junk. -/
def sout0_B_3 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) : Vec F S512x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1)

/-- In the last case (output branch taken) the pieces stored into output 4 tile its block, so they cover it. -/
theorem cover0_C_4 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).1 S512x1.size (by sl_kernel_rfl) y

/-- What the last case (output branch taken) leaves in output 4's staging buffer: its pieces read back over junk. -/
def out0_C_4 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) : Vec F S512x1 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).1)

/-- In the last case (output branch taken) the pieces stored into output 5 tile its block, so they cover it. -/
theorem cover0_C_5 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.1 S512x1.size (by sl_kernel_rfl) y

/-- What the last case (output branch taken) leaves in output 5's staging buffer: its pieces read back over junk. -/
def out0_C_5 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) : Vec F S512x1 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.1)

/-- In the last case (output branch taken) the pieces stored into scratch 0 tile it, so they cover it. -/
theorem scover0_C_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.1 S512x1.size (by sl_kernel_rfl) y

/-- What the last case (output branch taken) leaves in scratch 0: its pieces read back over junk. -/
def sout0_C_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) : Vec F S512x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.1)

/-- In the last case (output branch taken) the pieces stored into scratch 1 tile it, so they cover it. -/
theorem scover0_C_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1 S512x1.size (by sl_kernel_rfl) y

/-- What the last case (output branch taken) leaves in scratch 1: its pieces read back over junk. -/
def sout0_C_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) : Vec F S512x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1)

/-- In the last case (output branch taken) the pieces stored into scratch 2 tile it, so they cover it. -/
theorem scover0_C_2 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1 S512x1.size (by sl_kernel_rfl) y

/-- What the last case (output branch taken) leaves in scratch 2: its pieces read back over junk. -/
def sout0_C_2 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) : Vec F S512x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1)

/-- In the last case (output branch taken) the pieces stored into scratch 3 tile it, so they cover it. -/
theorem scover0_C_3 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1 S512x1.size (by sl_kernel_rfl) y

/-- What the last case (output branch taken) leaves in scratch 3: its pieces read back over junk. -/
def sout0_C_3 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) : Vec F S512x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1)

/-! ## What the outputs and the scratches hold after each point -/

/-- The six contents a point of the first case leaves (outputs 4, 5, then scratches 0..3), at the point's memrefs and input blocks. -/
def caseA (c : Dev nD) (t : Fin cfg0.N) (hc0 : cond0_0 (grid0.coords t)) (hc1 : ¬cond0_1 (grid0.coords t)) : Vec F S512x1 .f32 × Vec F S512x1 .f32 × Vec F S512x1 .f32 × Vec F S512x1 .f32 × Vec F S512x1 .f32 × Vec F S512x1 .f32 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t),
   out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t),
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t),
   sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t),
   sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t))

/-- The six contents a point of the middle case leaves, over what the point before left in the scratches (p). -/
def caseB (c : Dev nD) (t : Fin cfg0.N) (hc0 : ¬cond0_0 (grid0.coords t)) (hc1 : ¬cond0_1 (grid0.coords t)) (p : Vec F S512x1 .f32 × Vec F S512x1 .f32 × Vec F S512x1 .f32 × Vec F S512x1 .f32 × Vec F S512x1 .f32 × Vec F S512x1 .f32) : Vec F S512x1 .f32 × Vec F S512x1 .f32 × Vec F S512x1 .f32 × Vec F S512x1 .f32 × Vec F S512x1 .f32 × Vec F S512x1 .f32 :=
  (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.2.2.1 p.2.2.2.1 p.2.2.2.2.1 p.2.2.2.2.2,
   out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.2.2.1 p.2.2.2.1 p.2.2.2.2.1 p.2.2.2.2.2,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.2.2.1 p.2.2.2.1 p.2.2.2.2.1 p.2.2.2.2.2,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.2.2.1 p.2.2.2.1 p.2.2.2.2.1 p.2.2.2.2.2,
   sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.2.2.1 p.2.2.2.1 p.2.2.2.2.1 p.2.2.2.2.2,
   sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.2.2.1 p.2.2.2.1 p.2.2.2.2.1 p.2.2.2.2.2)

/-- The six contents a point of the last case leaves, over what the point before left in the scratches (p). -/
def caseC (c : Dev nD) (t : Fin cfg0.N) (hc0 : ¬cond0_0 (grid0.coords t)) (hc1 : cond0_1 (grid0.coords t)) (p : Vec F S512x1 .f32 × Vec F S512x1 .f32 × Vec F S512x1 .f32 × Vec F S512x1 .f32 × Vec F S512x1 .f32 × Vec F S512x1 .f32) : Vec F S512x1 .f32 × Vec F S512x1 .f32 × Vec F S512x1 .f32 × Vec F S512x1 .f32 × Vec F S512x1 .f32 × Vec F S512x1 .f32 :=
  (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.2.2.1 p.2.2.2.1 p.2.2.2.2.1 p.2.2.2.2.2,
   out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.2.2.1 p.2.2.2.1 p.2.2.2.2.1 p.2.2.2.2.2,
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.2.2.1 p.2.2.2.1 p.2.2.2.2.1 p.2.2.2.2.2,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.2.2.1 p.2.2.2.1 p.2.2.2.2.1 p.2.2.2.2.2,
   sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.2.2.1 p.2.2.2.1 p.2.2.2.2.1 p.2.2.2.2.2,
   sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.2.2.1 p.2.2.2.1 p.2.2.2.2.1 p.2.2.2.2.2)

/-- THE ACCUMULATION. What the two outputs' staging buffers and the four scratches hold after the body at position
    n (a tuple: outputs 4, 5, then scratches 0..3): the case the closed forms select at n, run at the point's memrefs
    and input blocks, over what this leaves at n - 1 in the scratches. The two conditions never hold together. -/
def outsAt0 (c : Dev nD) : (n : ℕ) → n < cfg0.N → Vec F S512x1 .f32 × Vec F S512x1 .f32 × Vec F S512x1 .f32 × Vec F S512x1 .f32 × Vec F S512x1 .f32 × Vec F S512x1 .f32
  | 0, hn => caseA m c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 16 = 0 then
      if h1 : (n + 1) % 16 = 15 then
        False.elim (by omega)
      else
        caseA m c ⟨n + 1, hn⟩ ((hcond0_0 ⟨n + 1, hn⟩).mpr h0) (fun h => h1 ((hcond0_1 ⟨n + 1, hn⟩).mp h))
    else
      if h1 : (n + 1) % 16 = 15 then
        caseC m c ⟨n + 1, hn⟩ (fun h => h0 ((hcond0_0 ⟨n + 1, hn⟩).mp h)) ((hcond0_1 ⟨n + 1, hn⟩).mpr h1) (outsAt0 c n (Nat.lt_of_succ_lt hn))
      else
        caseB m c ⟨n + 1, hn⟩ (fun h => h0 ((hcond0_0 ⟨n + 1, hn⟩).mp h)) (fun h => h1 ((hcond0_1 ⟨n + 1, hn⟩).mp h)) (outsAt0 c n (Nat.lt_of_succ_lt hn))

/-- The accumulation at a point of the first case: that case's contents. -/
theorem outsAt0_A (c : Dev nD) (t : Fin cfg0.N) (h0 : t.val % 16 = 0) (h1 : ¬t.val % 16 = 15) :
    outsAt0 m c t.val t.isLt = caseA m c t ((hcond0_0 t).mpr h0) (fun h => h1 ((hcond0_1 t).mp h)) := by
  obtain ⟨n, hn⟩ := t
  cases n with
  | zero => exact rfl
  | succ n => exact (dif_pos h0).trans ((dif_neg h1).trans rfl)

/-- The accumulation at a point of the middle case: that case's contents, over what the point before left. -/
theorem outsAt0_B (c : Dev nD) (t : Fin cfg0.N) (h0 : ¬t.val % 16 = 0) (h1 : ¬t.val % 16 = 15) :
    outsAt0 m c t.val t.isLt = caseB m c t (fun h => h0 ((hcond0_0 t).mp h)) (fun h => h1 ((hcond0_1 t).mp h))
      (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- The accumulation at a point of the last case: that case's contents, over what the point before left. -/
theorem outsAt0_C (c : Dev nD) (t : Fin cfg0.N) (h0 : ¬t.val % 16 = 0) (h1 : t.val % 16 = 15) :
    outsAt0 m c t.val t.isLt = caseC m c t (fun h => h0 ((hcond0_0 t).mp h)) ((hcond0_1 t).mpr h1)
      (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The invariant before position n: before the first point the four scratches at anything; afterwards each
    scratch at what the point before left in it; always the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2.1) ∗ owns (c : Thread nD τ) scM0_3 fullShare ((outsAt0 m c n hn).2.2.2.2.2)) ∗ (∃ r, prngReg c r))

/-- Before the first point the invariant is the launch's. -/
theorem PhiS_zero (c : Dev nD) (n : ℕ) (h : n ≤ cfg0.N) (hz : n = 0) : PhiS m c n h = Pipeline.ΦA spec0 c := by
  subst hz; rfl

/-- After point n (before point n + 1): the scratches at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2.1) ∗ owns (c : Thread nD τ) scM0_3 fullShare ((outsAt0 m c n hn).2.2.2.2.2)) ∗ (∃ r, prngReg c r)) := rfl

/-- Before a point that is not the first: the scratches at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1) ∗ owns (c : Thread nD τ) scM0_2 fullShare ((outsAt0 m c (n - 1) (by omega)).2.2.2.2.1) ∗ owns (c : Thread nD τ) scM0_3 fullShare ((outsAt0 m c (n - 1) (by omega)).2.2.2.2.2)) ∗ (∃ r, prngReg c r)) := by
  cases n with
  | zero => exact absurd rfl hz
  | succ n => rfl

/-! ## The proof data's two parameters -/

/-- What the body leaves in each window's staging buffer after point t: an input's block; an output's contents
    from the accumulation. -/
def after (c : Dev nD) (w : Fin cfg0.W) (t : Fin cfg0.N) : (cfg0.win w).block.Idx → Elt F (cfg0.win w).elt :=
  match w with
  | ⟨0, _⟩ => iblk m c 0 t
  | ⟨1, _⟩ => iblk m c 1 t
  | ⟨2, _⟩ => iblk m c 2 t
  | ⟨3, _⟩ => iblk m c 3 t
  | ⟨4, _⟩ => (outsAt0 m c t.val t.isLt).1
  | ⟨5, _⟩ => (outsAt0 m c t.val t.isLt).2.1

/-- The invariant before each point. -/
def Φ (c : Dev nD) (t : Fin (cfg0.N + 1)) : sProp 𝕄 := PhiS m c t.val (Nat.le_of_lt_succ t.isLt)

/-- The pipeline's proof data on core c at these two parameters. -/
abbrev dats (c : Dev nD) : Dat τ (Elt F) Unit ℕ (UR sig nD τ) ℕ cfg0 c := Data.datOf m (after m) (Φ m) 0 c

/-- Before the first point the invariant is the one the launch hands over. -/
theorem Phi_zero (c : Dev nD) : Φ m c 0 = Pipeline.ΦA spec0 c := rfl

/-- After any point but the first the invariant gives the launch's back: the scratches' named contents are forgotten. -/
theorem Phi_pos_out (c : Dev nD) (t : Fin (cfg0.N + 1)) (ht : t.val ≠ 0) : Φ m c t ⊢ Pipeline.ΦA spec0 c := by
  rw [show Φ m c t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- The same after the last point. -/
theorem Phi_out (c : Dev nD) : Φ m c (Fin.last cfg0.N) ⊢ Pipeline.ΦA spec0 c :=
  Phi_pos_out m c _ (by rw [Fin.val_last]; have : cfg0.N = 256 := N_0; omega)

/-! ## The proof data read off -/

/-- The invariant at a point's start (the proof data at t.castSucc), restated at t.val. -/
theorem PhiS_castSucc (c : Dev nD) (t : Fin cfg0.N) :
    (dats m c).Φ t.castSucc = PhiS m c t.val (Nat.le_of_lt t.isLt) := by
  dsimp only [dats, Data.datOf, Φ]; simp only [Fin.coe_castSucc]

/-- What the body leaves, window by window. -/
theorem after0_0 (c : Dev nD) (t : Fin cfg0.N) : (dats m c).after 0 t = iblk m c 0 t := by dsimp only [dats, Data.datOf, after]
/-- Input window 1's buffer is left at its block. -/
theorem after0_1 (c : Dev nD) (t : Fin cfg0.N) : (dats m c).after 1 t = iblk m c 1 t := by dsimp only [dats, Data.datOf, after]
/-- Input window 2's buffer is left at its block. -/
theorem after0_2 (c : Dev nD) (t : Fin cfg0.N) : (dats m c).after 2 t = iblk m c 2 t := by dsimp only [dats, Data.datOf, after]
/-- Input window 3's buffer is left at its block. -/
theorem after0_3 (c : Dev nD) (t : Fin cfg0.N) : (dats m c).after 3 t = iblk m c 3 t := by dsimp only [dats, Data.datOf, after]
/-- Output window 4's buffer is left at the accumulation's first component. -/
theorem after0_4 (c : Dev nD) (t : Fin cfg0.N) : (dats m c).after 4 t = (outsAt0 m c t.val t.isLt).1 := by dsimp only [dats, Data.datOf, after]
/-- Output window 5's buffer is left at the accumulation's second component. -/
theorem after0_5 (c : Dev nD) (t : Fin cfg0.N) : (dats m c).after 5 t = (outsAt0 m c t.val t.isLt).2.1 := by dsimp only [dats, Data.datOf, after]

/-- Each input's current staging buffer holds its block at every point, fetched there or not. -/
theorem before0_0 (c : Dev nD) (t : Fin cfg0.N) (d) : (dats m c).before 0 t d = iblk m c 0 t :=
  before0_0_of m (dats m c) (by dsimp only [dats, Data.datOf]) (after0_0 m c) t d
/-- Input window 1's current staging buffer holds its block at every point. -/
theorem before0_1 (c : Dev nD) (t : Fin cfg0.N) (d) : (dats m c).before 1 t d = iblk m c 1 t :=
  before0_1_of m (dats m c) (by dsimp only [dats, Data.datOf]) (after0_1 m c) t d
/-- Input window 2's current staging buffer holds its block at every point. -/
theorem before0_2 (c : Dev nD) (t : Fin cfg0.N) (d) : (dats m c).before 2 t d = iblk m c 2 t :=
  before0_2_of m (dats m c) (by dsimp only [dats, Data.datOf]) (after0_2 m c) t d
/-- Input window 3's current staging buffer holds its block at every point. -/
theorem before0_3 (c : Dev nD) (t : Fin cfg0.N) (d) : (dats m c).before 3 t d = iblk m c 3 t :=
  before0_3_of m (dats m c) (by dsimp only [dats, Data.datOf]) (after0_3 m c) t d

/-! ## The body obligation, at a generic point -/

/-- What the body is called with at point t (the windows one by one), -/
def bodyPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ d, owns (c : Thread nD τ) (ms0_3 t) fullShare ((dats m c).before 3 t d))
    ∗ (∃ d, owns (c : Thread nD τ) (ms0_4 t) fullShare ((dats m c).before 4 t d))
    ∗ (∃ d, owns (c : Thread nD τ) (ms0_5 t) fullShare ((dats m c).before 5 t d)))

/-- and what it returns. -/
def bodyPost (c : Dev nD) (t : Fin cfg0.N) : sProp 𝕄 :=
  iprop((dats m c).Φ t.succ ∗ (dats m c).owesAt () t.succ
    ∗ (dats m c).leavesExact 0 t
    ∗ (dats m c).leavesExact 1 t
    ∗ (dats m c).leavesExact 2 t
    ∗ (dats m c).leavesExact 3 t
    ∗ (dats m c).leavesExact 4 t
    ∗ (dats m c).leavesExact 5 t)

set_option maxHeartbeats 16000000 in
/-- The body at any point: the inputs' memrefs hold their blocks; the closed forms say which case the point is
    in; that case's run applies, the invariant handing it the scratches at what the point before left (at anything
    at the first point) and taking them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m c).owesAt () t.succ = (dats m c).owesAt () t.castSucc from rfl]
  rw [show (dats m c).Φ t.succ = PhiS m c (t.val + 1) t.isLt from rfl, PhiS_succ]
  have hN : t.val < 256 := lt_of_lt_of_eq t.isLt (show cfg0.N = 256 from N_0)
  by_cases h0 : t.val % 16 = 0
  · by_cases h1 : t.val % 16 = 15
    · exfalso; omega
    · rw [show (dats m c).leavesExact 0 t = owns (c : Thread nD τ) (ms0_0 t) fullShare ((dats m c).after 0 t) from by
          unfold Dat.leavesExact; rw [liveAt0_0 t], after0_0]
      rw [show (dats m c).leavesExact 1 t = owns (c : Thread nD τ) (ms0_1 t) fullShare ((dats m c).after 1 t) from by
          unfold Dat.leavesExact; rw [liveAt0_1 t], after0_1]
      rw [show (dats m c).leavesExact 2 t = owns (c : Thread nD τ) (ms0_2 t) fullShare ((dats m c).after 2 t) from by
          unfold Dat.leavesExact; rw [liveAt0_2 t], after0_2]
      rw [show (dats m c).leavesExact 3 t = owns (c : Thread nD τ) (ms0_3 t) fullShare ((dats m c).after 3 t) from by
          unfold Dat.leavesExact; rw [liveAt0_3 t], after0_3]
      rw [Dat.leavesExact_idle (dats m c) 4 t (idleAt0_4_A t ((hcond0_0 t).mpr h0) (fun h => h1 ((hcond0_1 t).mp h))) (noFlush0_4_A t ((hcond0_0 t).mpr h0) (fun h => h1 ((hcond0_1 t).mp h)))]
      rw [Dat.leavesExact_idle (dats m c) 5 t (idleAt0_5_A t ((hcond0_0 t).mpr h0) (fun h => h1 ((hcond0_1 t).mp h))) (noFlush0_5_A t ((hcond0_0 t).mpr h0) (fun h => h1 ((hcond0_1 t).mp h)))]
      rw [outsAt0_A m c t h0 h1]
      unfold caseA; (try dsimp only)
      unfold sout0_A_0 sout0_A_1 sout0_A_2 sout0_A_3; (try dsimp only)
      by_cases hz : t.val = 0
      · rw [PhiS_castSucc m c t, PhiS_zero m c _ _ hz, PhiA0_eq]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        isplitl [HS3]; · iexists _; iexact HS3
        iintro ⟨H0, H1, H2, H3, H4, H5, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
  · by_cases h1 : t.val % 16 = 15
    · rw [show (dats m c).leavesExact 0 t = owns (c : Thread nD τ) (ms0_0 t) fullShare ((dats m c).after 0 t) from by
          unfold Dat.leavesExact; rw [liveAt0_0 t], after0_0]
      rw [show (dats m c).leavesExact 1 t = owns (c : Thread nD τ) (ms0_1 t) fullShare ((dats m c).after 1 t) from by
          unfold Dat.leavesExact; rw [liveAt0_1 t], after0_1]
      rw [show (dats m c).leavesExact 2 t = owns (c : Thread nD τ) (ms0_2 t) fullShare ((dats m c).after 2 t) from by
          unfold Dat.leavesExact; rw [liveAt0_2 t], after0_2]
      rw [show (dats m c).leavesExact 3 t = owns (c : Thread nD τ) (ms0_3 t) fullShare ((dats m c).after 3 t) from by
          unfold Dat.leavesExact; rw [liveAt0_3 t], after0_3]
      rw [show (dats m c).leavesExact 4 t = owns (c : Thread nD τ) (ms0_4 t) fullShare ((dats m c).after 4 t) from by
          unfold Dat.leavesExact; rw [liveAt0_4_C t (fun h => h0 ((hcond0_0 t).mp h)) ((hcond0_1 t).mpr h1)], after0_4]
      rw [show (dats m c).leavesExact 5 t = owns (c : Thread nD τ) (ms0_5 t) fullShare ((dats m c).after 5 t) from by
          unfold Dat.leavesExact; rw [liveAt0_5_C t (fun h => h0 ((hcond0_0 t).mp h)) ((hcond0_1 t).mpr h1)], after0_5]
      rw [outsAt0_C m c t h0 h1]
      unfold caseC; (try dsimp only)
      unfold out0_C_4 out0_C_5 sout0_C_0 sout0_C_1 sout0_C_2 sout0_C_3; (try dsimp only)
      by_cases hz : t.val = 0
      · exfalso; omega
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) _ _ _ _).2.2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        isplitl [HS2]; · iexact HS2
        isplitl [HS3]; · iexact HS3
        iintro ⟨H0, H1, H2, H3, ⟨%e4, H4⟩, ⟨%e5, H5⟩, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_C_3 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _ _)
    · rw [show (dats m c).leavesExact 0 t = owns (c : Thread nD τ) (ms0_0 t) fullShare ((dats m c).after 0 t) from by
          unfold Dat.leavesExact; rw [liveAt0_0 t], after0_0]
      rw [show (dats m c).leavesExact 1 t = owns (c : Thread nD τ) (ms0_1 t) fullShare ((dats m c).after 1 t) from by
          unfold Dat.leavesExact; rw [liveAt0_1 t], after0_1]
      rw [show (dats m c).leavesExact 2 t = owns (c : Thread nD τ) (ms0_2 t) fullShare ((dats m c).after 2 t) from by
          unfold Dat.leavesExact; rw [liveAt0_2 t], after0_2]
      rw [show (dats m c).leavesExact 3 t = owns (c : Thread nD τ) (ms0_3 t) fullShare ((dats m c).after 3 t) from by
          unfold Dat.leavesExact; rw [liveAt0_3 t], after0_3]
      rw [Dat.leavesExact_idle (dats m c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [Dat.leavesExact_idle (dats m c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B m c t h0 h1]
      unfold caseB; (try dsimp only)
      unfold sout0_B_0 sout0_B_1 sout0_B_2 sout0_B_3; (try dsimp only)
      by_cases hz : t.val = 0
      · exfalso; omega
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _ _).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

/-- The pipeline's body obligation, at every point, for the proof data at these two parameters. -/
theorem body_obligation (c : Dev nD) :
    BodyObligation (Data.datOf m (after m) (Φ m) 0 c) (defs₀ (F := F)) Variants.none () Set.univ := fun t => by
  rw [bigSep_W0, bigSep_W0]
  exact sound_body m c t

end Cert.Kernel.Body

end
-- ==== Proof.KernelIdealRuns.lean ====
/-
  The kernel body's runs.

  The pipeline calls one body at each of the 16 × 16 grid points (row tile, column tile). The body branches
  twice on the column-tile coordinate: at coordinate 0 it first resets its four scratch buffers, and at
  coordinate 15, the last, it finally stores the two outputs from them. On a 16-wide axis the two branches
  never meet, so there are three control cases. In every case the body only loads its four inputs, and stores
  once into each scratch (running maximum, running sum, masked sum, count).

  For each case this file states and proves the body's triple on arbitrary whole memrefs: what it needs
  (inputs at their contents; outputs and scratches at given contents or at anything, as the case reads them)
  and what it leaves (each stored buffer with the pieces its stores wrote). The pieces are not transcribed:
  they are the witness the symbolic run finds. The branch conditions are given in closed form over the grid.
-/
import proofs.«153547_j25572235281097_1_alg».proof.Proof.KernelIdealData
import proofs.«153547_j25572235281097_1_alg».proof.Proof.Gen.KernelIdeal.Skeleton
import proofs.«153547_j25572235281097_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's first branch (taken at the first column tile), from the grid coordinates. -/
abbrev cond0_0 (i : grid0.Coords) : Prop := (Scalar.cmpi .ne (Scalar.extui (Scalar.cmpi .eq (BitVec.ofNat 32 (i 1).val) 0#32)) 0#32) = 1#1

/-- The condition of the body's second branch (taken at the last column tile), from the grid coordinates. -/
abbrev cond0_1 (i : grid0.Coords) : Prop := k0_cond2 i = 1#1

/-- The first branch is taken exactly at the points whose column-tile coordinate is 0. -/
theorem hcond0_0 : ∀ t : Fin cfg0.N, cond0_0 (grid0.coords t) ↔ t.val % 16 = 0 :=
  (by decide +kernel : ∀ t : Fin grid0.N, cond0_0 (grid0.coords t) ↔ t.val % 16 = 0)

/-- The second branch is taken exactly at the points whose column-tile coordinate is 15, the last. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## The memrefs the body is called with -/

/-- Each window's current staging memref at point t, as the pipeline passes it, and its wholeness. -/
abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)

/-- The four scratch operands: whole scoped buffers of the kernel's own (running maximum, running sum,
    masked sum, count), carried between points. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3
/-- The scratches as views: what each holds is stated through its view. -/
abbrev VS0_0 : View sig .tc .vmem S512x1 .f32 := scM0_0.view
abbrev VS0_1 : View sig .tc .vmem S512x1 .f32 := scM0_1.view
abbrev VS0_2 : View sig .tc .vmem S512x1 .f32 := scM0_2.view
abbrev VS0_3 : View sig .tc .vmem S512x1 .f32 := scM0_3.view
/-- One staging buffer of each output window, through which its contents are stated. -/
abbrev VO0_4 : View sig .tc .vmem S512x1 .f32 := (Memref.whole cc0_stg4_0 : Memref sig .tc .vmem S512x1 .f32).view
abbrev VO0_5 : View sig .tc .vmem S512x1 .f32 := (Memref.whole cc0_stg5_0 : Memref sig .tc .vmem S512x1 .f32).view

/-! ## The three runs -/

set_option maxHeartbeats 1000000 in
/-- The body at a point of the FIRST case (first branch taken, second not: the column-tile coordinate is 0):
    on whole memrefs, the four inputs at their contents, the two outputs at contents it hands back untouched,
    the four scratches at anything (the first branch resets each before it is read), the body runs to the
    continuation holding the inputs and outputs as they were and each scratch with the pieces its two stores
    wrote. The pieces are the witness the run finds. -/
noncomputable def kernelRun0_A (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S512x128 .f32) (x2 : Vec F S512x1 .f32) (x3 : Vec F S1x512 .f32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi4 : Vec F S512x1 .f32) (xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨[], [], ?_, ?_, ?_, ?_, fun xi4 xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    isplitl [HS1]
    · iexists _; iexact HS1
    isplitl [HS2]
    · iexists _; iexact HS2
    iexists _; iexact HS3

set_option maxHeartbeats 1000000 in
/-- The body at a point of the MIDDLE case (neither branch taken): on whole memrefs, the four inputs at
    their contents, the two outputs at contents it hands back untouched, the four scratches at what the point
    before left, the body runs to the continuation holding the inputs and outputs as they were and each
    scratch with the pieces its one store wrote. The pieces are the witness the run finds. -/
noncomputable def kernelRun0_B (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S512x128 .f32) (x2 : Vec F S512x1 .f32) (x3 : Vec F S1x512 .f32)
    (xs0 : Vec F S512x1 .f32) (xs1 : Vec F S512x1 .f32) (xs2 : Vec F S512x1 .f32) (xs3 : Vec F S512x1 .f32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi4 : Vec F S512x1 .f32) (xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨[], [], ?_, ?_, ?_, ?_, fun xi4 xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; iexact HS0
    isplitl [HS1]
    · iexists _; iexact HS1
    isplitl [HS2]
    · iexists _; iexact HS2
    iexists _; iexact HS3

set_option maxHeartbeats 1000000 in
/-- The body at a point of the LAST case (first branch not taken, second taken: the column-tile coordinate
    is 15): on whole memrefs, the four inputs at their contents, the two outputs at anything (the second
    branch stores each whole), the four scratches at what the point before left, the body runs to the
    continuation holding the inputs as they were, each output with the pieces its store wrote, and each scratch
    with the pieces its one store wrote. The pieces are the witness the run finds. -/
noncomputable def kernelRun0_C (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32)
    (xs0 : Vec F S512x1 .f32) (xs1 : Vec F S512x1 .f32) (xs2 : Vec F S512x1 .f32) (xs3 : Vec F S512x1 .f32) :
    Σ' (L4 : List (View.Piece (Elt F) S512x1 .f32)) (L5 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; iexact H5
    isplitl [HS0]
    · iexists _; iexact HS0
    isplitl [HS1]
    · iexists _; iexact HS1
    isplitl [HS2]
    · iexists _; iexact HS2
    iexists _; iexact HS3

end Cert.KernelIdeal.Body

end
-- ==== Proof.KernelIdealBody.lean ====
/-
  The body obligation of the pipeline, for exact proof data.

  From the three runs of the body (one per control case) this file builds what the pipeline's launch asks of
  the body. What each of the two outputs' staging buffers and each of the four scratch buffers holds after
  every point is defined by recursion on the point: the case the point is in, run on the point's memrefs and
  input blocks, over what the point before left in the scratches. The invariant between points holds the four
  scratches at those contents (at anything before the first point), and the generator register at some state.
  With the inputs' buffers found at their blocks at every point, the body run at any point takes the
  precondition the pipeline gives it to the postcondition the pipeline expects: the body obligation.
-/
import proofs.«153547_j25572235281097_1_alg».proof.Proof.KernelIdealRuns

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- At the points of the first case output 4 is idle: the case stores nothing into it. -/
theorem idleAt0_4_A : ∀ t : Fin cfg0.N, cond0_0 (grid0.coords t) → ¬cond0_1 (grid0.coords t) → cfg0.idle 4 (grid0.coords t) = true := by decide +kernel
/-- At the points of the first case output 4's block is not written back. -/
theorem noFlush0_4_A : ∀ t : Fin cfg0.N, cond0_0 (grid0.coords t) → ¬cond0_1 (grid0.coords t) → (cfg0.win 4).flush t = false := by decide +kernel
/-- At the points of the middle case output 4 is idle: the case stores nothing into it. -/
theorem idleAt0_4_B : ∀ t : Fin cfg0.N, ¬cond0_0 (grid0.coords t) → ¬cond0_1 (grid0.coords t) → cfg0.idle 4 (grid0.coords t) = true := by decide +kernel
/-- At the points of the middle case output 4's block is not written back. -/
theorem noFlush0_4_B : ∀ t : Fin cfg0.N, ¬cond0_0 (grid0.coords t) → ¬cond0_1 (grid0.coords t) → (cfg0.win 4).flush t = false := by decide +kernel
/-- At the points of the last case output 4 is live: the case stores into it. -/
theorem liveAt0_4_C : ∀ t : Fin cfg0.N, ¬cond0_0 (grid0.coords t) → cond0_1 (grid0.coords t) → cfg0.idle 4 (grid0.coords t) = false := by decide +kernel
/-- At the points of the first case output 5 is idle: the case stores nothing into it. -/
theorem idleAt0_5_A : ∀ t : Fin cfg0.N, cond0_0 (grid0.coords t) → ¬cond0_1 (grid0.coords t) → cfg0.idle 5 (grid0.coords t) = true := by decide +kernel
/-- At the points of the first case output 5's block is not written back. -/
theorem noFlush0_5_A : ∀ t : Fin cfg0.N, cond0_0 (grid0.coords t) → ¬cond0_1 (grid0.coords t) → (cfg0.win 5).flush t = false := by decide +kernel
/-- At the points of the middle case output 5 is idle: the case stores nothing into it. -/
theorem idleAt0_5_B : ∀ t : Fin cfg0.N, ¬cond0_0 (grid0.coords t) → ¬cond0_1 (grid0.coords t) → cfg0.idle 5 (grid0.coords t) = true := by decide +kernel
/-- At the points of the middle case output 5's block is not written back. -/
theorem noFlush0_5_B : ∀ t : Fin cfg0.N, ¬cond0_0 (grid0.coords t) → ¬cond0_1 (grid0.coords t) → (cfg0.win 5).flush t = false := by decide +kernel
/-- At the points of the last case output 5 is live: the case stores into it. -/
theorem liveAt0_5_C : ∀ t : Fin cfg0.N, ¬cond0_0 (grid0.coords t) → cond0_1 (grid0.coords t) → cfg0.idle 5 (grid0.coords t) = false := by decide +kernel

/-! ## The invariant with the four scratches as owned memrefs -/

/-- The invariant between points of a body that describes nothing: the four scratch operands as memrefs owned
    at some contents, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (Data.V1r m c (Pipeline.arrRef spec0 w))

/-- Input window 0's current staging buffer holds its block at every point, fetched there or not, for any
    proof data whose array is the region-entry contents and whose body leaves the block in place. -/
theorem before0_0_of {c : Dev nD} (dat : Dat τ (Elt F) Unit ℕ (UR sig nD τ) ℕ cfg0 c) (hA : dat.A 0 = Data.V1r m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any
    proof data whose array is the region-entry contents and whose body leaves the block in place. -/
theorem before0_1_of {c : Dev nD} (dat : Dat τ (Elt F) Unit ℕ (UR sig nD τ) ℕ cfg0 c) (hA : dat.A 1 = Data.V1r m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any
    proof data whose array is the region-entry contents and whose body leaves the block in place. -/
theorem before0_2_of {c : Dev nD} (dat : Dat τ (Elt F) Unit ℕ (UR sig nD τ) ℕ cfg0 c) (hA : dat.A 2 = Data.V1r m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any
    proof data whose array is the region-entry contents and whose body leaves the block in place. -/
theorem before0_3_of {c : Dev nD} (dat : Dat τ (Elt F) Unit ℕ (UR sig nD τ) ℕ cfg0 c) (hA : dat.A 3 = Data.V1r m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- What the first case (reset branch taken) leaves in output 4's staging buffer: its pieces read back over junk (no pieces: a placeholder nothing consults, the window being idle and not written back at these points). -/
def out0_A_4 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S512x128 .f32) (x2 : Vec F S512x1 .f32) (x3 : Vec F S1x512 .f32) : Vec F S512x1 .f32 :=
  VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 hc0 hc1 x0 x1 x2 x3).1)

/-- What the first case (reset branch taken) leaves in output 5's staging buffer: its pieces read back over junk (no pieces: a placeholder nothing consults, the window being idle and not written back at these points). -/
def out0_A_5 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S512x128 .f32) (x2 : Vec F S512x1 .f32) (x3 : Vec F S1x512 .f32) : Vec F S512x1 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 hc1 x0 x1 x2 x3).2.1)

/-- In the first case (reset branch taken) the pieces stored into scratch 0 tile it, so they cover it. -/
theorem scover0_A_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S512x128 .f32) (x2 : Vec F S512x1 .f32) (x3 : Vec F S1x512 .f32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.1 S512x1.size (by sl_kernel_rfl) y

/-- What the first case (reset branch taken) leaves in scratch 0: its pieces read back over junk. -/
def sout0_A_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S512x128 .f32) (x2 : Vec F S512x1 .f32) (x3 : Vec F S1x512 .f32) : Vec F S512x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3).2.2.1)

/-- In the first case (reset branch taken) the pieces stored into scratch 1 tile it, so they cover it. -/
theorem scover0_A_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S512x128 .f32) (x2 : Vec F S512x1 .f32) (x3 : Vec F S1x512 .f32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.1 S512x1.size (by sl_kernel_rfl) y

/-- What the first case (reset branch taken) leaves in scratch 1: its pieces read back over junk. -/
def sout0_A_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S512x128 .f32) (x2 : Vec F S512x1 .f32) (x3 : Vec F S1x512 .f32) : Vec F S512x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3).2.2.2.1)

/-- In the first case (reset branch taken) the pieces stored into scratch 2 tile it, so they cover it. -/
theorem scover0_A_2 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S512x128 .f32) (x2 : Vec F S512x1 .f32) (x3 : Vec F S1x512 .f32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.2.1 S512x1.size (by sl_kernel_rfl) y

/-- What the first case (reset branch taken) leaves in scratch 2: its pieces read back over junk. -/
def sout0_A_2 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S512x128 .f32) (x2 : Vec F S512x1 .f32) (x3 : Vec F S1x512 .f32) : Vec F S512x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 hc0 hc1 x0 x1 x2 x3).2.2.2.2.1)

/-- In the first case (reset branch taken) the pieces stored into scratch 3 tile it, so they cover it. -/
theorem scover0_A_3 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S512x128 .f32) (x2 : Vec F S512x1 .f32) (x3 : Vec F S1x512 .f32) (y : S512x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3).2.2.2.2.2.1 S512x1.size (by sl_kernel_rfl) y

/-- What the first case (reset branch taken) leaves in scratch 3: its pieces read back over junk. -/
def sout0_A_3 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S512x128 .f32) (x2 : Vec F S512x1 .f32) (x3 : Vec F S1x512 .f32) : Vec F S512x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 hc0 hc1 x0 x1 x2 x3).2.2.2.2.2.1)

/-- What the middle case (neither branch taken) leaves in output 4's staging buffer: its pieces read back over junk (no pieces: a placeholder nothing consults, the window being idle and not written back at these points). -/
def out0_B_4 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) : Vec F S512x1 .f32 :=
  VO0_4.read (Elt F) (VO0_4.writes (Elt F) VO0_4.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).1)

/-- What the middle case (neither branch taken) leaves in output 5's staging buffer: its pieces read back over junk (no pieces: a placeholder nothing consults, the window being idle and not written back at these points). -/
def out0_B_5 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) : Vec F S512x1 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.1)

/-- In the middle case (neither branch taken) the pieces stored into scratch 0 tile it, so they cover it. -/
theorem scover0_B_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.1 S512x1.size (by sl_kernel_rfl) y

/-- What the middle case (neither branch taken) leaves in scratch 0: its pieces read back over junk. -/
def sout0_B_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.1)

/-- In the middle case (neither branch taken) the pieces stored into scratch 1 tile it, so they cover it. -/
theorem scover0_B_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1 S512x1.size (by sl_kernel_rfl) y

/-- What the middle case (neither branch taken) leaves in scratch 1: its pieces read back over junk. -/
def sout0_B_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1)

/-- In the middle case (neither branch taken) the pieces stored into scratch 2 tile it, so they cover it. -/
theorem scover0_B_2 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1 S512x1.size (by sl_kernel_rfl) y

/-- What the middle case (neither branch taken) leaves in scratch 2: its pieces read back over junk. -/
def sout0_B_2 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) : Vec F S512x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1)

/-- In the middle case (neither branch taken) the pieces stored into scratch 3 tile it, so they cover it. -/
theorem scover0_B_3 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1 S512x1.size (by sl_kernel_rfl) y

/-- What the middle case (neither branch taken) leaves in scratch 3: its pieces read back over junk. -/
def sout0_B_3 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) : Vec F S512x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1)

/-- In the last case (output branch taken) the pieces stored into output 4 tile its block, so they cover it. -/
theorem cover0_C_4 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).1 S512x1.size (by sl_kernel_rfl) y

/-- What the last case (output branch taken) leaves in output 4's staging buffer: its pieces read back over junk. -/
def out0_C_4 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) : Vec F S512x1 .f32 :=
  VO0_4.read (Elt F) (VO0_4.writes (Elt F) VO0_4.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).1)

/-- In the last case (output branch taken) the pieces stored into output 5 tile its block, so they cover it. -/
theorem cover0_C_5 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.1 S512x1.size (by sl_kernel_rfl) y

/-- What the last case (output branch taken) leaves in output 5's staging buffer: its pieces read back over junk. -/
def out0_C_5 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) : Vec F S512x1 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.1)

/-- In the last case (output branch taken) the pieces stored into scratch 0 tile it, so they cover it. -/
theorem scover0_C_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.1 S512x1.size (by sl_kernel_rfl) y

/-- What the last case (output branch taken) leaves in scratch 0: its pieces read back over junk. -/
def sout0_C_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) : Vec F S512x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.1)

/-- In the last case (output branch taken) the pieces stored into scratch 1 tile it, so they cover it. -/
theorem scover0_C_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1 S512x1.size (by sl_kernel_rfl) y

/-- What the last case (output branch taken) leaves in scratch 1: its pieces read back over junk. -/
def sout0_C_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) : Vec F S512x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.1)

/-- In the last case (output branch taken) the pieces stored into scratch 2 tile it, so they cover it. -/
theorem scover0_C_2 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1 S512x1.size (by sl_kernel_rfl) y

/-- What the last case (output branch taken) leaves in scratch 2: its pieces read back over junk. -/
def sout0_C_2 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) : Vec F S512x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.1)

/-- In the last case (output branch taken) the pieces stored into scratch 3 tile it, so they cover it. -/
theorem scover0_C_3 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1 S512x1.size (by sl_kernel_rfl) y

/-- What the last case (output branch taken) leaves in scratch 3: its pieces read back over junk. -/
def sout0_C_3 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) : Vec F S512x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 hc0 hc1 x0 x1 x2 x3 xs0 xs1 xs2 xs3).2.2.2.2.2.1)

/-! ## What the outputs and the scratches hold after each point -/

/-- The six contents a point of the first case leaves (outputs 4, 5, then scratches 0..3), at the point's memrefs and input blocks. -/
def caseA (c : Dev nD) (t : Fin cfg0.N) (hc0 : cond0_0 (grid0.coords t)) (hc1 : ¬cond0_1 (grid0.coords t)) : Vec F S512x1 .f32 × Vec F S512x1 .f32 × Vec F S512x1 .f32 × Vec F S512x1 .f32 × Vec F S512x1 .f32 × Vec F S512x1 .f32 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t),
   out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t),
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t),
   sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t),
   sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t))

/-- The six contents a point of the middle case leaves, over what the point before left in the scratches (p). -/
def caseB (c : Dev nD) (t : Fin cfg0.N) (hc0 : ¬cond0_0 (grid0.coords t)) (hc1 : ¬cond0_1 (grid0.coords t)) (p : Vec F S512x1 .f32 × Vec F S512x1 .f32 × Vec F S512x1 .f32 × Vec F S512x1 .f32 × Vec F S512x1 .f32 × Vec F S512x1 .f32) : Vec F S512x1 .f32 × Vec F S512x1 .f32 × Vec F S512x1 .f32 × Vec F S512x1 .f32 × Vec F S512x1 .f32 × Vec F S512x1 .f32 :=
  (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.2.2.1 p.2.2.2.1 p.2.2.2.2.1 p.2.2.2.2.2,
   out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.2.2.1 p.2.2.2.1 p.2.2.2.2.1 p.2.2.2.2.2,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.2.2.1 p.2.2.2.1 p.2.2.2.2.1 p.2.2.2.2.2,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.2.2.1 p.2.2.2.1 p.2.2.2.2.1 p.2.2.2.2.2,
   sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.2.2.1 p.2.2.2.1 p.2.2.2.2.1 p.2.2.2.2.2,
   sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.2.2.1 p.2.2.2.1 p.2.2.2.2.1 p.2.2.2.2.2)

/-- The six contents a point of the last case leaves, over what the point before left in the scratches (p). -/
def caseC (c : Dev nD) (t : Fin cfg0.N) (hc0 : ¬cond0_0 (grid0.coords t)) (hc1 : cond0_1 (grid0.coords t)) (p : Vec F S512x1 .f32 × Vec F S512x1 .f32 × Vec F S512x1 .f32 × Vec F S512x1 .f32 × Vec F S512x1 .f32 × Vec F S512x1 .f32) : Vec F S512x1 .f32 × Vec F S512x1 .f32 × Vec F S512x1 .f32 × Vec F S512x1 .f32 × Vec F S512x1 .f32 × Vec F S512x1 .f32 :=
  (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.2.2.1 p.2.2.2.1 p.2.2.2.2.1 p.2.2.2.2.2,
   out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.2.2.1 p.2.2.2.1 p.2.2.2.2.1 p.2.2.2.2.2,
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.2.2.1 p.2.2.2.1 p.2.2.2.2.1 p.2.2.2.2.2,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.2.2.1 p.2.2.2.1 p.2.2.2.2.1 p.2.2.2.2.2,
   sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.2.2.1 p.2.2.2.1 p.2.2.2.2.1 p.2.2.2.2.2,
   sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) p.2.2.1 p.2.2.2.1 p.2.2.2.2.1 p.2.2.2.2.2)

/-- THE ACCUMULATION. What the two outputs' staging buffers and the four scratches hold after the body at position
    n (a tuple: outputs 4, 5, then scratches 0..3): the case the closed forms select at n, run at the point's memrefs
    and input blocks, over what this leaves at n - 1 in the scratches. The two conditions never hold together. -/
def outsAt0 (c : Dev nD) : (n : ℕ) → n < cfg0.N → Vec F S512x1 .f32 × Vec F S512x1 .f32 × Vec F S512x1 .f32 × Vec F S512x1 .f32 × Vec F S512x1 .f32 × Vec F S512x1 .f32
  | 0, hn => caseA m c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 16 = 0 then
      if h1 : (n + 1) % 16 = 15 then
        False.elim (by omega)
      else
        caseA m c ⟨n + 1, hn⟩ ((hcond0_0 ⟨n + 1, hn⟩).mpr h0) (fun h => h1 ((hcond0_1 ⟨n + 1, hn⟩).mp h))
    else
      if h1 : (n + 1) % 16 = 15 then
        caseC m c ⟨n + 1, hn⟩ (fun h => h0 ((hcond0_0 ⟨n + 1, hn⟩).mp h)) ((hcond0_1 ⟨n + 1, hn⟩).mpr h1) (outsAt0 c n (Nat.lt_of_succ_lt hn))
      else
        caseB m c ⟨n + 1, hn⟩ (fun h => h0 ((hcond0_0 ⟨n + 1, hn⟩).mp h)) (fun h => h1 ((hcond0_1 ⟨n + 1, hn⟩).mp h)) (outsAt0 c n (Nat.lt_of_succ_lt hn))

/-- The accumulation at a point of the first case: that case's contents. -/
theorem outsAt0_A (c : Dev nD) (t : Fin cfg0.N) (h0 : t.val % 16 = 0) (h1 : ¬t.val % 16 = 15) :
    outsAt0 m c t.val t.isLt = caseA m c t ((hcond0_0 t).mpr h0) (fun h => h1 ((hcond0_1 t).mp h)) := by
  obtain ⟨n, hn⟩ := t
  cases n with
  | zero => exact rfl
  | succ n => exact (dif_pos h0).trans ((dif_neg h1).trans rfl)

/-- The accumulation at a point of the middle case: that case's contents, over what the point before left. -/
theorem outsAt0_B (c : Dev nD) (t : Fin cfg0.N) (h0 : ¬t.val % 16 = 0) (h1 : ¬t.val % 16 = 15) :
    outsAt0 m c t.val t.isLt = caseB m c t (fun h => h0 ((hcond0_0 t).mp h)) (fun h => h1 ((hcond0_1 t).mp h))
      (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- The accumulation at a point of the last case: that case's contents, over what the point before left. -/
theorem outsAt0_C (c : Dev nD) (t : Fin cfg0.N) (h0 : ¬t.val % 16 = 0) (h1 : t.val % 16 = 15) :
    outsAt0 m c t.val t.isLt = caseC m c t (fun h => h0 ((hcond0_0 t).mp h)) ((hcond0_1 t).mpr h1)
      (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The invariant before position n: before the first point the four scratches at anything; afterwards each
    scratch at what the point before left in it; always the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2.1) ∗ owns (c : Thread nD τ) scM0_3 fullShare ((outsAt0 m c n hn).2.2.2.2.2)) ∗ (∃ r, prngReg c r))

/-- Before the first point the invariant is the launch's. -/
theorem PhiS_zero (c : Dev nD) (n : ℕ) (h : n ≤ cfg0.N) (hz : n = 0) : PhiS m c n h = Pipeline.ΦA spec0 c := by
  subst hz; rfl

/-- After point n (before point n + 1): the scratches at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2.1) ∗ owns (c : Thread nD τ) scM0_3 fullShare ((outsAt0 m c n hn).2.2.2.2.2)) ∗ (∃ r, prngReg c r)) := rfl

/-- Before a point that is not the first: the scratches at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1) ∗ owns (c : Thread nD τ) scM0_2 fullShare ((outsAt0 m c (n - 1) (by omega)).2.2.2.2.1) ∗ owns (c : Thread nD τ) scM0_3 fullShare ((outsAt0 m c (n - 1) (by omega)).2.2.2.2.2)) ∗ (∃ r, prngReg c r)) := by
  cases n with
  | zero => exact absurd rfl hz
  | succ n => rfl

/-! ## The proof data's two parameters -/

/-- What the body leaves in each window's staging buffer after point t: an input's block; an output's contents
    from the accumulation. -/
def after (c : Dev nD) (w : Fin cfg0.W) (t : Fin cfg0.N) : (cfg0.win w).block.Idx → Elt F (cfg0.win w).elt :=
  match w with
  | ⟨0, _⟩ => iblk m c 0 t
  | ⟨1, _⟩ => iblk m c 1 t
  | ⟨2, _⟩ => iblk m c 2 t
  | ⟨3, _⟩ => iblk m c 3 t
  | ⟨4, _⟩ => (outsAt0 m c t.val t.isLt).1
  | ⟨5, _⟩ => (outsAt0 m c t.val t.isLt).2.1

/-- The invariant before each point. -/
def Φ (c : Dev nD) (t : Fin (cfg0.N + 1)) : sProp 𝕄 := PhiS m c t.val (Nat.le_of_lt_succ t.isLt)

/-- The pipeline's proof data on core c at these two parameters. -/
abbrev dats (c : Dev nD) : Dat τ (Elt F) Unit ℕ (UR sig nD τ) ℕ cfg0 c := Data.datOf m (after m) (Φ m) 0 c

/-- Before the first point the invariant is the one the launch hands over. -/
theorem Phi_zero (c : Dev nD) : Φ m c 0 = Pipeline.ΦA spec0 c := rfl

/-- After any point but the first the invariant gives the launch's back: the scratches' named contents are forgotten. -/
theorem Phi_pos_out (c : Dev nD) (t : Fin (cfg0.N + 1)) (ht : t.val ≠ 0) : Φ m c t ⊢ Pipeline.ΦA spec0 c := by
  rw [show Φ m c t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- The same after the last point. -/
theorem Phi_out (c : Dev nD) : Φ m c (Fin.last cfg0.N) ⊢ Pipeline.ΦA spec0 c :=
  Phi_pos_out m c _ (by rw [Fin.val_last]; have : cfg0.N = 256 := N_0; omega)

/-! ## The proof data read off -/

/-- The invariant at a point's start (the proof data at t.castSucc), restated at t.val. -/
theorem PhiS_castSucc (c : Dev nD) (t : Fin cfg0.N) :
    (dats m c).Φ t.castSucc = PhiS m c t.val (Nat.le_of_lt t.isLt) := by
  dsimp only [dats, Data.datOf, Φ]; simp only [Fin.coe_castSucc]

/-- What the body leaves, window by window. -/
theorem after0_0 (c : Dev nD) (t : Fin cfg0.N) : (dats m c).after 0 t = iblk m c 0 t := by dsimp only [dats, Data.datOf, after]
/-- Input window 1's buffer is left at its block. -/
theorem after0_1 (c : Dev nD) (t : Fin cfg0.N) : (dats m c).after 1 t = iblk m c 1 t := by dsimp only [dats, Data.datOf, after]
/-- Input window 2's buffer is left at its block. -/
theorem after0_2 (c : Dev nD) (t : Fin cfg0.N) : (dats m c).after 2 t = iblk m c 2 t := by dsimp only [dats, Data.datOf, after]
/-- Input window 3's buffer is left at its block. -/
theorem after0_3 (c : Dev nD) (t : Fin cfg0.N) : (dats m c).after 3 t = iblk m c 3 t := by dsimp only [dats, Data.datOf, after]
/-- Output window 4's buffer is left at the accumulation's first component. -/
theorem after0_4 (c : Dev nD) (t : Fin cfg0.N) : (dats m c).after 4 t = (outsAt0 m c t.val t.isLt).1 := by dsimp only [dats, Data.datOf, after]
/-- Output window 5's buffer is left at the accumulation's second component. -/
theorem after0_5 (c : Dev nD) (t : Fin cfg0.N) : (dats m c).after 5 t = (outsAt0 m c t.val t.isLt).2.1 := by dsimp only [dats, Data.datOf, after]

/-- Each input's current staging buffer holds its block at every point, fetched there or not. -/
theorem before0_0 (c : Dev nD) (t : Fin cfg0.N) (d) : (dats m c).before 0 t d = iblk m c 0 t :=
  before0_0_of m (dats m c) (by dsimp only [dats, Data.datOf]) (after0_0 m c) t d
/-- Input window 1's current staging buffer holds its block at every point. -/
theorem before0_1 (c : Dev nD) (t : Fin cfg0.N) (d) : (dats m c).before 1 t d = iblk m c 1 t :=
  before0_1_of m (dats m c) (by dsimp only [dats, Data.datOf]) (after0_1 m c) t d
/-- Input window 2's current staging buffer holds its block at every point. -/
theorem before0_2 (c : Dev nD) (t : Fin cfg0.N) (d) : (dats m c).before 2 t d = iblk m c 2 t :=
  before0_2_of m (dats m c) (by dsimp only [dats, Data.datOf]) (after0_2 m c) t d
/-- Input window 3's current staging buffer holds its block at every point. -/
theorem before0_3 (c : Dev nD) (t : Fin cfg0.N) (d) : (dats m c).before 3 t d = iblk m c 3 t :=
  before0_3_of m (dats m c) (by dsimp only [dats, Data.datOf]) (after0_3 m c) t d

/-! ## The body obligation, at a generic point -/

/-- What the body is called with at point t (the windows one by one), -/
def bodyPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ d, owns (c : Thread nD τ) (ms0_3 t) fullShare ((dats m c).before 3 t d))
    ∗ (∃ d, owns (c : Thread nD τ) (ms0_4 t) fullShare ((dats m c).before 4 t d))
    ∗ (∃ d, owns (c : Thread nD τ) (ms0_5 t) fullShare ((dats m c).before 5 t d)))

/-- and what it returns. -/
def bodyPost (c : Dev nD) (t : Fin cfg0.N) : sProp 𝕄 :=
  iprop((dats m c).Φ t.succ ∗ (dats m c).owesAt () t.succ
    ∗ (dats m c).leavesExact 0 t
    ∗ (dats m c).leavesExact 1 t
    ∗ (dats m c).leavesExact 2 t
    ∗ (dats m c).leavesExact 3 t
    ∗ (dats m c).leavesExact 4 t
    ∗ (dats m c).leavesExact 5 t)

set_option maxHeartbeats 16000000 in
/-- The body at any point: the inputs' memrefs hold their blocks; the closed forms say which case the point is
    in; that case's run applies, the invariant handing it the scratches at what the point before left (at anything
    at the first point) and taking them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m c).owesAt () t.succ = (dats m c).owesAt () t.castSucc from rfl]
  rw [show (dats m c).Φ t.succ = PhiS m c (t.val + 1) t.isLt from rfl, PhiS_succ]
  have hN : t.val < 256 := lt_of_lt_of_eq t.isLt (show cfg0.N = 256 from N_0)
  by_cases h0 : t.val % 16 = 0
  · by_cases h1 : t.val % 16 = 15
    · exfalso; omega
    · rw [show (dats m c).leavesExact 0 t = owns (c : Thread nD τ) (ms0_0 t) fullShare ((dats m c).after 0 t) from by
          unfold Dat.leavesExact; rw [liveAt0_0 t], after0_0]
      rw [show (dats m c).leavesExact 1 t = owns (c : Thread nD τ) (ms0_1 t) fullShare ((dats m c).after 1 t) from by
          unfold Dat.leavesExact; rw [liveAt0_1 t], after0_1]
      rw [show (dats m c).leavesExact 2 t = owns (c : Thread nD τ) (ms0_2 t) fullShare ((dats m c).after 2 t) from by
          unfold Dat.leavesExact; rw [liveAt0_2 t], after0_2]
      rw [show (dats m c).leavesExact 3 t = owns (c : Thread nD τ) (ms0_3 t) fullShare ((dats m c).after 3 t) from by
          unfold Dat.leavesExact; rw [liveAt0_3 t], after0_3]
      rw [Dat.leavesExact_idle (dats m c) 4 t (idleAt0_4_A t ((hcond0_0 t).mpr h0) (fun h => h1 ((hcond0_1 t).mp h))) (noFlush0_4_A t ((hcond0_0 t).mpr h0) (fun h => h1 ((hcond0_1 t).mp h)))]
      rw [Dat.leavesExact_idle (dats m c) 5 t (idleAt0_5_A t ((hcond0_0 t).mpr h0) (fun h => h1 ((hcond0_1 t).mp h))) (noFlush0_5_A t ((hcond0_0 t).mpr h0) (fun h => h1 ((hcond0_1 t).mp h)))]
      rw [outsAt0_A m c t h0 h1]
      unfold caseA; (try dsimp only)
      unfold sout0_A_0 sout0_A_1 sout0_A_2 sout0_A_3; (try dsimp only)
      by_cases hz : t.val = 0
      · rw [PhiS_castSucc m c t, PhiS_zero m c _ _ hz, PhiA0_eq]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        isplitl [HS3]; · iexists _; iexact HS3
        iintro ⟨H0, H1, H2, H3, H4, H5, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
  · by_cases h1 : t.val % 16 = 15
    · rw [show (dats m c).leavesExact 0 t = owns (c : Thread nD τ) (ms0_0 t) fullShare ((dats m c).after 0 t) from by
          unfold Dat.leavesExact; rw [liveAt0_0 t], after0_0]
      rw [show (dats m c).leavesExact 1 t = owns (c : Thread nD τ) (ms0_1 t) fullShare ((dats m c).after 1 t) from by
          unfold Dat.leavesExact; rw [liveAt0_1 t], after0_1]
      rw [show (dats m c).leavesExact 2 t = owns (c : Thread nD τ) (ms0_2 t) fullShare ((dats m c).after 2 t) from by
          unfold Dat.leavesExact; rw [liveAt0_2 t], after0_2]
      rw [show (dats m c).leavesExact 3 t = owns (c : Thread nD τ) (ms0_3 t) fullShare ((dats m c).after 3 t) from by
          unfold Dat.leavesExact; rw [liveAt0_3 t], after0_3]
      rw [show (dats m c).leavesExact 4 t = owns (c : Thread nD τ) (ms0_4 t) fullShare ((dats m c).after 4 t) from by
          unfold Dat.leavesExact; rw [liveAt0_4_C t (fun h => h0 ((hcond0_0 t).mp h)) ((hcond0_1 t).mpr h1)], after0_4]
      rw [show (dats m c).leavesExact 5 t = owns (c : Thread nD τ) (ms0_5 t) fullShare ((dats m c).after 5 t) from by
          unfold Dat.leavesExact; rw [liveAt0_5_C t (fun h => h0 ((hcond0_0 t).mp h)) ((hcond0_1 t).mpr h1)], after0_5]
      rw [outsAt0_C m c t h0 h1]
      unfold caseC; (try dsimp only)
      unfold out0_C_4 out0_C_5 sout0_C_0 sout0_C_1 sout0_C_2 sout0_C_3; (try dsimp only)
      by_cases hz : t.val = 0
      · exfalso; omega
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) _ _ _ _).2.2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        isplitl [HS2]; · iexact HS2
        isplitl [HS3]; · iexact HS3
        iintro ⟨H0, H1, H2, H3, ⟨%e4, H4⟩, ⟨%e5, H5⟩, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_C_3 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _ _)
    · rw [show (dats m c).leavesExact 0 t = owns (c : Thread nD τ) (ms0_0 t) fullShare ((dats m c).after 0 t) from by
          unfold Dat.leavesExact; rw [liveAt0_0 t], after0_0]
      rw [show (dats m c).leavesExact 1 t = owns (c : Thread nD τ) (ms0_1 t) fullShare ((dats m c).after 1 t) from by
          unfold Dat.leavesExact; rw [liveAt0_1 t], after0_1]
      rw [show (dats m c).leavesExact 2 t = owns (c : Thread nD τ) (ms0_2 t) fullShare ((dats m c).after 2 t) from by
          unfold Dat.leavesExact; rw [liveAt0_2 t], after0_2]
      rw [show (dats m c).leavesExact 3 t = owns (c : Thread nD τ) (ms0_3 t) fullShare ((dats m c).after 3 t) from by
          unfold Dat.leavesExact; rw [liveAt0_3 t], after0_3]
      rw [Dat.leavesExact_idle (dats m c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [Dat.leavesExact_idle (dats m c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B m c t h0 h1]
      unfold caseB; (try dsimp only)
      unfold sout0_B_0 sout0_B_1 sout0_B_2 sout0_B_3; (try dsimp only)
      by_cases hz : t.val = 0
      · exfalso; omega
      · rw [PhiS_castSucc m c t, PhiS_pos m c _ _ hz]
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _ _).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        isplitl [HS3]; · iexact HS3
        iintro ⟨H0, H1, H2, H3, H4, H5, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

/-- The pipeline's body obligation, at every point, for the proof data at these two parameters. -/
theorem body_obligation (c : Dev nD) :
    BodyObligation (Data.datOf m (after m) (Φ m) 0 c) (defs₀ (F := F)) Variants.none () Set.univ := fun t => by
  rw [bigSep_W0, bigSep_W0]
  exact sound_body m c t

end Cert.KernelIdeal.Body

end
-- ==== Proof.KernelIdealValueCases.lean ====
/-
  What each control case of the body leaves, as values.

  The runs of the body find, for every buffer the body stores into, the pieces its stores wrote. Here those found
  pieces are read back as values over the body's named payloads. One point updates four per-row statistics held
  in scratch buffers: the running maximum of the logits, the running sum of their exponentials relative to it,
  the running masked sum of similarities and the running count. Each update is a function of the point's input
  blocks and of what the point finds in the scratches (at the first column tile: the reset values -∞, 0, 0, 0);
  at the last column tile the two outputs are computed from the four statistics as that point leaves them.
-/
import proofs.«153547_j25572235281097_1_alg».proof.Proof.KernelIdealBody
import Idealize.ShloMosaic.Lib.Pipeline.Value
import Idealize.ShloMosaic.Lib.Tactic

set_option maxRecDepth 16384

noncomputable section

namespace Cert.KernelIdeal.KValue

open Cert.KernelIdeal Cert.KernelIdeal.Gen Cert.KernelIdeal.Body
open Idealize.ShloMosaic Idealize.ShloMosaic.TcCoe Idealize.ShloMosaic.Tactic Idealize.SL.Sem
open Idealize.ShloMosaic.Pipeline (Dat)

variable {F : FTy → Type} [FloatOps F]

/-- The zero offsets of a whole-buffer access. -/
theorem hz : (![0, 0] : Fin 2 → Nat) = fun _ => 0 := funext fun a => by fin_cases a <;> rfl

/-- The column-tile coordinate as the body's 32-bit word. -/
abbrev colW (i : grid0.Coords) : BitVec 32 := BitVec.ofNat 32 (i 1).val
/-- The first global row of the point's row tile, as the body computes it: the row-tile coordinate times 512. -/
abbrev rowBase (i : grid0.Coords) : BitVec 32 := Scalar.muli (BitVec.ofNat 32 (i 0).val) 512#32
/-- The local row number of each element of a 512 × 512 tile. -/
abbrev rowIota : IVec S512x512 32 := iota .tc S512x512 32 [0] iota_S512x512_d0_w32

/-- The tile of similarities of the point's row block and column block. -/
abbrev simT (x0 x1 : Vec F S512x128 .f32) : FVec F S512x512 .f32 := k0_pay9 x0 x1
/-- The tile of raw mask values from the two blocks of the property. -/
abbrev maskT (x2 : Vec F S512x1 .f32) (x3 : Vec F S1x512 .f32) : FVec F S512x512 .f32 := k0_pay10 x2 x3

/-- The four scratch updates of one point, from the input blocks and the scratch contents the point finds:
    the running maximum, -/
abbrev updM (i : grid0.Coords) (x0 x1 : Vec F S512x128 .f32) (m : Vec F S512x1 .f32) : FVec F S512x1 .f32 :=
  k0_pay2 (k0_pay14 (colW i) (simT x0 x1) (rowBase i) rowIota m)
/-- the running sum of exponentials, -/
abbrev updL (i : grid0.Coords) (x0 x1 : Vec F S512x128 .f32) (m l : Vec F S512x1 .f32) : FVec F S512x1 .f32 :=
  k0_pay15 (colW i) (simT x0 x1) (rowBase i) rowIota m l
/-- the masked sum of similarities, -/
abbrev updS (i : grid0.Coords) (x0 x1 : Vec F S512x128 .f32) (x2 : Vec F S512x1 .f32) (x3 : Vec F S1x512 .f32) (s : Vec F S512x1 .f32) : FVec F S512x1 .f32 :=
  k0_pay16 (colW i) (simT x0 x1) (maskT x2 x3) (rowBase i) rowIota s
/-- and the count. -/
abbrev updC (i : grid0.Coords) (x2 : Vec F S512x1 .f32) (x3 : Vec F S1x512 .f32) (cn : Vec F S512x1 .f32) : FVec F S512x1 .f32 :=
  k0_pay1 cn (k0_pay17 (colW i) (maskT x2 x3) (rowBase i) rowIota)

/-- The reset values the first branch stores into the four scratches: -∞ for the running maximum and 0 for the
    running sum, the masked sum and the count (as the body's constant tiles). -/
abbrev resetM : FVec F S512x1 .f32 := k0_pay5
abbrev resetL : FVec F S512x1 .f32 := k0_pay6
abbrev resetS : FVec F S512x1 .f32 := k0_pay7
abbrev resetC : FVec F S512x1 .f32 := k0_pay8

/-- The two outputs the last branch stores, from the four scratches as the point leaves them: the row value -/
abbrev outRow (cn mx l s : Vec F S512x1 .f32) : FVec F S512x1 .f32 := k0_pay3 cn mx l s
/-- and its validity flag, from the count. -/
abbrev outValid (cn : Vec F S512x1 .f32) : FVec F S512x1 .f32 := k0_pay4 cn

/-! ## The first case -/

/-- FIRST case: the running maximum is left at its update from the reset value. -/
theorem sout_A_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S512x128 .f32) (x2 : Vec F S512x1 .f32) (x3 : Vec F S1x512 .f32) :
    sout0_A_0 c i arg2 harg2 arg3 harg3 arg4 harg4 arg5 harg5 arg6 harg6 arg7 harg7 arg8 harg8 arg9 harg9 arg10 harg10 arg11 harg11 hc0 hc1 x0 x1 x2 x3 = updM i x0 x1 resetM := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S512x1) hz]
  simp only [View.readCov_unit_zero (S := S512x1) (h := hz), View.readAt_eq_ld, harg2.read_unread, harg3.read_unread, harg4.read_unread, harg5.read_unread, harg6.read_unread, harg7.read_unread, harg8.read_unread, harg9.read_unread, harg10.read_unread, harg11.read_unread, View.ld_unit_zero (S := S512x128) hz, View.ld_unit_zero (S := S512x1) hz, View.ld_unit_zero (S := S1x512) hz]

/-- FIRST case: the running sum is left at its update from the reset values. -/
theorem sout_A_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S512x128 .f32) (x2 : Vec F S512x1 .f32) (x3 : Vec F S1x512 .f32) :
    sout0_A_1 c i arg2 harg2 arg3 harg3 arg4 harg4 arg5 harg5 arg6 harg6 arg7 harg7 arg8 harg8 arg9 harg9 arg10 harg10 arg11 harg11 hc0 hc1 x0 x1 x2 x3 = updL i x0 x1 resetM resetL := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S512x1) hz]
  simp only [View.readCov_unit_zero (S := S512x1) (h := hz), View.readAt_eq_ld, harg2.read_unread, harg3.read_unread, harg4.read_unread, harg5.read_unread, harg6.read_unread, harg7.read_unread, harg8.read_unread, harg9.read_unread, harg10.read_unread, harg11.read_unread, View.ld_unit_zero (S := S512x128) hz, View.ld_unit_zero (S := S512x1) hz, View.ld_unit_zero (S := S1x512) hz]

/-- FIRST case: the masked sum is left at its update from the reset value. -/
theorem sout_A_2 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S512x128 .f32) (x2 : Vec F S512x1 .f32) (x3 : Vec F S1x512 .f32) :
    sout0_A_2 c i arg2 harg2 arg3 harg3 arg4 harg4 arg5 harg5 arg6 harg6 arg7 harg7 arg8 harg8 arg9 harg9 arg10 harg10 arg11 harg11 hc0 hc1 x0 x1 x2 x3 = updS i x0 x1 x2 x3 resetS := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S512x1) hz]
  simp only [View.readCov_unit_zero (S := S512x1) (h := hz), View.readAt_eq_ld, harg2.read_unread, harg3.read_unread, harg4.read_unread, harg5.read_unread, harg6.read_unread, harg7.read_unread, harg8.read_unread, harg9.read_unread, harg10.read_unread, harg11.read_unread, View.ld_unit_zero (S := S512x128) hz, View.ld_unit_zero (S := S512x1) hz, View.ld_unit_zero (S := S1x512) hz]

/-- FIRST case: the count is left at its update from the reset value. -/
theorem sout_A_3 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x128 .f32) (x1 : Vec F S512x128 .f32) (x2 : Vec F S512x1 .f32) (x3 : Vec F S1x512 .f32) :
    sout0_A_3 c i arg2 harg2 arg3 harg3 arg4 harg4 arg5 harg5 arg6 harg6 arg7 harg7 arg8 harg8 arg9 harg9 arg10 harg10 arg11 harg11 hc0 hc1 x0 x1 x2 x3 = updC i x2 x3 resetC := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 hc0 hc1 x0 x1 x2 x3)]
  unfold kernelRun0_A
  dsimp only
  sl_unfold_words
  rw [View.canon_cons_unit_zero (S := S512x1) hz]
  simp only [View.readCov_unit_zero (S := S512x1) (h := hz), View.readAt_eq_ld, harg2.read_unread, harg3.read_unread, harg4.read_unread, harg5.read_unread, harg6.read_unread, harg7.read_unread, harg8.read_unread, harg9.read_unread, harg10.read_unread, harg11.read_unread, View.ld_unit_zero (S := S512x128) hz, View.ld_unit_zero (S := S512x1) hz, View.ld_unit_zero (S := S1x512) hz]

/-! ## The middle case -/

/-- MIDDLE case: the running maximum is left at its update from what the point found. -/
theorem sout_B_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) :
    sout0_B_0 c i arg2 harg2 arg3 harg3 arg4 harg4 arg5 harg5 arg6 harg6 arg7 harg7 arg8 harg8 arg9 harg9 arg10 harg10 arg11 harg11 hc0 hc1 x0 x1 x2 x3 xs0 xs1 xs2 xs3 = updM i x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x128) hz, View.ld_unit_zero (S := S512x1) hz, View.ld_unit_zero (S := S1x512) hz]

/-- MIDDLE case: the running sum is left at its update from what the point found. -/
theorem sout_B_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) :
    sout0_B_1 c i arg2 harg2 arg3 harg3 arg4 harg4 arg5 harg5 arg6 harg6 arg7 harg7 arg8 harg8 arg9 harg9 arg10 harg10 arg11 harg11 hc0 hc1 x0 x1 x2 x3 xs0 xs1 xs2 xs3 = updL i x0 x1 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x128) hz, View.ld_unit_zero (S := S512x1) hz, View.ld_unit_zero (S := S1x512) hz]

/-- MIDDLE case: the masked sum is left at its update from what the point found. -/
theorem sout_B_2 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) :
    sout0_B_2 c i arg2 harg2 arg3 harg3 arg4 harg4 arg5 harg5 arg6 harg6 arg7 harg7 arg8 harg8 arg9 harg9 arg10 harg10 arg11 harg11 hc0 hc1 x0 x1 x2 x3 xs0 xs1 xs2 xs3 = updS i x0 x1 x2 x3 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x128) hz, View.ld_unit_zero (S := S512x1) hz, View.ld_unit_zero (S := S1x512) hz]

/-- MIDDLE case: the count is left at its update from what the point found. -/
theorem sout_B_3 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) :
    sout0_B_3 c i arg2 harg2 arg3 harg3 arg4 harg4 arg5 harg5 arg6 harg6 arg7 harg7 arg8 harg8 arg9 harg9 arg10 harg10 arg11 harg11 hc0 hc1 x0 x1 x2 x3 xs0 xs1 xs2 xs3 = updC i x2 x3 xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x128) hz, View.ld_unit_zero (S := S512x1) hz, View.ld_unit_zero (S := S1x512) hz]

/-! ## The last case -/

/-- LAST case: the running maximum is left at its update from what the point found. -/
theorem sout_C_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) :
    sout0_C_0 c i arg2 harg2 arg3 harg3 arg4 harg4 arg5 harg5 arg6 harg6 arg7 harg7 arg8 harg8 arg9 harg9 arg10 harg10 arg11 harg11 hc0 hc1 x0 x1 x2 x3 xs0 xs1 xs2 xs3 = updM i x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  sl_unfold_words
  rw [View.canon_unit_zero hz]
  simp only [View.readCov_unit_zero (S := S512x1) (h := hz), View.readAt_eq_ld, harg2.read_unread, harg3.read_unread, harg4.read_unread, harg5.read_unread, harg6.read_unread, harg7.read_unread, harg8.read_unread, harg9.read_unread, harg10.read_unread, harg11.read_unread, View.ld_unit_zero (S := S512x128) hz, View.ld_unit_zero (S := S512x1) hz, View.ld_unit_zero (S := S1x512) hz]

/-- LAST case: the running sum is left at its update from what the point found. -/
theorem sout_C_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) :
    sout0_C_1 c i arg2 harg2 arg3 harg3 arg4 harg4 arg5 harg5 arg6 harg6 arg7 harg7 arg8 harg8 arg9 harg9 arg10 harg10 arg11 harg11 hc0 hc1 x0 x1 x2 x3 xs0 xs1 xs2 xs3 = updL i x0 x1 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  sl_unfold_words
  rw [View.canon_unit_zero hz]
  simp only [View.readCov_unit_zero (S := S512x1) (h := hz), View.readAt_eq_ld, harg2.read_unread, harg3.read_unread, harg4.read_unread, harg5.read_unread, harg6.read_unread, harg7.read_unread, harg8.read_unread, harg9.read_unread, harg10.read_unread, harg11.read_unread, View.ld_unit_zero (S := S512x128) hz, View.ld_unit_zero (S := S512x1) hz, View.ld_unit_zero (S := S1x512) hz]

/-- LAST case: the masked sum is left at its update from what the point found. -/
theorem sout_C_2 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) :
    sout0_C_2 c i arg2 harg2 arg3 harg3 arg4 harg4 arg5 harg5 arg6 harg6 arg7 harg7 arg8 harg8 arg9 harg9 arg10 harg10 arg11 harg11 hc0 hc1 x0 x1 x2 x3 xs0 xs1 xs2 xs3 = updS i x0 x1 x2 x3 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  sl_unfold_words
  rw [View.canon_unit_zero hz]
  simp only [View.readCov_unit_zero (S := S512x1) (h := hz), View.readAt_eq_ld, harg2.read_unread, harg3.read_unread, harg4.read_unread, harg5.read_unread, harg6.read_unread, harg7.read_unread, harg8.read_unread, harg9.read_unread, harg10.read_unread, harg11.read_unread, View.ld_unit_zero (S := S512x128) hz, View.ld_unit_zero (S := S512x1) hz, View.ld_unit_zero (S := S1x512) hz]

/-- LAST case: the count is left at its update from what the point found. -/
theorem sout_C_3 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) :
    sout0_C_3 c i arg2 harg2 arg3 harg3 arg4 harg4 arg5 harg5 arg6 harg6 arg7 harg7 arg8 harg8 arg9 harg9 arg10 harg10 arg11 harg11 hc0 hc1 x0 x1 x2 x3 xs0 xs1 xs2 xs3 = updC i x2 x3 xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  sl_unfold_words
  rw [View.canon_unit_zero hz]
  simp only [View.readCov_unit_zero (S := S512x1) (h := hz), View.readAt_eq_ld, harg2.read_unread, harg3.read_unread, harg4.read_unread, harg5.read_unread, harg6.read_unread, harg7.read_unread, harg8.read_unread, harg9.read_unread, harg10.read_unread, harg11.read_unread, View.ld_unit_zero (S := S512x128) hz, View.ld_unit_zero (S := S512x1) hz, View.ld_unit_zero (S := S1x512) hz]

/-- LAST case: output 4 is left at the row value computed from the four scratches as this point leaves them. -/
theorem out_C_4 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) :
    out0_C_4 c i arg2 harg2 arg3 harg3 arg4 harg4 arg5 harg5 arg6 harg6 arg7 harg7 arg8 harg8 arg9 harg9 arg10 harg10 arg11 harg11 hc0 hc1 x0 x1 x2 x3 xs0 xs1 xs2 xs3 = outRow (updC i x2 x3 xs3) (updM i x0 x1 xs0) (updL i x0 x1 xs0 xs1) (updS i x0 x1 x2 x3 xs2) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  sl_unfold_words
  rw [View.canon_unit_zero hz]
  simp only [View.readCov_unit_zero (S := S512x1) (h := hz), View.readAt_eq_ld, harg2.read_unread, harg3.read_unread, harg4.read_unread, harg5.read_unread, harg6.read_unread, harg7.read_unread, harg8.read_unread, harg9.read_unread, harg10.read_unread, harg11.read_unread, View.ld_unit_zero (S := S512x128) hz, View.ld_unit_zero (S := S512x1) hz, View.ld_unit_zero (S := S1x512) hz]

/-- LAST case: output 5 is left at the validity flag computed from the count as this point leaves it. -/
theorem out_C_5 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x128 .f32) (x1 : Vec F S512x128 .f32) (x2 : Vec F S512x1 .f32) (x3 : Vec F S1x512 .f32) (xs0 : Vec F S512x1 .f32) (xs1 : Vec F S512x1 .f32) (xs2 : Vec F S512x1 .f32) (xs3 : Vec F S512x1 .f32) :
    out0_C_5 c i arg2 harg2 arg3 harg3 arg4 harg4 arg5 harg5 arg6 harg6 arg7 harg7 arg8 harg8 arg9 harg9 arg10 harg10 arg11 harg11 hc0 hc1 x0 x1 x2 x3 xs0 xs1 xs2 xs3 = outValid (updC i x2 x3 xs3) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 x2 x3 xs0 xs1 xs2 xs3)]
  unfold kernelRun0_C
  dsimp only
  sl_unfold_words
  rw [View.canon_unit_zero hz]
  simp only [View.readCov_unit_zero (S := S512x1) (h := hz), View.readAt_eq_ld, harg2.read_unread, harg3.read_unread, harg4.read_unread, harg5.read_unread, harg6.read_unread, harg7.read_unread, harg8.read_unread, harg9.read_unread, harg10.read_unread, harg11.read_unread, View.ld_unit_zero (S := S512x128) hz, View.ld_unit_zero (S := S512x1) hz, View.ld_unit_zero (S := S1x512) hz]

/-! ## The four statistics after each point, in closed form -/

section Recurrence

variable (m : (ℓ : Loc nD τ sig) → Buf (Elt F) ℓ)

/-- One point's update of the four statistics (maximum, sum, masked sum, count) from the values p it finds, at the
    point's coordinates and input blocks. -/
def step (c : Dev nD) (t : Fin cfg0.N) (p : Vec F S512x1 .f32 × Vec F S512x1 .f32 × Vec F S512x1 .f32 × Vec F S512x1 .f32) : Vec F S512x1 .f32 × Vec F S512x1 .f32 × Vec F S512x1 .f32 × Vec F S512x1 .f32 :=
  (updM (grid0.coords t) (iblk m c 0 t) (iblk m c 1 t) p.1,
   updL (grid0.coords t) (iblk m c 0 t) (iblk m c 1 t) p.1 p.2.1,
   updS (grid0.coords t) (iblk m c 0 t) (iblk m c 1 t) (iblk m c 2 t) (iblk m c 3 t) p.2.2.1,
   updC (grid0.coords t) (iblk m c 2 t) (iblk m c 3 t) p.2.2.2)

/-- The reset values of the four statistics. -/
def reset : Vec F S512x1 .f32 × Vec F S512x1 .f32 × Vec F S512x1 .f32 × Vec F S512x1 .f32 := (resetM, resetL, resetS, resetC)

/-- THE RECURRENCE. The four statistics after point n: at the first column tile of a row tile (n % 16 = 0) the
    update from the reset values, elsewhere the update from what the point before left. -/
def scrAt (c : Dev nD) : (n : ℕ) → n < cfg0.N → Vec F S512x1 .f32 × Vec F S512x1 .f32 × Vec F S512x1 .f32 × Vec F S512x1 .f32
  | 0, h => step m c ⟨0, h⟩ reset
  | n + 1, h =>
    if (n + 1) % 16 = 0 then step m c ⟨n + 1, h⟩ reset
    else step m c ⟨n + 1, h⟩ (scrAt c n (Nat.lt_of_succ_lt h))

/-- The scratch part of the accumulation's six components. -/
def scr4 (p : Vec F S512x1 .f32 × Vec F S512x1 .f32 × Vec F S512x1 .f32 × Vec F S512x1 .f32 × Vec F S512x1 .f32 × Vec F S512x1 .f32) : Vec F S512x1 .f32 × Vec F S512x1 .f32 × Vec F S512x1 .f32 × Vec F S512x1 .f32 := (p.2.2.1, p.2.2.2.1, p.2.2.2.2.1, p.2.2.2.2.2)

/-- The first case leaves the update from the reset values. -/
theorem caseA_scr (c : Dev nD) (t : Fin cfg0.N) (hc0 : cond0_0 (grid0.coords t)) (hc1 : ¬cond0_1 (grid0.coords t)) :
    scr4 (caseA m c t hc0 hc1) = step m c t reset := by
  unfold caseA scr4 step reset
  dsimp only
  rw [sout_A_0, sout_A_1, sout_A_2, sout_A_3]

/-- The middle case leaves the update from the scratch part of what it is given. -/
theorem caseB_scr (c : Dev nD) (t : Fin cfg0.N) (hc0 : ¬cond0_0 (grid0.coords t)) (hc1 : ¬cond0_1 (grid0.coords t)) (p : Vec F S512x1 .f32 × Vec F S512x1 .f32 × Vec F S512x1 .f32 × Vec F S512x1 .f32 × Vec F S512x1 .f32 × Vec F S512x1 .f32) :
    scr4 (caseB m c t hc0 hc1 p) = step m c t (scr4 p) := by
  unfold caseB scr4 step
  dsimp only
  rw [sout_B_0, sout_B_1, sout_B_2, sout_B_3]

/-- The last case leaves the update from the scratch part of what it is given. -/
theorem caseC_scr (c : Dev nD) (t : Fin cfg0.N) (hc0 : ¬cond0_0 (grid0.coords t)) (hc1 : cond0_1 (grid0.coords t)) (p : Vec F S512x1 .f32 × Vec F S512x1 .f32 × Vec F S512x1 .f32 × Vec F S512x1 .f32 × Vec F S512x1 .f32 × Vec F S512x1 .f32) :
    scr4 (caseC m c t hc0 hc1 p) = step m c t (scr4 p) := by
  unfold caseC scr4 step
  dsimp only
  rw [sout_C_0, sout_C_1, sout_C_2, sout_C_3]

/-- The last case leaves in output 4 the row value, and in output 5 the flag, of the statistics as this point
    leaves them. -/
theorem caseC_out (c : Dev nD) (t : Fin cfg0.N) (hc0 : ¬cond0_0 (grid0.coords t)) (hc1 : cond0_1 (grid0.coords t)) (p : Vec F S512x1 .f32 × Vec F S512x1 .f32 × Vec F S512x1 .f32 × Vec F S512x1 .f32 × Vec F S512x1 .f32 × Vec F S512x1 .f32) :
    (caseC m c t hc0 hc1 p).1
        = outRow (step m c t (scr4 p)).2.2.2 (step m c t (scr4 p)).1 (step m c t (scr4 p)).2.1 (step m c t (scr4 p)).2.2.1
      ∧ (caseC m c t hc0 hc1 p).2.1 = outValid (step m c t (scr4 p)).2.2.2 := by
  unfold caseC scr4 step
  dsimp only
  rw [out_C_4, out_C_5]
  exact ⟨rfl, rfl⟩

/-- The accumulation's scratch part IS the recurrence: by induction on the point. -/
theorem scr_eq (c : Dev nD) : ∀ (n : ℕ) (h : n < cfg0.N), scr4 (outsAt0 m c n h) = scrAt m c n h
  | 0, h => by
    rw [show outsAt0 m c 0 h = caseA m c ⟨0, h⟩ _ _ from rfl, caseA_scr]
    rfl
  | n + 1, h => by
    by_cases h0 : (n + 1) % 16 = 0
    · have h1 : ¬(n + 1) % 16 = 15 := by omega
      rw [outsAt0_A m c ⟨n + 1, h⟩ h0 h1, caseA_scr]
      exact (if_pos h0).symm
    · by_cases h1 : (n + 1) % 16 = 15
      · rw [outsAt0_C m c ⟨n + 1, h⟩ h0 h1, caseC_scr]
        show step m c ⟨n + 1, h⟩ (scr4 (outsAt0 m c n _)) = _
        rw [scr_eq c n]
        exact (if_neg h0).symm
      · rw [outsAt0_B m c ⟨n + 1, h⟩ h0 h1, caseB_scr]
        show step m c ⟨n + 1, h⟩ (scr4 (outsAt0 m c n _)) = _
        rw [scr_eq c n]
        exact (if_neg h0).symm

/-- At a point of the last column tile the two outputs hold the row value and the flag of the recurrence's
    statistics at that point. -/
theorem out_eq (c : Dev nD) (t : Fin cfg0.N) (h1 : t.val % 16 = 15) :
    (outsAt0 m c t.val t.isLt).1
        = outRow (scrAt m c t.val t.isLt).2.2.2 (scrAt m c t.val t.isLt).1 (scrAt m c t.val t.isLt).2.1 (scrAt m c t.val t.isLt).2.2.1
      ∧ (outsAt0 m c t.val t.isLt).2.1 = outValid (scrAt m c t.val t.isLt).2.2.2 := by
  have h0 : ¬t.val % 16 = 0 := by omega
  have hs := scr_eq m c t.val t.isLt
  rw [outsAt0_C m c t h0 h1] at hs ⊢
  rw [caseC_scr] at hs
  have hc := caseC_out m c t (fun h => h0 ((hcond0_0 t).mp h)) ((hcond0_1 t).mpr h1)
    (outsAt0 m c (t.val - 1) (Nat.lt_of_le_of_lt (Nat.sub_le _ _) t.isLt))
  rw [hs] at hc
  exact hc

end Recurrence

end Cert.KernelIdeal.KValue

end
-- ==== Proof.KernelIdealBlocks.lean ====
/-
  The four input blocks of the idealized kernel at a grid point, read off the argument arrays by coordinates. The grid is
  16 × 16; point `t` is the row tile `qi = t / 16` against the column tile `ki = t % 16`. With `E r k` the embedding of
  row `r` at feature `k` and `P r` the property of row `r`:
    window 0 (query rows):       block t at (a, k) = E (qi·512 + a) k
    window 1 (key rows):         block t at (b, k) = E (ki·512 + b) k
    window 2 (query properties): block t at (a, 0) = P (qi·512 + a)
    window 3 (key properties):   block t at (0, b) = P (ki·512 + b)     — its array is the property column laid as a row by the host
  A block's coordinate on an axis is its index there times the block's extent plus the coordinate inside the block.
-/
import proofs.«153547_j25572235281097_1_alg».proof.Proof.KernelIdealBody
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Cert.KernelIdeal.Facts Cert.KernelIdeal.HostSide Cert.KernelIdeal.Data Cert.KernelIdeal.Body
open Idealize.ShloMosaic Idealize.ShloMosaic.TcCoe Idealize.ShloMosaic.ValueIdx Idealize.SL.Sem

variable (m : (ℓ : Loc nD τ sig) → Buf (Elt Ideal) ℓ) (c : Dev nD)

/-- The arguments by coordinates. -/
abbrev E : Fin 8192 → Fin 128 → EReal := fun r k => m ((c.tc : Thread nD τ).loc main_arg0) (ix2 r k)
abbrev P : Fin 8192 → EReal := fun r => m ((c.tc : Thread nD τ).loc main_arg1) (ix2 r 0)

/-- The printed index maps, decided over the grid: the row windows follow the row tile, the column windows the column tile. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16 :=
  (by decide +kernel : ∀ t : Fin grid0.N, _)

/-- A point's row tile and column tile address rows of the arrays. -/
theorem row_lt (t : Fin cfg0.N) (a : Fin 512) : t.val / 16 * 512 + a.val < 8192 := by
  have h : t.val < 256 := lt_of_lt_of_eq t.isLt (show cfg0.N = 256 from N_0)
  have := a.isLt; omega
theorem col_lt (t : Fin cfg0.N) (b : Fin 512) : t.val % 16 * 512 + b.val < 8192 := by
  have := b.isLt; omega

/-- The region finds the embeddings and the properties as launched. -/
theorem V1r_arg0 : V1r m c main_arg0 = m ((c.tc : Thread nD τ).loc main_arg0) := V1_of m c main_arg0 (by decide)
theorem V1r_arg1 : V1r m c main_arg1 = m ((c.tc : Thread nD τ).loc main_arg1) := V1_of m c main_arg1 (by decide)

/-- Window 0's block at a point: the query rows. -/
theorem iblk0_apply (t : Fin cfg0.N) (a : Fin 512) (k : Fin 128) :
    (iblk (F := Ideal) m c 0 t : Vec Ideal S512x128 .f32) (ix2 a k) = E m c ⟨t.val / 16 * 512 + a.val, row_lt t a⟩ k := by
  obtain ⟨e0, e1, -⟩ := idx_facts t
  show V1r m c main_arg0 (((cfg0.win 0).blk t).view.emb (ix2 a k)) = m ((c.tc : Thread nD τ).loc main_arg0) (ix2 ⟨t.val / 16 * 512 + a.val, row_lt t a⟩ k)
  rw [V1r_arg0]
  refine congrArg _ (funext fun ax => Fin.ext ?_)
  match ax with
  | ⟨0, _⟩ => show win0_0.index t (0 : Fin 2) * 512 + 1 * a.val = t.val / 16 * 512 + a.val; omega
  | ⟨1, _⟩ => show win0_0.index t (1 : Fin 2) * 128 + 1 * k.val = k.val; omega

/-- Window 1's block at a point: the key rows. -/
theorem iblk1_apply (t : Fin cfg0.N) (b : Fin 512) (k : Fin 128) :
    (iblk (F := Ideal) m c 1 t : Vec Ideal S512x128 .f32) (ix2 b k) = E m c ⟨t.val % 16 * 512 + b.val, col_lt t b⟩ k := by
  obtain ⟨-, -, e0, e1, -⟩ := idx_facts t
  show V1r m c main_arg0 (((cfg0.win 1).blk t).view.emb (ix2 b k)) = m ((c.tc : Thread nD τ).loc main_arg0) (ix2 ⟨t.val % 16 * 512 + b.val, col_lt t b⟩ k)
  rw [V1r_arg0]
  refine congrArg _ (funext fun ax => Fin.ext ?_)
  match ax with
  | ⟨0, _⟩ => show win0_1.index t (0 : Fin 2) * 512 + 1 * b.val = t.val % 16 * 512 + b.val; omega
  | ⟨1, _⟩ => show win0_1.index t (1 : Fin 2) * 128 + 1 * k.val = k.val; omega

/-- Window 2's block at a point: the query rows' properties. -/
theorem iblk2_apply (t : Fin cfg0.N) (a : Fin 512) :
    (iblk (F := Ideal) m c 2 t : Vec Ideal S512x1 .f32) (ix2 a 0) = P m c ⟨t.val / 16 * 512 + a.val, row_lt t a⟩ := by
  obtain ⟨-, -, -, -, e0, e1, -⟩ := idx_facts t
  show V1r m c main_arg1 (((cfg0.win 2).blk t).view.emb (ix2 a 0)) = m ((c.tc : Thread nD τ).loc main_arg1) (ix2 ⟨t.val / 16 * 512 + a.val, row_lt t a⟩ 0)
  rw [V1r_arg1]
  refine congrArg _ (funext fun ax => Fin.ext ?_)
  match ax with
  | ⟨0, _⟩ => show win0_2.index t (0 : Fin 2) * 512 + 1 * a.val = t.val / 16 * 512 + a.val; omega
  | ⟨1, _⟩ => show win0_2.index t (1 : Fin 2) * 1 + 1 * (0 : Fin 1).val = (0 : Fin 1).val; omega

/-- The region finds, behind window 3, the property column laid as a row by the host. -/
theorem V1r_v0 : V1r m c main_v0 = shapeCast S1x8192 (m ((c.tc : Thread nD τ).loc main_arg1)) shapeCasts_S8192x1_S1x8192 := by
  show StableHlo.after hostOps0 (V0 m c) (Proc.devRef .tc main_v0) = _
  after_results
  rfl

/-- A column laid as a row reads, at column `j`, the column's entry at row `j`. -/
theorem row_of_col (X : FVec Ideal S8192x1 .f32) (j : Fin 8192) :
    shapeCast S1x8192 X shapeCasts_S8192x1_S1x8192 (ix2 0 j) = X (ix2 j 0) :=
  shapeCast_apply X shapeCasts_S8192x1_S1x8192 (ix2 0 j) (ix2 j 0) (by
    rw [Shape.rowMajor_val_two, Shape.rowMajor_val_two]
    show j.val * 1 + 0 = 0 * 8192 + j.val
    omega)

/-- Window 3's block at a point: the key rows' properties. -/
theorem iblk3_apply (t : Fin cfg0.N) (b : Fin 512) :
    (iblk (F := Ideal) m c 3 t : Vec Ideal S1x512 .f32) (ix2 0 b) = P m c ⟨t.val % 16 * 512 + b.val, col_lt t b⟩ := by
  obtain ⟨-, -, -, -, -, -, e0, e1⟩ := idx_facts t
  show V1r m c main_v0 (((cfg0.win 3).blk t).view.emb (ix2 0 b)) = m ((c.tc : Thread nD τ).loc main_arg1) (ix2 ⟨t.val % 16 * 512 + b.val, col_lt t b⟩ 0)
  have hemb : ((cfg0.win 3).blk t).view.emb (ix2 0 b) = (ix2 0 ⟨t.val % 16 * 512 + b.val, col_lt t b⟩ : S1x8192.Idx) :=
    funext fun ax => Fin.ext (by
      match ax with
      | ⟨0, _⟩ => show win0_3.index t (0 : Fin 2) * 1 + 1 * (0 : Fin 1).val = (0 : Fin 1).val; omega
      | ⟨1, _⟩ => show win0_3.index t (1 : Fin 2) * 512 + 1 * b.val = t.val % 16 * 512 + b.val; omega)
  rw [V1r_v0, hemb]
  exact row_of_col _ _

end Cert.KernelIdeal.Blocks

end
-- ==== Proof.Spec.lean ====
/-
  The loss both programs compute, as functions of the two argument arrays read by coordinates, over the extended reals
  and in the programs' own primitives (so that each program's value is read against it operation by operation).
  `e r k` is the embedding of row `r` at feature `k`; `p r` the property of row `r`. Every float sum is written
  `0 + ∑` (the initial value, then the terms), every literal as the word the programs carry.

    en e r k      the row normalised: e r k / √(0 + Σ_k e r k · e r k)
    sim e r j     cosine similarity over the temperature: (0 + Σ_k en r k · en j k) / f32(0.1)
    mask p r j    1 where √√((p r − p j)²) + f32(1e-8) < 0.5 and r ≠ j, else 0
    logit e r j   sim off the diagonal, f32(−1e9) on it
    cnt, msum     Σ_j mask,  Σ_j mask · sim
    rmax, lsum    max_j logit,  Σ_j exp(logit − rmax)
    KRow          the kernel's row value: ((0 − msum) + cnt · (rmax + log lsum)) / max cnt 1 where cnt > 0, else 0
    RRow          the reference's row value: −(Σ_j mask · ((logit − rmax) − log lsum)) / max cnt 1
    KLoss, RLoss  the two means over the rows with cnt > 0 (the kernel's by the float flags, the reference's by the count).
-/
import Idealize.ShloMosaic.PureOps.Ideal

noncomputable section

namespace Spec

open Idealize.ShloMosaic

/-- The number of rows and of features. -/
abbrev N : Nat := 8192
abbrev D : Nat := 128

/-- The literals, as the words both programs carry. -/
def temp : EReal := Ideal.ofBits .f32 0x3DCCCCCD#32
def eps : EReal := Ideal.ofBits .f32 0x322BCC77#32
def half : EReal := Ideal.ofBits .f32 0x3F000000#32
def negBig : EReal := Ideal.ofBits .f32 0xCE6E6B28#32
def one : EReal := Ideal.ofBits .f32 0x3F800000#32

variable (e : Fin N → Fin D → EReal) (p : Fin N → EReal)

def sumSq (r : Fin N) : EReal := 0 + ∑ k : Fin D, e r k * e r k
def en (r : Fin N) (k : Fin D) : EReal := Ideal.div (e r k) (Ideal.sqrt (sumSq e r))
def sim (r j : Fin N) : EReal := Ideal.div (0 + ∑ k : Fin D, en e r k * en e j k) temp
def dist (r j : Fin N) : EReal := Ideal.sqrt (Ideal.sqrt ((p r - p j) * (p r - p j))) + eps
def mask (r j : Fin N) : EReal := if r = j then 0 else (if dist p r j < half then 1 else 0)
def logit (r j : Fin N) : EReal := if r = j then negBig else sim e r j
def cnt (r : Fin N) : EReal := 0 + ∑ j : Fin N, mask p r j
def msum (r : Fin N) : EReal := 0 + ∑ j : Fin N, mask p r j * sim e r j
def rmax (r : Fin N) : EReal := Finset.univ.sup fun j : Fin N => logit e r j
def lsum (r : Fin N) : EReal := 0 + ∑ j : Fin N, Ideal.exp (logit e r j - rmax e r)

/-- The kernel's row value and its flag. -/
def KRow (r : Fin N) : EReal :=
  if 0 < cnt p r then Ideal.div ((0 - msum e p r) + cnt p r * (rmax e r + Ideal.log (lsum e r))) (max (cnt p r) one) else 0
def KValid (r : Fin N) : EReal := if 0 < cnt p r then 1 else 0
/-- The kernel's mean: Σ KRow · KValid over max (Σ KValid) 1 where Σ KValid > 0, else zero. -/
def KLoss : EReal :=
  if 0 < 0 + ∑ r : Fin N, KValid p r
  then Ideal.div (0 + ∑ r : Fin N, KRow e p r * KValid p r) (max (0 + ∑ r : Fin N, KValid p r) one) else 0

/-- The reference's row value. -/
def RRow (r : Fin N) : EReal :=
  Ideal.div (-(0 + ∑ j : Fin N, mask p r j * ((logit e r j - rmax e r) - Ideal.log (lsum e r)))) (max (cnt p r) one)
/-- The number of valid rows (the reference counts them in integers; at most N, so nothing wraps). -/
def nValid : ℕ := (Finset.univ.filter fun r : Fin N => 0 < cnt p r).card
/-- The reference's mean: Σ of RRow over the valid rows, over max nValid 1 as a real, where nValid > 0, else zero. -/
def RLoss : EReal :=
  if 0 < nValid p
  then Ideal.div (0 + ∑ r : Fin N, (if 0 < cnt p r then RRow e p r else 0)) (((max (nValid p) 1 : ℕ) : ℝ) : EReal) else 0

end Spec

end
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.LibRowMax.lean ====
import Idealize.ShloMosaic.Lib.ValueIdx
import Idealize.ShloMosaic.PureOps.Ideal.Laws

/-!
  A ROW MAXIMUM AS A FOLD.

  The host's reduction with a maximum body over the LAST axis of a rank-2 array `x : [N, J]` is, at the ideal
  values and at row `r`, the fold of `max` from the initial value over the row's entries `x (r, c')`, `c' < J`.
  The maximum is commutative and associative, so the order in which the host visits the row does not matter.
  The f32 word `0xFF800000` reads as `-∞`, the least extended real, so a fold of `max` from it is the maximum of
  the entries alone; the f32 word `0x00000000` reads as `0`.
-/

open Idealize.ShloMosaic Idealize.ShloMosaic.ValueIdx

namespace RowMax

variable {N J : Nat}

/-- Dropping the last axis of `[N, J]` leaves `[N]`, a shape with an axis: the host's shape fact gives the
    vector reduction's. -/
theorem reduces_of_reducesTo (h' : (⟨2, ![N, J]⟩ : Shape).ReducesTo [1] (⟨1, ![N]⟩ : Shape)) :
    (⟨2, ![N, J]⟩ : Shape).Reduces [1] (⟨1, ![N]⟩ : Shape) :=
  ⟨h'.1, Nat.one_pos, h'.2⟩

/-- Row `r` with column `k` put back is `(r, k)`. -/
theorem lift_ix2 (h : (⟨2, ![N, J]⟩ : Shape).Reduces [1] (⟨1, ![N]⟩ : Shape)) (r : Fin N)
    (k : Fin ((⟨2, ![N, J]⟩ : Shape).size 1)) :
    h.lift (ix1 r) k = ix2 r (⟨k.val, k.isLt⟩ : Fin J) := by
  funext c; apply Fin.ext
  fin_cases c <;> rfl

/-- THE ROW MAXIMUM AT A ROW: the fold of `max` from the initial value's element over the row's entries. -/
theorem hostReduce_maximumf_rows {φ : FTy} {u : Shape} (x : FVec Ideal ⟨2, ![N, J]⟩ φ) (init : u.Idx → Ideal φ)
    (h' : (⟨2, ![N, J]⟩ : Shape).ReducesTo [1] (⟨1, ![N]⟩ : Shape)) (hu : 0 < u.numel) (r : Fin N) :
    Host.reduce FloatOps.maximumf x init h' hu (ix1 r)
      = (Finset.univ : Finset (Fin J)).fold max (init (Shape.Idx.first hu)) (fun c' => x (ix2 r c')) := by
  have h := reduces_of_reducesTo h'
  rw [Host.reduce_eq_fold_single FloatOps.maximumf x init h' h hu]
  have hf : (x ∘ h.lift (ix1 r)) = fun c' : Fin J => x (ix2 r c') :=
    funext fun k => congrArg x (lift_ix2 h r k)
  exact congrArg (fun f => Finset.fold max (init (Shape.Idx.first hu)) f (Finset.univ : Finset (Fin J))) hf

/-- The same from a constant initial value `v`. -/
theorem hostReduce_maximumf_rows_const {φ : FTy} {u : Shape} (x : FVec Ideal ⟨2, ![N, J]⟩ φ) (v : Ideal φ)
    (h' : (⟨2, ![N, J]⟩ : Shape).ReducesTo [1] (⟨1, ![N]⟩ : Shape)) (hu : 0 < u.numel) (r : Fin N) :
    Host.reduce FloatOps.maximumf x (fun _ : u.Idx => v) h' hu (ix1 r)
      = (Finset.univ : Finset (Fin J)).fold max v (fun c' => x (ix2 r c')) :=
  hostReduce_maximumf_rows x (fun _ : u.Idx => v) h' hu r

/-- The same from a constant array holding the word `b`: the fold starts from what `b` reads as. -/
theorem hostReduce_maximumf_rows_constant {φ : FTy} {u : Shape} (x : FVec Ideal ⟨2, ![N, J]⟩ φ) (b : BitVec φ.bits)
    (h' : (⟨2, ![N, J]⟩ : Shape).ReducesTo [1] (⟨1, ![N]⟩ : Shape)) (hu : 0 < u.numel) (r : Fin N) :
    Host.reduce FloatOps.maximumf x (constant (F := Ideal) u φ b) h' hu (ix1 r)
      = (Finset.univ : Finset (Fin J)).fold max (Ideal.ofBits φ b) (fun c' => x (ix2 r c')) :=
  hostReduce_maximumf_rows x (constant (F := Ideal) u φ b) h' hu r

/-! ## Two f32 words -/

/-- The f32 word `0xFF800000` is `-∞`, the least extended real. -/
theorem ofBits_ninf_f32 : Ideal.ofBits .f32 0xFF800000#32 = ⊥ := by
  simp [Ideal.ofBits, Ideal.ieee]

/-- So the maximum of it with anything is that thing. -/
theorem max_ninf_left (y : EReal) : max (Ideal.ofBits .f32 0xFF800000#32) y = y := by
  rw [ofBits_ninf_f32]; exact max_bot_left y

theorem max_ninf_right (y : EReal) : max y (Ideal.ofBits .f32 0xFF800000#32) = y := by
  rw [ofBits_ninf_f32]; exact max_bot_right y

/-- The f32 word `0x00000000` is `0`. -/
theorem ofBits_zero_f32 : Ideal.ofBits .f32 0x00000000#32 = 0 := Ideal.ofBits_zero_f32

end RowMax
-- ==== Proof.KernelIdealPayloadsA.lean ====
/-
  The tile-level values of the kernel, read at an index by coordinates, over the extended reals.

  For a query block x0 and a key block x1 (512 rows of 128 features each), a property column x2 and a property row
  x3, the similarity tile at (a, b) is the sum over the features of the product of row a of x0 and row b of x1, each
  divided by the square root of its sum of squares, over the temperature; the raw mask tile at (a, b) is 1 where the
  fourth root of the squared property difference plus a small constant is below one half, else 0; the diagonal test
  at (a, b) answers 1 exactly where the global row equals the global column.
-/
import proofs.«153547_j25572235281097_1_alg».proof.Proof.Gen.KernelIdeal.Skeleton
import proofs.«153547_j25572235281097_1_alg».proof.Proof.Spec
import proofs.«153547_j25572235281097_1_alg».proof.Proof.LibLayout
import proofs.«153547_j25572235281097_1_alg».proof.Proof.LibDotRows
import proofs.«153547_j25572235281097_1_alg».proof.Proof.LibRowMax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Cert.KernelIdeal Cert.KernelIdeal.Gen Cert.KernelIdeal.Facts Idealize.ShloMosaic Idealize.ShloMosaic.ValueIdx
open scoped BigOperators

/-! ### Rows divided by their norms, and their products -/

/-- The sum of squares of row `a`, kept as a column, is the sum over the features. -/
theorem rowSq_apply (x : FVec Ideal S512x128 .f32) (h : S512x128.Reduces [1] S512) (hφ : FKind.Formats .f32)
    (hacc : (0x00000000#32 : BitVec 32) = FKind.add.neutral .f32 hφ) (hc : S512.ShapeCasts S512x1)
    (a : Fin 512) (u : Fin 1) :
    shapeCast S512x1 (multiReduction (F := Ideal) .add [1] S512 (mulf x x) 0x00000000#32 h hφ hacc) hc (ix2 a u)
      = 0 + ∑ k : Fin 128, x (ix2 a k) * x (ix2 a k) := by
  refine (shapeCast_a_a1_apply _ hc a u).trans ?_
  refine (Ideal.multiReduction_add_single (mulf x x) 0x00000000#32 h hφ hacc (ix1 a)).trans ?_
  rw [zero_add]
  exact Finset.sum_congr rfl fun k _ => by rw [RowMax.lift_ix2 h a k]; rfl

/-- A block with every row divided by the square root of its sum of squares, at (a, k). -/
theorem normRow_apply (x : FVec Ideal S512x128 .f32) (h : S512x128.Reduces [1] S512) (hφ : FKind.Formats .f32)
    (hacc : (0x00000000#32 : BitVec 32) = FKind.add.neutral .f32 hφ) (hc : S512.ShapeCasts S512x1)
    (hb : S512x1.Broadcasts S512x128) (a : Fin 512) (k : Fin 128) :
    divf x (broadcastTo S512x128
        (sqrt (shapeCast S512x1 (multiReduction (F := Ideal) .add [1] S512 (mulf x x) 0x00000000#32 h hφ hacc) hc)) hb)
        (ix2 a k)
      = Ideal.div (x (ix2 a k)) (Ideal.sqrt (0 + ∑ k' : Fin 128, x (ix2 a k') * x (ix2 a k'))) := by
  show Ideal.div (x (ix2 a k)) (broadcastTo S512x128 _ hb (ix2 a k)) = _
  rw [broadcastTo_a1_ab_apply]
  show Ideal.div (x (ix2 a k)) (Ideal.sqrt (shapeCast S512x1 _ hc (ix2 a (0 : Fin 1)))) = _
  rw [rowSq_apply]

/-- The product of a block with the transpose of another (both narrowed to the matrix unit's input format, which
    changes nothing over the extended reals), into a zero accumulator, at (a, b): the sum over the features of the
    products of row a of the one and row b of the other. -/
theorem dotRows_apply (A B : FVec Ideal S512x128 .f32) (hlt : FTy.bits .bf16 < FTy.bits .f32)
    (ht : S512x128.Transposes [1, 0] S128x512) (a b : Fin 512) :
    matmul dot_S512x128_S128x512_S512x512_1_0_0_1_n_n none (truncf .bf16 A hlt)
        (transpose S128x512 [1, 0] (truncf .bf16 B hlt) ht) (constant (F := Ideal) S512x512 .f32 0x00000000#32)
        (ix2 a b)
      = ∑ k : Fin 128, A (ix2 a k) * B (ix2 b k) := by
  refine (matmul_zero_rows dot_S512x128_S128x512_S512x512_1_0_0_1_n_n none rfl rfl (fun _ _ => rfl)
    (fun _ _ => rfl) (fun _ _ => rfl) (fun _ _ => rfl) _ _ a b).trans ?_
  exact Finset.sum_congr rfl fun k _ => by rw [transpose_ix2_apply]; rfl

/-- THE SIMILARITY TILE at (a, b). The temperature is `Spec.temp`, folded. -/
theorem pay9_apply (x0 x1 : Vec Ideal S512x128 .f32) (a b : Fin 512) :
    k0_pay9 (F := Ideal) x0 x1 (ix2 a b)
      = Ideal.div (0 + ∑ k : Fin 128,
          Ideal.div (x0 (ix2 a k)) (Ideal.sqrt (0 + ∑ k' : Fin 128, x0 (ix2 a k') * x0 (ix2 a k')))
            * Ideal.div (x1 (ix2 b k)) (Ideal.sqrt (0 + ∑ k' : Fin 128, x1 (ix2 b k') * x1 (ix2 b k'))))
          Spec.temp := by
  unfold k0_pay9
  show Ideal.div (matmul (F := Ideal) _ none (truncf .bf16 _ _) (transpose S128x512 [1, 0] (truncf .bf16 _ _) _) _ (ix2 a b))
    Spec.temp = _
  rw [dotRows_apply, zero_add]
  refine congrArg (fun t => Ideal.div t Spec.temp) (Finset.sum_congr rfl fun k _ => ?_)
  exact congrArg₂ (fun s t : EReal => s * t) (normRow_apply x0 _ _ _ _ _ a k) (normRow_apply x1 _ _ _ _ _ b k)

/-! ### The raw mask tile -/

/-- A comparison bit widened and converted to a float is 1 where the comparison holds, else 0: "less than". -/
theorem flag_olt (x y : EReal) :
    FloatOps.sitofp (F := Ideal) .f32 ((FloatOps.cmpf (F := Ideal) (φ := .f32) .olt x y).setWidth 32)
      = if x < y then 1 else 0 := by
  show ((((BitVec.ofBool (decide (x < y))).setWidth 32).toInt : ℝ) : EReal) = _
  have h1 : ((BitVec.ofBool true).setWidth 32).toInt = 1 := by decide
  have h0 : ((BitVec.ofBool false).setWidth 32).toInt = 0 := by decide
  by_cases h : x < y
  · rw [if_pos h, decide_eq_true h, h1, Int.cast_one, EReal.coe_one]
  · rw [if_neg h, decide_eq_false h, h0, Int.cast_zero, EReal.coe_zero]

/-- The same for "greater than". -/
theorem flag_ogt (x y : EReal) :
    FloatOps.sitofp (F := Ideal) .f32 ((FloatOps.cmpf (F := Ideal) (φ := .f32) .ogt x y).setWidth 32)
      = if y < x then 1 else 0 := by
  show ((((BitVec.ofBool (decide (y < x))).setWidth 32).toInt : ℝ) : EReal) = _
  have h1 : ((BitVec.ofBool true).setWidth 32).toInt = 1 := by decide
  have h0 : ((BitVec.ofBool false).setWidth 32).toInt = 0 := by decide
  by_cases h : y < x
  · rw [if_pos h, decide_eq_true h, h1, Int.cast_one, EReal.coe_one]
  · rw [if_neg h, decide_eq_false h, h0, Int.cast_zero, EReal.coe_zero]

/-- A column broadcast along the columns of the tile reads the column at the row. -/
theorem colBcast_apply (c : FVec Ideal S512x1 .f32) (h : S512x1.Broadcasts S512x512) (a b : Fin 512) :
    broadcastTo S512x512 c h (ix2 a b) = c (ix2 a (0 : Fin 1)) :=
  broadcastTo_a1_ab_apply c h a b

/-- A row broadcast down the rows of the tile reads the row at the column. -/
theorem rowBcast_apply (r : FVec Ideal S1x512 .f32) (hc : S1x512.ShapeCasts S1x512)
    (h : S1x512.Broadcasts S512x512) (a b : Fin 512) :
    broadcastTo S512x512 (shapeCast S1x512 r hc) h (ix2 a b) = r (ix2 (0 : Fin 1) b) := by
  rw [broadcastTo_1b_ab_apply, shapeCast_self]

/-- THE RAW MASK TILE at (a, b). The two literals are `Spec.eps` and `Spec.half`, folded. -/
theorem pay10_apply (x2 : Vec Ideal S512x1 .f32) (x3 : Vec Ideal S1x512 .f32) (a b : Fin 512) :
    k0_pay10 (F := Ideal) x2 x3 (ix2 a b)
      = (if Ideal.sqrt (Ideal.sqrt ((x2 (ix2 a (0 : Fin 1)) - x3 (ix2 (0 : Fin 1) b))
            * (x2 (ix2 a (0 : Fin 1)) - x3 (ix2 (0 : Fin 1) b)))) + Spec.eps < Spec.half then 1 else 0) := by
  unfold k0_pay10
  refine (flag_olt _ _).trans ?_
  show (if Ideal.sqrt (Ideal.sqrt
      ((broadcastTo S512x512 x2 _ (ix2 a b) - broadcastTo S512x512 (shapeCast S1x512 x3 _) _ (ix2 a b))
        * (broadcastTo S512x512 x2 _ (ix2 a b) - broadcastTo S512x512 (shapeCast S1x512 x3 _) _ (ix2 a b))))
        + Spec.eps < Spec.half then (1 : EReal) else 0) = _
  rw [colBcast_apply, rowBcast_apply]

/-! ### The diagonal test -/

/-- A bit made from a Boolean is 1 exactly where the Boolean is true. -/
theorem ofBool_eq_one (c : Bool) : BitVec.ofBool c = 1#1 ↔ c = true := by cases c <;> decide

/-- Two 32-bit words of numbers below 8192 are equal exactly where the numbers are. -/
theorem ofNat32_inj_of_lt {m n : Nat} (hm : m < 8192) (hn : n < 8192) :
    BitVec.ofNat 32 m = BitVec.ofNat 32 n ↔ m = n := by
  constructor
  · intro h
    have h' := congrArg BitVec.toNat h
    rw [BitVec.toNat_ofNat, BitVec.toNat_ofNat, Nat.mod_eq_of_lt (by omega), Nat.mod_eq_of_lt (by omega)] at h'
    exact h'
  · intro h; rw [h]

/-- THE DIAGONAL TEST at (a, b), for the tile of query block qi and key block ki: the bit is 1 exactly where the global
    row qi · 512 + a equals the global column ki · 512 + b (no 32-bit sum wraps: everything is below 8192). -/
theorem pay11_apply (qi ki : Fin 16) (h0 : S512x512.Iotas .tc 32 [0]) (a b : Fin 512) :
    k0_pay11 (BitVec.ofNat 32 ki.val) (Scalar.muli (BitVec.ofNat 32 qi.val) 512#32)
        (iota .tc S512x512 32 [0] h0) (ix2 a b) = 1#1
      ↔ qi.val * 512 + a.val = ki.val * 512 + b.val := by
  unfold k0_pay11
  have hq := qi.isLt
  have hk := ki.isLt
  have ha := a.isLt
  have hb := b.isLt
  have e0 : iota .tc S512x512 32 [0] h0 (ix2 a b) = BitVec.ofNat 32 a.val :=
    iota_single_apply .tc S512x512 32 0 h0 (ix2 a b)
  have e1 : ∀ h1 : S512x512.Iotas .tc 32 [1], iota .tc S512x512 32 [1] h1 (ix2 a b) = BitVec.ofNat 32 b.val :=
    fun h1 => iota_single_apply .tc S512x512 32 1 h1 (ix2 a b)
  show BitVec.ofBool ((BitVec.ofNat 32 qi.val * 512#32 + iota .tc S512x512 32 [0] h0 (ix2 a b))
      == (BitVec.ofNat 32 ki.val * 512#32 + iota .tc S512x512 32 [1] _ (ix2 a b))) = 1#1 ↔ _
  rw [e0, e1, ofBool_eq_one, beq_iff_eq, show (512#32 : BitVec 32) = BitVec.ofNat 32 512 from rfl,
    ← BitVec.ofNat_mul, ← BitVec.ofNat_mul, ← BitVec.ofNat_add, ← BitVec.ofNat_add]
  exact ofNat32_inj_of_lt (by omega) (by omega)

end Cert.KernelIdeal.Payloads

end
-- ==== Proof.KernelIdealPayloadsB.lean ====
/-
  The row-level values of the kernel, read at an index by coordinates, over the extended reals: the masked mask and the
  logits tile (the diagonal replaced by 0 and by the large negative literal), the new running maximum (the larger of
  the old one and the row's maximum of the logits), the new running sum (the old one rescaled by the exponential of
  the maximum's change, plus the row's sum of exponentials relative to the new maximum), the masked sum of
  similarities and the count with their accumulation, and the two outputs: the row value where the count is positive,
  and the flag of that.
-/
import proofs.«153547_j25572235281097_1_alg».proof.Proof.KernelIdealPayloadsA

noncomputable section

namespace Cert.KernelIdeal.Payloads

open Cert.KernelIdeal Cert.KernelIdeal.Gen Cert.KernelIdeal.Facts Idealize.ShloMosaic Idealize.ShloMosaic.ValueIdx
open scoped BigOperators

/-! ### The masked mask and the logits tile -/

/-- THE MASKED MASK at any index: 0 where the diagonal test answers 1, else the raw mask. -/
theorem pay12_apply (arg1 v38 : BitVec 32) (v39 : IVec S512x512 32) (v37 : FVec Ideal S512x512 .f32)
    (i : S512x512.Idx) :
    k0_pay12 (F := Ideal) arg1 v37 v38 v39 i = if k0_pay11 arg1 v38 v39 i = 1#1 then 0 else v37 i := by
  unfold k0_pay12
  show (if k0_pay11 arg1 v38 v39 i = 1#1 then Ideal.ofBits .f32 0x00000000#32 else v37 i) = _
  rw [Ideal.ofBits_zero_f32]

/-- THE LOGITS TILE at any index: the large negative literal (`Spec.negBig`, folded) where the diagonal test answers
    1, else the similarity. -/
theorem pay13_apply (arg1 v38 : BitVec 32) (v39 : IVec S512x512 32) (v22 : FVec Ideal S512x512 .f32)
    (i : S512x512.Idx) :
    k0_pay13 (F := Ideal) arg1 v22 v38 v39 i = if k0_pay11 arg1 v38 v39 i = 1#1 then Spec.negBig else v22 i := by
  unfold k0_pay13
  rfl

/-- The masked mask of the tile of query block qi and key block ki, at (a, b). -/
theorem pay12_tile (qi ki : Fin 16) (h0 : S512x512.Iotas .tc 32 [0]) (v37 : FVec Ideal S512x512 .f32)
    (a b : Fin 512) :
    k0_pay12 (F := Ideal) (BitVec.ofNat 32 ki.val) v37 (Scalar.muli (BitVec.ofNat 32 qi.val) 512#32)
        (iota .tc S512x512 32 [0] h0) (ix2 a b)
      = if qi.val * 512 + a.val = ki.val * 512 + b.val then 0 else v37 (ix2 a b) := by
  rw [pay12_apply]
  exact if_congr (pay11_apply qi ki h0 a b) rfl rfl

/-- The logits of the tile of query block qi and key block ki, at (a, b). -/
theorem pay13_tile (qi ki : Fin 16) (h0 : S512x512.Iotas .tc 32 [0]) (v22 : FVec Ideal S512x512 .f32)
    (a b : Fin 512) :
    k0_pay13 (F := Ideal) (BitVec.ofNat 32 ki.val) v22 (Scalar.muli (BitVec.ofNat 32 qi.val) 512#32)
        (iota .tc S512x512 32 [0] h0) (ix2 a b)
      = if qi.val * 512 + a.val = ki.val * 512 + b.val then Spec.negBig else v22 (ix2 a b) := by
  rw [pay13_apply]
  exact if_congr (pay11_apply qi ki h0 a b) rfl rfl

/-! ### Row reductions of a tile, kept as columns -/

/-- The maximum of row `a` of a tile from the word of −∞, kept as a column: the supremum of the row. -/
theorem rowMax_apply (x : FVec Ideal S512x512 .f32) (h : S512x512.Reduces [1] S512) (hφ : FKind.Formats .f32)
    (hacc : (0xFF800000#32 : BitVec 32) = FKind.maximumf.neutral .f32 hφ) (hc : S512.ShapeCasts S512x1)
    (a : Fin 512) (u : Fin 1) :
    shapeCast S512x1 (multiReduction (F := Ideal) .maximumf [1] S512 x 0xFF800000#32 h hφ hacc) hc (ix2 a u)
      = Finset.univ.sup fun c : Fin 512 => x (ix2 a c) := by
  refine (shapeCast_a_a1_apply _ hc a u).trans ?_
  refine (Ideal.multiReduction_maximumf_single x 0xFF800000#32 h hφ hacc (ix1 a)).trans ?_
  have hf : (x ∘ h.lift (ix1 a)) = fun c : Fin 512 => x (ix2 a c) :=
    funext fun k => congrArg x (RowMax.lift_ix2 h a k)
  show (Finset.univ : Finset (Fin 512)).fold max (Ideal.ofBits .f32 0xFF800000#32) (x ∘ h.lift (ix1 a)) = _
  rw [hf, RowMax.ofBits_ninf_f32]
  rfl

/-- The sum of row `a` of a tile, kept as a column. -/
theorem rowSum_apply (x : FVec Ideal S512x512 .f32) (h : S512x512.Reduces [1] S512) (hφ : FKind.Formats .f32)
    (hacc : (0x00000000#32 : BitVec 32) = FKind.add.neutral .f32 hφ) (hc : S512.ShapeCasts S512x1)
    (a : Fin 512) (u : Fin 1) :
    shapeCast S512x1 (multiReduction (F := Ideal) .add [1] S512 x 0x00000000#32 h hφ hacc) hc (ix2 a u)
      = ∑ c : Fin 512, x (ix2 a c) := by
  refine (shapeCast_a_a1_apply _ hc a u).trans ?_
  refine (Ideal.multiReduction_add_single x 0x00000000#32 h hφ hacc (ix1 a)).trans ?_
  exact Finset.sum_congr rfl fun k _ => congrArg x (RowMax.lift_ix2 h a k)

/-! ### The running quantities -/

/-- THE NEW RUNNING MAXIMUM at row a: the larger of the old one and the supremum of the row of logits. -/
theorem pay14_apply (arg1 v38 : BitVec 32) (v39 : IVec S512x512 32) (v22 : FVec Ideal S512x512 .f32)
    (v51 : Vec Ideal S512x1 .f32) (a : Fin 512) (u : Fin 1) :
    k0_pay14 (F := Ideal) arg1 v22 v38 v39 v51 (ix2 a u)
      = max (v51 (ix2 a u))
          (Finset.univ.sup fun c : Fin 512 => k0_pay13 (F := Ideal) arg1 v22 v38 v39 (ix2 a c)) := by
  unfold k0_pay14
  exact congrArg (max (v51 (ix2 a u))) (rowMax_apply _ _ _ _ _ a u)

/-- THE NEW RUNNING SUM at row a: the old one times the exponential of (old maximum − new maximum), plus the sum over the
    row of the exponentials of (logit − new maximum). -/
theorem pay15_apply (arg1 v38 : BitVec 32) (v39 : IVec S512x512 32) (v22 : FVec Ideal S512x512 .f32)
    (v51 v60 : Vec Ideal S512x1 .f32) (a : Fin 512) :
    k0_pay15 (F := Ideal) arg1 v22 v38 v39 v51 v60 (ix2 a (0 : Fin 1))
      = Ideal.exp (v51 (ix2 a (0 : Fin 1)) - k0_pay14 (F := Ideal) arg1 v22 v38 v39 v51 (ix2 a (0 : Fin 1)))
            * v60 (ix2 a (0 : Fin 1))
          + ∑ c : Fin 512, Ideal.exp (k0_pay13 (F := Ideal) arg1 v22 v38 v39 (ix2 a c)
              - k0_pay14 (F := Ideal) arg1 v22 v38 v39 v51 (ix2 a (0 : Fin 1))) := by
  unfold k0_pay15
  refine (congrFun (shapeCast_self _ _) (ix2 a (0 : Fin 1))).trans ?_
  refine congrArg (fun t : EReal => Ideal.exp (v51 (ix2 a (0 : Fin 1))
    - k0_pay14 (F := Ideal) arg1 v22 v38 v39 v51 (ix2 a (0 : Fin 1))) * v60 (ix2 a (0 : Fin 1)) + t) ?_
  refine (rowSum_apply _ _ _ _ _ a (0 : Fin 1)).trans ?_
  refine Finset.sum_congr rfl fun c _ => ?_
  exact congrArg (fun t : EReal => Ideal.exp (k0_pay13 (F := Ideal) arg1 v22 v38 v39 (ix2 a c) - t))
    (colBcast_apply _ _ a c)

/-- THE MASKED SUM, ACCUMULATED, at row a: the old one plus the sum over the row of masked mask times similarity. -/
theorem pay16_apply (arg1 v38 : BitVec 32) (v39 : IVec S512x512 32) (v22 v37 : FVec Ideal S512x512 .f32)
    (v68 : Vec Ideal S512x1 .f32) (a : Fin 512) :
    k0_pay16 (F := Ideal) arg1 v22 v37 v38 v39 v68 (ix2 a (0 : Fin 1))
      = v68 (ix2 a (0 : Fin 1))
          + ∑ c : Fin 512, k0_pay12 (F := Ideal) arg1 v37 v38 v39 (ix2 a c) * v22 (ix2 a c) := by
  unfold k0_pay16
  refine (congrFun (shapeCast_self _ _) (ix2 a (0 : Fin 1))).trans ?_
  exact congrArg (fun t : EReal => v68 (ix2 a (0 : Fin 1)) + t) (rowSum_apply _ _ _ _ _ a (0 : Fin 1))

/-- THE COUNT INCREMENT at row a: the sum over the row of the masked mask. -/
theorem pay17_apply (arg1 v38 : BitVec 32) (v39 : IVec S512x512 32) (v37 : FVec Ideal S512x512 .f32)
    (a : Fin 512) (u : Fin 1) :
    k0_pay17 (F := Ideal) arg1 v37 v38 v39 (ix2 a u)
      = ∑ c : Fin 512, k0_pay12 (F := Ideal) arg1 v37 v38 v39 (ix2 a c) := by
  unfold k0_pay17
  exact rowSum_apply _ _ _ _ _ a u

/-- THE COUNT, ACCUMULATED, at any index: the old one plus the increment. -/
theorem pay1_apply (v76 : Vec Ideal S512x1 .f32) (v78 : FVec Ideal S512x1 .f32) (i : S512x1.Idx) :
    k0_pay1 (F := Ideal) v76 v78 i = v76 i + v78 i := by
  unfold k0_pay1
  exact congrFun (shapeCast_self _ _) i

/-- The running maximum as it is stored: itself. -/
theorem pay2_apply (v54 : FVec Ideal S512x1 .f32) (i : S512x1.Idx) : k0_pay2 (F := Ideal) v54 i = v54 i := by
  unfold k0_pay2
  exact congrFun (shapeCast_self _ _) i

/-! ### The two outputs -/

/-- A select on "greater than zero" is the `if` on the strict inequality. -/
theorem select_ogt_zero (x A B : EReal) :
    Scalar.select (Ideal.cmp .ogt x 0) A B = if 0 < x then A else B := by
  show (if BitVec.ofBool (decide (0 < x)) = 1#1 then A else B) = _
  by_cases h : 0 < x
  · rw [if_pos h, decide_eq_true h]
    exact if_pos (by decide)
  · rw [if_neg h, decide_eq_false h]
    exact if_neg (by decide)

/-- THE ROW VALUE at any index, from the count c, the maximum m, the sum of exponentials l and the masked sum s:
    ((0 − s) + c · (m + log l)) / max c 1 where c > 0, else 0. The literal one is `Spec.one`, folded. -/
theorem pay3_apply (c m l s : Vec Ideal S512x1 .f32) (i : S512x1.Idx) :
    k0_pay3 (F := Ideal) c m l s i
      = if 0 < c i then Ideal.div ((0 - s i) + c i * (m i + Ideal.log (l i))) (max (c i) Spec.one) else 0 := by
  unfold k0_pay3
  show Scalar.select (Ideal.cmp .ogt (c i) (Ideal.ofBits .f32 0x00000000#32))
      (Ideal.div ((Ideal.ofBits .f32 0x00000000#32 - s i) + c i * (m i + Ideal.log (l i))) (max (c i) Spec.one))
      (Ideal.ofBits .f32 0x00000000#32) = _
  rw [Ideal.ofBits_zero_f32, select_ogt_zero]

/-- THE FLAG at any index: 1 where the count is positive, else 0. -/
theorem pay4_apply (c : Vec Ideal S512x1 .f32) (i : S512x1.Idx) :
    k0_pay4 (F := Ideal) c i = if 0 < c i then 1 else 0 := by
  unfold k0_pay4
  refine (flag_ogt _ _).trans ?_
  show (if Ideal.ofBits .f32 0x00000000#32 < c i then (1 : EReal) else 0) = _
  rw [Ideal.ofBits_zero_f32]

/-! ### The tiles against the specification

  Where the blocks hold the rows of the arrays `e` and `p` that the tile's global rows and columns name, the tile's
  values are the specification's. -/

/-- The global index of local index `a` of block `q`: q · 512 + a. -/
def gidx (q : Fin 16) (a : Fin 512) : Fin Spec.N :=
  ⟨q.val * 512 + a.val, by
    have hq := q.isLt
    have ha := a.isLt
    show q.val * 512 + a.val < 8192
    omega⟩

/-- Two global indices are equal exactly where their numbers are. -/
theorem gidx_eq_iff (q k : Fin 16) (a b : Fin 512) :
    gidx q a = gidx k b ↔ q.val * 512 + a.val = k.val * 512 + b.val := Fin.ext_iff

/-- The similarity tile is the specification's similarity. -/
theorem sim_tile (e : Fin Spec.N → Fin Spec.D → EReal) (x0 x1 : Vec Ideal S512x128 .f32) (r j : Fin Spec.N)
    (a b : Fin 512) (h0 : ∀ k, x0 (ix2 a k) = e r k) (h1 : ∀ k, x1 (ix2 b k) = e j k) :
    k0_pay9 (F := Ideal) x0 x1 (ix2 a b) = Spec.sim e r j := by
  rw [pay9_apply]
  unfold Spec.sim Spec.en Spec.sumSq
  simp only [h0, h1]

/-- The masked mask of the tile of query block qi and key block ki is the specification's mask. -/
theorem mask_tile (p : Fin Spec.N → EReal) (x2 : Vec Ideal S512x1 .f32) (x3 : Vec Ideal S1x512 .f32)
    (qi ki : Fin 16) (h0 : S512x512.Iotas .tc 32 [0]) (a b : Fin 512)
    (h2 : x2 (ix2 a (0 : Fin 1)) = p (gidx qi a)) (h3 : x3 (ix2 (0 : Fin 1) b) = p (gidx ki b)) :
    k0_pay12 (F := Ideal) (BitVec.ofNat 32 ki.val) (k0_pay10 (F := Ideal) x2 x3)
        (Scalar.muli (BitVec.ofNat 32 qi.val) 512#32) (iota .tc S512x512 32 [0] h0) (ix2 a b)
      = Spec.mask p (gidx qi a) (gidx ki b) := by
  rw [pay12_tile, pay10_apply, h2, h3]
  unfold Spec.mask Spec.dist
  exact if_congr (gidx_eq_iff qi ki a b).symm rfl rfl

/-- The logits of the tile of query block qi and key block ki are the specification's logits. -/
theorem logit_tile (e : Fin Spec.N → Fin Spec.D → EReal) (x0 x1 : Vec Ideal S512x128 .f32)
    (qi ki : Fin 16) (h0 : S512x512.Iotas .tc 32 [0]) (a b : Fin 512)
    (hq : ∀ k, x0 (ix2 a k) = e (gidx qi a) k) (hk : ∀ k, x1 (ix2 b k) = e (gidx ki b) k) :
    k0_pay13 (F := Ideal) (BitVec.ofNat 32 ki.val) (k0_pay9 (F := Ideal) x0 x1)
        (Scalar.muli (BitVec.ofNat 32 qi.val) 512#32) (iota .tc S512x512 32 [0] h0) (ix2 a b)
      = Spec.logit e (gidx qi a) (gidx ki b) := by
  rw [pay13_tile, sim_tile e x0 x1 (gidx qi a) (gidx ki b) a b hq hk]
  unfold Spec.logit
  exact if_congr (gidx_eq_iff qi ki a b).symm rfl rfl

end Cert.KernelIdeal.Payloads

end
-- ==== Proof.KernelIdealValueTiles.lean ====
/-
  The tiles of a grid point, against the specification.

  At grid point t the body works on the 512 × 512 tile of query rows of row tile t / 16 against key rows of
  column tile t % 16. Read at a local position (a, b), the tile of logits, the tile of the masked mask and the
  tile of similarities are the specification's logit, mask and similarity at the global row (t / 16) · 512 + a
  and the global column (t % 16) · 512 + b, of the embeddings and properties the launch memory holds.
-/
import proofs.«153547_j25572235281097_1_alg».proof.Proof.KernelIdealValueCases
import proofs.«153547_j25572235281097_1_alg».proof.Proof.KernelIdealBlocks
import proofs.«153547_j25572235281097_1_alg».proof.Proof.KernelIdealPayloadsB

set_option maxRecDepth 16384

noncomputable section

namespace Cert.KernelIdeal.KTiles

open Cert.KernelIdeal Cert.KernelIdeal.Gen Cert.KernelIdeal.Body Cert.KernelIdeal.KValue Cert.KernelIdeal.Payloads
open Cert.KernelIdeal.Blocks
open Idealize.ShloMosaic Idealize.ShloMosaic.TcCoe Idealize.ShloMosaic.ValueIdx Idealize.SL.Sem
open scoped BigOperators

/-- The grid's coordinates of point t are its row tile t / 16 and its column tile t % 16. -/
theorem coords_facts : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-- The row tile of a point, as one of the 16. -/
def qiOf (t : Fin cfg0.N) : Fin 16 :=
  ⟨t.val / 16, by have h : t.val < 256 := lt_of_lt_of_eq t.isLt (show cfg0.N = 256 from N_0); omega⟩
/-- The column tile of a point, as one of the 16. -/
def kiOf (t : Fin cfg0.N) : Fin 16 := ⟨t.val % 16, Nat.mod_lt _ (by decide)⟩

variable (m : (ℓ : Loc nD τ sig) → Buf (Elt Ideal) ℓ) (c : Dev nD)

/-- The point's column-tile word and first-row word are those of its tile indices. -/
theorem colW_eq (t : Fin cfg0.N) : colW (grid0.coords t) = BitVec.ofNat 32 (kiOf t).val := by
  show BitVec.ofNat 32 (grid0.coords t 1).val = BitVec.ofNat 32 (t.val % 16)
  rw [(coords_facts t).2]
theorem rowBase_eq (t : Fin cfg0.N) : rowBase (grid0.coords t) = Scalar.muli (BitVec.ofNat 32 (qiOf t).val) 512#32 := by
  show Scalar.muli (BitVec.ofNat 32 (grid0.coords t 0).val) 512#32 = Scalar.muli (BitVec.ofNat 32 (t.val / 16)) 512#32
  rw [(coords_facts t).1]

/-- THE LOGIT TILE of a point is the specification's logits at the global row and column. -/
theorem tile_logit (t : Fin cfg0.N) (a b : Fin 512) :
    k0_pay13 (F := Ideal) (colW (grid0.coords t)) (simT (iblk m c 0 t) (iblk m c 1 t)) (rowBase (grid0.coords t)) rowIota (ix2 a b)
      = Spec.logit (E m c) (gidx (qiOf t) a) (gidx (kiOf t) b) := by
  rw [colW_eq, rowBase_eq]
  exact logit_tile (E m c) (iblk m c 0 t) (iblk m c 1 t) (qiOf t) (kiOf t) iota_S512x512_d0_w32 a b
    (fun k => iblk0_apply m c t a k) (fun k => iblk1_apply m c t b k)

/-- THE MASKED-MASK TILE of a point is the specification's mask at the global row and column. -/
theorem tile_mask (t : Fin cfg0.N) (a b : Fin 512) :
    k0_pay12 (F := Ideal) (colW (grid0.coords t)) (maskT (iblk m c 2 t) (iblk m c 3 t)) (rowBase (grid0.coords t)) rowIota (ix2 a b)
      = Spec.mask (P m c) (gidx (qiOf t) a) (gidx (kiOf t) b) := by
  rw [colW_eq, rowBase_eq]
  exact mask_tile (P m c) (iblk m c 2 t) (iblk m c 3 t) (qiOf t) (kiOf t) iota_S512x512_d0_w32 a b
    (iblk2_apply m c t a) (iblk3_apply m c t b)

/-- THE SIMILARITY TILE of a point is the specification's similarity at the global row and column. -/
theorem tile_sim (t : Fin cfg0.N) (a b : Fin 512) :
    simT (iblk m c 0 t) (iblk m c 1 t) (ix2 a b) = Spec.sim (E m c) (gidx (qiOf t) a) (gidx (kiOf t) b) :=
  sim_tile (E m c) (iblk m c 0 t) (iblk m c 1 t) (gidx (qiOf t) a) (gidx (kiOf t) b) a b
    (fun k => iblk0_apply m c t a k) (fun k => iblk1_apply m c t b k)

end Cert.KernelIdeal.KTiles

end
-- ==== Proof.KernelIdealValueStep.lean ====
/-
  One point's update of a row's statistics, at the extended reals.

  Read at a row a of the point's row block, the update of the four statistics is: for the (maximum, sum) pair, the
  online-softmax step against the row of the point's logit tile — provided that row consists of reals; for the
  masked sum, the addition of the row's sum of masked mask times similarity; for the count, the addition of the
  row's sum of the masked mask. The reset values are -∞ for the maximum and 0 for the other three.
-/
import proofs.«153547_j25572235281097_1_alg».proof.Proof.KernelIdealValueCases
import proofs.«153547_j25572235281097_1_alg».proof.Proof.KernelIdealPayloadsB
import proofs.«153547_j25572235281097_1_alg».proof.Proof.LibOnlineSoftmax

set_option maxRecDepth 16384

noncomputable section

namespace Cert.KernelIdeal.KStep

open Cert.KernelIdeal Cert.KernelIdeal.Gen Cert.KernelIdeal.Body Cert.KernelIdeal.KValue Cert.KernelIdeal.Payloads
open Idealize.ShloMosaic Idealize.ShloMosaic.TcCoe Idealize.ShloMosaic.ValueIdx Idealize.SL.Sem
open scoped BigOperators

/-! ## The reset values -/

/-- The maximum is reset to -∞, -/
theorem resetM_apply (i : S512x1.Idx) : (resetM (F := Ideal)) i = (⊥ : EReal) := by
  show k0_pay5 (F := Ideal) i = ⊥
  unfold k0_pay5
  refine (congrFun (shapeCast_self _ _) i).trans ?_
  show Ideal.ofBits .f32 0xFF800000#32 = ⊥
  simp [Ideal.ofBits, Ideal.ieee]

/-- the sum, -/
theorem resetL_apply (i : S512x1.Idx) : (resetL (F := Ideal)) i = (0 : EReal) := by
  show k0_pay6 (F := Ideal) i = 0
  unfold k0_pay6
  refine (congrFun (shapeCast_self _ _) i).trans ?_
  exact Ideal.ofBits_zero_f32

/-- the masked sum -/
theorem resetS_apply (i : S512x1.Idx) : (resetS (F := Ideal)) i = (0 : EReal) := by
  show k0_pay7 (F := Ideal) i = 0
  unfold k0_pay7
  refine (congrFun (shapeCast_self _ _) i).trans ?_
  exact Ideal.ofBits_zero_f32

/-- and the count to 0. -/
theorem resetC_apply (i : S512x1.Idx) : (resetC (F := Ideal)) i = (0 : EReal) := by
  show k0_pay8 (F := Ideal) i = 0
  unfold k0_pay8
  refine (congrFun (shapeCast_self _ _) i).trans ?_
  exact Ideal.ofBits_zero_f32

/-! ## One step, at a row -/

variable (m : (ℓ : Loc nD τ sig) → Buf (Elt Ideal) ℓ)

/-- THE (MAXIMUM, SUM) PAIR. Where row a of the point's logit tile is a row x of reals, the point updates the pair at
    row a by the online-softmax step against x. -/
theorem step_pair (c : Dev nD) (t : Fin cfg0.N) (p : Vec Ideal S512x1 .f32 × Vec Ideal S512x1 .f32 × Vec Ideal S512x1 .f32 × Vec Ideal S512x1 .f32) (a : Fin 512) (x : Fin 512 → ℝ)
    (hx : ∀ b : Fin 512, k0_pay13 (F := Ideal) (colW (grid0.coords t)) (simT (iblk m c 0 t) (iblk m c 1 t)) (rowBase (grid0.coords t)) rowIota (ix2 a b) = ((x b : ℝ) : EReal)) :
    (((step m c t p).1 (ix2 a (0 : Fin 1)), (step m c t p).2.1 (ix2 a (0 : Fin 1))) : EReal × EReal)
      = OnlineSoftmax.step ((p.1 (ix2 a (0 : Fin 1)), p.2.1 (ix2 a (0 : Fin 1))) : EReal × EReal) x := by
  have hsup : (Finset.univ.sup fun b : Fin 512 => k0_pay13 (F := Ideal) (colW (grid0.coords t)) (simT (iblk m c 0 t) (iblk m c 1 t)) (rowBase (grid0.coords t)) rowIota (ix2 a b))
      = ((OnlineSoftmax.rowMax x : ℝ) : EReal) := by
    rw [← OnlineSoftmax.coe_sup' x]
    exact congrArg _ (funext hx)
  have h14 : k0_pay14 (F := Ideal) (colW (grid0.coords t)) (simT (iblk m c 0 t) (iblk m c 1 t)) (rowBase (grid0.coords t)) rowIota p.1 (ix2 a (0 : Fin 1))
      = max (p.1 (ix2 a (0 : Fin 1)) : EReal) ((OnlineSoftmax.rowMax x : ℝ) : EReal) := by
    rw [pay14_apply, hsup]
  have hM : ((step m c t p).1 (ix2 a (0 : Fin 1)) : EReal)
      = max (p.1 (ix2 a (0 : Fin 1)) : EReal) ((OnlineSoftmax.rowMax x : ℝ) : EReal) := by
    show k0_pay2 (F := Ideal) (k0_pay14 (F := Ideal) (colW (grid0.coords t)) (simT (iblk m c 0 t) (iblk m c 1 t)) (rowBase (grid0.coords t)) rowIota p.1) (ix2 a (0 : Fin 1)) = _
    rw [pay2_apply, h14]
  have hL : ((step m c t p).2.1 (ix2 a (0 : Fin 1)) : EReal)
      = Ideal.exp ((p.1 (ix2 a (0 : Fin 1)) : EReal) - max (p.1 (ix2 a (0 : Fin 1)) : EReal) ((OnlineSoftmax.rowMax x : ℝ) : EReal)) * (p.2.1 (ix2 a (0 : Fin 1)) : EReal)
          + ∑ b : Fin 512, Ideal.exp (((x b : ℝ) : EReal) - max (p.1 (ix2 a (0 : Fin 1)) : EReal) ((OnlineSoftmax.rowMax x : ℝ) : EReal)) := by
    show k0_pay15 (F := Ideal) (colW (grid0.coords t)) (simT (iblk m c 0 t) (iblk m c 1 t)) (rowBase (grid0.coords t)) rowIota p.1 p.2.1 (ix2 a (0 : Fin 1)) = _
    rw [pay15_apply, h14]
    exact congrArg _ (Finset.sum_congr rfl fun b _ => by rw [hx b])
  unfold OnlineSoftmax.step
  exact Prod.ext hM hL

/-- THE MASKED SUM gains the row's sum of masked mask times similarity. -/
theorem step_msum (c : Dev nD) (t : Fin cfg0.N) (p : Vec Ideal S512x1 .f32 × Vec Ideal S512x1 .f32 × Vec Ideal S512x1 .f32 × Vec Ideal S512x1 .f32) (a : Fin 512) :
    ((step m c t p).2.2.1 (ix2 a (0 : Fin 1)) : EReal)
      = (p.2.2.1 (ix2 a (0 : Fin 1)) : EReal)
          + ∑ b : Fin 512, k0_pay12 (F := Ideal) (colW (grid0.coords t)) (maskT (iblk m c 2 t) (iblk m c 3 t)) (rowBase (grid0.coords t)) rowIota (ix2 a b) * simT (iblk m c 0 t) (iblk m c 1 t) (ix2 a b) := by
  show k0_pay16 (F := Ideal) (colW (grid0.coords t)) (simT (iblk m c 0 t) (iblk m c 1 t)) (maskT (iblk m c 2 t) (iblk m c 3 t)) (rowBase (grid0.coords t)) rowIota p.2.2.1 (ix2 a (0 : Fin 1)) = _
  exact pay16_apply _ _ _ _ _ _ a

/-- THE COUNT gains the row's sum of the masked mask. -/
theorem step_count (c : Dev nD) (t : Fin cfg0.N) (p : Vec Ideal S512x1 .f32 × Vec Ideal S512x1 .f32 × Vec Ideal S512x1 .f32 × Vec Ideal S512x1 .f32) (a : Fin 512) :
    ((step m c t p).2.2.2 (ix2 a (0 : Fin 1)) : EReal)
      = (p.2.2.2 (ix2 a (0 : Fin 1)) : EReal) + ∑ b : Fin 512, k0_pay12 (F := Ideal) (colW (grid0.coords t)) (maskT (iblk m c 2 t) (iblk m c 3 t)) (rowBase (grid0.coords t)) rowIota (ix2 a b) := by
  show k0_pay1 (F := Ideal) p.2.2.2 (k0_pay17 (F := Ideal) (colW (grid0.coords t)) (maskT (iblk m c 2 t) (iblk m c 3 t)) (rowBase (grid0.coords t)) rowIota) (ix2 a (0 : Fin 1)) = _
  rw [pay1_apply, pay17_apply]

end Cert.KernelIdeal.KStep

end
-- ==== Proof.LibTileFold.lean ====
/-
  A quantity carried across the points of a grid, reset at the start of every run of J points.

  Many tiled computations carry a state from one grid point to the next along an axis of length J and start
  afresh at the beginning of each run: the state after point n is g n applied to the reset value r when n is a
  multiple of J, and to the state after point n - 1 otherwise. This file reads such a recurrence run by run:
  at point J · q + j (j < J) the state is what j + 1 steps from r give over the run's own points.

  Two instances are proved. When one component of the state is an extended-real sum to which each point adds
  a term, it is the sum of the run's terms so far. When a pair of components is updated by the online-softmax
  step against a row of reals, it is the online-softmax fold of the run's rows so far, hence (by the online
  softmax law) the maximum of everything seen and the sum of the exponentials relative to it.
-/
import proofs.«153547_j25572235281097_1_alg».proof.Proof.LibOnlineSoftmax

noncomputable section

namespace TileFold

open Idealize.ShloMosaic
open scoped BigOperators

variable {S : Type*} {N J : ℕ}

/-- The recurrence: the value after point 0 is one step from the reset value r; after point n + 1 it is one step
    from r if n + 1 starts a run (a multiple of J), else one step from the value after point n. -/
structure Resets (f : (n : ℕ) → n < N → S) (g : (n : ℕ) → n < N → S → S) (r : S) (J : ℕ) : Prop where
  zero : ∀ h : 0 < N, f 0 h = g 0 h r
  succ : ∀ (n : ℕ) (h : n + 1 < N),
    f (n + 1) h = if (n + 1) % J = 0 then g (n + 1) h r else g (n + 1) h (f n (Nat.lt_of_succ_lt h))

variable {f : (n : ℕ) → n < N → S} {g : (n : ℕ) → n < N → S → S} {r : S}

/-- At the first point of a run the value is one step from the reset value. -/
theorem Resets.at_start (H : Resets f g r J) (q : ℕ) (h : J * q < N) : f (J * q) h = g (J * q) h r := by
  rcases Nat.eq_zero_or_pos (J * q) with h0 | hpos
  · have e : ∀ (n : ℕ) (hn : n < N), n = 0 → f n hn = g n hn r := by
      intro n hn hz; subst hz; exact H.zero hn
    exact e (J * q) h h0
  · obtain ⟨n, hn⟩ : ∃ n, J * q = n + 1 := ⟨J * q - 1, by omega⟩
    have e : ∀ (k : ℕ) (hk : k < N), k = n + 1 → k % J = 0 → f k hk = g k hk r := by
      intro k hk hkn hmod; subst hkn; rw [H.succ n hk, if_pos hmod]
    exact e (J * q) h hn (Nat.mul_mod_right J q)

/-- The same, with the run's first point written J · q + 0. -/
theorem Resets.at_start' (H : Resets f g r J) (q : ℕ) (h : J * q + 0 < N) : f (J * q + 0) h = g (J * q + 0) h r :=
  H.at_start q h

/-- At a later point of a run the value is one step from the value at the point before. -/
theorem Resets.at_next (H : Resets f g r J) (q j : ℕ) (hj : j + 1 < J) (h : J * q + (j + 1) < N) :
    f (J * q + (j + 1)) h = g (J * q + (j + 1)) h (f (J * q + j) (by omega)) := by
  have hmod : (J * q + j + 1) % J ≠ 0 := by
    rw [show J * q + j + 1 = J * q + (j + 1) from rfl, Nat.mul_add_mod, Nat.mod_eq_of_lt hj]; omega
  exact (H.succ (J * q + j) h).trans (if_neg hmod)

/-- A SUM carried through a run. If a component (read by proj) gains the term t n at point n and is 0 at reset,
    then at point J · q + j it is the sum of the run's terms so far. -/
theorem Resets.sum_fold (H : Resets f g r J) (proj : S → EReal) (t : ℕ → EReal)
    (hstep : ∀ (n : ℕ) (h : n < N) (p : S), proj (g n h p) = proj p + t n) (hr : proj r = 0)
    (q : ℕ) : ∀ (j : ℕ) (hj : j < J) (h : J * q + j < N),
      proj (f (J * q + j) h) = ∑ i ∈ Finset.range (j + 1), t (J * q + i)
  | 0, _, h => by
    rw [H.at_start' q h, hstep, hr, zero_add, Finset.sum_range_succ, Finset.range_zero, Finset.sum_empty, zero_add]
  | j + 1, hj, h => by
    rw [H.at_next q j hj h, hstep, Resets.sum_fold H proj t hstep hr q j (by omega) (by omega),
      Finset.sum_range_succ _ (j + 1)]

variable {ι : Type*} [Fintype ι] [Nonempty ι]

/-- THE ONLINE-SOFTMAX PAIR carried through a run. If a pair of components (read by proj) is updated at point n by
    the online-softmax step against the row x n of reals, and is (-∞, 0) at reset, then at point J · q + j it is the
    online-softmax fold of the rows of the run so far. -/
theorem Resets.softmax_fold (H : Resets f g r J) (proj : S → EReal × EReal) (x : ℕ → ι → ℝ)
    (hstep : ∀ (n : ℕ) (h : n < N) (p : S), proj (g n h p) = OnlineSoftmax.step (proj p) (x n))
    (hr : proj r = (⊥, 0)) (q : ℕ) : ∀ (j : ℕ) (hj : j < J) (h : J * q + j < N),
      proj (f (J * q + j) h) = OnlineSoftmax.st (fun i => x (J * q + i)) (j + 1)
  | 0, _, h => by
    rw [H.at_start' q h, hstep, hr, OnlineSoftmax.st_step, OnlineSoftmax.st_zero]
  | j + 1, hj, h => by
    rw [H.at_next q j hj h, hstep, Resets.softmax_fold H proj x hstep hr q j (by omega) (by omega),
      OnlineSoftmax.st_step (fun i => x (J * q + i)) (j + 1)]

/-- So at point J · q + j the pair is the maximum of all entries of the run's rows so far and the sum of their
    exponentials relative to it (the online-softmax law). -/
theorem Resets.softmax_fold_closed (H : Resets f g r J) (proj : S → EReal × EReal) (x : ℕ → ι → ℝ)
    (hstep : ∀ (n : ℕ) (h : n < N) (p : S), proj (g n h p) = OnlineSoftmax.step (proj p) (x n))
    (hr : proj r = (⊥, 0)) (q j : ℕ) (hj : j < J) (h : J * q + j < N) :
    proj (f (J * q + j) h)
      = (((OnlineSoftmax.runMax (fun i => x (J * q + i)) j : ℝ) : EReal),
          ((∑ i ∈ Finset.range (j + 1), ∑ c, Real.exp (x (J * q + i) c
              - OnlineSoftmax.runMax (fun i => x (J * q + i)) j) : ℝ) : EReal)) := by
  rw [H.softmax_fold proj x hstep hr q j hj h, OnlineSoftmax.st_succ]

end TileFold

end
-- ==== Proof.KernelIdealValueFold.lean ====
/-
  The four per-row statistics at a point of a row tile, run by run.

  The recurrence of the four scratch statistics (maximum, sum of exponentials, masked sum, count) resets at the
  first column tile of every row tile and steps from the point before elsewhere: a recurrence with runs of 16
  points. Read through the general run-by-run lemmas, and given what one step does to a row's entries — the
  online-softmax step against the row's 512 logits of the column tile for the (maximum, sum) pair, the addition
  of the tile's term for the masked sum and for the count — the statistics of a row at column tile j of row tile
  q are: the maximum of the row's logits over tiles 0..j and the sum of their exponentials relative to it, and
  the sums of the tiles' terms so far.
-/
import proofs.«153547_j25572235281097_1_alg».proof.Proof.KernelIdealValueCases
import proofs.«153547_j25572235281097_1_alg».proof.Proof.LibTileFold

noncomputable section

namespace Cert.KernelIdeal.KFold

open Cert.KernelIdeal Cert.KernelIdeal.Gen Cert.KernelIdeal.Body Cert.KernelIdeal.KValue
open Idealize.ShloMosaic Idealize.ShloMosaic.TcCoe Idealize.SL.Sem
open scoped BigOperators

section Generic

variable {F : FTy → Type} [FloatOps F] (m : (ℓ : Loc nD τ sig) → Buf (Elt F) ℓ)

/-- The recurrence of the four statistics resets every 16 points: by its definition. -/
theorem scrAt_resets (c : Dev nD) :
    TileFold.Resets (N := cfg0.N) (scrAt m c) (fun n h => step m c ⟨n, h⟩) (reset (F := F)) 16 :=
  ⟨fun _ => rfl, fun _ _ => rfl⟩

end Generic

section AtIdeal

variable (m : (ℓ : Loc nD τ sig) → Buf (Elt Ideal) ℓ)

/-- THE MAXIMUM AND THE SUM OF A ROW. If one step updates a row's (maximum, sum) pair by the online-softmax step
    against the real row x n of logits, and the reset pair at that row is (-∞, 0), then at column tile j of row
    tile q the pair is the maximum of the row's logits over tiles 0..j and the sum of their exponentials relative
    to that maximum. -/
theorem max_sum_row (c : Dev nD) (a : S512x1.Idx) (x : ℕ → Fin 512 → ℝ)
    (hstep : ∀ (n : ℕ) (h : n < cfg0.N) (p : Vec Ideal S512x1 .f32 × Vec Ideal S512x1 .f32 × Vec Ideal S512x1 .f32 × Vec Ideal S512x1 .f32),
      (((step m c ⟨n, h⟩ p).1 a, (step m c ⟨n, h⟩ p).2.1 a) : EReal × EReal)
        = OnlineSoftmax.step ((p.1 a, p.2.1 a) : EReal × EReal) (x n))
    (hr : (((reset (F := Ideal)).1 a, (reset (F := Ideal)).2.1 a) : EReal × EReal) = (⊥, 0))
    (q j : ℕ) (hj : j < 16) (h : 16 * q + j < cfg0.N) :
    (((scrAt m c (16 * q + j) h).1 a, (scrAt m c (16 * q + j) h).2.1 a) : EReal × EReal)
      = (((OnlineSoftmax.runMax (fun i => x (16 * q + i)) j : ℝ) : EReal),
          ((∑ i ∈ Finset.range (j + 1), ∑ b, Real.exp (x (16 * q + i) b
              - OnlineSoftmax.runMax (fun i => x (16 * q + i)) j) : ℝ) : EReal)) :=
  (scrAt_resets m c).softmax_fold_closed (fun p => ((p.1 a, p.2.1 a) : EReal × EReal)) x hstep hr q j hj h

/-- THE MASKED SUM OF A ROW. If one step adds the column tile's term t n to a row's masked sum, and the reset value
    at that row is 0, then at column tile j of row tile q it is the sum of the terms of tiles 0..j. -/
theorem msum_row (c : Dev nD) (a : S512x1.Idx) (t : ℕ → EReal)
    (hstep : ∀ (n : ℕ) (h : n < cfg0.N) (p : Vec Ideal S512x1 .f32 × Vec Ideal S512x1 .f32 × Vec Ideal S512x1 .f32 × Vec Ideal S512x1 .f32),
      ((step m c ⟨n, h⟩ p).2.2.1 a : EReal) = (p.2.2.1 a : EReal) + t n)
    (hr : ((reset (F := Ideal)).2.2.1 a : EReal) = 0)
    (q j : ℕ) (hj : j < 16) (h : 16 * q + j < cfg0.N) :
    ((scrAt m c (16 * q + j) h).2.2.1 a : EReal) = ∑ i ∈ Finset.range (j + 1), t (16 * q + i) :=
  (scrAt_resets m c).sum_fold (fun p => (p.2.2.1 a : EReal)) t hstep hr q j hj h

/-- THE COUNT OF A ROW, likewise. -/
theorem count_row (c : Dev nD) (a : S512x1.Idx) (t : ℕ → EReal)
    (hstep : ∀ (n : ℕ) (h : n < cfg0.N) (p : Vec Ideal S512x1 .f32 × Vec Ideal S512x1 .f32 × Vec Ideal S512x1 .f32 × Vec Ideal S512x1 .f32),
      ((step m c ⟨n, h⟩ p).2.2.2 a : EReal) = (p.2.2.2 a : EReal) + t n)
    (hr : ((reset (F := Ideal)).2.2.2 a : EReal) = 0)
    (q j : ℕ) (hj : j < 16) (h : 16 * q + j < cfg0.N) :
    ((scrAt m c (16 * q + j) h).2.2.2 a : EReal) = ∑ i ∈ Finset.range (j + 1), t (16 * q + i) :=
  (scrAt_resets m c).sum_fold (fun p => (p.2.2.2 a : EReal)) t hstep hr q j hj h

end AtIdeal

end Cert.KernelIdeal.KFold

end
-- ==== Proof.KernelIdealValueCover.lean ====
/-
  The two output arrays after the run, row by row.

  Each output array has 8192 rows in 16 row blocks of 512. The pipeline writes an output's block back only at
  the last column tile of a row tile: point (row tile, 15), at position row tile · 16 + 15. Those sixteen blocks
  tile the array, so every row ends holding what the write-back of its row tile put there: the element the
  body left at local row (row mod 512) of the output's buffer at that point. This file proves that reduction:
  a statement about every flushing point's buffer becomes the statement about every row of the final array.
-/
import proofs.«153547_j25572235281097_1_alg».proof.Proof.KernelIdealBody
import Idealize.ShloMosaic.Lib.Pipeline.Value
import Idealize.ShloMosaic.Lib.Tactic
import Idealize.ShloMosaic.Lib.ValueIdx

set_option maxRecDepth 16384

noncomputable section

namespace Cert.KernelIdeal.KCover

open Cert.KernelIdeal Cert.KernelIdeal.Gen Cert.KernelIdeal.Body
open Idealize.ShloMosaic Idealize.ShloMosaic.TcCoe Idealize.ShloMosaic.Tactic Idealize.SL.Sem
open Idealize.ShloMosaic.Pipeline (Dat)

variable {F : FTy → Type} [FloatOps F]

open Idealize.ShloMosaic.ValueIdx

variable (m : (ℓ : Loc nD τ sig) → Buf (Elt F) ℓ)

/-- Output window 4 takes its row-block index from the row-tile coordinate and sits at column block 0; its blocks are never cut. -/
theorem index4_0 : ∀ t : Fin cfg0.N, (cfg0.win 4).index t 0 = t.val / 16 :=
  (by decide +kernel : ∀ t : Fin grid0.N, win0_4.index t 0 = t.val / 16)
theorem index4_1 : ∀ t : Fin cfg0.N, (cfg0.win 4).index t 1 = 0 :=
  (by decide +kernel : ∀ t : Fin grid0.N, win0_4.index t 1 = 0)
theorem xsize4_0 : ∀ t : Fin cfg0.N, (cfg0.win 4).xsize (grid0.coords t) 0 = 512 :=
  (by decide +kernel : ∀ t : Fin grid0.N, win0_4.xsize (grid0.coords t) 0 = 512)
theorem xsize4_1 : ∀ t : Fin cfg0.N, (cfg0.win 4).xsize (grid0.coords t) 1 = 1 :=
  (by decide +kernel : ∀ t : Fin grid0.N, win0_4.xsize (grid0.coords t) 1 = 1)

/-- Output window 5 takes its row-block index from the row-tile coordinate and sits at column block 0; its blocks are never cut. -/
theorem index5_0 : ∀ t : Fin cfg0.N, (cfg0.win 5).index t 0 = t.val / 16 :=
  (by decide +kernel : ∀ t : Fin grid0.N, win0_5.index t 0 = t.val / 16)
theorem index5_1 : ∀ t : Fin cfg0.N, (cfg0.win 5).index t 1 = 0 :=
  (by decide +kernel : ∀ t : Fin grid0.N, win0_5.index t 1 = 0)
theorem xsize5_0 : ∀ t : Fin cfg0.N, (cfg0.win 5).xsize (grid0.coords t) 0 = 512 :=
  (by decide +kernel : ∀ t : Fin grid0.N, win0_5.xsize (grid0.coords t) 0 = 512)
theorem xsize5_1 : ∀ t : Fin cfg0.N, (cfg0.win 5).xsize (grid0.coords t) 1 = 1 :=
  (by decide +kernel : ∀ t : Fin grid0.N, win0_5.xsize (grid0.coords t) 1 = 1)

/-- Output 4's block at a flushed element: the array row is the row-tile coordinate times 512 plus the local row, and
    the element is what the body left there. -/
theorem flushed4_at (c : Dev nD) (R : ℕ → Elt F .f32)
    (hR : ∀ (t : Fin cfg0.N), t.val % 16 = 15 → ∀ y : S512x1.Idx, (outsAt0 m c t.val t.isLt).1 y = R ((t.val / 16) * 512 + (y 0).val))
    (t : Fin cfg0.N) (hf : (cfg0.win 4).flush t = true) (y : ((cfg0.win 4).xblock (cfg0.grid.coords t)).Idx) :
    (_root_.cast (congrArg (Elt F) ((cfg0.win 4).blk t).view.elt_eq.symm) ((dats m c).flushed 4 t y))
      = R ((((cfg0.win 4).blk t).view.emb y) 0).val := by
  have h15 := (flush0_4 t).mp hf
  have e0 : ((((cfg0.win 4).blk t).view.emb y) 0).val = (cfg0.win 4).index t 0 * (cfg0.win 4).size 0 + (y 0).val :=
    (cfg0.win 4).rect_emb_val t y 0
  rw [e0, index4_0 t]
  show (dats m c).after 4 t ((cfg0.win 4).xinj (cfg0.grid.coords t) y) = _
  rw [after0_4]
  exact hR t h15 _

/-- Every row of output 4's array lies in the block some flushing point writes back: row i in the block of the last
    column tile of row tile i / 512. -/
theorem cover4 (c : Dev nD) (i : ((cfg0.win 4).arr.view.loc (c.tc : Thread nD τ)).2.ty.Idx) :
    ∃ t : Fin cfg0.N, (cfg0.win 4).flush t = true ∧ i ∈ ((cfg0.win 4).blk t).view.set := by
  have hN : cfg0.N = 256 := N_0
  have h0 : (i 0 : Nat) < 8192 := (i 0).isLt
  have h1 : (i 1 : Nat) < 1 := (i 1).isLt
  let t : Fin cfg0.N := ⟨(i 0 : Nat) / 512 * 16 + 15, by rw [hN]; omega⟩
  have ht : t.val % 16 = 15 := by show ((i 0 : Nat) / 512 * 16 + 15) % 16 = 15; omega
  have hq : t.val / 16 = (i 0 : Nat) / 512 := by show ((i 0 : Nat) / 512 * 16 + 15) / 16 = _; omega
  refine ⟨t, (flush0_4 t).mpr ht, ?_⟩
  show i ∈ ((View.whole main_v1_0).slice ((cfg0.win 4).rect t)).set
  rw [View.set_slice_whole, Rect.mem_set_unit]
  intro a
  match a with
  | ⟨0, _⟩ =>
    show (cfg0.win 4).index t 0 * (cfg0.win 4).size 0 ≤ (i 0 : Nat) ∧ (i 0 : Nat) < (cfg0.win 4).index t 0 * (cfg0.win 4).size 0 + (cfg0.win 4).xsize (grid0.coords t) 0
    rw [index4_0 t, hq, xsize4_0 t]
    show (i 0 : Nat) / 512 * 512 ≤ (i 0 : Nat) ∧ (i 0 : Nat) < (i 0 : Nat) / 512 * 512 + 512
    omega
  | ⟨1, _⟩ =>
    show (cfg0.win 4).index t 1 * (cfg0.win 4).size 1 ≤ (i 1 : Nat) ∧ (i 1 : Nat) < (cfg0.win 4).index t 1 * (cfg0.win 4).size 1 + (cfg0.win 4).xsize (grid0.coords t) 1
    rw [index4_1 t, xsize4_1 t]
    show 0 * 1 ≤ (i 1 : Nat) ∧ (i 1 : Nat) < 0 * 1 + 1
    omega

/-- THE COVER of output 4. If at every point of the last column tile the body leaves, at each local row of the output's
    block, R of the global row (row tile times 512 plus the local row), then after the run the output array holds R r
    at every row r. -/
theorem arrAt4_rows (c : Dev nD) (R : ℕ → Elt F .f32)
    (hR : ∀ (t : Fin cfg0.N), t.val % 16 = 15 → ∀ y : S512x1.Idx, (outsAt0 m c t.val t.isLt).1 y = R ((t.val / 16) * 512 + (y 0).val))
    (i : ((cfg0.win 4).arr.view.loc (c.tc : Thread nD τ)).2.ty.Idx) :
    (dats m c).arrAt 4 cfg0.N i = R (i 0).val :=
  (dats m c).arrAt_forall_of_cover 4 (fun i v => v = R (i 0).val) (flushed4_at m c R hR) (cover4 c) i

/-- Output 5's block at a flushed element: the array row is the row-tile coordinate times 512 plus the local row, and
    the element is what the body left there. -/
theorem flushed5_at (c : Dev nD) (R : ℕ → Elt F .f32)
    (hR : ∀ (t : Fin cfg0.N), t.val % 16 = 15 → ∀ y : S512x1.Idx, (outsAt0 m c t.val t.isLt).2.1 y = R ((t.val / 16) * 512 + (y 0).val))
    (t : Fin cfg0.N) (hf : (cfg0.win 5).flush t = true) (y : ((cfg0.win 5).xblock (cfg0.grid.coords t)).Idx) :
    (_root_.cast (congrArg (Elt F) ((cfg0.win 5).blk t).view.elt_eq.symm) ((dats m c).flushed 5 t y))
      = R ((((cfg0.win 5).blk t).view.emb y) 0).val := by
  have h15 := (flush0_5 t).mp hf
  have e0 : ((((cfg0.win 5).blk t).view.emb y) 0).val = (cfg0.win 5).index t 0 * (cfg0.win 5).size 0 + (y 0).val :=
    (cfg0.win 5).rect_emb_val t y 0
  rw [e0, index5_0 t]
  show (dats m c).after 5 t ((cfg0.win 5).xinj (cfg0.grid.coords t) y) = _
  rw [after0_5]
  exact hR t h15 _

/-- Every row of output 5's array lies in the block some flushing point writes back: row i in the block of the last
    column tile of row tile i / 512. -/
theorem cover5 (c : Dev nD) (i : ((cfg0.win 5).arr.view.loc (c.tc : Thread nD τ)).2.ty.Idx) :
    ∃ t : Fin cfg0.N, (cfg0.win 5).flush t = true ∧ i ∈ ((cfg0.win 5).blk t).view.set := by
  have hN : cfg0.N = 256 := N_0
  have h0 : (i 0 : Nat) < 8192 := (i 0).isLt
  have h1 : (i 1 : Nat) < 1 := (i 1).isLt
  let t : Fin cfg0.N := ⟨(i 0 : Nat) / 512 * 16 + 15, by rw [hN]; omega⟩
  have ht : t.val % 16 = 15 := by show ((i 0 : Nat) / 512 * 16 + 15) % 16 = 15; omega
  have hq : t.val / 16 = (i 0 : Nat) / 512 := by show ((i 0 : Nat) / 512 * 16 + 15) / 16 = _; omega
  refine ⟨t, (flush0_5 t).mpr ht, ?_⟩
  show i ∈ ((View.whole main_v1_1).slice ((cfg0.win 5).rect t)).set
  rw [View.set_slice_whole, Rect.mem_set_unit]
  intro a
  match a with
  | ⟨0, _⟩ =>
    show (cfg0.win 5).index t 0 * (cfg0.win 5).size 0 ≤ (i 0 : Nat) ∧ (i 0 : Nat) < (cfg0.win 5).index t 0 * (cfg0.win 5).size 0 + (cfg0.win 5).xsize (grid0.coords t) 0
    rw [index5_0 t, hq, xsize5_0 t]
    show (i 0 : Nat) / 512 * 512 ≤ (i 0 : Nat) ∧ (i 0 : Nat) < (i 0 : Nat) / 512 * 512 + 512
    omega
  | ⟨1, _⟩ =>
    show (cfg0.win 5).index t 1 * (cfg0.win 5).size 1 ≤ (i 1 : Nat) ∧ (i 1 : Nat) < (cfg0.win 5).index t 1 * (cfg0.win 5).size 1 + (cfg0.win 5).xsize (grid0.coords t) 1
    rw [index5_1 t, xsize5_1 t]
    show 0 * 1 ≤ (i 1 : Nat) ∧ (i 1 : Nat) < 0 * 1 + 1
    omega

/-- THE COVER of output 5. If at every point of the last column tile the body leaves, at each local row of the output's
    block, R of the global row (row tile times 512 plus the local row), then after the run the output array holds R r
    at every row r. -/
theorem arrAt5_rows (c : Dev nD) (R : ℕ → Elt F .f32)
    (hR : ∀ (t : Fin cfg0.N), t.val % 16 = 15 → ∀ y : S512x1.Idx, (outsAt0 m c t.val t.isLt).2.1 y = R ((t.val / 16) * 512 + (y 0).val))
    (i : ((cfg0.win 5).arr.view.loc (c.tc : Thread nD τ)).2.ty.Idx) :
    (dats m c).arrAt 5 cfg0.N i = R (i 0).val :=
  (dats m c).arrAt_forall_of_cover 5 (fun i v => v = R (i 0).val) (flushed5_at m c R hR) (cover5 c) i

end Cert.KernelIdeal.KCover

end
-- ==== Proof.SpecReal.lean ====
/-
  The specification on real inputs: everything is a real.

  When every embedding entry is a real and every row has a positive sum of squares, the specification's
  normalised rows, cosine similarities over the temperature, logits (similarity off the diagonal, the large
  negative literal on it), row maximum and sum of exponentials relative to it are all embedded reals. This file
  names the real versions and proves each extended-real definition equal to the embedding of its real version;
  the two literals involved (the temperature and the diagonal fill) are identified as the reals they denote.
-/
import proofs.«153547_j25572235281097_1_alg».proof.Proof.Spec
import proofs.«153547_j25572235281097_1_alg».proof.Proof.PreDecode
import proofs.«153547_j25572235281097_1_alg».proof.Proof.LibOnlineSoftmax

noncomputable section

namespace SpecReal

open Idealize.ShloMosaic
open scoped BigOperators

/-! ## The two literals -/

/-- The temperature literal as a real: 13421773 / 2^27, the float nearest 0.1. -/
def tempR : ℝ := 13421773 * (2 ^ 27)⁻¹
/-- The diagonal-fill literal as a real: -10^9, written as the float's significand and exponent. -/
def negBigR : ℝ := -(15625000 * 2 ^ 6)

/-- The temperature word denotes that real, -/
theorem temp_eq : Spec.temp = ((tempR : ℝ) : EReal) := by
  unfold Spec.temp tempR
  simp [Ideal.ofBits, Ideal.ieee]
  first
  | done
  | norm_cast
  | (rw [EReal.coe_mul]; rfl)
  | (push_cast; rfl)

/-- which is positive. -/
theorem tempR_pos : 0 < tempR := by unfold tempR; positivity

/-- The diagonal-fill word denotes that real. -/
theorem negBig_eq : Spec.negBig = ((negBigR : ℝ) : EReal) := by
  unfold Spec.negBig negBigR
  simp [Ideal.ofBits, Ideal.ieee]
  first
  | done
  | norm_cast
  | (push_cast; rfl)

/-! ## The real versions -/

variable (x : Fin Spec.N → Fin Spec.D → ℝ)

/-- The embeddings as extended reals. -/
abbrev emb : Fin Spec.N → Fin Spec.D → EReal := fun r k => ((x r k : ℝ) : EReal)

/-- A row's sum of squares, -/
def sumSqR (r : Fin Spec.N) : ℝ := ∑ k : Fin Spec.D, x r k * x r k
/-- the row normalised, -/
def enR (r : Fin Spec.N) (k : Fin Spec.D) : ℝ := x r k / Real.sqrt (sumSqR x r)
/-- the cosine similarity over the temperature, -/
def simR (r j : Fin Spec.N) : ℝ := (∑ k : Fin Spec.D, enR x r k * enR x j k) / tempR
/-- and the logit: the similarity off the diagonal, the large negative literal on it. -/
def logitR (r j : Fin Spec.N) : ℝ := if r = j then negBigR else simR x r j

/-- The row maximum of the logits, -/
def rmaxR (r : Fin Spec.N) : ℝ := Finset.univ.sup' Finset.univ_nonempty (logitR x r)
/-- and the sum of their exponentials relative to it. -/
def lsumR (r : Fin Spec.N) : ℝ := ∑ j : Fin Spec.N, Real.exp (logitR x r j - rmaxR x r)

/-! ## Each specification quantity is the embedding of its real version -/

theorem sumSq_coe (r : Fin Spec.N) : Spec.sumSq (emb x) r = ((sumSqR x r : ℝ) : EReal) := by
  unfold Spec.sumSq sumSqR
  rw [zero_add, OnlineSoftmax.coe_sum]
  exact Finset.sum_congr rfl fun k _ => (EReal.coe_mul _ _).symm

variable (hpos : ∀ r, 0 < sumSqR x r)
include hpos

theorem en_coe (r : Fin Spec.N) (k : Fin Spec.D) : Spec.en (emb x) r k = ((enR x r k : ℝ) : EReal) := by
  unfold Spec.en enR
  rw [sumSq_coe, Cert.PreDecode.sqrt_coe_of_pos (hpos r),
    Cert.PreDecode.div_coe_coe _ (ne_of_gt (Cert.PreDecode.sqrt_pos_of_pos (hpos r)))]

theorem sim_coe (r j : Fin Spec.N) : Spec.sim (emb x) r j = ((simR x r j : ℝ) : EReal) := by
  unfold Spec.sim simR
  have hs : (0 + ∑ k : Fin Spec.D, Spec.en (emb x) r k * Spec.en (emb x) j k)
      = ((∑ k : Fin Spec.D, enR x r k * enR x j k : ℝ) : EReal) := by
    rw [zero_add, OnlineSoftmax.coe_sum]
    exact Finset.sum_congr rfl fun k _ => by rw [en_coe x hpos, en_coe x hpos, EReal.coe_mul]
  rw [hs, temp_eq, Cert.PreDecode.div_coe_coe _ (ne_of_gt tempR_pos)]

theorem logit_coe (r j : Fin Spec.N) : Spec.logit (emb x) r j = ((logitR x r j : ℝ) : EReal) := by
  unfold Spec.logit logitR
  by_cases h : r = j
  · rw [if_pos h, if_pos h, negBig_eq]
  · rw [if_neg h, if_neg h, sim_coe x hpos]

theorem rmax_coe (r : Fin Spec.N) : Spec.rmax (emb x) r = ((rmaxR x r : ℝ) : EReal) := by
  unfold Spec.rmax rmaxR
  rw [← OnlineSoftmax.coe_sup' (logitR x r)]
  exact congrArg _ (funext fun j => logit_coe x hpos r j)

theorem lsum_coe (r : Fin Spec.N) : Spec.lsum (emb x) r = ((lsumR x r : ℝ) : EReal) := by
  unfold Spec.lsum lsumR
  rw [zero_add, OnlineSoftmax.coe_sum]
  exact Finset.sum_congr rfl fun j _ => by rw [logit_coe x hpos, rmax_coe x hpos]; rfl

/-- The sum of exponentials is positive, so its extended logarithm is the real logarithm. -/
theorem lsumR_pos (r : Fin Spec.N) : 0 < lsumR x r :=
  Finset.sum_pos (fun _ _ => Real.exp_pos _) Finset.univ_nonempty

theorem log_lsum_coe (r : Fin Spec.N) :
    Ideal.log (Spec.lsum (emb x) r) = ((Real.log (lsumR x r) : ℝ) : EReal) := by
  rw [lsum_coe x hpos, OnlineSoftmax.log_coe_of_pos (lsumR_pos x hpos r)]

end SpecReal

end
-- ==== Proof.LibTileSplit.lean ====
/-
  A long row as a sequence of tiles: the whole-row maximum and sums, regrouped tile by tile.

  A row indexed by κ is cut into n + 1 tiles of positions ι through a bijection e between (tile, position) pairs
  and κ. A sum over the row is then the sum over the tiles of the sums within each; the maximum over the row is
  the running maximum of the tiles after the last one; and the sum of exponentials of the row relative to a shift
  is the sum over the tiles, in order, of the tiles' sums of exponentials. These are the forms in which a
  tile-by-tile accumulation states its result, so they turn that result into a statement about the whole row.
-/
import proofs.«153547_j25572235281097_1_alg».proof.Proof.LibOnlineSoftmax

noncomputable section

namespace TileSplit

open scoped BigOperators

variable {n : ℕ} {ι κ : Type*} [Fintype ι] [Fintype κ]

/-- A sum over the whole row is the sum over the tiles of the sums within each tile. -/
theorem sum_whole {M : Type*} [AddCommMonoid M] (e : Fin (n + 1) × ι ≃ κ) (T : κ → M) :
    ∑ j, T j = ∑ i : Fin (n + 1), ∑ b, T (e (i, b)) :=
  (e.sum_comp T).symm.trans (Fintype.sum_prod_type _)

/-- The same with the tiles counted by a range of naturals, for a term given on natural tile numbers. -/
theorem sum_whole_range {M : Type*} [AddCommMonoid M] (e : Fin (n + 1) × ι ≃ κ) (T : κ → M)
    (t : ℕ → M) (ht : ∀ i : Fin (n + 1), t i.val = ∑ b, T (e (i, b))) :
    ∑ j, T j = ∑ i ∈ Finset.range (n + 1), t i := by
  rw [sum_whole e T, Finset.sum_range]
  exact Finset.sum_congr rfl fun i _ => (ht i).symm

variable [Nonempty ι]

/-- The maximum over the whole row of the embedded reals is the running maximum of the tiles after the last tile. -/
theorem sup_whole (e : Fin (n + 1) × ι ≃ κ) (X : κ → ℝ) (x : Fin (n + 1) → ι → ℝ)
    (hX : ∀ i b, X (e (i, b)) = x i b) :
    (Finset.univ.sup fun j => ((X j : ℝ) : EReal))
      = ((OnlineSoftmax.runMax (OnlineSoftmax.seqOf x) n : ℝ) : EReal) := by
  rw [OnlineSoftmax.runMax_seqOf, ← OnlineSoftmax.coe_sup' (fun p : Fin (n + 1) × ι => x p.1 p.2)]
  apply le_antisymm
  · refine Finset.sup_le fun j _ => ?_
    have hj : X j = x (e.symm j).1 (e.symm j).2 := by
      rw [← hX (e.symm j).1 (e.symm j).2, Prod.mk.eta, e.apply_symm_apply]
    rw [hj]
    exact Finset.le_sup (f := fun p : Fin (n + 1) × ι => ((x p.1 p.2 : ℝ) : EReal)) (Finset.mem_univ (e.symm j))
  · refine Finset.sup_le fun p _ => ?_
    rw [← hX p.1 p.2, Prod.mk.eta]
    exact Finset.le_sup (f := fun j => ((X j : ℝ) : EReal)) (Finset.mem_univ (e p))

/-- The sum over the whole row of the exponentials relative to a shift M is the sum over the tiles, in order, of
    the tiles' sums of exponentials. -/
theorem sumExp_whole (e : Fin (n + 1) × ι ≃ κ) (X : κ → ℝ) (x : Fin (n + 1) → ι → ℝ)
    (hX : ∀ i b, X (e (i, b)) = x i b) (M : ℝ) :
    ∑ j, Real.exp (X j - M)
      = ∑ i ∈ Finset.range (n + 1), ∑ b, Real.exp (OnlineSoftmax.seqOf x i b - M) := by
  rw [sum_whole e (fun j => Real.exp (X j - M)), Finset.sum_range]
  refine Finset.sum_congr rfl fun i _ => Finset.sum_congr rfl fun b _ => ?_
  rw [hX i b, OnlineSoftmax.seqOf_val]

end TileSplit

end
-- ==== Proof.KernelIdealValueRows.lean ====
/-
  The kernel's two result arrays, row by row, are the specification's row value and flag.

  Fix a row r = q · 512 + a of row tile q. Across the 16 column tiles of that row tile the body carries the row's
  four statistics; at the last column tile they are: the maximum of the row's 8192 logits, the sum of their
  exponentials relative to it (the online-softmax law, tile by tile, then regrouped over the whole row; the logits
  are reals because every embedding is a real and every row has a positive sum of squares), the sum over the row
  of mask times similarity, and the sum of the mask. There the body computes the row value and the flag from
  them, and the pipeline writes both back; after the run the two result arrays hold, at row r, the
  specification's row value and flag.
-/
import proofs.«153547_j25572235281097_1_alg».proof.Proof.KernelIdealValueTiles
import proofs.«153547_j25572235281097_1_alg».proof.Proof.KernelIdealValueStep
import proofs.«153547_j25572235281097_1_alg».proof.Proof.KernelIdealValueFold
import proofs.«153547_j25572235281097_1_alg».proof.Proof.KernelIdealValueCover
import proofs.«153547_j25572235281097_1_alg».proof.Proof.SpecReal
import proofs.«153547_j25572235281097_1_alg».proof.Proof.LibTileSplit

set_option maxRecDepth 16384

noncomputable section

namespace Cert.KernelIdeal.KRows

open Cert.KernelIdeal Cert.KernelIdeal.Gen Cert.KernelIdeal.Body Cert.KernelIdeal.KValue Cert.KernelIdeal.Payloads
open Cert.KernelIdeal.Blocks Cert.KernelIdeal.KTiles Cert.KernelIdeal.KStep Cert.KernelIdeal.KFold Cert.KernelIdeal.KCover
open Idealize.ShloMosaic Idealize.ShloMosaic.TcCoe Idealize.ShloMosaic.ValueIdx Idealize.SL.Sem
open scoped BigOperators

/-! ## Tiles and global indices -/

/-- A global row or column as (tile, position in the tile). -/
def e16 : Fin 16 × Fin 512 ≃ Fin Spec.N where
  toFun p := gidx p.1 p.2
  invFun r := (⟨r.val / 512, by have h : r.val < 8192 := r.isLt; omega⟩, ⟨r.val % 512, Nat.mod_lt _ (by decide)⟩)
  left_inv p := by
    obtain ⟨i, b⟩ := p
    have hi := i.isLt
    have hb := b.isLt
    refine Prod.ext (Fin.ext ?_) (Fin.ext ?_)
    · show (i.val * 512 + b.val) / 512 = i.val
      omega
    · show (i.val * 512 + b.val) % 512 = b.val
      omega
  right_inv r := Fin.ext (by
    show r.val / 512 * 512 + r.val % 512 = r.val
    omega)

/-- The row tile and the column tile of position n of the grid, for any natural n. -/
def gq (n : ℕ) : Fin 16 := ⟨n / 16 % 16, Nat.mod_lt _ (by decide)⟩
/-- The column tile of position n. -/
def gk (n : ℕ) : Fin 16 := ⟨n % 16, Nat.mod_lt _ (by decide)⟩

/-- A point's row tile is that of its position. -/
theorem qiOf_eq (t : Fin cfg0.N) : qiOf t = gq t.val := Fin.ext (by
  have h : t.val < 256 := lt_of_lt_of_eq t.isLt (show cfg0.N = 256 from N_0)
  show t.val / 16 = t.val / 16 % 16
  omega)
/-- A point's column tile is that of its position. -/
theorem kiOf_eq (t : Fin cfg0.N) : kiOf t = gk t.val := rfl

/-- Within the run of row tile q, position i is column tile i. -/
theorem gq_run (q : Fin 16) (i : ℕ) (hi : i < 16) : gq (16 * q.val + i) = q := Fin.ext (by
  have hq := q.isLt
  show (16 * q.val + i) / 16 % 16 = q.val
  omega)
/-- Within the run of row tile q, position i has column tile i. -/
theorem gk_run (q : Fin 16) (i : ℕ) (hi : i < 16) : gk (16 * q.val + i) = ⟨i, hi⟩ := Fin.ext (by
  show (16 * q.val + i) % 16 = i
  omega)

/-- The running maximum depends only on the rows seen. -/
theorem runMax_congr {ι : Type*} [Fintype ι] [Nonempty ι] (x x' : ℕ → ι → ℝ) :
    ∀ k : ℕ, (∀ j, j ≤ k → x j = x' j) → OnlineSoftmax.runMax x k = OnlineSoftmax.runMax x' k
  | 0, h => by rw [OnlineSoftmax.runMax_zero, OnlineSoftmax.runMax_zero, h 0 le_rfl]
  | k + 1, h => by
    rw [OnlineSoftmax.runMax_succ, OnlineSoftmax.runMax_succ,
      runMax_congr x x' k (fun j hj => h j (Nat.le_succ_of_le hj)), h (k + 1) le_rfl]

/-- The recurrence at equal positions. -/
theorem scrAt_congr (m : (ℓ : Loc nD τ sig) → Buf (Elt Ideal) ℓ) (c : Dev nD) {n n' : ℕ} (e : n = n') (h : n < cfg0.N) (h' : n' < cfg0.N) :
    scrAt m c n h = scrAt m c n' h' := by
  subst e
  rfl

variable (m : (ℓ : Loc nD τ sig) → Buf (Elt Ideal) ℓ) (c : Dev nD)

/-! ## The count and the masked sum of a row (no finiteness needed) -/

/-- The term a point adds to row a's count, and to its masked sum, for any natural position n. -/
def tC (a : Fin 512) (n : ℕ) : EReal := ∑ b : Fin 512, Spec.mask (P m c) (gidx (gq n) a) (gidx (gk n) b)
/-- The term position n adds to row a's masked sum. -/
def tS (a : Fin 512) (n : ℕ) : EReal :=
  ∑ b : Fin 512, Spec.mask (P m c) (gidx (gq n) a) (gidx (gk n) b) * Spec.sim (E m c) (gidx (gq n) a) (gidx (gk n) b)

/-- One point adds its term to row a's count. -/
theorem hstep_count (a : Fin 512) (n : ℕ) (h : n < cfg0.N) (p : Vec Ideal S512x1 .f32 × Vec Ideal S512x1 .f32 × Vec Ideal S512x1 .f32 × Vec Ideal S512x1 .f32) :
    ((step m c ⟨n, h⟩ p).2.2.2 (ix2 a (0 : Fin 1)) : EReal) = (p.2.2.2 (ix2 a (0 : Fin 1)) : EReal) + tC m c a n := by
  rw [step_count]
  refine congrArg _ (Finset.sum_congr rfl fun b _ => ?_)
  rw [tile_mask, qiOf_eq, kiOf_eq]

/-- One point adds its term to row a's masked sum. -/
theorem hstep_msum (a : Fin 512) (n : ℕ) (h : n < cfg0.N) (p : Vec Ideal S512x1 .f32 × Vec Ideal S512x1 .f32 × Vec Ideal S512x1 .f32 × Vec Ideal S512x1 .f32) :
    ((step m c ⟨n, h⟩ p).2.2.1 (ix2 a (0 : Fin 1)) : EReal) = (p.2.2.1 (ix2 a (0 : Fin 1)) : EReal) + tS m c a n := by
  rw [step_msum]
  refine congrArg _ (Finset.sum_congr rfl fun b _ => ?_)
  rw [tile_mask, tile_sim, qiOf_eq, kiOf_eq]

/-- At the last column tile of row tile q, row a's count is the specification's count of row q · 512 + a. -/
theorem row_count (q : Fin 16) (a : Fin 512) (h : 16 * q.val + 15 < cfg0.N) :
    ((scrAt m c (16 * q.val + 15) h).2.2.2 (ix2 a (0 : Fin 1)) : EReal) = Spec.cnt (P m c) (gidx q a) := by
  rw [count_row m c (ix2 a (0 : Fin 1)) (tC m c a) (hstep_count m c a) (resetC_apply (ix2 a (0 : Fin 1))) q.val 15 (by decide) h]
  unfold Spec.cnt
  rw [zero_add]
  refine (TileSplit.sum_whole_range (n := 15) e16 (fun j => Spec.mask (P m c) (gidx q a) j)
    (fun i => tC m c a (16 * q.val + i)) fun i => ?_).symm
  show tC m c a (16 * q.val + i.val) = ∑ b : Fin 512, Spec.mask (P m c) (gidx q a) (gidx i b)
  unfold tC
  rw [gq_run q i.val i.isLt, gk_run q i.val i.isLt]

/-- And its masked sum the specification's. -/
theorem row_msum (q : Fin 16) (a : Fin 512) (h : 16 * q.val + 15 < cfg0.N) :
    ((scrAt m c (16 * q.val + 15) h).2.2.1 (ix2 a (0 : Fin 1)) : EReal) = Spec.msum (E m c) (P m c) (gidx q a) := by
  rw [msum_row m c (ix2 a (0 : Fin 1)) (tS m c a) (hstep_msum m c a) (resetS_apply (ix2 a (0 : Fin 1))) q.val 15 (by decide) h]
  unfold Spec.msum
  rw [zero_add]
  refine (TileSplit.sum_whole_range (n := 15) e16
    (fun j => Spec.mask (P m c) (gidx q a) j * Spec.sim (E m c) (gidx q a) j)
    (fun i => tS m c a (16 * q.val + i)) fun i => ?_).symm
  show tS m c a (16 * q.val + i.val)
    = ∑ b : Fin 512, Spec.mask (P m c) (gidx q a) (gidx i b) * Spec.sim (E m c) (gidx q a) (gidx i b)
  unfold tS
  rw [gq_run q i.val i.isLt, gk_run q i.val i.isLt]

/-! ## The maximum and the sum of exponentials of a row (the entries are reals) -/

section Reals

variable (xr : Fin Spec.N → Fin Spec.D → ℝ) (hE : E m c = SpecReal.emb xr) (hposR : ∀ r, 0 < SpecReal.sumSqR xr r)

/-- Row a's logits against the column tile of position n, as reals. -/
def xrow (a : Fin 512) (n : ℕ) : Fin 512 → ℝ := fun b => SpecReal.logitR xr (gidx (gq n) a) (gidx (gk n) b)

include hE hposR

/-- One point updates row a's (maximum, sum) pair by the online-softmax step against the row's real logits of the point's column tile. -/
theorem hstep_pair (a : Fin 512) (n : ℕ) (h : n < cfg0.N) (p : Vec Ideal S512x1 .f32 × Vec Ideal S512x1 .f32 × Vec Ideal S512x1 .f32 × Vec Ideal S512x1 .f32) :
    (((step m c ⟨n, h⟩ p).1 (ix2 a (0 : Fin 1)), (step m c ⟨n, h⟩ p).2.1 (ix2 a (0 : Fin 1))) : EReal × EReal)
      = OnlineSoftmax.step (((p).1 (ix2 a (0 : Fin 1)), (p).2.1 (ix2 a (0 : Fin 1))) : EReal × EReal) (xrow xr a n) :=
  step_pair m c ⟨n, h⟩ p a (xrow xr a n) fun b => by
    rw [tile_logit, hE, SpecReal.logit_coe xr hposR, qiOf_eq, kiOf_eq] <;> rfl

/-- At the last column tile of row tile q, row a's maximum and sum of exponentials are the specification's. -/
theorem row_max_sum (q : Fin 16) (a : Fin 512) (h : 16 * q.val + 15 < cfg0.N) :
    (((scrAt m c (16 * q.val + 15) h).1 (ix2 a (0 : Fin 1)), (scrAt m c (16 * q.val + 15) h).2.1 (ix2 a (0 : Fin 1))) : EReal × EReal)
      = (Spec.rmax (E m c) (gidx q a), Spec.lsum (E m c) (gidx q a)) := by
  have hr : (((reset (F := Ideal)).1 (ix2 a (0 : Fin 1)), (reset (F := Ideal)).2.1 (ix2 a (0 : Fin 1))) : EReal × EReal) = (⊥, 0) := Prod.ext (resetM_apply (ix2 a (0 : Fin 1))) (resetL_apply (ix2 a (0 : Fin 1)))
  rw [max_sum_row m c (ix2 a (0 : Fin 1)) (xrow xr a) (hstep_pair m c xr hE hposR a) hr q.val 15 (by decide) h]
  -- the row of the specification, tile by tile
  have hxy : ∀ i : ℕ, i ≤ 15 → xrow xr a (16 * q.val + i)
      = OnlineSoftmax.seqOf (fun (i : Fin 16) (b : Fin 512) => SpecReal.logitR xr (gidx q a) (gidx i b)) i := by
    intro i hi
    funext b
    show SpecReal.logitR xr (gidx (gq (16 * q.val + i)) a) (gidx (gk (16 * q.val + i)) b)
      = SpecReal.logitR xr (gidx q a) (gidx ⟨min i 15, _⟩ b)
    rw [gq_run q i (by omega), gk_run q i (by omega)]
    exact congrArg (fun j : Fin 16 => SpecReal.logitR xr (gidx q a) (gidx j b)) (Fin.ext (min_eq_left hi).symm)
  have hM : OnlineSoftmax.runMax (fun i => xrow xr a (16 * q.val + i)) 15
      = OnlineSoftmax.runMax (OnlineSoftmax.seqOf (fun (i : Fin 16) (b : Fin 512) => SpecReal.logitR xr (gidx q a) (gidx i b))) 15 :=
    runMax_congr _ _ 15 hxy
  have hrmax : Spec.rmax (E m c) (gidx q a)
      = ((OnlineSoftmax.runMax (OnlineSoftmax.seqOf (fun (i : Fin 16) (b : Fin 512) => SpecReal.logitR xr (gidx q a) (gidx i b))) 15 : ℝ) : EReal) := by
    rw [hE]
    unfold Spec.rmax
    rw [show (fun j : Fin Spec.N => Spec.logit (SpecReal.emb xr) (gidx q a) j)
        = fun j => ((SpecReal.logitR xr (gidx q a) j : ℝ) : EReal) from funext fun j => SpecReal.logit_coe xr hposR (gidx q a) j]
    exact TileSplit.sup_whole (n := 15) e16 (SpecReal.logitR xr (gidx q a)) (fun (i : Fin 16) (b : Fin 512) => SpecReal.logitR xr (gidx q a) (gidx i b)) (fun i b => rfl)
  have hlsum : Spec.lsum (E m c) (gidx q a)
      = ((∑ i ∈ Finset.range (15 + 1), ∑ b : Fin 512, Real.exp (OnlineSoftmax.seqOf (fun (i : Fin 16) (b : Fin 512) => SpecReal.logitR xr (gidx q a) (gidx i b)) i b
          - OnlineSoftmax.runMax (OnlineSoftmax.seqOf (fun (i : Fin 16) (b : Fin 512) => SpecReal.logitR xr (gidx q a) (gidx i b))) 15) : ℝ) : EReal) := by
    have hj : ∀ j : Fin Spec.N, Ideal.exp (Spec.logit (E m c) (gidx q a) j - Spec.rmax (E m c) (gidx q a))
        = ((Real.exp (SpecReal.logitR xr (gidx q a) j
            - OnlineSoftmax.runMax (OnlineSoftmax.seqOf (fun (i : Fin 16) (b : Fin 512) => SpecReal.logitR xr (gidx q a) (gidx i b))) 15) : ℝ) : EReal) := by
      intro j
      rw [hrmax, hE, SpecReal.logit_coe xr hposR]
      rfl
    unfold Spec.lsum
    rw [zero_add, Finset.sum_congr rfl (fun j _ => hj j), ← OnlineSoftmax.coe_sum,
      TileSplit.sumExp_whole (n := 15) e16 (SpecReal.logitR xr (gidx q a)) (fun (i : Fin 16) (b : Fin 512) => SpecReal.logitR xr (gidx q a) (gidx i b)) (fun i b => rfl)]
  have hsum : (∑ i ∈ Finset.range (15 + 1), ∑ b : Fin 512, Real.exp (xrow xr a (16 * q.val + i) b - OnlineSoftmax.runMax (OnlineSoftmax.seqOf (fun (i : Fin 16) (b : Fin 512) => SpecReal.logitR xr (gidx q a) (gidx i b))) 15))
      = ∑ i ∈ Finset.range (15 + 1), ∑ b : Fin 512, Real.exp (OnlineSoftmax.seqOf (fun (i : Fin 16) (b : Fin 512) => SpecReal.logitR xr (gidx q a) (gidx i b)) i b - OnlineSoftmax.runMax (OnlineSoftmax.seqOf (fun (i : Fin 16) (b : Fin 512) => SpecReal.logitR xr (gidx q a) (gidx i b))) 15) :=
    Finset.sum_congr rfl fun i hi => by rw [hxy i (by have := Finset.mem_range.mp hi; omega)]
  rw [hrmax, hlsum, hM, hsum]

end Reals

/-! ## The two outputs at a flushing point, and the result arrays -/

/-- A function of the 8192 rows, extended by 0 to every natural. -/
def rowFn (f : Fin 8192 → EReal) (n : ℕ) : EReal := if h : n < 8192 then f ⟨n, h⟩ else 0

/-- At a row's number the extension is the function's value. -/
theorem rowFn_val (f : Fin 8192 → EReal) (r : Fin 8192) : rowFn f r.val = f r := by
  unfold rowFn
  rw [dif_pos r.isLt]

/-- Every index of a 512 × 1 block is (its row, 0). -/
theorem idx_eq (y : S512x1.Idx) : y = ix2 (y 0) (0 : Fin 1) :=
  (eq_ix2 y).trans (congrArg (ix2 (y 0)) (Fin.ext (by
    have h : ((y 1 : Fin 1) : Nat) < 1 := (y 1).isLt
    show ((y 1 : Fin 1) : Nat) = 0
    omega)))

/-- The position of the last column tile of a point's row tile is the point itself, when the point is at the last
    column tile. -/
theorem flush_pos (t : Fin cfg0.N) (h15 : t.val % 16 = 15) : t.val = 16 * (qiOf t).val + 15 := by
  show t.val = 16 * (t.val / 16) + 15
  omega

/-- THE FLAG at a flushing point: the specification's flag of the global row. -/
theorem out5_at (t : Fin cfg0.N) (h15 : t.val % 16 = 15) (a : Fin 512) :
    ((outsAt0 m c t.val t.isLt).2.1 (ix2 a (0 : Fin 1)) : EReal) = Spec.KValid (P m c) (gidx (qiOf t) a) := by
  have hn := flush_pos t h15
  have hlt : 16 * (qiOf t).val + 15 < cfg0.N := hn ▸ t.isLt
  rw [(out_eq m c t h15).2, scrAt_congr m c hn t.isLt hlt]
  show k0_pay4 (F := Ideal) (scrAt m c (16 * (qiOf t).val + 15) hlt).2.2.2 (ix2 a (0 : Fin 1)) = _
  rw [pay4_apply, row_count m c (qiOf t) a hlt]
  rfl

section Reals2

variable (xr : Fin Spec.N → Fin Spec.D → ℝ) (hE : E m c = SpecReal.emb xr) (hposR : ∀ r, 0 < SpecReal.sumSqR xr r)
include hE hposR

/-- THE ROW VALUE at a flushing point: the specification's row value of the global row. -/
theorem out4_at (t : Fin cfg0.N) (h15 : t.val % 16 = 15) (a : Fin 512) :
    ((outsAt0 m c t.val t.isLt).1 (ix2 a (0 : Fin 1)) : EReal) = Spec.KRow (E m c) (P m c) (gidx (qiOf t) a) := by
  have hn := flush_pos t h15
  have hlt : 16 * (qiOf t).val + 15 < cfg0.N := hn ▸ t.isLt
  rw [(out_eq m c t h15).1, scrAt_congr m c hn t.isLt hlt]
  show k0_pay3 (F := Ideal) (scrAt m c (16 * (qiOf t).val + 15) hlt).2.2.2 (scrAt m c (16 * (qiOf t).val + 15) hlt).1
    (scrAt m c (16 * (qiOf t).val + 15) hlt).2.1 (scrAt m c (16 * (qiOf t).val + 15) hlt).2.2.1 (ix2 a (0 : Fin 1)) = _
  have hml := row_max_sum m c xr hE hposR (qiOf t) a hlt
  have hm' : ((scrAt m c (16 * (qiOf t).val + 15) hlt).1 (ix2 a (0 : Fin 1)) : EReal) = Spec.rmax (E m c) (gidx (qiOf t) a) :=
    congrArg Prod.fst hml
  have hl' : ((scrAt m c (16 * (qiOf t).val + 15) hlt).2.1 (ix2 a (0 : Fin 1)) : EReal) = Spec.lsum (E m c) (gidx (qiOf t) a) :=
    congrArg Prod.snd hml
  rw [pay3_apply, row_count m c (qiOf t) a hlt, row_msum m c (qiOf t) a hlt, hm', hl']
  rfl

end Reals2

/-- THE KERNEL'S FIRST RESULT ARRAY after the run holds, at every row, the specification's row value. -/
theorem perRow_eq (he : ∀ r k, ∃ x : ℝ, E m c r k = (x : EReal)) (hp : ∀ r, ∃ y : ℝ, P m c r = (y : EReal))
    (hpos : ∀ r, (0 : EReal) < 0 + ∑ k : Fin 128, E m c r k * E m c r k) (r : Fin 8192) :
    (Data.datOf (F := Ideal) m (Body.after m) (Body.Φ m) 0 c).arrAt 4 cfg0.N (ix2 r 0) = Spec.KRow (E m c) (P m c) r := by
  choose xr hxr using he
  have hE : E m c = SpecReal.emb xr := funext fun r => funext fun k => hxr r k
  have hposR : ∀ r, 0 < SpecReal.sumSqR xr r := fun r => by
    have h := hpos r
    have hs := SpecReal.sumSq_coe xr r
    unfold Spec.sumSq at hs
    rw [hE, hs] at h
    exact EReal.coe_pos.mp h
  have key := arrAt4_rows m c (rowFn (Spec.KRow (E m c) (P m c))) (fun t h15 y => by
    obtain ⟨a, rfl⟩ : ∃ a : Fin 512, y = ix2 a (0 : Fin 1) := ⟨y 0, idx_eq y⟩
    rw [out4_at m c xr hE hposR t h15 a]
    show _ = rowFn (Spec.KRow (E m c) (P m c)) (gidx (qiOf t) a).val
    rw [rowFn_val]) (ix2 r 0)
  rw [← rowFn_val (Spec.KRow (E m c) (P m c)) r]
  exact key

/-- THE KERNEL'S SECOND RESULT ARRAY after the run holds, at every row, the specification's flag. -/
theorem valid_eq (he : ∀ r k, ∃ x : ℝ, E m c r k = (x : EReal)) (hp : ∀ r, ∃ y : ℝ, P m c r = (y : EReal))
    (hpos : ∀ r, (0 : EReal) < 0 + ∑ k : Fin 128, E m c r k * E m c r k) (r : Fin 8192) :
    (Data.datOf (F := Ideal) m (Body.after m) (Body.Φ m) 0 c).arrAt 5 cfg0.N (ix2 r 0) = Spec.KValid (P m c) r := by
  have key := arrAt5_rows m c (rowFn (Spec.KValid (P m c))) (fun t h15 y => by
    obtain ⟨a, rfl⟩ : ∃ a : Fin 512, y = ix2 a (0 : Fin 1) := ⟨y 0, idx_eq y⟩
    rw [out5_at m c t h15 a]
    show _ = rowFn (Spec.KValid (P m c)) (gidx (qiOf t) a).val
    rw [rowFn_val]) (ix2 r 0)
  rw [← rowFn_val (Spec.KValid (P m c)) r]
  exact key

end Cert.KernelIdeal.KRows

end
-- ==== Proof.ReferenceValueDefs.lean ====
/-
  The reference program's intermediate arrays, named: each a pure function of the arrays it is computed from, in the
  host operations the program itself applies (so that the program's run is read against them line by line), at the
  ideal values.  The two arguments are a [8192, 128] array of embeddings and a [8192, 1] array of properties.
-/
import proofs.«153547_j25572235281097_1_alg».proof.Proof.ReferenceFrameRun
import Idealize.ShloMosaic.PureOps.Ideal

noncomputable section

namespace Cert.ReferenceIdeal.RValue

open Cert.ReferenceIdeal Cert.ReferenceIdeal.Gen Idealize.ShloMosaic Idealize.ShloMosaic.TcCoe Idealize.SL.Sem Idealize.ShloMosaic.StableHlo

/-- Contents of a float, a bit and a word array of a given shape, at the ideal values. -/
abbrev Cf (s : Shape) := FVec Ideal s .f32
abbrev Cb (s : Shape) := IVec s 1
abbrev Cw (s : Shape) := IVec s 32

/-- The Euclidean norm of each row, as a column. -/
def cNorm (a : Cf S8192x128) : Cf S8192x1 :=
  Host.sqrt (broadcastInDim S8192x1 ![0] bcast_S8192_S8192x1_0
    (Host.reduceAdd (mulf a a) (constant (F := Ideal) S_ .f32 0x00000000#32) reducesTo_S8192x128_S8192_d1 h_S_))
/-- The rows normalised. -/
def cEn (a : Cf S8192x128) : Cf S8192x128 :=
  Host.divf a (broadcastInDim S8192x128 ![0, 1] bcast_S8192x1_S8192x128_0_1 (cNorm a))
/-- The similarities over the temperature. -/
def cSim (a : Cf S8192x128) : Cf S8192x8192 :=
  Host.divf (Host.dotGeneral dot_S8192x128_S128x8192_S8192x8192_1_0_0_1_n_n none (cEn a)
      (transpose S128x8192 [1, 0] (cEn a) transposes_S8192x128_S128x8192_1_0))
    (broadcastInDim S8192x8192 ![] bcast_S_S8192x8192 (constant (F := Ideal) S_ .f32 0x3DCCCCCD#32))
/-- The differences of the properties, pair by pair. -/
def cDiff (p : Cf S8192x1) : Cf S8192x8192x1 :=
  subf (broadcastInDim S8192x8192x1 ![0, 1, 2] bcast_S8192x1x1_S8192x8192x1_0_1_2
      (broadcastInDim S8192x1x1 ![0, 2] bcast_S8192x1_S8192x1x1_0_2 p))
    (broadcastInDim S8192x8192x1 ![0, 1, 2] bcast_S1x8192x1_S8192x8192x1_0_1_2
      (broadcastInDim S1x8192x1 ![1, 2] bcast_S8192x1_S1x8192x1_1_2 p))
/-- The mask before its diagonal is cleared. -/
def cMaskRaw (p : Cf S8192x1) : Cf S8192x8192 :=
  uitofp .f32 (cmpf .olt
    (addf (Host.sqrt (Host.sqrt (Host.reduceAdd (mulf (cDiff p) (cDiff p)) (constant (F := Ideal) S_ .f32 0x00000000#32)
        reducesTo_S8192x8192x1_S8192x8192_d2 h_S_)))
      (broadcastInDim S8192x8192 ![] bcast_S_S8192x8192 (constant (F := Ideal) S_ .f32 0x322BCC77#32)))
    (broadcastInDim S8192x8192 ![] bcast_S_S8192x8192 (constant (F := Ideal) S_ .f32 0x3F000000#32)))
/-- The diagonal, as bits. -/
def cEye : Cb S8192x8192 :=
  cmpi .eq (addi (iotaInDim S8192x8192 32 0) (broadcastInDim S8192x8192 ![] bcast_S_S8192x8192 (constantI S_ 32 0#32)))
    (iotaInDim S8192x8192 32 1)
/-- The mask: zero on the diagonal. -/
def cMask (raw : Cf S8192x8192) : Cf S8192x8192 :=
  select cEye (broadcastInDim S8192x8192 ![] bcast_S_S8192x8192 ((constant (F := Ideal) S_ .f32 0x00000000#32))) raw
/-- The logits: the large negative word on the diagonal. -/
def cLogit (sm : Cf S8192x8192) : Cf S8192x8192 :=
  select cEye (broadcastInDim S8192x8192 ![] bcast_S_S8192x8192 ((constant (F := Ideal) S_ .f32 0xCE6E6B28#32))) sm
/-- The row maxima. -/
def cRmax (x : Cf S8192x8192) : Cf S8192 :=
  maximumf (broadcastInDim S8192 ![] bcast_S_S8192 (constant (F := Ideal) S_ .f32 0xFF800000#32))
    (Host.reduce FloatOps.maximumf x (constant (F := Ideal) S_ .f32 0xFF800000#32) reducesTo_S8192x8192_S8192_d1 h_S_)
/-- An array less a vector of row values. -/
def cShiftOf (x : Cf S8192x8192) (mx : Cf S8192) : Cf S8192x8192 :=
  subf x (broadcastInDim S8192x8192 ![0, 1] bcast_S8192x1_S8192x8192_0_1
    (broadcastInDim S8192x1 ![0] bcast_S8192_S8192x1_0 mx))
/-- The logits less their row maximum. -/
def cShift (x : Cf S8192x8192) : Cf S8192x8192 := cShiftOf x (cRmax x)
/-- The logarithm of each row's sum of exponentials of the shifted logits, as a column. -/
def cLseS (sh : Cf S8192x8192) : Cf S8192x1 :=
  Host.log (broadcastInDim S8192x1 ![0] bcast_S8192_S8192x1_0
    (Host.reduceAdd (Host.exp sh) (constant (F := Ideal) S_ .f32 0x00000000#32) reducesTo_S8192x8192_S8192_d1 h_S_))
/-- The log-probabilities from the shifted logits. -/
def cLogProbS (sh : Cf S8192x8192) : Cf S8192x8192 :=
  subf sh (broadcastInDim S8192x8192 ![0, 1] bcast_S8192x1_S8192x8192_0_1 (cLseS sh))
/-- The log-probabilities. -/
def cLogProb (x : Cf S8192x8192) : Cf S8192x8192 := cLogProbS (cShift x)
/-- The row counts of the mask. -/
def cCnt (mk : Cf S8192x8192) : Cf S8192 :=
  Host.reduceAdd mk (constant (F := Ideal) S_ .f32 0x00000000#32) reducesTo_S8192x8192_S8192_d1 h_S_
/-- The rows with a positive count, as bits. -/
def cValid (mk : Cf S8192x8192) : Cb S8192 :=
  cmpf .ogt (cCnt mk) (broadcastInDim S8192 ![] bcast_S_S8192 (constant (F := Ideal) S_ .f32 0x00000000#32))
/-- The per-row values. -/
def cRow (mk lp : Cf S8192x8192) : Cf S8192 :=
  Host.divf (Host.negf (Host.reduceAdd (mulf mk lp) (constant (F := Ideal) S_ .f32 0x00000000#32) reducesTo_S8192x8192_S8192_d1 h_S_))
    (maximumf (cCnt mk) (broadcastInDim S8192 ![] bcast_S_S8192 (constant (F := Ideal) S_ .f32 0x3F800000#32)))
/-- The number of valid rows, as a word. -/
def cNValid (vl : Cb S8192) : Cw S_ :=
  Host.reduce IntOp.addi (extui 32 vl natLt_1_32) (constantI S_ 32 0#32) reducesTo_S8192_S_d0 h_S_
/-- Whether a word is positive, as a bit. -/
def cGate (n : Cw S_) : Cb S_ := cmpi .sgt n (constantI S_ 32 0#32)
/-- The sum of the per-row values over the valid rows. -/
def cTotal (vl : Cb S8192) (row : Cf S8192) : Cf S_ :=
  Host.reduceAdd (select vl row (broadcastInDim S8192 ![] bcast_S_S8192 (constant (F := Ideal) S_ .f32 0x00000000#32)))
    (constant (F := Ideal) S_ .f32 0x00000000#32) reducesTo_S8192_S_d0 h_S_
/-- The quotient of the total by the count (at least one) as a float, where the gate is set; zero elsewhere. -/
def cFinal (g : Cb S_) (tot : Cf S_) (n : Cw S_) : Cf S_ :=
  select g (Host.divf tot (sitofp .f32 (maxsi n (constantI S_ 32 1#32)))) (constant (F := Ideal) S_ .f32 0x00000000#32)
/-- The loss. -/
def cLoss (vl : Cb S8192) (row : Cf S8192) : Cf S_ :=
  cFinal (cGate (cNValid vl)) (cTotal vl row) (cNValid vl)

end Cert.ReferenceIdeal.RValue

end
-- ==== Proof.LibAfter.lean ====
/-
  The contents after two lines of host operations run one after the other: the fold of the concatenated
  line is the fold of the second line over the fold of the first. General; no program is imported.
-/
import Idealize.ShloMosaic.Lib.StableHlo.Run

namespace Idealize.ShloMosaic.StableHlo

variable {τ : Topo} {sig : RefSig} {Val : EltTy → Type}

/-- Folding the operations of `l₁ ++ l₂` over contents `V` is folding `l₂` over what `l₁` leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo
-- ==== Proof.LibTRef.lean ====
/-
  Typed references to tensor buffers carry contents along the equation between the buffer's type and the value's
  type, in both directions.  Going to the buffer and back is the identity: a value an operation writes through a
  typed reference and a later operation reads through the same reference is read unchanged.  General; no program
  is imported.
-/
import Idealize.ShloMosaic.Lib.StableHlo

namespace Idealize.ShloMosaic.StableHlo.TRef

variable {sig : RefSig} {Val : EltTy → Type} {T : BufTy}

/-- Contents carried to a typed reference's buffer and back are the contents. -/
theorem ofBuf_toBuf (x : TRef sig T) (v : T.Contents Val) : x.ofBuf (x.toBuf v) = v := by
  obtain ⟨r, rfl, _, _⟩ := x
  rfl

/-- Contents of the buffer carried to the value's type and back are the contents. -/
theorem toBuf_ofBuf (x : TRef sig T) (v : x.ref.ty.Contents Val) : x.toBuf (x.ofBuf v) = v := by
  obtain ⟨r, rfl, _, _⟩ := x
  rfl

end Idealize.ShloMosaic.StableHlo.TRef
-- ==== Proof.ReferenceValueRun.lean ====
/-
  The reference program's run, read back in stretches.  The program is a straight line of 88 host operations; it is cut
  into ten consecutive stretches, and for each stretch and ANY contents of the buffers before it, each buffer the
  stretch leaves for later ones holds a named pure array (ReferenceValueDefs) of the buffers the stretch reads, while
  the buffers a later stretch still needs are unchanged.  Folding a concatenation is folding the second list over the
  fold of the first, so the result buffer after the whole line is the composition of the named arrays at the two
  arguments.
-/
import proofs.«153547_j25572235281097_1_alg».proof.Proof.ReferenceValueDefs
import proofs.«153547_j25572235281097_1_alg».proof.Proof.LibAfter
import proofs.«153547_j25572235281097_1_alg».proof.Proof.LibTRef
import Idealize.ShloMosaic.Lib.StableHlo.Run

noncomputable section

namespace Cert.ReferenceIdeal.RValue

open Cert.ReferenceIdeal Cert.ReferenceIdeal.Gen Idealize.ShloMosaic Idealize.ShloMosaic.TcCoe Idealize.SL.Sem Idealize.ShloMosaic.StableHlo

/-! ## The program in ten stretches -/

/-- The norm, the division by it, the transpose, the product, the division by the temperature. -/
abbrev s1 : List (HloOp τ sig (Elt Ideal)) := ((FrameRun.ops (F := Ideal)).drop 0).take 12

/-- The property distances and their comparison with one half. -/
abbrev s2 : List (HloOp τ sig (Elt Ideal)) := ((FrameRun.ops (F := Ideal)).drop 12).take 17

/-- The diagonal and the two selections over it. -/
abbrev s3 : List (HloOp τ sig (Elt Ideal)) := ((FrameRun.ops (F := Ideal)).drop 29).take 14

/-- The row maxima of the logits. -/
abbrev s4a : List (HloOp τ sig (Elt Ideal)) := ((FrameRun.ops (F := Ideal)).drop 43).take 5

/-- The logits less their row maxima. -/
abbrev s4b : List (HloOp τ sig (Elt Ideal)) := ((FrameRun.ops (F := Ideal)).drop 48).take 3

/-- The exponentials, their row sums, the logarithms, the difference. -/
abbrev s4c : List (HloOp τ sig (Elt Ideal)) := ((FrameRun.ops (F := Ideal)).drop 51).take 7

/-- The counts, the valid rows and the per-row values. -/
abbrev s5 : List (HloOp τ sig (Elt Ideal)) := ((FrameRun.ops (F := Ideal)).drop 58).take 13

/-- The number of valid rows. -/
abbrev s6a : List (HloOp τ sig (Elt Ideal)) := ((FrameRun.ops (F := Ideal)).drop 71).take 3

/-- Whether that number is positive; the sum of the valid rows' values. -/
abbrev s6b : List (HloOp τ sig (Elt Ideal)) := ((FrameRun.ops (F := Ideal)).drop 74).take 8

/-- The count as a float, the quotient and the selection. -/
abbrev s6c : List (HloOp τ sig (Elt Ideal)) := ((FrameRun.ops (F := Ideal)).drop 82).take 6

set_option maxRecDepth 8192 in
theorem ops_eq : (FrameRun.ops (F := Ideal))
    = s1 ++ (s2 ++ (s3 ++ (s4a ++ (s4b ++ (s4c ++ (s5 ++ (s6a ++ (s6b ++ s6c)))))))) := rfl

set_option maxRecDepth 8192 in
theorem s1_v6 (W : Valuation τ sig (Elt Ideal)) :
    after s1 W (Proc.devRef .tc main_v6) = cSim (W (Proc.devRef .tc main_arg0)) := by
  show after [_,_,_,_,_,_,_,_,_,_,_,_] W _ = _
  after_results_simp
  try simp only [TRef.ofBuf_toBuf, TRef.toBuf_ofBuf]
  rfl

theorem s1_arg1 (W : Valuation τ sig (Elt Ideal)) :
    after s1 W (Proc.devRef .tc main_arg1) = W (Proc.devRef .tc main_arg1) := by
  show after [_,_,_,_,_,_,_,_,_,_,_,_] W _ = _
  after_results_simp

set_option maxRecDepth 8192 in
theorem s2_v20 (W : Valuation τ sig (Elt Ideal)) :
    after s2 W (Proc.devRef .tc main_v20) = cMaskRaw (W (Proc.devRef .tc main_arg1)) := by
  show after [_,_,_,_,_,_,_,_,_,_,_,_,_,_,_,_,_] W _ = _
  after_results_simp
  try simp only [TRef.ofBuf_toBuf, TRef.toBuf_ofBuf]
  rfl

theorem s2_v6 (W : Valuation τ sig (Elt Ideal)) :
    after s2 W (Proc.devRef .tc main_v6) = W (Proc.devRef .tc main_v6) := by
  show after [_,_,_,_,_,_,_,_,_,_,_,_,_,_,_,_,_] W _ = _
  after_results_simp

set_option maxRecDepth 8192 in
theorem s3_v26 (W : Valuation τ sig (Elt Ideal)) :
    after s3 W (Proc.devRef .tc main_v26) = cMask (W (Proc.devRef .tc main_v20)) := by
  show after [_,_,_,_,_,_,_,_,_,_,_,_,_,_] W _ = _
  after_results_simp
  try simp only [TRef.ofBuf_toBuf, TRef.toBuf_ofBuf]
  rfl

set_option maxRecDepth 8192 in
theorem s3_v27 (W : Valuation τ sig (Elt Ideal)) :
    after s3 W (Proc.devRef .tc main_v27) = cLogit (W (Proc.devRef .tc main_v6)) := by
  show after [_,_,_,_,_,_,_,_,_,_,_,_,_,_] W _ = _
  after_results_simp
  try simp only [TRef.ofBuf_toBuf, TRef.toBuf_ofBuf]
  rfl

set_option maxRecDepth 8192 in
theorem s4a_v2 (W : Valuation τ sig (Elt Ideal)) :
    after s4a W (Proc.devRef .tc main_call3_v2) = cRmax (W (Proc.devRef .tc main_v27)) := by
  show after [_,_,_,_,_] W _ = _
  after_results_simp
  try simp only [TRef.ofBuf_toBuf, TRef.toBuf_ofBuf]
  rfl

theorem s4a_v27 (W : Valuation τ sig (Elt Ideal)) :
    after s4a W (Proc.devRef .tc main_v27) = W (Proc.devRef .tc main_v27) := by
  show after [_,_,_,_,_] W _ = _
  after_results_simp

theorem s4a_v26 (W : Valuation τ sig (Elt Ideal)) :
    after s4a W (Proc.devRef .tc main_v26) = W (Proc.devRef .tc main_v26) := by
  show after [_,_,_,_,_] W _ = _
  after_results_simp

set_option maxRecDepth 8192 in
theorem s4b_v5 (W : Valuation τ sig (Elt Ideal)) :
    after s4b W (Proc.devRef .tc main_call3_v5) = cShiftOf (W (Proc.devRef .tc main_v27)) (W (Proc.devRef .tc main_call3_v2)) := by
  show after [_,_,_] W _ = _
  after_results_simp
  try simp only [TRef.ofBuf_toBuf, TRef.toBuf_ofBuf]
  rfl

theorem s4b_v26 (W : Valuation τ sig (Elt Ideal)) :
    after s4b W (Proc.devRef .tc main_v26) = W (Proc.devRef .tc main_v26) := by
  show after [_,_,_] W _ = _
  after_results_simp

set_option maxRecDepth 8192 in
theorem s4c_v28 (W : Valuation τ sig (Elt Ideal)) :
    after s4c W (Proc.devRef .tc main_v28) = cLogProbS (W (Proc.devRef .tc main_call3_v5)) := by
  show after [_,_,_,_,_,_,_] W _ = _
  after_results_simp
  try simp only [TRef.ofBuf_toBuf, TRef.toBuf_ofBuf]
  rfl

theorem s4c_v26 (W : Valuation τ sig (Elt Ideal)) :
    after s4c W (Proc.devRef .tc main_v26) = W (Proc.devRef .tc main_v26) := by
  show after [_,_,_,_,_,_,_] W _ = _
  after_results_simp

set_option maxRecDepth 8192 in
theorem s5_v31 (W : Valuation τ sig (Elt Ideal)) :
    after s5 W (Proc.devRef .tc main_v31) = cValid (W (Proc.devRef .tc main_v26)) := by
  show after [_,_,_,_,_,_,_,_,_,_,_,_,_] W _ = _
  after_results_simp
  try simp only [TRef.ofBuf_toBuf, TRef.toBuf_ofBuf]
  rfl

set_option maxRecDepth 8192 in
theorem s5_v37 (W : Valuation τ sig (Elt Ideal)) :
    after s5 W (Proc.devRef .tc main_v37) = cRow (W (Proc.devRef .tc main_v26)) (W (Proc.devRef .tc main_v28)) := by
  show after [_,_,_,_,_,_,_,_,_,_,_,_,_] W _ = _
  after_results_simp
  try simp only [TRef.ofBuf_toBuf, TRef.toBuf_ofBuf]
  rfl

set_option maxRecDepth 8192 in
theorem s6a_v39 (W : Valuation τ sig (Elt Ideal)) :
    after s6a W (Proc.devRef .tc main_v39) = cNValid (W (Proc.devRef .tc main_v31)) := by
  show after [_,_,_] W _ = _
  after_results_simp
  try simp only [TRef.ofBuf_toBuf, TRef.toBuf_ofBuf]
  rfl

theorem s6a_v31 (W : Valuation τ sig (Elt Ideal)) :
    after s6a W (Proc.devRef .tc main_v31) = W (Proc.devRef .tc main_v31) := by
  show after [_,_,_] W _ = _
  after_results_simp

theorem s6a_v37 (W : Valuation τ sig (Elt Ideal)) :
    after s6a W (Proc.devRef .tc main_v37) = W (Proc.devRef .tc main_v37) := by
  show after [_,_,_] W _ = _
  after_results_simp

set_option maxRecDepth 8192 in
theorem s6b_v40 (W : Valuation τ sig (Elt Ideal)) :
    after s6b W (Proc.devRef .tc main_v40) = cGate (W (Proc.devRef .tc main_v39)) := by
  show after [_,_,_,_,_,_,_,_] W _ = _
  after_results_simp
  try simp only [TRef.ofBuf_toBuf, TRef.toBuf_ofBuf]
  rfl

set_option maxRecDepth 8192 in
theorem s6b_v42 (W : Valuation τ sig (Elt Ideal)) :
    after s6b W (Proc.devRef .tc main_v42) = cTotal (W (Proc.devRef .tc main_v31)) (W (Proc.devRef .tc main_v37)) := by
  show after [_,_,_,_,_,_,_,_] W _ = _
  after_results_simp
  try simp only [TRef.ofBuf_toBuf, TRef.toBuf_ofBuf]
  rfl

theorem s6b_v39 (W : Valuation τ sig (Elt Ideal)) :
    after s6b W (Proc.devRef .tc main_v39) = W (Proc.devRef .tc main_v39) := by
  show after [_,_,_,_,_,_,_,_] W _ = _
  after_results_simp

set_option maxRecDepth 8192 in
theorem s6c_v46 (W : Valuation τ sig (Elt Ideal)) :
    after s6c W (Proc.devRef .tc main_v46) = cFinal (W (Proc.devRef .tc main_v40)) (W (Proc.devRef .tc main_v42)) (W (Proc.devRef .tc main_v39)) := by
  show after [_,_,_,_,_,_] W _ = _
  after_results_simp
  try simp only [TRef.ofBuf_toBuf, TRef.toBuf_ofBuf]
  rfl

/-- The result buffer after the whole program, from any contents: the loss of the named arrays of the two arguments. -/
theorem after_ops_v46 (V : Valuation τ sig (Elt Ideal)) :
    after (FrameRun.ops (F := Ideal)) V (Proc.devRef .tc main_v46)
      = cLoss (cValid (cMask (cMaskRaw (V (Proc.devRef .tc main_arg1)))))
          (cRow (cMask (cMaskRaw (V (Proc.devRef .tc main_arg1))))
            (cLogProb (cLogit (cSim (V (Proc.devRef .tc main_arg0)))))) := by
  rw [ops_eq, after_append, after_append, after_append, after_append, after_append, after_append, after_append,
    after_append, after_append,
    s6c_v46, s6b_v40, s6b_v42, s6b_v39, s6a_v39, s6a_v31, s6a_v37,
    s5_v31, s5_v37, s4c_v28, s4c_v26, s4b_v5, s4b_v26, s4a_v2, s4a_v27, s4a_v26, s3_v26, s3_v27,
    s2_v20, s2_v6, s1_v6, s1_arg1]
  rfl

/-! ## The run -/

/-- The composed named arrays of the two argument arrays: what the result buffer holds at the end. -/
def cResult (a0 : Cf S8192x128) (a1 : Cf S8192x1) : Cf S_ :=
  cLoss (cValid (cMask (cMaskRaw a1))) (cRow (cMask (cMaskRaw a1)) (cLogProb (cLogit (cSim a0))))

set_option maxRecDepth 65536 in
set_option maxHeartbeats 35200000 in
/-- On every device, from any memory with zero counters: every weakly fair execution of the reference program
    terminates with the result buffer at the composed named arrays of the two arguments, and the arguments unchanged. -/
theorem run_contents (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v46)
        = cResult (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v46).trans (after_ops_v46 _),
      (h c main_arg0).trans (by after_results_simp <;> rfl),
      (h c main_arg1).trans (by after_results_simp <;> rfl)⟩)
    (run_seq FrameRun.scopedRefs_eq FrameRun.scopedSems_eq defs main (fun _ => FrameRun.ops) FrameRun.main_eq (fun _ => FrameRun.ops_sub) m ρ)

end Cert.ReferenceIdeal.RValue

end
-- ==== Proof.LibWordCount.lean ====
import Idealize.ShloMosaic.PureOps.Reduce
import Idealize.ShloMosaic.PureOps.Ideal

/-!
# Counting with wrapping 32-bit words

General lemmas about a sum of 32-bit words taken with the wrapping addition `IntOp.addi`.

* `toNat_fold_addi`: the unsigned value of the wrapped sum is the sum of the unsigned values
  modulo `2 ^ 32`.
* `toInt_fold_addi`: when every word is `0` or `1` and there are fewer than `2 ^ 31` of them the
  sum never wraps, so its signed value is the number of ones.
* `coe_sum`: the inclusion of the reals in the extended reals commutes with finite sums.
* `count_eq_sum`: hence the signed value of such a wrapped sum, as an extended real, is the sum of the
  signed values of the words, each taken as an extended real: counting with integers and then
  converting gives what converting each word and adding the results gives.
-/

open Finset

namespace Idealize.ShloMosaic.WordCount

/-- The unsigned value of a wrapped sum of words is the sum of their unsigned values modulo `2 ^ 32`. -/
theorem toNat_fold_addi {ι : Type*} [DecidableEq ι] (S : Finset ι) (g : ι → BitVec 32) :
    (S.fold IntOp.addi 0#32 g).toNat = (∑ i ∈ S, (g i).toNat) % 4294967296 := by
  induction S using Finset.induction_on with
  | empty => rfl
  | insert a S ha ih =>
    rw [Finset.fold_insert ha, Finset.sum_insert ha]
    show (g a + S.fold IntOp.addi 0#32 g).toNat = _
    rw [BitVec.toNat_add, ih]
    omega

/-- Words that are all `0` or `1`, fewer than `2 ^ 31` of them: the wrapped sum's signed value is the
    number of ones (the sum of the unsigned values), no wrap having occurred. -/
theorem toInt_fold_addi {ι : Type*} [DecidableEq ι] (S : Finset ι) (g : ι → BitVec 32)
    (hg : ∀ i ∈ S, (g i).toNat ≤ 1) (hS : S.card < 2147483648) :
    (S.fold IntOp.addi 0#32 g).toInt = ((∑ i ∈ S, (g i).toNat : ℕ) : ℤ) := by
  have hsum : ∑ i ∈ S, (g i).toNat ≤ S.card := by
    have := Finset.sum_le_card_nsmul S (fun i => (g i).toNat) 1 hg
    simpa using this
  have hN := toNat_fold_addi S g
  rw [BitVec.toInt_eq_toNat_cond, hN]
  have h1 : (∑ i ∈ S, (g i).toNat) % 4294967296 = ∑ i ∈ S, (g i).toNat := Nat.mod_eq_of_lt (by omega)
  rw [h1, if_pos (by norm_num; omega)]

/-- The inclusion of the reals in the extended reals commutes with finite sums. -/
theorem coe_sum {ι : Type*} [DecidableEq ι] (S : Finset ι) (f : ι → ℝ) :
    ((∑ i ∈ S, f i : ℝ) : EReal) = ∑ i ∈ S, (f i : EReal) := by
  induction S using Finset.induction_on with
  | empty => simp
  | insert a S ha ih => rw [Finset.sum_insert ha, Finset.sum_insert ha, EReal.coe_add, ih]

/-- A word that is `0` or `1` has the same signed and unsigned value. -/
theorem toInt_of_le_one (b : BitVec 32) (h : b.toNat ≤ 1) : b.toInt = (b.toNat : ℤ) := by
  rw [BitVec.toInt_eq_toNat_cond, if_pos (by norm_num; omega)]

/-- COUNT, THEN CONVERT = CONVERT, THEN ADD. Over a finite index type of fewer than `2 ^ 31` elements, the
    wrapped sum of words that are all `0` or `1`, read as a signed integer and then as an extended real, is the
    sum over the indices of each word read as a signed integer and then as an extended real. -/
theorem count_eq_sum {ι : Type*} [Fintype ι] [DecidableEq ι] (g : ι → BitVec 32) (hg : ∀ i, (g i).toNat ≤ 1)
    (hc : Fintype.card ι < 2147483648) :
    ((((Finset.univ : Finset ι).fold IntOp.addi 0#32 g).toInt : ℝ) : EReal) = ∑ i, (((g i).toInt : ℝ) : EReal) := by
  rw [toInt_fold_addi Finset.univ g (fun i _ => hg i) (by simpa using hc)]
  rw [← coe_sum]
  congr 1
  push_cast
  exact Finset.sum_congr rfl fun i _ => by rw [toInt_of_le_one (g i) (hg i)]; push_cast; rfl

/-- A one-bit word zero-extended to 32 bits is `0` or `1`. -/
theorem setWidth_bit_le_one (b : BitVec 1) : (b.setWidth 32).toNat ≤ 1 := by
  rw [BitVec.toNat_setWidth]
  have := b.isLt
  omega

end Idealize.ShloMosaic.WordCount
-- ==== Proof.ReferenceTailSpec.lean ====
/-
  The reference program's last scalar stretch, read at the extended reals. The valid rows are counted in 32-bit words
  (a wrapping sum of one-bit flags extended by zeros): there are 8192 < 2^31 flags, so nothing wraps and the signed value
  of the count is the number of valid rows. Hence the gate "count > 0" is "some row is valid", the signed maximum of the
  count and one, converted to a float, is the real number max(count, 1), and the sum over the rank-1 index set is the sum
  over the rows. The result is
      (0 + Σ_r (row r where r is valid, else 0)) / max(count, 1)   where 0 < count,   else 0.
-/
import proofs.«153547_j25572235281097_1_alg».proof.Proof.ReferenceValueDefs
import proofs.«153547_j25572235281097_1_alg».proof.Proof.LibWordCount
import proofs.«153547_j25572235281097_1_alg».proof.Proof.Spec
import Idealize.ShloMosaic.PureOps.Reduce
import Idealize.ShloMosaic.PureOps.Ideal
import Idealize.ShloMosaic.PureOps.Ideal.Laws
import Idealize.ShloMosaic.Lib.ValueIdx
import Idealize.ShloMosaic.Lib.IdealHost
import Idealize.ShloMosaic.Lib.Affine
import Idealize.ShloMosaic.Lib.WordArith

noncomputable section

namespace Cert.ReferenceIdeal.RTail

open Cert.ReferenceIdeal Cert.ReferenceIdeal.Gen Cert.ReferenceIdeal.RValue
open Idealize.ShloMosaic Idealize.ShloMosaic.ValueIdx Idealize.ShloMosaic.WordCount

/-- A rank-1 index set is its one coordinate's range … -/
def idxEquiv1 {n : Nat} : (⟨1, ![n]⟩ : Shape).Idx ≃ Fin n where
  toFun i := i 0
  invFun r := ix1 r
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ r : Fin n, f (ix1 r) := by
  rw [← Equiv.sum_comp (idxEquiv1 (n := n)).symm f]
  rfl

/-- The count of valid rows, as a word, is the wrapping sum over the rows of each flag extended by zeros. -/
theorem nvalid_eq_fold (vl : IVec S8192 1) (j : S_.Idx) :
    cNValid vl j = (Finset.univ : Finset (Fin 8192)).fold IntOp.addi 0#32 (fun r => (vl (ix1 r)).setWidth 32) := by
  unfold cNValid
  -- the result has rank zero, so every index of the operand drops to its one index
  rw [Host.reduce_eq_fold, Finset.filter_true_of_mem (fun i _ => funext fun b => b.elim0),
    ← Finset.map_univ_equiv (idxEquiv1 (n := 8192)).symm, Finset.fold_map]
  rfl

/-- A flag extended by zeros has natural value one where the flag is set, zero elsewhere. -/
theorem toNat_setWidth_flag (b : BitVec 1) (P : Prop) [Decidable P] (h : b = 1#1 ↔ P) :
    (b.setWidth 32).toNat = if P then 1 else 0 := by
  by_cases hp : P
  · rw [if_pos hp, h.mpr hp]; rfl
  · rw [if_neg hp, eq_zero_of_ne_one (fun e => hp (h.mp e))]; rfl

/-- The count's signed value is the number of valid rows: 8192 flags cannot wrap a 32-bit sum. -/
theorem nvalid_toInt (vl : IVec S8192 1) (fl : Fin 8192 → Prop) [DecidablePred fl]
    (hv : ∀ r, vl (ix1 r) = 1#1 ↔ fl r) (j : S_.Idx) :
    (cNValid vl j).toInt = (((Finset.univ.filter fl).card : ℕ) : ℤ) := by
  rw [nvalid_eq_fold, toInt_fold_addi _ _ (fun i _ => setWidth_bit_le_one _)
    (by rw [Finset.card_univ, Fintype.card_fin]; norm_num)]
  refine congrArg (fun n : ℕ => (n : ℤ)) ?_
  rw [Finset.card_filter]
  exact Finset.sum_congr rfl fun r _ => toNat_setWidth_flag _ _ (hv r)

/-- The signed maximum of a word and one, read signed, is the larger of the word's signed value and one. -/
theorem toInt_maxsi_one (x : BitVec 32) : (IntOp.maxsi x 1#32).toInt = max x.toInt 1 := by
  have h1 : (1#32 : BitVec 32).toInt = 1 := by decide
  unfold IntOp.maxsi
  by_cases h : (1#32 : BitVec 32).slt x = true
  · rw [if_pos h]
    rw [BitVec.slt_iff_toInt_lt, h1] at h
    omega
  · rw [if_neg h]
    rw [BitVec.slt_iff_toInt_lt, h1] at h
    rw [h1]; omega

/-- The sum of the per-row values over the valid rows is 0 + Σ_r (row r where valid, else 0). -/
theorem total_eq (vl : IVec S8192 1) (row : FVec Ideal S8192 .f32) (fl : Fin 8192 → Prop) [DecidablePred fl]
    (rr : Fin 8192 → EReal) (hv : ∀ r, vl (ix1 r) = 1#1 ↔ fl r) (hr : ∀ r, row (ix1 r) = rr r) (j : S_.Idx) :
    cTotal vl row j = 0 + ∑ r : Fin 8192, (if fl r then rr r else 0) := by
  unfold cTotal
  rw [hostReduceAdd_apply, constant_apply, Ideal.ofBits_zero_f32,
    Ideal.hostReduceAdd_total reducesTo_S8192_S_d0 (fun b => b.elim0), sum_idx1]
  refine congrArg (fun t : EReal => 0 + t) (Finset.sum_congr rfl fun r _ => ?_)
  rw [select_apply, broadcastInDim_scalar_apply, constant_apply, Ideal.ofBits_zero_f32, hr]
  by_cases h : fl r
  · rw [if_pos h, (hv r).mpr h, select_one]
  · rw [if_neg h, eq_zero_of_ne_one (fun e => h ((hv r).mp e)), select_zero]

/-- THE LAST STRETCH: the loss from the valid flags and the per-row values. -/
theorem cLoss_spec (vl : IVec S8192 1) (row : FVec Ideal S8192 .f32) (fl : Fin 8192 → Prop) [DecidablePred fl]
    (rr : Fin 8192 → EReal) (hv : ∀ r, vl (ix1 r) = 1#1 ↔ fl r) (hr : ∀ r, row (ix1 r) = rr r) :
    cLoss vl row = fun _ =>
      (if 0 < (Finset.univ.filter fl).card
        then Ideal.div (0 + ∑ r : Fin 8192, (if fl r then rr r else 0))
          (((max (Finset.univ.filter fl).card 1 : ℕ) : ℝ) : EReal) else 0) := by
  funext j
  have hn := nvalid_toInt vl fl hv j
  have ht := total_eq vl row fl rr hv hr j
  have h0 : (0#32 : BitVec 32).toInt = 0 := by decide
  have hgate : cGate (cNValid vl) j = 1#1 ↔ 0 < (Finset.univ.filter fl).card := by
    show IntOp.cmpi .sgt (cNValid vl j) 0#32 = 1#1 ↔ _
    rw [IntOp.cmpi_sgt, hn, h0]
    exact Int.natCast_pos
  have hden : (sitofp .f32 (maxsi (cNValid vl) (constantI S_ 32 1#32)) : FVec Ideal S_ .f32) j
      = (((max (Finset.univ.filter fl).card 1 : ℕ) : ℝ) : EReal) := by
    show (((IntOp.maxsi (cNValid vl j) 1#32).toInt : ℝ) : EReal) = _
    rw [toInt_maxsi_one, hn]
    refine congrArg (fun t : ℝ => (t : EReal)) ?_
    push_cast
    rfl
  unfold cLoss cFinal
  rw [select_apply, hostDivf_apply, hden, ht, constant_apply, Ideal.ofBits_zero_f32]
  by_cases h : 0 < (Finset.univ.filter fl).card
  · rw [if_pos h, hgate.mpr h, select_one]
  · rw [if_neg h, eq_zero_of_ne_one (fun e => h (hgate.mp e)), select_zero]

end Cert.ReferenceIdeal.RTail

end
-- ==== Proof.LibHostLayout.lean ====
/-
  Host layout steps read at an index written by coordinates, for any extents.

  A vector of `b` entries broadcast first to the single row `[1, b]` and then down `a` rows reads, at `(i, j)`, the
  vector at `j`.  A column `[a, 1]` broadcast along `b` columns reads, at `(i, j)`, the column at row `i`.  A vector of
  `a` entries broadcast to the column `[a, 1]` reads, at `(i, u)`, the vector at `i`.  The host's sum of a matrix along
  its rows, at the ideal values, is the initial value plus the sum of that row's entries.  General; no program is
  imported.
-/
import Idealize.ShloMosaic.Lib.Pipeline.Value
import Idealize.ShloMosaic.Lib.ValueIdx
import Idealize.ShloMosaic.Lib.IdealHost
import Idealize.ShloMosaic.PureOps.Ideal.Laws
import Idealize.ShloMosaic.PureOps.Reduce

noncomputable section

open scoped BigOperators

namespace Idealize.ShloMosaic.ValueIdx

open Idealize.ShloMosaic

variable {α : Type}

/-- A vector `[b]` made the row `[1, b]` and copied down `a` rows reads, at `(i, j)`, the vector at `j`. -/
theorem broadcastInDim_vec_rows_apply {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (i : Fin a) (j : Fin b) :
    broadcastInDim ⟨2, ![a, b]⟩ ![0, 1] h2 (broadcastInDim ⟨2, ![1, b]⟩ ![1] h1 x) (ix2 i j) = x (ix1 j) := by
  refine (broadcastInDim_apply ![0, 1] h2 _ (ix2 i j) (ix2 (0 : Fin 1) j) fun ax => ?_).trans
    (broadcastInDim_apply ![1] h1 x (ix2 (0 : Fin 1) j) (ix1 j) fun ax => ?_)
  · match ax with
    | ⟨0, _⟩ => exact (if_pos rfl).symm
    | ⟨1, _⟩ =>
      show j.val = if b = 1 then 0 else j.val
      split
      · have := j.isLt; omega
      · rfl
  · match ax with
    | ⟨0, _⟩ =>
      show j.val = if b = 1 then 0 else j.val
      split
      · have := j.isLt; omega
      · rfl

/-- A column `[a, 1]` copied along `b` columns reads, at `(i, j)`, the column at row `i`. -/
theorem broadcastInDim_col_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply ![0, 1] h v (ix2 i j) (ix2 i (0 : Fin 1)) fun ax => ?_
  match ax with
  | ⟨0, _⟩ =>
    show i.val = if a = 1 then 0 else i.val
    split
    · have := i.isLt; omega
    · rfl
  | ⟨1, _⟩ => exact (if_pos rfl).symm

/-- A vector `[a]` made the column `[a, 1]` reads, at `(i, u)`, the vector at `i`. -/
theorem broadcastInDim_vec_col_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's sum of a matrix along its rows, at the ideal values, read at row `i`: the initial value plus the
    sum of the row's entries. -/
theorem hostRowSum_apply {a b : ℕ} {u : Shape} (z : FVec Ideal ⟨2, ![a, b]⟩ .f32) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd z init h' hu (ix1 i) = init (Shape.Idx.first hu) + ∑ k : Fin b, z (ix2 i k) := by
  refine (hostReduceAdd_apply z init h' hu (ix1 i)).trans ((Ideal.hostReduceAdd_single h' h z _ (ix1 i)).trans ?_)
  refine congrArg (fun s => init (Shape.Idx.first hu) + s) ?_
  show ∑ k : Fin b, z (h.lift (ix1 i) k) = _
  refine Finset.sum_congr rfl fun k _ => congrArg z ?_
  funext ax; apply Fin.ext
  fin_cases ax <;> rfl

end Idealize.ShloMosaic.ValueIdx

end
-- ==== Proof.ReferenceStagesA.lean ====
/-
  The reference program's stages read at an index, against the specification, over the extended reals.

  With `e r k` the embedding array at (r, k) and `p r` the property array at (r, 0): the property chain — the two
  properties of a pair laid along two axes of a [8192, 8192, 1] array, subtracted, squared, summed over the unit axis
  from 0 (which changes nothing), two square roots, the small constant added, compared with one half and the bit made
  a float — is 1 where the specification's distance is below one half, else 0.
-/
import proofs.«153547_j25572235281097_1_alg».proof.Proof.Gen.ReferenceIdeal
import proofs.«153547_j25572235281097_1_alg».proof.Proof.ReferenceValueDefs
import proofs.«153547_j25572235281097_1_alg».proof.Proof.Spec
import proofs.«153547_j25572235281097_1_alg».proof.Proof.LibHostLayout
import proofs.«153547_j25572235281097_1_alg».proof.Proof.LibRowMax
import proofs.«153547_j25572235281097_1_alg».proof.Proof.LibDotRows
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.Stages

open Cert.ReferenceIdeal Cert.ReferenceIdeal.Facts Cert.ReferenceIdeal.RValue Idealize.ShloMosaic Idealize.ShloMosaic.ValueIdx
open scoped BigOperators

/-! ### The property chain -/

variable {α : Type}

/-- A column [8192, 1] laid along the first axis of [8192, 1, 1] and copied along the second axis of
    [8192, 8192, 1] reads, at (r, j, u), the column at row r. -/
theorem bcast_first_apply (x : S8192x1.Idx → α) (h1 : S8192x1.BroadcastsInDim S8192x1x1 ![0, 2])
    (h2 : S8192x1x1.BroadcastsInDim S8192x8192x1 ![0, 1, 2]) (r j : Fin 8192) (u : Fin 1) :
    broadcastInDim S8192x8192x1 ![0, 1, 2] h2 (broadcastInDim S8192x1x1 ![0, 2] h1 x) (ix3 r j u)
      = x (ix2 r (0 : Fin 1)) := by
  refine (broadcastInDim_apply ![0, 1, 2] h2 _ (ix3 r j u) (ix3 r (0 : Fin 1) (0 : Fin 1)) fun ax => ?_).trans
    (broadcastInDim_apply ![0, 2] h1 x (ix3 r (0 : Fin 1) (0 : Fin 1)) (ix2 r (0 : Fin 1)) fun ax => ?_)
  · match ax with
    | ⟨0, _⟩ =>
      show r.val = if (8192 : ℕ) = 1 then 0 else r.val
      exact (if_neg (by decide)).symm
    | ⟨1, _⟩ => exact (if_pos rfl).symm
    | ⟨2, _⟩ => exact (if_pos rfl).symm
  · match ax with
    | ⟨0, _⟩ =>
      show r.val = if (8192 : ℕ) = 1 then 0 else r.val
      exact (if_neg (by decide)).symm
    | ⟨1, _⟩ => exact (if_pos rfl).symm

/-- A column [8192, 1] laid along the second axis of [1, 8192, 1] and copied along the first axis of
    [8192, 8192, 1] reads, at (r, j, u), the column at row j. -/
theorem bcast_second_apply (x : S8192x1.Idx → α) (h1 : S8192x1.BroadcastsInDim S1x8192x1 ![1, 2])
    (h2 : S1x8192x1.BroadcastsInDim S8192x8192x1 ![0, 1, 2]) (r j : Fin 8192) (u : Fin 1) :
    broadcastInDim S8192x8192x1 ![0, 1, 2] h2 (broadcastInDim S1x8192x1 ![1, 2] h1 x) (ix3 r j u)
      = x (ix2 j (0 : Fin 1)) := by
  refine (broadcastInDim_apply ![0, 1, 2] h2 _ (ix3 r j u) (ix3 (0 : Fin 1) j (0 : Fin 1)) fun ax => ?_).trans
    (broadcastInDim_apply ![1, 2] h1 x (ix3 (0 : Fin 1) j (0 : Fin 1)) (ix2 j (0 : Fin 1)) fun ax => ?_)
  · match ax with
    | ⟨0, _⟩ => exact (if_pos rfl).symm
    | ⟨1, _⟩ =>
      show j.val = if (8192 : ℕ) = 1 then 0 else j.val
      exact (if_neg (by decide)).symm
    | ⟨2, _⟩ => exact (if_pos rfl).symm
  · match ax with
    | ⟨0, _⟩ =>
      show j.val = if (8192 : ℕ) = 1 then 0 else j.val
      exact (if_neg (by decide)).symm
    | ⟨1, _⟩ => exact (if_pos rfl).symm

/-- Dropping the unit last axis of [8192, 8192, 1]. -/
theorem reduces_unit : S8192x8192x1.Reduces [2] S8192x8192 := by decide

/-- The host's sum over the unit last axis, at (r, j): the initial value plus the one entry. -/
theorem hostUnitSum_apply {u : Shape} (z : FVec Ideal S8192x8192x1 .f32) (init : u.Idx → EReal)
    (h' : S8192x8192x1.ReducesTo [2] S8192x8192) (hu : 0 < u.numel) (r j : Fin 8192) :
    Host.reduceAdd z init h' hu (ix2 r j) = init (Shape.Idx.first hu) + z (ix3 r j (0 : Fin 1)) := by
  refine (hostReduceAdd_apply z init h' hu (ix2 r j)).trans
    ((Ideal.hostReduceAdd_single h' reduces_unit z _ (ix2 r j)).trans ?_)
  refine congrArg (fun s => init (Shape.Idx.first hu) + s) ?_
  show ∑ k : Fin 1, z (reduces_unit.lift (ix2 r j) k) = _
  rw [Fin.sum_univ_one]
  refine congrArg z ?_
  funext ax; apply Fin.ext
  fin_cases ax <;> rfl

/-- A comparison bit made a float (read unsigned) is 1 where the comparison holds, else 0: "less than". -/
theorem uflag_olt (x y : EReal) :
    FloatOps.uitofp (F := Ideal) .f32 (FloatOps.cmpf (F := Ideal) (φ := .f32) .olt x y)
      = if x < y then 1 else 0 := by
  show (((BitVec.ofBool (decide (x < y))).toNat : ℝ) : EReal) = _
  by_cases h : x < y
  · rw [if_pos h, decide_eq_true h]
    show (((1 : ℕ) : ℝ) : EReal) = 1
    rw [Nat.cast_one, EReal.coe_one]
  · rw [if_neg h, decide_eq_false h]
    show (((0 : ℕ) : ℝ) : EReal) = 0
    rw [Nat.cast_zero, EReal.coe_zero]

/-- S3, THE RAW MASK at (r, j): the property chain is the flag of the specification's distance being below one half. -/
theorem maskRaw_apply (Pp : FVec Ideal S8192x1 .f32) (r j : Fin 8192)
    (b1 : S8192x1.BroadcastsInDim S8192x1x1 ![0, 2]) (b2 : S8192x1x1.BroadcastsInDim S8192x8192x1 ![0, 1, 2])
    (b3 : S8192x1.BroadcastsInDim S1x8192x1 ![1, 2]) (b4 : S1x8192x1.BroadcastsInDim S8192x8192x1 ![0, 1, 2])
    (hr : S8192x8192x1.ReducesTo [2] S8192x8192) (hs : 0 < S_.numel) (b0 : S_.BroadcastsInDim S8192x8192 ![]) :
    uitofp (F := Ideal) .f32 (cmpf .olt
      (addf (Host.sqrt (Host.sqrt (Host.reduceAdd
          (mulf (subf (broadcastInDim S8192x8192x1 ![0, 1, 2] b2 (broadcastInDim S8192x1x1 ![0, 2] b1 Pp))
              (broadcastInDim S8192x8192x1 ![0, 1, 2] b4 (broadcastInDim S1x8192x1 ![1, 2] b3 Pp)))
            (subf (broadcastInDim S8192x8192x1 ![0, 1, 2] b2 (broadcastInDim S8192x1x1 ![0, 2] b1 Pp))
              (broadcastInDim S8192x8192x1 ![0, 1, 2] b4 (broadcastInDim S1x8192x1 ![1, 2] b3 Pp))))
          (constant (F := Ideal) S_ .f32 0x00000000#32) hr hs)))
        (broadcastInDim S8192x8192 ![] b0 (constant (F := Ideal) S_ .f32 0x322BCC77#32)))
      (broadcastInDim S8192x8192 ![] b0 (constant (F := Ideal) S_ .f32 0x3F000000#32))) (ix2 r j)
      = (if Spec.dist (fun i : Fin Spec.N => Pp (ix2 i (0 : Fin 1))) r j < Spec.half then 1 else 0) := by
  refine (uflag_olt _ _).trans ?_
  show (if Ideal.sqrt (Ideal.sqrt (Host.reduceAdd _ (constant (F := Ideal) S_ .f32 0x00000000#32) hr hs (ix2 r j)))
      + broadcastInDim S8192x8192 ![] b0 (constant (F := Ideal) S_ .f32 0x322BCC77#32) (ix2 r j)
      < broadcastInDim S8192x8192 ![] b0 (constant (F := Ideal) S_ .f32 0x3F000000#32) (ix2 r j)
      then (1 : EReal) else 0) = _
  rw [hostUnitSum_apply, broadcastInDim_scalar_apply, broadcastInDim_scalar_apply]
  show (if Ideal.sqrt (Ideal.sqrt (Ideal.ofBits .f32 0x00000000#32
        + (broadcastInDim S8192x8192x1 ![0, 1, 2] b2 (broadcastInDim S8192x1x1 ![0, 2] b1 Pp) (ix3 r j (0 : Fin 1))
            - broadcastInDim S8192x8192x1 ![0, 1, 2] b4 (broadcastInDim S1x8192x1 ![1, 2] b3 Pp) (ix3 r j (0 : Fin 1)))
          * (broadcastInDim S8192x8192x1 ![0, 1, 2] b2 (broadcastInDim S8192x1x1 ![0, 2] b1 Pp) (ix3 r j (0 : Fin 1))
            - broadcastInDim S8192x8192x1 ![0, 1, 2] b4 (broadcastInDim S1x8192x1 ![1, 2] b3 Pp) (ix3 r j (0 : Fin 1)))))
      + Spec.eps < Spec.half then (1 : EReal) else 0) = _
  rw [bcast_first_apply, bcast_second_apply, Ideal.ofBits_zero_f32, zero_add]
  rfl

/-- S3 for the named array: the raw mask at (r, j). -/
theorem cMaskRaw_apply (Pp : FVec Ideal S8192x1 .f32) (r j : Fin 8192) :
    cMaskRaw Pp (ix2 r j)
      = (if Spec.dist (fun i : Fin Spec.N => Pp (ix2 i (0 : Fin 1))) r j < Spec.half then 1 else 0) := by
  unfold cMaskRaw cDiff
  exact maskRaw_apply Pp r j _ _ _ _ _ _ _

/-! ### The normalised rows and the similarities -/

/-- Dropping the last axis of the two matrices. -/
theorem reduces_rows128 : S8192x128.Reduces [1] S8192 := by decide
theorem reduces_rows : S8192x8192.Reduces [1] S8192 := by decide

/-- The norm column at row r: the square root of the specification's sum of squares. -/
theorem cNorm_apply (X : FVec Ideal S8192x128 .f32) (r : Fin 8192) (u : Fin 1) :
    cNorm X (ix2 r u) = Ideal.sqrt (Spec.sumSq (fun (i : Fin Spec.N) (k : Fin Spec.D) => X (ix2 i k)) r) := by
  unfold cNorm
  show Ideal.sqrt (broadcastInDim (s := S8192) S8192x1 ![0] _ _ (ix2 r u)) = _
  rw [broadcastInDim_vec_col_apply, hostRowSum_apply _ _ _ reduces_rows128]
  show Ideal.sqrt (Ideal.ofBits .f32 0x00000000#32 + ∑ k : Fin 128, X (ix2 r k) * X (ix2 r k)) = _
  rw [Ideal.ofBits_zero_f32]
  rfl

/-- S1, THE NORMALISED ROWS at (r, k). -/
theorem cEn_apply (X : FVec Ideal S8192x128 .f32) (r : Fin 8192) (k : Fin 128) :
    cEn X (ix2 r k) = Spec.en (fun (i : Fin Spec.N) (k : Fin Spec.D) => X (ix2 i k)) r k := by
  unfold cEn
  show Ideal.div (X (ix2 r k)) (broadcastInDim (s := S8192x1) S8192x128 ![0, 1] _ (cNorm X) (ix2 r k)) = _
  rw [broadcastInDim_col_apply, cNorm_apply]
  rfl

/-- S2, THE SIMILARITIES at (r, j). -/
theorem cSim_apply (X : FVec Ideal S8192x128 .f32) (r j : Fin 8192) :
    cSim X (ix2 r j) = Spec.sim (fun (i : Fin Spec.N) (k : Fin Spec.D) => X (ix2 i k)) r j := by
  unfold cSim
  show Ideal.div (Host.dotGeneral _ none (cEn X) (transpose S128x8192 [1, 0] (cEn X) _) (ix2 r j))
      (broadcastInDim (s := S_) S8192x8192 ![] _ (constant (F := Ideal) S_ .f32 0x3DCCCCCD#32) (ix2 r j)) = _
  rw [broadcastInDim_scalar_apply]
  unfold Spec.sim
  refine congrArg₂ Ideal.div ?_ rfl
  refine (dotGeneral_rows _ none _ rfl rfl (fun _ _ => rfl) (fun _ _ => rfl) (fun _ _ => rfl) (fun _ _ => rfl)
    (cEn X) _ r j).trans ?_
  rw [zero_add]
  exact Finset.sum_congr rfl fun k _ => by rw [transpose_ix2_apply, cEn_apply, cEn_apply]

end Cert.ReferenceIdeal.Stages

end
-- ==== Proof.LibHostRowScalar.lean ====
/-
  Host layout steps read at an index written by coordinates, for any element type and any extents, and two
  identities between a reshape and a broadcast.

  A row `[1, b]` copied down `a` rows reads, at `(i, j)`, the row at `j`.  A vector `[b]` broadcast to the single row `[1, b]` reads, at `(u, j)`, the vector at `j`.
  Reshaping a vector `[a]` to the column `[a, 1]` keeps the elements in row-major order, and so does broadcasting it
  along the new unit axis: the two arrays are equal; likewise for the row `[1, b]`.  General; no program is imported.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- A row `[1, b]` copied down `a` rows reads, at `(i, j)`, the row at `j`. -/
theorem broadcastInDim_row_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply ![0, 1] h v (ix2 i j) (ix2 (0 : Fin 1) j) fun ax => ?_
  match ax with
  | ⟨0, _⟩ => exact (if_pos rfl).symm
  | ⟨1, _⟩ =>
    show j.val = if b = 1 then 0 else j.val
    split
    · have := j.isLt; omega
    · rfl

/-- A vector `[b]` broadcast to the single row `[1, b]` reads, at `(u, j)`, the vector at `j`. -/
theorem broadcastInDim_vec_row_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply ![1] h x (ix2 u j) (ix1 j) fun ax => ?_
  match ax with
  | ⟨0, _⟩ =>
    show j.val = if b = 1 then 0 else j.val
    split
    · have := j.isLt; omega
    · rfl

/-- A vector `[a]` broadcast to the column `[a, 1]` reads, at `(i, u)`, the vector at `i`. -/
theorem broadcastInDim_vec_column_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The reshape of a vector to the column `[a, 1]` is its broadcast along the new unit axis. -/
theorem shapeCast_column_eq_broadcastInDim {a : ℕ} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨i, u, rfl⟩ : ∃ (i : Fin a) (u : Fin 1), j = ix2 i u := ⟨j 0, j 1, eq_ix2 j⟩
  rw [broadcastInDim_vec_column_apply]
  exact shapeCast_apply x hc _ _ (by
    have hu : u.val = 0 := by omega
    rw [Shape.rowMajor_val_two, Shape.rowMajor_val_one]
    show i.val = i.val * 1 + u.val
    rw [hu, Nat.mul_one, Nat.add_zero])

/-- The reshape of a vector to the row `[1, b]` is its broadcast along the new unit axis. -/
theorem shapeCast_row_eq_broadcastInDim {b : ℕ} (x : (⟨1, ![b]⟩ : Shape).Idx → α)
    (hc : (⟨1, ![b]⟩ : Shape).ShapeCasts ⟨2, ![1, b]⟩) (hb : (⟨1, ![b]⟩ : Shape).BroadcastsInDim ⟨2, ![1, b]⟩ ![1]) :
    shapeCast ⟨2, ![1, b]⟩ x hc = broadcastInDim ⟨2, ![1, b]⟩ ![1] hb x := by
  funext j
  obtain ⟨u, i, rfl⟩ : ∃ (u : Fin 1) (i : Fin b), j = ix2 u i := ⟨j 0, j 1, eq_ix2 j⟩
  rw [broadcastInDim_vec_row_apply, shapeCast_a_1a_apply]

end Idealize.ShloMosaic.ValueIdx
-- ==== Proof.ReferenceValue.lean ====
/-
  The reference program's run with its value.  The run (ReferenceValueRun) leaves the result buffer at the composed
  named arrays of the two arguments.  Here each named array is read at an index — the diagonal, the mask and the logits,
  the log-softmax (row maximum, shifted logits, logarithm of the row sum of exponentials), the counts, the valid flags
  and the per-row values — against the specification's functions of the arguments read by coordinates; the last scalar
  stretch (ReferenceTailSpec) then gives the specification's loss, and the run's result buffer holds it.
-/
import proofs.«153547_j25572235281097_1_alg».proof.Proof.ReferenceValueRun
import proofs.«153547_j25572235281097_1_alg».proof.Proof.Spec
import proofs.«153547_j25572235281097_1_alg».proof.Proof.ReferenceTailSpec
import proofs.«153547_j25572235281097_1_alg».proof.Proof.ReferenceStagesA
import proofs.«153547_j25572235281097_1_alg».proof.Proof.LibRowMax
import proofs.«153547_j25572235281097_1_alg».proof.Proof.LibHostLayout
import proofs.«153547_j25572235281097_1_alg».proof.Proof.LibHostRowScalar
import Idealize.ShloMosaic.Lib.IdealHost
import Idealize.ShloMosaic.Lib.ValueIdx
import Idealize.ShloMosaic.Lib.ValueLayout

noncomputable section

namespace Cert.ReferenceIdeal.RValue

open Cert.ReferenceIdeal Cert.ReferenceIdeal.Gen Idealize.ShloMosaic Idealize.ShloMosaic.TcCoe Idealize.SL.Sem Idealize.ShloMosaic.StableHlo
open Idealize.ShloMosaic.ValueIdx

/-! ## The named arrays read at an index -/

/-! ### The diagonal, the mask and the logits -/

theorem cEye_apply (r j : Fin 8192) : cEye (ix2 r j) = BitVec.ofBool (decide (r = j)) := by
  unfold cEye
  show BitVec.ofBool (BitVec.ofNat 32 r.val
      + broadcastInDim S8192x8192 ![] bcast_S_S8192x8192 (constantI S_ 32 0#32) (ix2 r j) == BitVec.ofNat 32 j.val) = _
  rw [broadcastInDim_scalar_apply]
  show BitVec.ofBool (BitVec.ofNat 32 r.val + 0#32 == BitVec.ofNat 32 j.val) = _
  rw [BitVec.add_zero]
  congr 1
  rw [Bool.eq_iff_iff, beq_iff_eq, decide_eq_true_eq]
  constructor
  · intro h
    have h' := congrArg BitVec.toNat h
    rw [BitVec.toNat_ofNat, BitVec.toNat_ofNat] at h'
    have := r.isLt; have := j.isLt
    exact Fin.ext (by omega)
  · rintro rfl; rfl

theorem cMask_apply (raw : Cf S8192x8192) (r j : Fin 8192) :
    cMask raw (ix2 r j) = if r = j then 0 else raw (ix2 r j) := by
  unfold cMask
  show Scalar.select (cEye (ix2 r j))
      (broadcastInDim S8192x8192 ![] bcast_S_S8192x8192 (constant (F := Ideal) S_ .f32 0x00000000#32) (ix2 r j))
      (raw (ix2 r j)) = _
  rw [cEye_apply, broadcastInDim_scalar_apply]
  show Scalar.select _ (Ideal.ofBits .f32 0x00000000#32) _ = _
  rw [Ideal.ofBits_zero_f32]
  by_cases h : r = j
  · rw [if_pos h, decide_eq_true h]; exact select_one _ _
  · rw [if_neg h, decide_eq_false h]; exact select_zero _ _

theorem cLogit_apply (sm : Cf S8192x8192) (r j : Fin 8192) :
    cLogit sm (ix2 r j) = if r = j then Spec.negBig else sm (ix2 r j) := by
  unfold cLogit
  show Scalar.select (cEye (ix2 r j))
      (broadcastInDim S8192x8192 ![] bcast_S_S8192x8192 (constant (F := Ideal) S_ .f32 0xCE6E6B28#32) (ix2 r j))
      (sm (ix2 r j)) = _
  rw [cEye_apply, broadcastInDim_scalar_apply]
  show Scalar.select _ Spec.negBig _ = _
  by_cases h : r = j
  · rw [if_pos h, decide_eq_true h]; exact select_one _ _
  · rw [if_neg h, decide_eq_false h]; exact select_zero _ _

/-! ### The log-softmax of an array of logits -/

/-- The host's exponential and logarithm at an index. -/
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-- The fold of the maximum from the least element is the supremum. -/
theorem fold_max_bot_eq_sup {ι : Type} [DecidableEq ι] (s : Finset ι) (f : ι → EReal) :
    s.fold max ⊥ f = s.sup f := by
  induction s using Finset.induction_on with
  | empty => rw [Finset.fold_empty, Finset.sup_empty]
  | insert a s ha ih => rw [Finset.fold_insert ha, Finset.sup_insert, ih]

theorem cRmax_apply (x : Cf S8192x8192) (r : Fin 8192) :
    cRmax x (ix1 r) = Finset.univ.sup fun j : Fin 8192 => x (ix2 r j) := by
  unfold cRmax
  rw [maximumf_apply, broadcastInDim_scalar_apply, RowMax.hostReduce_maximumf_rows_constant, constant_apply,
    RowMax.max_ninf_left, RowMax.ofBits_ninf_f32]
  exact fold_max_bot_eq_sup _ _

theorem cShiftOf_apply (x : Cf S8192x8192) (mx : Cf S8192) (r j : Fin 8192) :
    cShiftOf x mx (ix2 r j) = x (ix2 r j) - mx (ix1 r) := by
  unfold cShiftOf
  rw [subf_apply, broadcastInDim_col_apply, broadcastInDim_vec_col_apply]

theorem cShift_apply (x : Cf S8192x8192) (r j : Fin 8192) :
    cShift x (ix2 r j) = x (ix2 r j) - cRmax x (ix1 r) := cShiftOf_apply x (cRmax x) r j

theorem cLseS_apply (sh : Cf S8192x8192) (r : Fin 8192) (u : Fin 1) :
    cLseS sh (ix2 r u) = Ideal.log (0 + ∑ j : Fin 8192, Ideal.exp (sh (ix2 r j))) := by
  unfold cLseS
  rw [hostLog_apply, broadcastInDim_vec_col_apply,
    hostRowSum_apply _ _ _ (RowMax.reduces_of_reducesTo reducesTo_S8192x8192_S8192_d1), constant_apply,
    Ideal.ofBits_zero_f32]
  simp only [hostExp_apply]

theorem cLogProbS_apply (sh : Cf S8192x8192) (r j : Fin 8192) :
    cLogProbS sh (ix2 r j) = sh (ix2 r j) - Ideal.log (0 + ∑ j : Fin 8192, Ideal.exp (sh (ix2 r j))) := by
  unfold cLogProbS
  rw [subf_apply, broadcastInDim_col_apply, cLseS_apply]

theorem cLogProb_apply (x : Cf S8192x8192) (r j : Fin 8192) :
    cLogProb x (ix2 r j) = (x (ix2 r j) - cRmax x (ix1 r))
      - Ideal.log (0 + ∑ j : Fin 8192, Ideal.exp (x (ix2 r j) - cRmax x (ix1 r))) := by
  unfold cLogProb
  rw [cLogProbS_apply]
  simp only [cShift_apply]
/-! ### The counts and the per-row values -/

theorem cCnt_apply (mk : Cf S8192x8192) (r : Fin 8192) :
    cCnt mk (ix1 r) = 0 + ∑ j : Fin 8192, mk (ix2 r j) := by
  unfold cCnt
  rw [hostRowSum_apply _ _ _ (RowMax.reduces_of_reducesTo reducesTo_S8192x8192_S8192_d1)]
  show Ideal.ofBits .f32 0x00000000#32 + _ = _
  rw [Ideal.ofBits_zero_f32]

theorem cValid_apply (mk : Cf S8192x8192) (r : Fin 8192) :
    cValid mk (ix1 r) = BitVec.ofBool (decide (0 < cCnt mk (ix1 r))) := by
  unfold cValid
  show Ideal.cmp .ogt (cCnt mk (ix1 r))
      (broadcastInDim S8192 ![] bcast_S_S8192 (constant (F := Ideal) S_ .f32 0x00000000#32) (ix1 r)) = _
  rw [broadcastInDim_scalar_apply]
  show Ideal.cmp .ogt _ (Ideal.ofBits .f32 0x00000000#32) = _
  rw [Ideal.ofBits_zero_f32]
  rfl

theorem cRow_apply (mk lp : Cf S8192x8192) (r : Fin 8192) :
    cRow mk lp (ix1 r) = Ideal.div (-(0 + ∑ j : Fin 8192, mk (ix2 r j) * lp (ix2 r j)))
      (max (cCnt mk (ix1 r)) Spec.one) := by
  unfold cRow
  show Ideal.div (-(Host.reduceAdd (mulf mk lp) (constant (F := Ideal) S_ .f32 0x00000000#32)
        reducesTo_S8192x8192_S8192_d1 h_S_ (ix1 r)))
      (max (cCnt mk (ix1 r)) (broadcastInDim S8192 ![] bcast_S_S8192 (constant (F := Ideal) S_ .f32 0x3F800000#32) (ix1 r))) = _
  rw [broadcastInDim_scalar_apply, hostRowSum_apply _ _ _ (RowMax.reduces_of_reducesTo reducesTo_S8192x8192_S8192_d1)]
  show Ideal.div (-(Ideal.ofBits .f32 0x00000000#32 + _)) _ = _
  rw [Ideal.ofBits_zero_f32]
  rfl

/-! ### The stages against the specification -/

/-- The arguments by coordinates. -/
abbrev Eof (a0 : Cf S8192x128) : Fin Spec.N → Fin Spec.D → EReal := fun i k => a0 (ix2 i k)
abbrev Pof (a1 : Cf S8192x1) : Fin Spec.N → EReal := fun i => a1 (ix2 i (0 : Fin 1))

theorem mask_eq (a1 : Cf S8192x1) (r j : Fin 8192) :
    cMask (cMaskRaw a1) (ix2 r j) = Spec.mask (Pof a1) r j := by
  rw [cMask_apply, Stages.cMaskRaw_apply]
  rfl

theorem logit_eq (a0 : Cf S8192x128) (r j : Fin 8192) :
    cLogit (cSim a0) (ix2 r j) = Spec.logit (Eof a0) r j := by
  rw [cLogit_apply, Stages.cSim_apply]
  rfl

theorem cnt_eq (a1 : Cf S8192x1) (r : Fin 8192) :
    cCnt (cMask (cMaskRaw a1)) (ix1 r) = Spec.cnt (Pof a1) r := by
  rw [cCnt_apply]
  unfold Spec.cnt
  simp only [mask_eq]

theorem valid_iff (a1 : Cf S8192x1) (r : Fin 8192) :
    cValid (cMask (cMaskRaw a1)) (ix1 r) = 1#1 ↔ 0 < Spec.cnt (Pof a1) r := by
  rw [cValid_apply, cnt_eq]
  constructor
  · intro e
    by_contra h
    rw [decide_eq_false h] at e
    exact absurd e (by decide)
  · intro h
    rw [decide_eq_true h]
    rfl

theorem row_eq (a0 : Cf S8192x128) (a1 : Cf S8192x1) (r : Fin 8192) :
    cRow (cMask (cMaskRaw a1)) (cLogProb (cLogit (cSim a0))) (ix1 r) = Spec.RRow (Eof a0) (Pof a1) r := by
  rw [cRow_apply, cnt_eq]
  unfold Spec.RRow Spec.lsum Spec.rmax
  simp only [mask_eq, cLogProb_apply, cRmax_apply, logit_eq]

/-! ## The composition is the specification's loss -/

/-- From the two per-row facts — the valid flag of row `r` is set exactly when the specification's count of row `r`
    is positive, and the per-row value of row `r` is the specification's — the composed named arrays are the
    specification's loss. -/
theorem cResult_eq_of (a0 : Cf S8192x128) (a1 : Cf S8192x1)
    (hv : ∀ r : Fin 8192, cValid (cMask (cMaskRaw a1)) (ix1 r) = 1#1
      ↔ 0 < Spec.cnt (fun r => a1 (ix2 r (0 : Fin 1))) r)
    (hr : ∀ r : Fin 8192, cRow (cMask (cMaskRaw a1)) (cLogProb (cLogit (cSim a0))) (ix1 r)
      = Spec.RRow (fun r k => a0 (ix2 r k)) (fun r => a1 (ix2 r (0 : Fin 1))) r) :
    cResult a0 a1 = fun _ => Spec.RLoss (fun r k => a0 (ix2 r k)) (fun r => a1 (ix2 r (0 : Fin 1))) := by
  unfold cResult
  rw [RTail.cLoss_spec _ _ (fun r : Fin 8192 => 0 < Spec.cnt (fun r => a1 (ix2 r (0 : Fin 1))) r)
    (Spec.RRow (fun r k => a0 (ix2 r k)) (fun r => a1 (ix2 r (0 : Fin 1)))) hv hr]
  rfl

/-- The composed named arrays are the specification's loss of the arguments read by coordinates. -/
theorem cResult_eq (a0 : Cf S8192x128) (a1 : Cf S8192x1) :
    cResult a0 a1 = fun _ => Spec.RLoss (fun r k => a0 (ix2 r k)) (fun r => a1 (ix2 r (0 : Fin 1))) :=
  cResult_eq_of a0 a1 (valid_iff a1) (row_eq a0 a1)

/-! ## The run with the value -/

/-- The two arguments at a launch memory, by coordinates. -/
abbrev E (m : (ℓ : Loc nD τ sig) → Buf (Elt Ideal) ℓ) (c : Dev nD) : Fin 8192 → Fin 128 → EReal :=
  fun r k => m ((c.tc : Thread nD τ).loc main_arg0) (ix2 r k)
abbrev Pv (m : (ℓ : Loc nD τ sig) → Buf (Elt Ideal) ℓ) (c : Dev nD) : Fin 8192 → EReal :=
  fun r => m ((c.tc : Thread nD τ).loc main_arg1) (ix2 r 0)

/-- Given that the composed named arrays are the loss of the specification at the arguments read by coordinates
    (mathematics only: no program in it), every weakly fair execution of the reference program ends with the result
    buffer at that loss and the arguments unchanged. -/
theorem run_value_of
    (hres : ∀ (a0 : Cf S8192x128) (a1 : Cf S8192x1),
      cResult a0 a1 = fun _ => Spec.RLoss (fun r k => a0 (ix2 r k)) (fun r => a1 (ix2 r 0)))
    (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v46) = (fun _ => Spec.RLoss (E m c) (Pv m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (hres _ _), (h c).2⟩) (run_contents m ρ)

/-- On every device, from any memory with zero counters: every weakly fair execution of the reference program
    terminates with the result buffer at the specification's loss of the two arguments read by coordinates, and the
    arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v46) = (fun _ => Spec.RLoss (E m c) (Pv m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run_value_of cResult_eq m ρ

end Cert.ReferenceIdeal.RValue

end
-- ==== Proof.KernelIdealTailSpec.lean ====
/-
  The mean the host makes of the kernel's two result arrays, read at the extended reals. When the two `[8192, 1]`
  arrays hold, row by row, the values `kr r` and `kv r`, the result is
      (0 + Σ_r kr r · kv r) / max (0 + Σ_r kv r) 1   where 0 < 0 + Σ_r kv r,   else 0:
  each host sum over both axes is the initial value plus the sum over every index, an index of `[8192, 1]` being a row
  and the one column.
-/
import proofs.«153547_j25572235281097_1_alg».proof.Proof.KernelIdealHostSide
import proofs.«153547_j25572235281097_1_alg».proof.Proof.Spec
import Idealize.ShloMosaic.Lib.ValueIdx
import Idealize.ShloMosaic.Lib.IdealHost
import Idealize.ShloMosaic.PureOps.Ideal.Laws

noncomputable section

namespace Cert.KernelIdeal.TailSpec

open Cert.KernelIdeal Cert.KernelIdeal.Gen Cert.KernelIdeal.Facts Cert.KernelIdeal.HostSide
open Idealize.ShloMosaic Idealize.ShloMosaic.ValueIdx

/-- A sum over the indices of an `[n, 1]` array is the sum over its rows. -/
theorem sum_col {M : Type*} [AddCommMonoid M] {n : Nat} (f : (⟨2, ![n, 1]⟩ : Shape).Idx → M) :
    ∑ i, f i = ∑ r : Fin n, f (ix2 r 0) := by
  rw [sum_idx2]
  exact Finset.sum_congr rfl fun r _ => by rw [Fin.sum_univ_one]

/-- The host's sum of an `[8192, 1]` array over both axes, from zero, is `0 + Σ_r` of its rows. -/
theorem total (Z : FVec Ideal S8192x1 .f32) (i : S_.Idx) :
    Host.reduceAdd Z (constant (F := Ideal) S_ .f32 0x00000000#32) reducesTo_S8192x1_S_d0_1 h_S_ i = 0 + ∑ r : Fin 8192, Z (ix2 r 0) := by
  rw [hostReduceAdd_apply, constant_apply, Ideal.ofBits_zero_f32,
    Ideal.hostReduceAdd_total reducesTo_S8192x1_S_d0_1 (fun b => b.elim0), sum_col]

/-- A comparison "greater than" of two extended reals answers one exactly when the first is the greater. -/
theorem cmp_ogt_eq_one {x y : EReal} : Ideal.cmp .ogt x y = 1#1 ↔ y < x := by
  unfold Ideal.cmp
  by_cases h : y < x <;> simp [h]

/-- THE MEAN: the host stretches after the region, on two arrays holding `kr` and `kv` row by row. -/
theorem tail_spec (X Y : FVec Ideal S8192x1 .f32) (kr kv : Fin 8192 → EReal)
    (hX : ∀ r, X (ix2 r 0) = kr r) (hY : ∀ r, Y (ix2 r 0) = kv r) :
    tail (F := Ideal) X Y = fun _ =>
      (if 0 < 0 + ∑ r : Fin 8192, kv r
        then Ideal.div (0 + ∑ r : Fin 8192, kr r * kv r) (max (0 + ∑ r : Fin 8192, kv r) Spec.one) else 0) := by
  funext i
  have hv : Host.reduceAdd Y (constant (F := Ideal) S_ .f32 0x00000000#32) reducesTo_S8192x1_S_d0_1 h_S_ i = 0 + ∑ r : Fin 8192, kv r := by
    rw [total]; exact congrArg _ (Finset.sum_congr rfl fun r _ => hY r)
  have hs : Host.reduceAdd (mulf X Y) (constant (F := Ideal) S_ .f32 0x00000000#32) reducesTo_S8192x1_S_d0_1 h_S_ i = 0 + ∑ r : Fin 8192, kr r * kv r := by
    rw [total]; exact congrArg _ (Finset.sum_congr rfl fun r _ => by rw [mulf_apply, hX, hY])
  unfold tail
  rw [select_apply, cmpf_apply, Ideal.cmpf_def, hostDivf_apply, maximumf_apply, hv, hs, constant_apply, constant_apply, Ideal.ofBits_zero_f32]
  by_cases h : (0 : EReal) < 0 + ∑ r : Fin 8192, kv r
  · rw [if_pos h, cmp_ogt_eq_one.mpr h]; rfl
  · rw [if_neg h]
    have : Ideal.cmp .ogt (0 + ∑ r : Fin 8192, kv r) 0 ≠ 1#1 := fun e => h (cmp_ogt_eq_one.mp e)
    have h0 : Ideal.cmp .ogt (0 + ∑ r : Fin 8192, kv r) 0 = 0#1 := by
      rcases (by decide : ∀ b : BitVec 1, b = 0#1 ∨ b = 1#1) (Ideal.cmp .ogt (0 + ∑ r : Fin 8192, kv r) 0) with e | e
      · exact e
      · exact absurd e this
    rw [h0]; rfl

end Cert.KernelIdeal.TailSpec

end
-- ==== Proof.LibMaskedLogSoftmaxMean.lean ====
/-
  The masked mean of negative log-softmax, two ways, over the reals. For each row `i` of a matrix of logits `x i j` with
  weights `μ i j` (a mask), a shift `M i` and a log-normaliser `L i` (in use: the row's maximum and the logarithm of
  `Σ_j exp (x i j - M i)`, so that `(x i j - M i) - L i` is the log-softmax):

    direct form      -(Σ_j μ i j · ((x i j - M i) - L i)) / max (Σ_j μ i j) 1
    running form     ((0 - Σ_j μ i j · y i j) + (Σ_j μ i j) · (M i + L i)) / max (Σ_j μ i j) 1

  where `y` may differ from `x` at one column `d i` per row at which the weight is zero (a diagonal filled with a large
  negative number in the logits and left as it is in `y`). The two agree row by row, for ANY reals `M i`, `L i`; hence so
  do the sums over the rows with a positive weight total, the running form multiplied by the 0/1 flag of that condition,
  the direct form selected by it — the two ways a mean over the valid rows is taken.
-/
import proofs.«153547_j25572235281097_1_alg».proof.Proof.LibOnlineSoftmax

noncomputable section

namespace MaskedLogSoftmaxMean

open OnlineSoftmax

variable {I J : Type*} [Fintype I] [Fintype J]

/-- One row: the direct form is the running form, the weighted sum taken over values that may differ where the
    weight vanishes. -/
theorem row_eq (μ x y : J → ℝ) (d : J) (hd : μ d = 0) (hy : ∀ j, j ≠ d → y j = x j) (M L : ℝ) :
    -(∑ j, μ j * ((x j - M) - L)) / max (∑ j, μ j) 1
      = ((0 - ∑ j, μ j * y j) + (∑ j, μ j) * (M + L)) / max (∑ j, μ j) 1 := by
  rw [masked_mean, masked_sum_congr_off μ x y d hd hy]

/-- All rows: the running form times the flag of a positive weight total, summed, is the direct form selected by that
    condition, summed. -/
theorem sum_rows_eq (μ x y : I → J → ℝ) (d : I → J) (hd : ∀ i, μ i (d i) = 0)
    (hy : ∀ i j, j ≠ d i → y i j = x i j) (M L : I → ℝ) :
    (∑ i, (if 0 < ∑ j, μ i j
        then ((0 - ∑ j, μ i j * y i j) + (∑ j, μ i j) * (M i + L i)) / max (∑ j, μ i j) 1 else 0)
        * (if 0 < ∑ j, μ i j then (1 : ℝ) else 0))
      = ∑ i, (if 0 < ∑ j, μ i j
        then -(∑ j, μ i j * ((x i j - M i) - L i)) / max (∑ j, μ i j) 1 else 0) := by
  refine Finset.sum_congr rfl fun i _ => ?_
  by_cases h : 0 < ∑ j, μ i j
  · rw [if_pos h, if_pos h, if_pos h, mul_one, row_eq (μ i) (x i) (y i) (d i) (hd i) (hy i)]
  · rw [if_neg h, if_neg h, if_neg h, mul_zero]

/-- The number of rows with a positive weight total, as the sum of the 0/1 flags. -/
theorem sum_flags (μ : I → J → ℝ) :
    (∑ i, (if 0 < ∑ j, μ i j then (1 : ℝ) else 0)) = ((Finset.univ.filter fun i => 0 < ∑ j, μ i j).card : ℝ) := by
  rw [Finset.sum_ite, Finset.sum_const_zero, add_zero, Finset.sum_const, nsmul_eq_mul, mul_one]

end MaskedLogSoftmaxMean

end
-- ==== Proof.SpecBridge.lean ====
/-
  The two specifications agree.

  Under the precondition — every entry of the two inputs is a real, every row of the embeddings has a positive sum of
  squares — every quantity of the specification is (the embedding of) a real: the literals are reals, the temperature a
  positive one; the square root of a positive real is a positive real, so the normalised rows and the similarities are
  reals; the distance is the square root of a square root of a square (of a nonnegative real, possibly zero) plus a
  real; the mask is 0 or 1 and vanishes on the diagonal; the row maximum is the maximum of finitely many reals, the sum
  of exponentials a positive real, its logarithm a real. With everything real, the running form of the row value times
  its flag, summed, is the direct form selected by the same condition, summed (the identity over the reals), the sum of
  the flags is the number of rows with a positive count, and the two means agree.
-/
import proofs.«153547_j25572235281097_1_alg».proof.Proof.Spec
import proofs.«153547_j25572235281097_1_alg».proof.Proof.LibOnlineSoftmax
import proofs.«153547_j25572235281097_1_alg».proof.Proof.LibMaskedLogSoftmaxMean

noncomputable section

namespace SpecBridge

open Idealize.ShloMosaic OnlineSoftmax
open scoped BigOperators

/-! ### Small facts on extended reals -/

/-- The extended square root of a nonnegative real (zero included) is the real square root. -/
theorem sqrt_coe_of_nonneg {s : ℝ} (hs : 0 ≤ s) :
    Ideal.sqrt ((s : ℝ) : EReal) = ((Real.sqrt s : ℝ) : EReal) := by
  rw [Ideal.sqrt_coe, if_neg (not_lt.mpr hs)]

/-- The extended quotient of a real by a nonzero real is the real quotient. -/
theorem div_coe_coe (a : ℝ) {t : ℝ} (ht : t ≠ 0) :
    Ideal.div ((a : ℝ) : EReal) ((t : ℝ) : EReal) = ((a / t : ℝ) : EReal) := by
  rw [Ideal.div_coe ht, ← EReal.coe_mul, mul_one_div]

/-- There is a row. -/
instance instNonemptyRows : Nonempty (Fin Spec.N) := ⟨⟨0, by decide⟩⟩

/-! ### The literals -/

/-- The temperature word is a positive real (13421773 · 2⁻²⁷, about 0.1). -/
theorem temp_ex : ∃ t : ℝ, 0 < t ∧ Spec.temp = (t : EReal) := by
  refine ⟨13421773 * (2 ^ 27)⁻¹, by positivity, ?_⟩
  unfold Spec.temp
  simp [Ideal.ofBits, Ideal.ieee]

/-- The small additive word is a real (11258999 · 2⁻⁵⁰). -/
theorem eps_ex : ∃ t : ℝ, Spec.eps = (t : EReal) := by
  unfold Spec.eps
  simp [Ideal.ofBits, Ideal.ieee]
  exact ⟨_, (EReal.coe_mul _ _).symm⟩

/-- The threshold word is a real (one half). -/
theorem half_ex : ∃ t : ℝ, Spec.half = (t : EReal) := by
  unfold Spec.half
  simp [Ideal.ofBits, Ideal.ieee]
  exact ⟨_, (EReal.coe_mul _ _).symm⟩

/-- The diagonal fill word is a real (−15625000 · 2⁶ = −10⁹). -/
theorem negBig_ex : ∃ t : ℝ, Spec.negBig = (t : EReal) := by
  refine ⟨-(15625000 * 2 ^ 6), ?_⟩
  unfold Spec.negBig
  simp [Ideal.ofBits, Ideal.ieee]

/-- The word of one is the extended real 1. -/
theorem one_eq : Spec.one = 1 := by
  unfold Spec.one
  simp [Ideal.ofBits, Ideal.ieee]
  rw [← EReal.coe_mul, ← EReal.coe_one]
  norm_num

/-- The literals as reals. -/
def tempR : ℝ := Classical.choose temp_ex
def epsR : ℝ := Classical.choose eps_ex
def halfR : ℝ := Classical.choose half_ex
def negBigR : ℝ := Classical.choose negBig_ex

theorem tempR_pos : 0 < tempR := (Classical.choose_spec temp_ex).1
theorem temp_coe : Spec.temp = ((tempR : ℝ) : EReal) := (Classical.choose_spec temp_ex).2
theorem eps_coe : Spec.eps = ((epsR : ℝ) : EReal) := Classical.choose_spec eps_ex
theorem half_coe : Spec.half = ((halfR : ℝ) : EReal) := Classical.choose_spec half_ex
theorem negBig_coe : Spec.negBig = ((negBigR : ℝ) : EReal) := Classical.choose_spec negBig_ex

/-! ### The specification over the reals -/

section Shadow

variable (x : Fin Spec.N → Fin Spec.D → ℝ) (y : Fin Spec.N → ℝ)

/-- The quantities of the specification, over the reals, in the same order. -/
def ssR (r : Fin Spec.N) : ℝ := ∑ k : Fin Spec.D, x r k * x r k
def enR (r : Fin Spec.N) (k : Fin Spec.D) : ℝ := x r k / Real.sqrt (ssR x r)
def simR (r j : Fin Spec.N) : ℝ := (∑ k : Fin Spec.D, enR x r k * enR x j k) / tempR
def distR (r j : Fin Spec.N) : ℝ := Real.sqrt (Real.sqrt ((y r - y j) * (y r - y j))) + epsR
def maskR (r j : Fin Spec.N) : ℝ := if r = j then 0 else (if distR y r j < halfR then 1 else 0)
def logitR (r j : Fin Spec.N) : ℝ := if r = j then negBigR else simR x r j
def cntR (r : Fin Spec.N) : ℝ := ∑ j : Fin Spec.N, maskR y r j
def msumR (r : Fin Spec.N) : ℝ := ∑ j : Fin Spec.N, maskR y r j * simR x r j
def rmaxR (r : Fin Spec.N) : ℝ := Finset.univ.sup' Finset.univ_nonempty fun j : Fin Spec.N => logitR x r j
def lsumR (r : Fin Spec.N) : ℝ := ∑ j : Fin Spec.N, Real.exp (logitR x r j - rmaxR x r)
def krowR (r : Fin Spec.N) : ℝ :=
  if 0 < cntR y r
  then ((0 - msumR x y r) + cntR y r * (rmaxR x r + Real.log (lsumR x r))) / max (cntR y r) 1 else 0
def flagR (r : Fin Spec.N) : ℝ := if 0 < cntR y r then 1 else 0
def rrowR (r : Fin Spec.N) : ℝ :=
  -(∑ j : Fin Spec.N, maskR y r j * ((logitR x r j - rmaxR x r) - Real.log (lsumR x r))) / max (cntR y r) 1

/-- The mask vanishes on the diagonal. -/
theorem maskR_diag (r : Fin Spec.N) : maskR y r r = 0 := if_pos rfl

/-- Off the diagonal the logit is the similarity. -/
theorem logitR_off {r j : Fin Spec.N} (h : j ≠ r) : logitR x r j = simR x r j := if_neg (Ne.symm h)

/-- The sum of exponentials is positive: there is a column. -/
theorem lsumR_pos (r : Fin Spec.N) : 0 < lsumR x r :=
  Finset.sum_pos (fun _ _ => Real.exp_pos _) Finset.univ_nonempty

/-- The divisor of a row value is at least one. -/
theorem max_cntR_ne (r : Fin Spec.N) : max (cntR y r) 1 ≠ 0 :=
  (lt_of_lt_of_le one_pos (le_max_right _ _)).ne'

end Shadow

/-! ### Every quantity of the specification is the embedding of its real counterpart -/

section Coe

variable {e : Fin Spec.N → Fin Spec.D → EReal} {p : Fin Spec.N → EReal}
variable {x : Fin Spec.N → Fin Spec.D → ℝ} {y : Fin Spec.N → ℝ}

theorem sumSq_coe (he : ∀ r k, e r k = ((x r k : ℝ) : EReal)) (r : Fin Spec.N) :
    Spec.sumSq e r = ((ssR x r : ℝ) : EReal) := by
  unfold Spec.sumSq ssR
  rw [zero_add, coe_sum]
  exact Finset.sum_congr rfl fun k _ => by rw [he r k, EReal.coe_mul]

theorem en_coe (he : ∀ r k, e r k = ((x r k : ℝ) : EReal)) (hpos : ∀ r, 0 < ssR x r)
    (r : Fin Spec.N) (k : Fin Spec.D) : Spec.en e r k = ((enR x r k : ℝ) : EReal) := by
  unfold Spec.en enR
  rw [sumSq_coe he r, sqrt_coe_of_nonneg (hpos r).le, he r k,
    div_coe_coe _ (Real.sqrt_pos.mpr (hpos r)).ne']

theorem sim_coe (he : ∀ r k, e r k = ((x r k : ℝ) : EReal)) (hpos : ∀ r, 0 < ssR x r)
    (r j : Fin Spec.N) : Spec.sim e r j = ((simR x r j : ℝ) : EReal) := by
  unfold Spec.sim simR
  have h : (0 : EReal) + ∑ k : Fin Spec.D, Spec.en e r k * Spec.en e j k
      = ((∑ k : Fin Spec.D, enR x r k * enR x j k : ℝ) : EReal) := by
    rw [zero_add, coe_sum]
    exact Finset.sum_congr rfl fun k _ => by
      rw [en_coe he hpos r k, en_coe he hpos j k, EReal.coe_mul]
  rw [h, temp_coe, div_coe_coe _ tempR_pos.ne']

theorem dist_coe (hp : ∀ r, p r = ((y r : ℝ) : EReal)) (r j : Fin Spec.N) :
    Spec.dist p r j = ((distR y r j : ℝ) : EReal) := by
  unfold Spec.dist distR
  rw [hp r, hp j, ← EReal.coe_sub, ← EReal.coe_mul, sqrt_coe_of_nonneg (mul_self_nonneg _),
    sqrt_coe_of_nonneg (Real.sqrt_nonneg _), eps_coe, ← EReal.coe_add]

theorem mask_coe (hp : ∀ r, p r = ((y r : ℝ) : EReal)) (r j : Fin Spec.N) :
    Spec.mask p r j = ((maskR y r j : ℝ) : EReal) := by
  unfold Spec.mask maskR
  by_cases hrj : r = j
  · rw [if_pos hrj, if_pos hrj, EReal.coe_zero]
  · rw [if_neg hrj, if_neg hrj, dist_coe hp r j, half_coe]
    by_cases hd : distR y r j < halfR
    · rw [if_pos (EReal.coe_lt_coe_iff.mpr hd), if_pos hd, EReal.coe_one]
    · rw [if_neg (fun h => hd (EReal.coe_lt_coe_iff.mp h)), if_neg hd, EReal.coe_zero]

theorem logit_coe (he : ∀ r k, e r k = ((x r k : ℝ) : EReal)) (hpos : ∀ r, 0 < ssR x r)
    (r j : Fin Spec.N) : Spec.logit e r j = ((logitR x r j : ℝ) : EReal) := by
  unfold Spec.logit logitR
  by_cases hrj : r = j
  · rw [if_pos hrj, if_pos hrj, negBig_coe]
  · rw [if_neg hrj, if_neg hrj, sim_coe he hpos r j]

theorem cnt_coe (hp : ∀ r, p r = ((y r : ℝ) : EReal)) (r : Fin Spec.N) :
    Spec.cnt p r = ((cntR y r : ℝ) : EReal) := by
  unfold Spec.cnt cntR
  rw [zero_add, coe_sum]
  exact Finset.sum_congr rfl fun j _ => mask_coe hp r j

theorem cnt_pos_iff (hp : ∀ r, p r = ((y r : ℝ) : EReal)) (r : Fin Spec.N) :
    (0 : EReal) < Spec.cnt p r ↔ 0 < cntR y r := by
  rw [cnt_coe hp r]
  exact EReal.coe_pos

theorem msum_coe (he : ∀ r k, e r k = ((x r k : ℝ) : EReal)) (hp : ∀ r, p r = ((y r : ℝ) : EReal))
    (hpos : ∀ r, 0 < ssR x r) (r : Fin Spec.N) :
    Spec.msum e p r = ((msumR x y r : ℝ) : EReal) := by
  unfold Spec.msum msumR
  rw [zero_add, coe_sum]
  exact Finset.sum_congr rfl fun j _ => by
    rw [mask_coe hp r j, sim_coe he hpos r j, EReal.coe_mul]

theorem rmax_coe (he : ∀ r k, e r k = ((x r k : ℝ) : EReal)) (hpos : ∀ r, 0 < ssR x r)
    (r : Fin Spec.N) : Spec.rmax e r = ((rmaxR x r : ℝ) : EReal) := by
  unfold Spec.rmax rmaxR
  rw [← coe_sup']
  exact Finset.sup_congr rfl fun j _ => logit_coe he hpos r j

theorem lsum_coe (he : ∀ r k, e r k = ((x r k : ℝ) : EReal)) (hpos : ∀ r, 0 < ssR x r)
    (r : Fin Spec.N) : Spec.lsum e r = ((lsumR x r : ℝ) : EReal) := by
  unfold Spec.lsum lsumR
  rw [zero_add, coe_sum]
  exact Finset.sum_congr rfl fun j _ => by
    rw [logit_coe he hpos r j, rmax_coe he hpos r, ← EReal.coe_sub, exp_coe]

theorem log_lsum_coe (he : ∀ r k, e r k = ((x r k : ℝ) : EReal)) (hpos : ∀ r, 0 < ssR x r)
    (r : Fin Spec.N) : Ideal.log (Spec.lsum e r) = ((Real.log (lsumR x r) : ℝ) : EReal) := by
  rw [lsum_coe he hpos r, log_coe_of_pos (lsumR_pos x r)]

theorem max_cnt_one (hp : ∀ r, p r = ((y r : ℝ) : EReal)) (r : Fin Spec.N) :
    max (Spec.cnt p r) Spec.one = ((max (cntR y r) 1 : ℝ) : EReal) := by
  rw [cnt_coe hp r, one_eq, ← EReal.coe_one, max_coe_coe]

theorem KRow_coe (he : ∀ r k, e r k = ((x r k : ℝ) : EReal)) (hp : ∀ r, p r = ((y r : ℝ) : EReal))
    (hpos : ∀ r, 0 < ssR x r) (r : Fin Spec.N) :
    Spec.KRow e p r = ((krowR x y r : ℝ) : EReal) := by
  unfold Spec.KRow krowR
  by_cases hc : 0 < cntR y r
  · rw [if_pos ((cnt_pos_iff hp r).mpr hc), if_pos hc, max_cnt_one hp r, msum_coe he hp hpos r,
      cnt_coe hp r, rmax_coe he hpos r, log_lsum_coe he hpos r, ← EReal.coe_zero, ← EReal.coe_sub,
      ← EReal.coe_add, ← EReal.coe_mul, ← EReal.coe_add, div_coe_coe _ (max_cntR_ne y r)]
  · rw [if_neg (fun h => hc ((cnt_pos_iff hp r).mp h)), if_neg hc, EReal.coe_zero]

theorem KValid_coe (hp : ∀ r, p r = ((y r : ℝ) : EReal)) (r : Fin Spec.N) :
    Spec.KValid p r = ((flagR y r : ℝ) : EReal) := by
  unfold Spec.KValid flagR
  by_cases hc : 0 < cntR y r
  · rw [if_pos ((cnt_pos_iff hp r).mpr hc), if_pos hc, EReal.coe_one]
  · rw [if_neg (fun h => hc ((cnt_pos_iff hp r).mp h)), if_neg hc, EReal.coe_zero]

theorem RRow_coe (he : ∀ r k, e r k = ((x r k : ℝ) : EReal)) (hp : ∀ r, p r = ((y r : ℝ) : EReal))
    (hpos : ∀ r, 0 < ssR x r) (r : Fin Spec.N) :
    Spec.RRow e p r = ((rrowR x y r : ℝ) : EReal) := by
  unfold Spec.RRow rrowR
  have hs : (0 : EReal) + ∑ j : Fin Spec.N,
        Spec.mask p r j * ((Spec.logit e r j - Spec.rmax e r) - Ideal.log (Spec.lsum e r))
      = ((∑ j : Fin Spec.N, maskR y r j * ((logitR x r j - rmaxR x r) - Real.log (lsumR x r)) : ℝ)
          : EReal) := by
    rw [zero_add, coe_sum]
    exact Finset.sum_congr rfl fun j _ => by
      rw [mask_coe hp r j, logit_coe he hpos r j, rmax_coe he hpos r, log_lsum_coe he hpos r,
        ← EReal.coe_sub, ← EReal.coe_sub, ← EReal.coe_mul]
  rw [hs, max_cnt_one hp r, ← EReal.coe_neg, div_coe_coe _ (max_cntR_ne y r)]

/-! ### The sums over the rows -/

/-- The number of valid rows, counted over the reals. -/
theorem nValid_eq (hp : ∀ r, p r = ((y r : ℝ) : EReal)) :
    Spec.nValid p = (Finset.univ.filter fun r : Fin Spec.N => 0 < ∑ j : Fin Spec.N, maskR y r j).card :=
  congrArg Finset.card (Finset.filter_congr fun r _ => cnt_pos_iff hp r)

/-- The sum of the flags is the number of valid rows. -/
theorem sum_KValid (hp : ∀ r, p r = ((y r : ℝ) : EReal)) :
    (0 : EReal) + ∑ r : Fin Spec.N, Spec.KValid p r = (((Spec.nValid p : ℕ) : ℝ) : EReal) := by
  rw [zero_add, nValid_eq hp, ← MaskedLogSoftmaxMean.sum_flags (fun r j : Fin Spec.N => maskR y r j), coe_sum]
  exact Finset.sum_congr rfl fun r _ => KValid_coe hp r

/-- The sum of the running row values times their flags is the sum of the direct row values over the valid rows. -/
theorem sum_KRow (he : ∀ r k, e r k = ((x r k : ℝ) : EReal)) (hp : ∀ r, p r = ((y r : ℝ) : EReal))
    (hpos : ∀ r, 0 < ssR x r) :
    (0 : EReal) + ∑ r : Fin Spec.N, Spec.KRow e p r * Spec.KValid p r
      = ((∑ r : Fin Spec.N, (if 0 < cntR y r then rrowR x y r else 0) : ℝ) : EReal) := by
  have h1 : (∑ r : Fin Spec.N, Spec.KRow e p r * Spec.KValid p r)
      = ((∑ r : Fin Spec.N, krowR x y r * flagR y r : ℝ) : EReal) := by
    rw [coe_sum]
    exact Finset.sum_congr rfl fun r _ => by
      rw [KRow_coe he hp hpos r, KValid_coe hp r, EReal.coe_mul]
  have h2 : (∑ r : Fin Spec.N, krowR x y r * flagR y r)
      = ∑ r : Fin Spec.N, (if 0 < cntR y r then rrowR x y r else 0) :=
    MaskedLogSoftmaxMean.sum_rows_eq (fun r j : Fin Spec.N => maskR y r j) (fun r j => logitR x r j)
      (fun r j => simR x r j) (fun r => r) (fun r => maskR_diag y r)
      (fun _ _ h => (logitR_off x h).symm) (fun r => rmaxR x r) (fun r => Real.log (lsumR x r))
  rw [zero_add, h1, h2]

/-- The reference's sum over the valid rows, over the reals. -/
theorem sum_RRow (he : ∀ r k, e r k = ((x r k : ℝ) : EReal)) (hp : ∀ r, p r = ((y r : ℝ) : EReal))
    (hpos : ∀ r, 0 < ssR x r) :
    (0 : EReal) + ∑ r : Fin Spec.N, (if 0 < Spec.cnt p r then Spec.RRow e p r else 0)
      = ((∑ r : Fin Spec.N, (if 0 < cntR y r then rrowR x y r else 0) : ℝ) : EReal) := by
  rw [zero_add, coe_sum]
  refine Finset.sum_congr rfl fun r _ => ?_
  by_cases hc : 0 < cntR y r
  · rw [if_pos ((cnt_pos_iff hp r).mpr hc), if_pos hc, RRow_coe he hp hpos r]
  · rw [if_neg (fun h => hc ((cnt_pos_iff hp r).mp h)), if_neg hc, EReal.coe_zero]

/-- The two means agree, for real witnesses of the inputs. -/
theorem bridge_of_coe (he : ∀ r k, e r k = ((x r k : ℝ) : EReal)) (hp : ∀ r, p r = ((y r : ℝ) : EReal))
    (hpos : ∀ r, 0 < ssR x r) : Spec.KLoss e p = Spec.RLoss e p := by
  unfold Spec.KLoss Spec.RLoss
  rw [sum_KValid hp, sum_KRow he hp hpos, sum_RRow he hp hpos, one_eq]
  by_cases hn : 0 < Spec.nValid p
  · rw [if_pos (EReal.coe_pos.mpr (Nat.cast_pos.mpr hn)), if_pos hn, ← EReal.coe_one, max_coe_coe,
      Nat.cast_max, Nat.cast_one]
  · rw [if_neg (fun h => hn (Nat.cast_pos.mp (EReal.coe_pos.mp h))), if_neg hn]

end Coe

end SpecBridge

/-- THE BRIDGE. Where every entry of the two inputs is a real and every row of the embeddings has a positive sum of
    squares, the kernel's mean and the reference's mean are the same extended real. -/
theorem Spec.bridge (e : Fin Spec.N → Fin Spec.D → EReal) (p : Fin Spec.N → EReal)
    (he : ∀ r k, ∃ x : ℝ, e r k = (x : EReal)) (hp : ∀ r, ∃ y : ℝ, p r = (y : EReal))
    (hpos : ∀ r, (0 : EReal) < 0 + ∑ k : Fin Spec.D, e r k * e r k) :
    Spec.KLoss e p = Spec.RLoss e p := by
  choose x hx using he
  choose y hy using hp
  refine SpecBridge.bridge_of_coe hx hy fun r => ?_
  have h : (0 : EReal) < Spec.sumSq e r := hpos r
  rw [SpecBridge.sumSq_coe hx r] at h
  exact EReal.coe_pos.mp h

end
-- ==== Proof.AlgebraicOf.lean ====
/-
  The last conjunct from its three parts. With the arguments read by coordinates — `e r k` the embedding of row `r` at
  feature `k`, `p r` the property of row `r` — the precondition says every entry is real and every row has a positive sum
  of squares. Then: the idealized kernel runs to its result buffer at the host's mean of its two result arrays
  (the frame from the body obligation, with the result named); IF those arrays hold, row by row, the kernel's row value and
  flag of the specification, that mean is the specification's kernel loss; IF the reference runs to the specification's
  reference loss of its own arguments, then, the memories agreeing on the arguments, the two results are equal by the
  specification's bridge.
-/
import proofs.«153547_j25572235281097_1_alg».proof.Defs
import proofs.«153547_j25572235281097_1_alg».proof.Proof.Gen.ReferenceIdeal
import proofs.«153547_j25572235281097_1_alg».proof.Proof.KernelIdealBody
import proofs.«153547_j25572235281097_1_alg».proof.Proof.KernelIdealRegion
import proofs.«153547_j25572235281097_1_alg».proof.Proof.KernelIdealTailSpec
import proofs.«153547_j25572235281097_1_alg».proof.Proof.SpecBridge
import proofs.«153547_j25572235281097_1_alg».proof.Proof.PreDecode
import Idealize.ShloMosaic.Lib.ValueIdx

noncomputable section

namespace Cert.Proof.Alg

open Idealize.ShloMosaic Idealize.ShloMosaic.TcCoe Idealize.ShloMosaic.ValueIdx Idealize.SL.Sem

/-- The kernel's arguments by coordinates. -/
abbrev KE (m : (ℓ : Loc Cert.KernelIdeal.nD Cert.KernelIdeal.τ Cert.KernelIdeal.sig) → Buf (Elt Ideal) ℓ) (c : Dev Cert.KernelIdeal.nD) : Fin 8192 → Fin 128 → EReal :=
  fun r k => m ((c.tc : Thread Cert.KernelIdeal.nD Cert.KernelIdeal.τ).loc Cert.KernelIdeal.main_arg0) (ix2 r k)
abbrev KP (m : (ℓ : Loc Cert.KernelIdeal.nD Cert.KernelIdeal.τ Cert.KernelIdeal.sig) → Buf (Elt Ideal) ℓ) (c : Dev Cert.KernelIdeal.nD) : Fin 8192 → EReal :=
  fun r => m ((c.tc : Thread Cert.KernelIdeal.nD Cert.KernelIdeal.τ).loc Cert.KernelIdeal.main_arg1) (ix2 r 0)
/-- The reference's. -/
abbrev RE (m : (ℓ : Loc Cert.ReferenceIdeal.nD Cert.ReferenceIdeal.τ Cert.ReferenceIdeal.sig) → Buf (Elt Ideal) ℓ) (c : Dev Cert.ReferenceIdeal.nD) : Fin 8192 → Fin 128 → EReal :=
  fun r k => m ((c.tc : Thread Cert.ReferenceIdeal.nD Cert.ReferenceIdeal.τ).loc Cert.ReferenceIdeal.main_arg0) (ix2 r k)
abbrev RP (m : (ℓ : Loc Cert.ReferenceIdeal.nD Cert.ReferenceIdeal.τ Cert.ReferenceIdeal.sig) → Buf (Elt Ideal) ℓ) (c : Dev Cert.ReferenceIdeal.nD) : Fin 8192 → EReal :=
  fun r => m ((c.tc : Thread Cert.ReferenceIdeal.nD Cert.ReferenceIdeal.τ).loc Cert.ReferenceIdeal.main_arg1) (ix2 r 0)

/-- The precondition, per core: every entry real, every row's sum of squares positive. -/
theorem facts_of_pre (m) (hpre : Cert.Pre_KernelIdeal m) (c : Dev Cert.KernelIdeal.nD) :
    (∀ r k, ∃ x : ℝ, KE m c r k = (x : EReal)) ∧ (∀ r, ∃ y : ℝ, KP m c r = (y : EReal))
      ∧ (∀ r, (0 : EReal) < 0 + ∑ k : Fin 128, KE m c r k * KE m c r k) :=
  ⟨fun r k => Cert.PreDecode.e_real _ _ (hpre c) (ix2 r k), fun r => Cert.PreDecode.p_real _ _ (hpre c) (ix2 r 0),
    fun r => Cert.PreDecode.rowSumSq_pos _ _ (hpre c) r⟩

/-- Memories that agree on an argument agree on its coordinates. -/
theorem RE_eq (m) (m') (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    RE m' c = KE m c := by
  funext r k; exact congrFun h (ix2 r k)
theorem RP_eq (m) (m') (c : Dev Cert.KernelIdeal.nD)
    (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    RP m' c = KP m c := by
  funext r; exact congrFun h (ix2 r 0)

/-- The idealized kernel's proof data (the body obligation's). -/
abbrev kdat (m : (ℓ : Loc Cert.KernelIdeal.nD Cert.KernelIdeal.τ Cert.KernelIdeal.sig) → Buf (Elt Ideal) ℓ) (c : Dev Cert.KernelIdeal.nD) :=
  Cert.KernelIdeal.Data.datOf (F := Ideal) m (Cert.KernelIdeal.Body.after m) (Cert.KernelIdeal.Body.Φ m) 0 c

/-- THE LAST CONJUNCT, given the kernel's two result arrays row by row and the reference's run with its result. -/
theorem algebraic_of
    (hrow : ∀ m c, (∀ r k, ∃ x : ℝ, KE m c r k = (x : EReal)) → (∀ r, ∃ y : ℝ, KP m c r = (y : EReal))
      → (∀ r, (0 : EReal) < 0 + ∑ k : Fin 128, KE m c r k * KE m c r k)
      → ∀ r : Fin 8192, (kdat m c).arrAt 4 Cert.KernelIdeal.cfg0.N (ix2 r 0) = Spec.KRow (KE m c) (KP m c) r)
    (hval : ∀ m c, (∀ r k, ∃ x : ℝ, KE m c r k = (x : EReal)) → (∀ r, ∃ y : ℝ, KP m c r = (y : EReal))
      → (∀ r, (0 : EReal) < 0 + ∑ k : Fin 128, KE m c r k * KE m c r k)
      → ∀ r : Fin 8192, (kdat m c).arrAt 5 Cert.KernelIdeal.cfg0.N (ix2 r 0) = Spec.KValid (KP m c) r)
    (hR : ∀ (m' : (ℓ : Loc Cert.ReferenceIdeal.nD Cert.ReferenceIdeal.τ Cert.ReferenceIdeal.sig) → Buf (Elt Ideal) ℓ) (ρ' : Dev Cert.ReferenceIdeal.nD → PrngReg),
      θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
        r.2.mem ((c.tc : Thread Cert.ReferenceIdeal.nD Cert.ReferenceIdeal.τ).loc Cert.ReferenceIdeal.main_v46) = (fun _ => Spec.RLoss (RE m' c) (RP m' c))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))) :
    Cert.algebraic_KernelIdeal_ReferenceIdeal := by
  intro m ρ m' ρ' hpre hagree
  refine ⟨fun c => (fun _ => Spec.KLoss (KE m c) (KP m c)), ?_, ?_⟩
  · refine (θ_run (Cert.KernelIdeal.defs (F := Ideal)) _ _).mono (fun r h c => ⟨?_, (h c).2⟩)
      (Cert.KernelIdeal.Region.frame_of_body (F := Ideal) m ρ (fun c => kdat m c)
        (fun _ _ => rfl) (fun _ => rfl) (fun _ => rfl) (fun _ => rfl) (fun _ => rfl) (fun _ _ => rfl) (fun _ _ => rfl)
        (Cert.KernelIdeal.Body.Phi_zero m) (Cert.KernelIdeal.Body.Phi_out m) (Cert.KernelIdeal.Body.body_obligation m))
    obtain ⟨he, hp, hpos⟩ := facts_of_pre m hpre c
    rw [(h c).1, Cert.KernelIdeal.Region.result_eq,
      Cert.KernelIdeal.TailSpec.tail_spec _ _ (Spec.KRow (KE m c) (KP m c)) (Spec.KValid (KP m c)) (hrow m c he hp hpos) (hval m c he hp hpos)]
    rfl
  · refine (θ_run (Cert.ReferenceIdeal.defs (F := Ideal)) _ _).mono (fun r h c => ⟨?_, (h c).2⟩) (hR m' ρ')
    obtain ⟨he, hp, hpos⟩ := facts_of_pre m hpre c
    rw [(h c).1, RE_eq m m' c (hagree c).1, RP_eq m m' c (hagree c).2]
    show (fun _ => Spec.RLoss (KE m c) (KP m c)) = fun _ => Spec.KLoss (KE m c) (KP m c)
    rw [Spec.bridge _ _ he hp hpos]

end Cert.Proof.Alg

end
-- ==== Proof.lean ====
/-
  The certificate of the online-softmax contrastive loss kernel against its log-softmax reference.

  The kernel walks, for each tile of 512 query rows, the 16 tiles of 512 key columns, keeping per row a running maximum
  m, a running sum l of exp(logit - m) rescaled whenever m grows, the masked sum s of similarities and the count c of
  positives; at the last column tile it writes (-(s) + c·(m + log l)) / max(c, 1) where c > 0, and the host averages
  those rows. The reference forms the whole 8192 × 8192 logits, takes log_softmax row by row and averages the masked
  negative log-probabilities. Over the extended reals the two agree whenever every embedding row has a nonzero norm
  (the precondition's third conjunct: outside it the reference itself divides zero by zero): the running pair ends at
  (max, Σ exp(x - max)) — the reference's own expression —, a masked sum ignores the diagonal where the mask is zero,
  and -(Σ μ·((x - M) - L)) = (0 - Σ μ·x) + (Σ μ)·(M + L).

  Proved here: the reference's frame (its run with the arguments unchanged), `preserves` (the idealization rewrote
  nothing), and both kernel programs' frames: @main as host stretch, kernel region, two host stretches over the
  launch theorem for a list of segments, the embeddings' array — staged by two input windows — split between them at the
  region's entry and joined at its exit, and the body obligation of the pipeline by cases on the column tile (first, inner, last).
  and `algebraic`: the kernel's two result arrays read row by row as the specification's row value and flag (each control
  case's stores as the skeleton's payloads, the payloads read at an index, the induction over the 16 column tiles, the
  cover of the arrays by their blocks), the host's mean of them, the reference's 88 host operations read back in stretches
  against the same specification, and the specification's two losses equal under the precondition's facts.
-/
import proofs.«153547_j25572235281097_1_alg».proof.Defs
import proofs.«153547_j25572235281097_1_alg».proof.Proof.Gen.Kernel
import proofs.«153547_j25572235281097_1_alg».proof.Proof.Gen.KernelIdeal
import proofs.«153547_j25572235281097_1_alg».proof.Proof.Gen.ReferenceIdeal
import proofs.«153547_j25572235281097_1_alg».proof.Proof.Gen.Pre_finite_inputs
import proofs.«153547_j25572235281097_1_alg».proof.Proof.ReferenceFrameRun
import proofs.«153547_j25572235281097_1_alg».proof.Proof.KernelRegion
import proofs.«153547_j25572235281097_1_alg».proof.Proof.KernelIdealRegion
import proofs.«153547_j25572235281097_1_alg».proof.Proof.LibOnlineSoftmax
import proofs.«153547_j25572235281097_1_alg».proof.Proof.PreDecode
import proofs.«153547_j25572235281097_1_alg».proof.Proof.KernelBody
import proofs.«153547_j25572235281097_1_alg».proof.Proof.KernelIdealBody
import proofs.«153547_j25572235281097_1_alg».proof.Proof.KernelIdealValueRows
import proofs.«153547_j25572235281097_1_alg».proof.Proof.ReferenceValue
import proofs.«153547_j25572235281097_1_alg».proof.Proof.AlgebraicOf
import Idealize.ShloMosaic.Adequacy
import Idealize.ShloMosaic.Init

noncomputable section

namespace Cert.Proof

open Idealize.ShloMosaic Idealize.SL.Sem

namespace Claims

/-- The reference runs to the end with both arguments unchanged: its generated run, the result term dropped. -/
theorem frame_ri : Cert.frame_ReferenceIdeal := fun m ρ _ => Cert.ReferenceIdeal.FrameRun.run (F := Ideal) m ρ

/-- The ideal pass rewrote no operation: the idealized kernel is the kernel's own text read at the extended reals. -/
theorem preserves : Cert.preserves_Kernel_KernelIdeal := trivial

/-- The word-level kernel's frame: the frame from the body obligation, at the proof data whose body obligation is proved. -/
theorem frame_p : Cert.frame_Kernel := fun m ρ _ =>
  (θ_run (Cert.Kernel.defs (F := Bits)) _ _).mono (fun _ h c => (h c).2) <|
  Cert.Kernel.Region.frame_of_body (F := Bits) m ρ (fun c => Cert.Kernel.Data.datOf m (Cert.Kernel.Body.after m) (Cert.Kernel.Body.Φ m) 0 c)
    (fun _ _ => rfl) (fun _ => rfl) (fun _ => rfl) (fun _ => rfl) (fun _ => rfl) (fun _ _ => rfl) (fun _ _ => rfl)
    (Cert.Kernel.Body.Phi_zero m) (Cert.Kernel.Body.Phi_out m) (Cert.Kernel.Body.body_obligation m)

/-- The idealized kernel's frame, the same way at the extended reals. -/
theorem frame_pi : Cert.frame_KernelIdeal := fun m ρ _ =>
  (θ_run (Cert.KernelIdeal.defs (F := Ideal)) _ _).mono (fun _ h c => (h c).2) <|
  Cert.KernelIdeal.Region.frame_of_body (F := Ideal) m ρ (fun c => Cert.KernelIdeal.Data.datOf m (Cert.KernelIdeal.Body.after m) (Cert.KernelIdeal.Body.Φ m) 0 c)
    (fun _ _ => rfl) (fun _ => rfl) (fun _ => rfl) (fun _ => rfl) (fun _ => rfl) (fun _ _ => rfl) (fun _ _ => rfl)
    (Cert.KernelIdeal.Body.Phi_zero m) (Cert.KernelIdeal.Body.Phi_out m) (Cert.KernelIdeal.Body.body_obligation m)

/-- The two idealized programs end with equal results: the last conjunct from its three parts. -/
theorem algebraic : Cert.algebraic_KernelIdeal_ReferenceIdeal :=
  Cert.Proof.Alg.algebraic_of (fun m c he hp hpos r => Cert.KernelIdeal.KRows.perRow_eq m c he hp hpos r) (fun m c he hp hpos r => Cert.KernelIdeal.KRows.valid_eq m c he hp hpos r) (fun m' ρ' => Cert.ReferenceIdeal.RValue.run_value m' ρ')

end Claims

theorem claim : Cert.Claim := ⟨Cert.Kernel.Gen.facts, Cert.KernelIdeal.Gen.facts, Cert.ReferenceIdeal.Gen.facts, Cert.Pre_finite_inputs.Gen.facts,
  Claims.frame_p, Claims.frame_pi, Claims.frame_ri, Claims.preserves, Claims.algebraic⟩

end Cert.Proof

end
